-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v125)) (v1 : (c : Dev Cert.KernelIdeal.nD) → Buf (Elt Ideal) ((c.tc : Thread Cert.KernelIdeal.nD Cert.KernelIdeal.τ).loc Cert.KernelIdeal.main_v137)) (v2 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_v137) = v1 c
          ∧ r.2.mem ((c.tc : Thread Cert.KernelIdeal.nD Cert.KernelIdeal.τ).loc Cert.KernelIdeal.main_v140) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v224) = v0 c
          ∧ r.2.mem ((c.tc : Thread Cert.ReferenceIdeal.nD Cert.ReferenceIdeal.τ).loc Cert.ReferenceIdeal.main_v236) = v1 c
          ∧ r.2.mem ((c.tc : Thread Cert.ReferenceIdeal.nD Cert.ReferenceIdeal.τ).loc Cert.ReferenceIdeal.main_v295) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x160000 : Shape := ⟨2, ![2, 160000]⟩
abbrev S10000 : Shape := ⟨1, ![10000]⟩
abbrev S128x1024 : Shape := ⟨2, ![128, 1024]⟩
abbrev S1024 : Shape := ⟨1, ![1024]⟩
abbrev S3x1024x1024 : Shape := ⟨3, ![3, 1024, 1024]⟩
abbrev S3x1024 : Shape := ⟨2, ![3, 1024]⟩
abbrev S4x1024 : Shape := ⟨2, ![4, 1024]⟩
abbrev S6x1024x1024 : Shape := ⟨3, ![6, 1024, 1024]⟩
abbrev S6x1024 : Shape := ⟨2, ![6, 1024]⟩
abbrev S1024x1 : Shape := ⟨2, ![1024, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S1024 : S_.BroadcastsInDim S1024 (![] : Fin 0 → Fin S1024.rank)
  reducesTo_S1024_S_d0 : S1024.ReducesTo [0] S_
  bcast_S_S3x1024x1024 : S_.BroadcastsInDim S3x1024x1024 (![] : Fin 0 → Fin S3x1024x1024.rank)
  reducesTo_S3x1024x1024_S_d0_1_2 : S3x1024x1024.ReducesTo [0, 1, 2] S_
  bcast_S_S3x1024 : S_.BroadcastsInDim S3x1024 (![] : Fin 0 → Fin S3x1024.rank)
  reducesTo_S3x1024_S_d0_1 : S3x1024.ReducesTo [0, 1] S_
  bcast_S_S4x1024 : S_.BroadcastsInDim S4x1024 (![] : Fin 0 → Fin S4x1024.rank)
  reducesTo_S4x1024_S_d0_1 : S4x1024.ReducesTo [0, 1] S_
  bcast_S_S6x1024x1024 : S_.BroadcastsInDim S6x1024x1024 (![] : Fin 0 → Fin S6x1024x1024.rank)
  reducesTo_S6x1024x1024_S_d0_1_2 : S6x1024x1024.ReducesTo [0, 1, 2] S_
  bcast_S_S6x1024 : S_.BroadcastsInDim S6x1024 (![] : Fin 0 → Fin S6x1024.rank)
  reducesTo_S6x1024_S_d0_1 : S6x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S6x1024x1024 .f32) (main_arg10 : FVec F S6x1024 .f32) (main_arg11 : FVec F S1024x1 .f32) (main_arg12 : FVec F S1 .f32) (main_v33 : IVec S_ 1) : IVec S_ 1 :=
  let main_v34 : FVec F S6x1024x1024 .f32 := Host.absf main_arg9
  let main_cst_12 : FVec F S_ .f32 := constant S_ .f32 0x7F800000#32
  let main_v35 : FVec F S6x1024x1024 .f32 := broadcastInDim S6x1024x1024 ![] bcast_S_S6x1024x1024 main_cst_12
  let main_v36 : IVec S6x1024x1024 1 := cmpf .olt main_v34 main_v35
  let main_c_13 : IVec S_ 1 := constantI S_ 1 1#1
  let main_v37 : IVec S_ 1 := (fun x v => Host.reduce IntOp.andi x v reducesTo_S6x1024x1024_S_d0_1_2 h_S_) main_v36 main_c_13
  let main_v38 : IVec S_ 1 := andi main_v33 main_v37
  let main_v39 : FVec F S6x1024 .f32 := Host.absf main_arg10
  let main_cst_14 : FVec F S_ .f32 := constant S_ .f32 0x7F800000#32
  let main_v40 : FVec F S6x1024 .f32 := broadcastInDim S6x1024 ![] bcast_S_S6x1024 main_cst_14
  let main_v41 : IVec S6x1024 1 := cmpf .olt main_v39 main_v40
  let main_c_15 : IVec S_ 1 := constantI S_ 1 1#1
  let main_v42 : IVec S_ 1 := (fun x v => Host.reduce IntOp.andi x v reducesTo_S6x1024_S_d0_1 h_S_) main_v41 main_c_15
  let main_v43 : IVec S_ 1 := andi main_v38 main_v42
  let main_v44 : FVec F S1024x1 .f32 := Host.absf main_arg11
  let main_cst_16 : FVec F S_ .f32 := constant S_ .f32 0x7F800000#32
  let main_v45 : FVec F S1024x1 .f32 := broadcastInDim S1024x1 ![] bcast_S_S1024x1 main_cst_16
  let main_v46 : IVec S1024x1 1 := cmpf .olt main_v44 main_v45
  let main_c_17 : IVec S_ 1 := constantI S_ 1 1#1
  let main_v47 : IVec S_ 1 := (fun x v => Host.reduce IntOp.andi x v reducesTo_S1024x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S3x1024 .f32) (main_arg7 : FVec F S4x1024 .f32) (main_arg8 : FVec F S4x1024 .f32) (main_arg9 : FVec F S6x1024x1024 .f32) (main_arg10 : FVec F S6x1024 .f32) (main_arg11 : FVec F S1024x1 .f32) (main_arg12 : FVec F S1 .f32) (main_v13 : IVec S_ 1) (main_v16 : IVec S3x1024x1024 1) : IVec S_ 1 :=
  let main_c_5 : IVec S_ 1 := constantI S_ 1 1#1
  let main_v17 : IVec S_ 1 := (fun x v => Host.reduce IntOp.andi x v reducesTo_S3x1024x1024_S_d0_1_2 h_S_) main_v16 main_c_5
  let main_v18 : IVec S_ 1 := andi main_v13 main_v17
  let main_v19 : FVec F S3x1024 .f32 := Host.absf main_arg6
  let main_cst_6 : FVec F S_ .f32 := constant S_ .f32 0x7F800000#32
  let main_v20 : FVec F S3x1024 .f32 := broadcastInDim S3x1024 ![] bcast_S_S3x1024 main_cst_6
  let main_v21 : IVec S3x1024 1 := cmpf .olt main_v19 main_v20
  let main_c_7 : IVec S_ 1 := constantI S_ 1 1#1
  let main_v22 : IVec S_ 1 := (fun x v => Host.reduce IntOp.andi x v reducesTo_S3x1024_S_d0_1 h_S_) main_v21 main_c_7
  let main_v23 : IVec S_ 1 := andi main_v18 main_v22
  let main_v24 : FVec F S4x1024 .f32 := Host.absf main_arg7
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S4x1024 .f32 := Host.absf main_arg8
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S10000x128 .f32) (main_arg1 : IVec S2x160000 32) (main_arg2 : IVec S10000 32) (main_arg3 : FVec F S128x1024 .f32) (main_arg4 : FVec F S1024 .f32) (main_arg5 : FVec F S3x1024x1024 .f32) (main_arg6 : FVec F S3x1024 .f32) (main_arg7 : FVec F S4x1024 .f32) (main_arg8 : FVec F S4x1024 .f32) (main_arg9 : FVec F S6x1024x1024 .f32) (main_arg10 : FVec F S6x1024 .f32) (main_arg11 : FVec F S1024x1 .f32) (main_arg12 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x1024 .f32 := Host.absf main_arg3
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S3x1024x1024 .f32 := Host.absf main_arg5
  let main_cst_4 : FVec F S_ .f32 := constant S_ .f32 0x7F800000#32
  let main_v15 : FVec F S3x1024x1024 .f32 := broadcastInDim S3x1024x1024 ![] bcast_S_S3x1024x1024 main_cst_4
  let main_v16 : IVec S3x1024x1024 1 := cmpf .olt main_v14 main_v15
  fn_part1 (F := F) main_arg6 main_arg7 main_arg8 main_arg9 main_arg10 main_arg11 main_arg12 main_v13 main_v16
-- ==== Kernel.lean ====
abbrev S10000x128 : Shape := ⟨2, ![10000, 128]⟩
abbrev S2x160000 : Shape := ⟨2, ![2, 160000]⟩
abbrev S10000 : Shape := ⟨1, ![10000]⟩
abbrev S128x1024 : Shape := ⟨2, ![128, 1024]⟩
abbrev S1024 : Shape := ⟨1, ![1024]⟩
abbrev S3x1024x1024 : Shape := ⟨3, ![3, 1024, 1024]⟩
abbrev S3x1024 : Shape := ⟨2, ![3, 1024]⟩
abbrev S4x1024 : Shape := ⟨2, ![4, 1024]⟩
abbrev S6x1024x1024 : Shape := ⟨3, ![6, 1024, 1024]⟩
abbrev S6x1024 : Shape := ⟨2, ![6, 1024]⟩
abbrev S1024x1 : Shape := ⟨2, ![1024, 1]⟩
abbrev S1 : Shape := ⟨1, ![1]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S10000x1024 : Shape := ⟨2, ![10000, 1024]⟩
abbrev S1000x128 : Shape := ⟨2, ![1000, 128]⟩
abbrev S1000x1024 : Shape := ⟨2, ![1000, 1024]⟩
abbrev S170000x1024 : Shape := ⟨2, ![170000, 1024]⟩
abbrev S1x1024 : Shape := ⟨2, ![1, 1024]⟩
abbrev S1000 : Shape := ⟨1, ![1000]⟩
abbrev S1000x1 : Shape := ⟨2, ![1000, 1]⟩
abbrev S1x1024x1024 : Shape := ⟨3, ![1, 1024, 1024]⟩
abbrev S1024x1024 : Shape := ⟨2, ![1024, 1024]⟩
abbrev S8 : Shape := ⟨1, ![8]⟩
abbrev S10000x1 : Shape := ⟨2, ![10000, 1]⟩
abbrev S8x1024 : Shape := ⟨2, ![8, 1024]⟩
abbrev S8x1 : Shape := ⟨2, ![8, 1]⟩
abbrev S1x1 : Shape := ⟨2, ![1, 1]⟩

abbrev nBuf : Space → Nat
  | .hbm => 177
  | .vmem => 56
  | .smem => 0
  | _ => 0

abbrev hbmTy0_0 (i : Nat) : BufTy := match i % 128 with
  | 0 => ⟨S10000x128, .f32⟩
  | 1 => ⟨S2x160000, .i32⟩
  | 2 => ⟨S10000, .i32⟩
  | 3 => ⟨S128x1024, .f32⟩
  | 4 => ⟨S1024, .f32⟩
  | 5 => ⟨S3x1024x1024, .f32⟩
  | 6 => ⟨S3x1024, .f32⟩
  | 7 => ⟨S4x1024, .f32⟩
  | 8 => ⟨S4x1024, .f32⟩
  | 9 => ⟨S6x1024x1024, .f32⟩
  | 10 => ⟨S6x1024, .f32⟩
  | 11 => ⟨S1024x1, .f32⟩
  | 12 => ⟨S1, .f32⟩
  | 13 => ⟨S10000, .i32⟩
  | 14 => ⟨S1x160000, .i32⟩
  | 15 => ⟨S160000, .i32⟩
  | 16 => ⟨S170000, .i32⟩
  | 17 => ⟨S1x160000, .i32⟩
  | 18 => ⟨S160000, .i32⟩
  | 19 => ⟨S170000, .i32⟩
  | 20 => ⟨S_, .f32⟩
  | 21 => ⟨S170000, .f32⟩
  | 22 => ⟨S_, .f32⟩
  | 23 => ⟨S10000, .f32⟩
  | 24 => ⟨S170000x1, .i32⟩
  | 25 => ⟨S10000, .f32⟩
  | 26 => ⟨S_, .f32⟩
  | 27 => ⟨S10000, .f32⟩
  | 28 => ⟨S10000, .f32⟩
  | 29 => ⟨S10000, .f32⟩
  | 30 => ⟨S_, .i32⟩
  | 31 => ⟨S170000, .i32⟩
  | 32 => ⟨S170000, .i1⟩
  | 33 => ⟨S_, .i32⟩
  | 34 => ⟨S170000, .i32⟩
  | 35 => ⟨S170000, .i32⟩
  | 36 => ⟨S170000, .i32⟩
  | 37 => ⟨S170000x1, .i32⟩
  | 38 => ⟨S170000, .f32⟩
  | 39 => ⟨S_, .i32⟩
  | 40 => ⟨S170000, .i32⟩
  | 41 => ⟨S170000, .i1⟩
  | 42 => ⟨S_, .i32⟩
  | 43 => ⟨S170000, .i32⟩
  | 44 => ⟨S170000, .i32⟩
  | 45 => ⟨S170000, .i32⟩
  | 46 => ⟨S170000x1, .i32⟩
  | 47 => ⟨S170000, .f32⟩
  | 48 => ⟨S170000, .f32⟩
  | 49 => ⟨S170000x1, .f32⟩
  | 50 => ⟨S10000x1024, .f32⟩
  | 51 => ⟨S_, .i32⟩
  | 52 => ⟨S170000, .i32⟩
  | 53 => ⟨S170000, .i1⟩
  | 54 => ⟨S_, .i32⟩
  | 55 => ⟨S170000, .i32⟩
  | 56 => ⟨S170000, .i32⟩
  | 57 => ⟨S170000, .i32⟩
  | 58 => ⟨S170000x1, .i32⟩
  | 59 => ⟨S170000x1024, .f32⟩
  | 60 => ⟨S170000x1024, .f32⟩
  | 61 => ⟨S170000x1024, .f32⟩
  | 62 => ⟨S_, .f32⟩
  | 63 => ⟨S10000x1024, .f32⟩
  | 64 => ⟨S170000x1, .i32⟩
  | 65 => ⟨S10000x1024, .f32⟩
  | 66 => ⟨S1x1024, .f32⟩
  | 67 => ⟨S10000x1024, .f32⟩
  | 68 => ⟨S10000x1024, .f32⟩
  | 69 => ⟨S1x1024, .f32⟩
  | 70 => ⟨S1024, .f32⟩
  | 71 => ⟨S1x1024, .f32⟩
  | 72 => ⟨S1024, .f32⟩
  | 73 => ⟨S10000x1024, .f32⟩
  | 74 => ⟨S1x1024x1024, .f32⟩
  | 75 => ⟨S1024x1024, .f32⟩
  | 76 => ⟨S1x1024, .f32⟩
  | 77 => ⟨S1024, .f32⟩
  | 78 => ⟨S10000x1024, .f32⟩
  | 79 => ⟨S_, .i32⟩
  | 80 => ⟨S170000, .i32⟩
  | 81 => ⟨S170000, .i1⟩
  | 82 => ⟨S_, .i32⟩
  | 83 => ⟨S170000, .i32⟩
  | 84 => ⟨S170000, .i32⟩
  | 85 => ⟨S170000, .i32⟩
  | 86 => ⟨S170000x1, .i32⟩
  | 87 => ⟨S170000x1024, .f32⟩
  | 88 => ⟨S170000x1024, .f32⟩
  | 89 => ⟨S170000x1024, .f32⟩
  | 90 => ⟨S_, .f32⟩
  | 91 => ⟨S10000x1024, .f32⟩
  | 92 => ⟨S170000x1, .i32⟩
  | 93 => ⟨S10000x1024, .f32⟩
  | 94 => ⟨S1x1024, .f32⟩
  | 95 => ⟨S10000x1024, .f32⟩
  | 96 => ⟨S10000x1024, .f32⟩
  | 97 => ⟨S1x1024, .f32⟩
  | 98 => ⟨S1024, .f32⟩
  | 99 => ⟨S1x1024, .f32⟩
  | 100 => ⟨S1024, .f32⟩
  | 101 => ⟨S10000x1024, .f32⟩
  | 102 => ⟨S1x1024x1024, .f32⟩
  | 103 => ⟨S1024x1024, .f32⟩
  | 104 => ⟨S1x1024, .f32⟩
  | 105 => ⟨S1024, .f32⟩
  | 106 => ⟨S10000x1024, .f32⟩
  | 107 => ⟨S_, .i32⟩
  | 108 => ⟨S170000, .i32⟩
  | 109 => ⟨S170000, .i1⟩
  | 110 => ⟨S_, .i32⟩
  | 111 => ⟨S170000, .i32⟩
  | 112 => ⟨S170000, .i32⟩
  | 113 => ⟨S170000, .i32⟩
  | 114 => ⟨S170000x1, .i32⟩
  | 115 => ⟨S170000x1024, .f32⟩
  | 116 => ⟨S170000x1024, .f32⟩
  | 117 => ⟨S170000x1024, .f32⟩
  | 118 => ⟨S_, .f32⟩
  | 119 => ⟨S10000x1024, .f32⟩
  | 120 => ⟨S170000x1, .i32⟩
  | 121 => ⟨S10000x1024, .f32⟩
  | 122 => ⟨S1x1024, .f32⟩
  | 123 => ⟨S10000x1024, .f32⟩
  | 124 => ⟨S10000x1024, .f32⟩
  | 125 => ⟨S1x1024, .f32⟩
  | 126 => ⟨S1024, .f32⟩
  | 127 => ⟨S1x1024, .f32⟩
  | _ => ⟨S10000x128, .f32⟩

abbrev hbmTy0_1 (i : Nat) : BufTy := match i % 128 with
  | 0 => ⟨S1024, .f32⟩
  | 1 => ⟨S10000x1024, .f32⟩
  | 2 => ⟨S1x1024x1024, .f32⟩
  | 3 => ⟨S1024x1024, .f32⟩
  | 4 => ⟨S1x1024, .f32⟩
  | 5 => ⟨S1024, .f32⟩
  | 6 => ⟨S10000x1024, .f32⟩
  | 7 => ⟨S_, .i32⟩
  | 8 => ⟨S170000, .i32⟩
  | 9 => ⟨S170000, .i1⟩
  | 10 => ⟨S_, .i32⟩
  | 11 => ⟨S170000, .i32⟩
  | 12 => ⟨S170000, .i32⟩
  | 13 => ⟨S170000, .i32⟩
  | 14 => ⟨S170000x1, .i32⟩
  | 15 => ⟨S170000x1024, .f32⟩
  | 16 => ⟨S170000x1024, .f32⟩
  | 17 => ⟨S170000x1024, .f32⟩
  | 18 => ⟨S_, .f32⟩
  | 19 => ⟨S10000x1024, .f32⟩
  | 20 => ⟨S170000x1, .i32⟩
  | 21 => ⟨S10000x1024, .f32⟩
  | 22 => ⟨S1x1024, .f32⟩
  | 23 => ⟨S10000x1024, .f32⟩
  | 24 => ⟨S10000x1024, .f32⟩
  | 25 => ⟨S1x1024, .f32⟩
  | 26 => ⟨S1024, .f32⟩
  | 27 => ⟨S1x1024, .f32⟩
  | 28 => ⟨S1024, .f32⟩
  | 29 => ⟨S10000x1024, .f32⟩
  | 30 => ⟨S_, .f32⟩
  | 31 => ⟨S10000, .f32⟩
  | 32 => ⟨S_, .f32⟩
  | 33 => ⟨S8, .f32⟩
  | 34 => ⟨S10000x1, .i32⟩
  | 35 => ⟨S8, .f32⟩
  | 36 => ⟨S_, .f32⟩
  | 37 => ⟨S8x1024, .f32⟩
  | 38 => ⟨S10000x1, .i32⟩
  | 39 => ⟨S8x1024, .f32⟩
  | 40 => ⟨S_, .f32⟩
  | 41 => ⟨S8, .f32⟩
  | 42 => ⟨S8, .f32⟩
  | 43 => ⟨S8x1, .f32⟩
  | 44 => ⟨S8x1024, .f32⟩
  | 45 => ⟨S8x1024, .f32⟩
  | 46 => ⟨S6x1024x1024, .bf16⟩
  | 47 => ⟨S1024x1, .bf16⟩
  | 48 => ⟨S8, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x1024, .f32⟩
  | .local _ .vmem, ⟨3, _⟩ => ⟨S1000x1024, .f32⟩
  | .local _ .vmem, ⟨4, _⟩ => ⟨S1000x1024, .f32⟩
  | .local _ .vmem, ⟨5, _⟩ => ⟨S1000x1024, .f32⟩
  | .local _ .vmem, ⟨6, _⟩ => ⟨S1000x1024, .f32⟩
  | .local _ .vmem, ⟨7, _⟩ => ⟨S1024, .f32⟩
  | .local _ .vmem, ⟨8, _⟩ => ⟨S1024, .f32⟩
  | .local _ .vmem, ⟨9, _⟩ => ⟨S1000x1024, .f32⟩
  | .local _ .vmem, ⟨10, _⟩ => ⟨S1000x1024, .f32⟩
  | .local _ .vmem, ⟨11, _⟩ => ⟨S1000x1024, .f32⟩
  | .local _ .vmem, ⟨12, _⟩ => ⟨S1000x1024, .f32⟩
  | .local _ .vmem, ⟨13, _⟩ => ⟨S1024x1024, .f32⟩
  | .local _ .vmem, ⟨14, _⟩ => ⟨S1000x1024, .f32⟩
  | .local _ .vmem, ⟨15, _⟩ => ⟨S1000x1024, .f32⟩
  | .local _ .vmem, ⟨16, _⟩ => ⟨S1000x1024, .f32⟩
  | .local _ .vmem, ⟨17, _⟩ => ⟨S1000x1024, .f32⟩
  | .local _ .vmem, ⟨18, _⟩ => ⟨S1000x1024, .f32⟩
  | .local _ .vmem, ⟨19, _⟩ => ⟨S1000x1024, .f32⟩
  | .local _ .vmem, ⟨20, _⟩ => ⟨S1024, .f32⟩
  | .local _ .vmem, ⟨21, _⟩ => ⟨S1024, .f32⟩
  | .local _ .vmem, ⟨22, _⟩ => ⟨S1000x1024, .f32⟩
  | .local _ .vmem, ⟨23, _⟩ => ⟨S1000x1024, .f32⟩
  | .local _ .vmem, ⟨24, _⟩ => ⟨S1000x1024, .f32⟩
  | .local _ .vmem, ⟨25, _⟩ => ⟨S1000x1024, .f32⟩
  | .local _ .vmem, ⟨26, _⟩ => ⟨S1024x1024, .f32⟩
  | .local _ .vmem, ⟨27, _⟩ => ⟨S1000x1024, .f32⟩
  | .local _ .vmem, ⟨28, _⟩ => ⟨S1000x1024, .f32⟩
  | .local _ .vmem, ⟨29, _⟩ => ⟨S1000x1024, .f32⟩
  | .local _ .vmem, ⟨30, _⟩ => ⟨S1000x1024, .f32⟩
  | .local _ .vmem, ⟨31, _⟩ => ⟨S1000x1024, .f32⟩
  | .local _ .vmem, ⟨32, _⟩ => ⟨S1000x1024, .f32⟩
  | .local _ .vmem, ⟨33, _⟩ => ⟨S1024, .f32⟩
  | .local _ .vmem, ⟨34, _⟩ => ⟨S1024, .f32⟩
  | .local _ .vmem, ⟨35, _⟩ => ⟨S1000x1024, .f32⟩
  | .local _ .vmem, ⟨36, _⟩ => ⟨S1000x1024, .f32⟩
  | .local _ .vmem, ⟨37, _⟩ => ⟨S1000x1024, .f32⟩
  | .local _ .vmem, ⟨38, _⟩ => ⟨S1000x1024, .f32⟩
  | .local _ .vmem, ⟨39, _⟩ => ⟨S1024x1024, .f32⟩
  | .local _ .vmem, ⟨40, _⟩ => ⟨S1000x1024, .f32⟩
  | .local _ .vmem, ⟨41, _⟩ => ⟨S1000x1024, .f32⟩
  | .local _ .vmem, ⟨42, _⟩ => ⟨S1000x1024, .f32⟩
  | .local _ .vmem, ⟨43, _⟩ => ⟨S1000x1024, .f32⟩
  | .local _ .vmem, ⟨44, _⟩ => ⟨S1000x1024, .f32⟩
  | .local _ .vmem, ⟨45, _⟩ => ⟨S1000x1024, .f32⟩
  | .local _ .vmem, ⟨46, _⟩ => ⟨S1024, .f32⟩
  | .local _ .vmem, ⟨47, _⟩ => ⟨S1024, .f32⟩
  | .local _ .vmem, ⟨48, _⟩ => ⟨S1000x1024, .f32⟩
  | .local _ .vmem, ⟨49, _⟩ => ⟨S1000x1024, .f32⟩
  | .local _ .vmem, ⟨50, _⟩ => ⟨S8x1024, .f32⟩
  | .local _ .vmem, ⟨51, _⟩ => ⟨S6x1024x1024, .bf16⟩
  | .local _ .vmem, ⟨52, _⟩ => ⟨S6x1024, .f32⟩
  | .local _ .vmem, ⟨53, _⟩ => ⟨S1024x1, .bf16⟩
  | .local _ .vmem, ⟨54, _⟩ => ⟨S1, .f32⟩
  | .local _ .vmem, ⟨55, _⟩ => ⟨S8, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_8 : Ref sig .tc := ⟨.hbm, 79, rfl⟩
abbrev main_v56 : Ref sig .tc := ⟨.hbm, 80, rfl⟩
abbrev main_v57 : Ref sig .tc := ⟨.hbm, 81, rfl⟩
abbrev main_c_9 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_10 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_11 : Ref sig .tc := ⟨.hbm, 107, rfl⟩
abbrev main_v81 : Ref sig .tc := ⟨.hbm, 108, rfl⟩
abbrev main_v82 : Ref sig .tc := ⟨.hbm, 109, rfl⟩
abbrev main_c_12 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_13 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_c_14 : Ref sig .tc := ⟨.hbm, 135, rfl⟩
abbrev main_v106 : Ref sig .tc := ⟨.hbm, 136, rfl⟩
abbrev main_v107 : Ref sig .tc := ⟨.hbm, 137, rfl⟩
abbrev main_c_15 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_cst_16 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_cst_17 : Ref sig .tc := ⟨.hbm, 158, rfl⟩
abbrev main_v126 : Ref sig .tc := ⟨.hbm, 159, rfl⟩
abbrev main_cst_18 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_cst_19 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_cst_20 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg4_0 : Ref sig .tc := ⟨.vmem, 35, rfl⟩
abbrev cc5_stg4_1 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg3_0 : Ref sig .tc := ⟨.vmem, 47, rfl⟩
abbrev cc7_stg4_0 : Ref sig .tc := ⟨.vmem, 48, rfl⟩
abbrev cc7_stg4_1 : Ref sig .tc := ⟨.vmem, 49, rfl⟩
abbrev cc8_stg0_0 : Ref sig .tc := ⟨.vmem, 50, rfl⟩
abbrev cc8_stg1_0 : Ref sig .tc := ⟨.vmem, 51, rfl⟩
abbrev cc8_stg2_0 : Ref sig .tc := ⟨.vmem, 52, rfl⟩
abbrev cc8_stg3_0 : Ref sig .tc := ⟨.vmem, 53, rfl⟩
abbrev cc8_stg4_0 : Ref sig .tc := ⟨.vmem, 54, rfl⟩
abbrev cc8_stg5_0 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem4_0 : DmaSem sig := 35
abbrev cc5_sem4_1 : DmaSem sig := 36
abbrev cc6_sem0_0 : DmaSem sig := 37
abbrev cc6_sem0_1 : DmaSem sig := 38
abbrev cc6_sem1_0 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem3_0 : DmaSem sig := 47
abbrev cc7_sem4_0 : DmaSem sig := 48
abbrev cc7_sem4_1 : DmaSem sig := 49
abbrev cc8_sem0_0 : DmaSem sig := 50
abbrev cc8_sem1_0 : DmaSem sig := 51
abbrev cc8_sem2_0 : DmaSem sig := 52
abbrev cc8_sem3_0 : DmaSem sig := 53
abbrev cc8_sem4_0 : DmaSem sig := 54
abbrev cc8_sem5_0 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1000x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1000x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1024x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1000x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1000x1024 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1024 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S1000x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 1 → Nat :=
  let arg0 : BitVec 32 := BitVec.ofNat 32 (i 0).val
  let c0_i32 : BitVec 32 := 0#32
  let c0_i32_0 : BitVec 32 := 0#32
  ![c0_i32.toNat]

abbrev stage8_0 : Fin 1 → Memref sig .tc .vmem S8x1024 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S6x1024x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S6x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1024x1 .bf16 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S8 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S1000x1024_S1000x1024_0_0 : ∀ a, (![0, 0] : Fin 2 → Nat) a + S1000x1024.size a ≤ S1000x1024.size a
  h_S1000x1024 : 0 < S1000x1024.numel
  bcast_S170000x1_S170000x1024_0_1 : S170000x1.BroadcastsInDim S170000x1024 (![0, 1] : Fin 2 → Fin S170000x1024.rank)
  bcast_S_S10000x1024 : S_.BroadcastsInDim S10000x1024 (![] : Fin 0 → Fin S10000x1024.rank)
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  slices_S4x1024_S1x1024_0_0 : S4x1024.Slices ![0, 0] S1x1024
  shapeCasts_S1x1024_S1024 : S1x1024.ShapeCasts S1024
  shapeCasts_S1000x1024_S1000x1024 : S1000x1024.ShapeCasts S1000x1024
  reduces_S1000x1024_S1000 : S1000x1024.Reduces [1] S1000
  shapeCasts_S1000_S1000x1 : S1000.ShapeCasts S1000x1
  broadcasts_S1000x1_S1000x1024 : S1000x1.Broadcasts S1000x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S1000x1024 : S1x1024.Broadcasts S1000x1024
  slices_S3x1024x1024_S1x1024x1024_0_0_0 : S3x1024x1024.Slices ![0, 0, 0] S1x1024x1024
  shapeCasts_S1x1024x1024_S1024x1024 : S1x1024x1024.ShapeCasts S1024x1024
  slices_S3x1024_S1x1024_0_0 : S3x1024.Slices ![0, 0] S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S4x1024_S1x1024_1_0 : S4x1024.Slices ![1, 0] S1x1024
  slices_S3x1024x1024_S1x1024x1024_1_0_0 : S3x1024x1024.Slices ![1, 0, 0] S1x1024x1024
  slices_S3x1024_S1x1024_1_0 : S3x1024.Slices ![1, 0] S1x1024
  slices_S4x1024_S1x1024_2_0 : S4x1024.Slices ![2, 0] S1x1024
  slices_S3x1024x1024_S1x1024x1024_2_0_0 : S3x1024x1024.Slices ![2, 0, 0] S1x1024x1024
  slices_S3x1024_S1x1024_2_0 : S3x1024.Slices ![2, 0] S1x1024
  slices_S4x1024_S1x1024_3_0 : S4x1024.Slices ![3, 0] S1x1024
  bcast_S_S8 : S_.BroadcastsInDim S8 (![] : Fin 0 → Fin S8.rank)
  bcast_S10000_S10000x1_0 : S10000.BroadcastsInDim S10000x1 (![0] : Fin 1 → Fin S10000x1.rank)
  bcast_S_S8x1024 : S_.BroadcastsInDim S8x1024 (![] : Fin 0 → Fin S8x1024.rank)
  bcast_S8_S8x1_0 : S8.BroadcastsInDim S8x1 (![0] : Fin 1 → Fin S8x1.rank)
  bcast_S8x1_S8x1024_0_1 : S8x1.BroadcastsInDim S8x1024 (![0, 1] : Fin 2 → Fin S8x1024.rank)
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S6x1024x1024_S1x1024x1024_0_0_0 : ∀ a, (![0, 0, 0] : Fin 3 → Nat) a + S1x1024x1024.size a ≤ S6x1024x1024.size a
  h_S1x1024x1024 : 0 < S1x1024x1024.numel
  inb_S6x1024_S1x1024_0_0 : ∀ a, (![0, 0] : Fin 2 → Nat) a + S1x1024.size a ≤ S6x1024.size a
  h_S1x1024 : 0 < S1x1024.numel
  broadcasts_S1x1024_S8x1024 : S1x1024.Broadcasts S8x1024
  inb_S6x1024x1024_S1x1024x1024_1_0_0 : ∀ a, (![1, 0, 0] : Fin 3 → Nat) a + S1x1024x1024.size a ≤ S6x1024x1024.size a
  inb_S6x1024_S1x1024_1_0 : ∀ a, (![1, 0] : Fin 2 → Nat) a + S1x1024.size a ≤ S6x1024.size a
  inb_S6x1024x1024_S1x1024x1024_2_0_0 : ∀ a, (![2, 0, 0] : Fin 3 → Nat) a + S1x1024x1024.size a ≤ S6x1024x1024.size a
  inb_S6x1024_S1x1024_2_0 : ∀ a, (![2, 0] : Fin 2 → Nat) a + S1x1024.size a ≤ S6x1024.size a
  inb_S6x1024x1024_S1x1024x1024_3_0_0 : ∀ a, (![3, 0, 0] : Fin 3 → Nat) a + S1x1024x1024.size a ≤ S6x1024x1024.size a
  inb_S6x1024_S1x1024_3_0 : ∀ a, (![3, 0] : Fin 2 → Nat) a + S1x1024.size a ≤ S6x1024.size a
  inb_S6x1024x1024_S1x1024x1024_4_0_0 : ∀ a, (![4, 0, 0] : Fin 3 → Nat) a + S1x1024x1024.size a ≤ S6x1024x1024.size a
  inb_S6x1024_S1x1024_4_0 : ∀ a, (![4, 0] : Fin 2 → Nat) a + S1x1024.size a ≤ S6x1024.size a
  inb_S6x1024x1024_S1x1024x1024_5_0_0 : ∀ a, (![5, 0, 0] : Fin 3 → Nat) a + S1x1024x1024.size a ≤ S6x1024x1024.size a
  inb_S6x1024_S1x1024_5_0 : ∀ a, (![5, 0] : Fin 2 → Nat) a + S1x1024.size a ≤ S6x1024.size a
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1_S1_0 : ∀ a, (![0] : Fin 1 → Nat) a + S1.size a ≤ S1.size a
  h_S1 : 0 < S1.numel
  shapeCasts_S1_S1x1 : S1.ShapeCasts S1x1
  broadcasts_S1x1_S8x1 : S1x1.Broadcasts S8x1
  shapeCasts_S8x1_S8 : S8x1.ShapeCasts S8
  inb_S8_S8_0 : ∀ a, (![0] : Fin 1 → Nat) a + S8.size a ≤ S8.size a
  h_S8 : 0 < S8.numel
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S1000x128_S128x1024_S1000x1024_1_0_0_1_n_n_wf : DotDims.WF S1000x128 S128x1024 S1000x1024 [1] [0] [0] [1] [] []
  gather_S10000x1024_S170000x1_S170000x1024_1_0_n_n_0_1_11024_wf : GatherDims.WF S10000x1024 S170000x1 S170000x1024 [1] [0] [] [0] [] 1 ![1, 1024]
  scatter_S10000x1024_S170000x1_S170000x1024_1_0_0_1_wf : ScatterDims.WF S10000x1024 S170000x1 S170000x1024 [1] [0] [0] 1
  dot_S1000x1024_S1024x1024_S1000x1024_1_0_0_1_n_n_wf : DotDims.WF S1000x1024 S1024x1024 S1000x1024 [1] [0] [0] [1] [] []
  scatter_S8_S10000x1_S10000_n_0_0_1_wf : ScatterDims.WF S8 S10000x1 S10000 [] [0] [0] 1
  scatter_S8x1024_S10000x1_S10000x1024_1_0_0_1_wf : ScatterDims.WF S8x1024 S10000x1 S10000x1024 [1] [0] [0] 1
  dot_S8x1024_S1024x1024_S8x1024_1_0_0_1_n_n_wf : DotDims.WF S8x1024 S1024x1024 S8x1024 [1] [0] [0] [1] [] []
  dot_S8x1024_S1024x1_S8x1_1_0_0_1_n_n_wf : DotDims.WF S8x1024 S1024x1 S8x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1024.size a ≤ S10000x1024.size a
  hwx0_2 : ∀ i : grid0.Coords, EltTy.bits .f32 = 32 ∨ (Rect.block (s := S10000x1024) S1000x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x1024.size a ≤ S10000x1024.size a
  hwx1_0 : ∀ i : grid1.Coords, EltTy.bits .f32 = 32 ∨ (Rect.block (s := S10000x1024) S1000x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024.size a ≤ S1024.size a
  hwx1_1 : ∀ i : grid1.Coords, EltTy.bits .f32 = 32 ∨ (Rect.block (s := S1024) S1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x1024.size a ≤ S10000x1024.size a
  hwx1_3 : ∀ i : grid1.Coords, EltTy.bits .f32 = 32 ∨ (Rect.block (s := S10000x1024) S1000x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x1024.size a ≤ S10000x1024.size a
  hwx2_0 : ∀ i : grid2.Coords, EltTy.bits .f32 = 32 ∨ (Rect.block (s := S10000x1024) S1000x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1024.size a ≤ S10000x1024.size a
  hwx2_2 : ∀ i : grid2.Coords, EltTy.bits .f32 = 32 ∨ (Rect.block (s := S10000x1024) S1000x1024.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x1024.size a ≤ S10000x1024.size a
  hwx3_0 : ∀ i : grid3.Coords, EltTy.bits .f32 = 32 ∨ (Rect.block (s := S10000x1024) S1000x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1024.size a ≤ S10000x1024.size a
  hwx3_1 : ∀ i : grid3.Coords, EltTy.bits .f32 = 32 ∨ (Rect.block (s := S10000x1024) S1000x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024.size a ≤ S1024.size a
  hwx3_2 : ∀ i : grid3.Coords, EltTy.bits .f32 = 32 ∨ (Rect.block (s := S1024) S1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024.size a ≤ S1024.size a
  hwx3_3 : ∀ i : grid3.Coords, EltTy.bits .f32 = 32 ∨ (Rect.block (s := S1024) S1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x1024.size a ≤ S10000x1024.size a
  hwx3_4 : ∀ i : grid3.Coords, EltTy.bits .f32 = 32 ∨ (Rect.block (s := S10000x1024) S1000x1024.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x1024.size a ≤ S10000x1024.size a
  hwx4_0 : ∀ i : grid4.Coords, EltTy.bits .f32 = 32 ∨ (Rect.block (s := S10000x1024) S1000x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x1024.size a ≤ S10000x1024.size a
  hwx4_2 : ∀ i : grid4.Coords, EltTy.bits .f32 = 32 ∨ (Rect.block (s := S10000x1024) S1000x1024.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x1024.size a ≤ S10000x1024.size a
  hwx5_0 : ∀ i : grid5.Coords, EltTy.bits .f32 = 32 ∨ (Rect.block (s := S10000x1024) S1000x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x1024.size a ≤ S10000x1024.size a
  hwx5_1 : ∀ i : grid5.Coords, EltTy.bits .f32 = 32 ∨ (Rect.block (s := S10000x1024) S1000x1024.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1024.size a ≤ S1024.size a
  hwx5_2 : ∀ i : grid5.Coords, EltTy.bits .f32 = 32 ∨ (Rect.block (s := S1024) S1024.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1024.size a ≤ S1024.size a
  hwx5_3 : ∀ i : grid5.Coords, EltTy.bits .f32 = 32 ∨ (Rect.block (s := S1024) S1024.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1000x1024.size a ≤ S10000x1024.size a
  hwx5_4 : ∀ i : grid5.Coords, EltTy.bits .f32 = 32 ∨ (Rect.block (s := S10000x1024) S1000x1024.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x1024.size a ≤ S10000x1024.size a
  hwx6_0 : ∀ i : grid6.Coords, EltTy.bits .f32 = 32 ∨ (Rect.block (s := S10000x1024) S1000x1024.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1024x1024.size a ≤ S1024x1024.size a
  hwx6_1 : ∀ i : grid6.Coords, EltTy.bits .f32 = 32 ∨ (Rect.block (s := S1024x1024) S1024x1024.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x1024.size a ≤ S10000x1024.size a
  hwx6_2 : ∀ i : grid6.Coords, EltTy.bits .f32 = 32 ∨ (Rect.block (s := S10000x1024) S1000x1024.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x1024.size a ≤ S10000x1024.size a
  hwx7_0 : ∀ i : grid7.Coords, EltTy.bits .f32 = 32 ∨ (Rect.block (s := S10000x1024) S1000x1024.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1000x1024.size a ≤ S10000x1024.size a
  hwx7_1 : ∀ i : grid7.Coords, EltTy.bits .f32 = 32 ∨ (Rect.block (s := S10000x1024) S1000x1024.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1024.size a ≤ S1024.size a
  hwx7_2 : ∀ i : grid7.Coords, EltTy.bits .f32 = 32 ∨ (Rect.block (s := S1024) S1024.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1024.size a ≤ S1024.size a
  hwx7_3 : ∀ i : grid7.Coords, EltTy.bits .f32 = 32 ∨ (Rect.block (s := S1024) S1024.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1000x1024.size a ≤ S10000x1024.size a
  hwx7_4 : ∀ i : grid7.Coords, EltTy.bits .f32 = 32 ∨ (Rect.block (s := S10000x1024) S1000x1024.size (cc7_transform_4 i) (hinb7_4 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S8x1024.size a ≤ S8x1024.size a
  hwx8_0 : ∀ i : grid8.Coords, EltTy.bits .f32 = 32 ∨ (Rect.block (s := S8x1024) S8x1024.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S6x1024x1024.size a ≤ S6x1024x1024.size a
  hwx8_1 : ∀ i : grid8.Coords, EltTy.bits .bf16 = 32 ∨ (Rect.block (s := S6x1024x1024) S6x1024x1024.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S6x1024.size a ≤ S6x1024.size a
  hwx8_2 : ∀ i : grid8.Coords, EltTy.bits .f32 = 32 ∨ (Rect.block (s := S6x1024) S6x1024.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1024x1.size a ≤ S1024x1.size a
  hwx8_3 : ∀ i : grid8.Coords, EltTy.bits .bf16 = 32 ∨ (Rect.block (s := S1024x1) S1024x1.size (cc8_transform_3 i) (hinb8_3 i)).WholeWords (EltTy.packing .bf16)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1.size a ≤ S1.size a
  hwx8_4 : ∀ i : grid8.Coords, EltTy.bits .f32 = 32 ∨ (Rect.block (s := S1) S1.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S8.size a ≤ S8.size a
  hwx8_5 : ∀ i : grid8.Coords, EltTy.bits .f32 = 32 ∨ (Rect.block (s := S8) S8.size (cc8_transform_5 i) (hinb8_5 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S1000x128_S128x1024_S1000x1024_1_0_0_1_n_n : DotDims S1000x128 S128x1024 S1000x1024 where
  lhsContracting := [1]
  rhsContracting := [0]
  lhsNonContracting := [0]
  rhsNonContracting := [1]
  lhsBatch := []
  rhsBatch := []
  wf := dot_S1000x128_S128x1024_S1000x1024_1_0_0_1_n_n_wf
def gather_S10000x1024_S170000x1_S170000x1024_1_0_n_n_0_1_11024 : GatherDims S10000x1024 S170000x1 S170000x1024 where
  offsetDims := [1]
  collapsedSliceDims := [0]
  operandBatchingDims := []
  startIndicesBatchingDims := []
  startIndexMap := [0]
  indexVectorDim := 1
  sliceSizes := ![1, 1024]
  wf := gather_S10000x1024_S170000x1_S170000x1024_1_0_n_n_0_1_11024_wf
def scatter_S10000x1024_S170000x1_S170000x1024_1_0_0_1 : ScatterDims S10000x1024 S170000x1 S170000x1024 where
  updateWindowDims := [1]
  insertedWindowDims := [0]
  scatterDimsToOperandDims := [0]
  indexVectorDim := 1
  wf := scatter_S10000x1024_S170000x1_S170000x1024_1_0_0_1_wf
def dot_S1000x1024_S1024x1024_S1000x1024_1_0_0_1_n_n : DotDims S1000x1024 S1024x1024 S1000x1024 where
  lhsContracting := [1]
  rhsContracting := [0]
  lhsNonContracting := [0]
  rhsNonContracting := [1]
  lhsBatch := []
  rhsBatch := []
  wf := dot_S1000x1024_S1024x1024_S1000x1024_1_0_0_1_n_n_wf
def scatter_S8_S10000x1_S10000_n_0_0_1 : ScatterDims S8 S10000x1 S10000 where
  updateWindowDims := []
  insertedWindowDims := [0]
  scatterDimsToOperandDims := [0]
  indexVectorDim := 1
  wf := scatter_S8_S10000x1_S10000_n_0_0_1_wf
def scatter_S8x1024_S10000x1_S10000x1024_1_0_0_1 : ScatterDims S8x1024 S10000x1 S10000x1024 where
  updateWindowDims := [1]
  insertedWindowDims := [0]
  scatterDimsToOperandDims := [0]
  indexVectorDim := 1
  wf := scatter_S8x1024_S10000x1_S10000x1024_1_0_0_1_wf
def dot_S8x1024_S1024x1024_S8x1024_1_0_0_1_n_n : DotDims S8x1024 S1024x1024 S8x1024 where
  lhsContracting := [1]
  rhsContracting := [0]
  lhsNonContracting := [0]
  rhsNonContracting := [1]
  lhsBatch := []
  rhsBatch := []
  wf := dot_S8x1024_S1024x1024_S8x1024_1_0_0_1_n_n_wf
def dot_S8x1024_S1024x1_S8x1_1_0_0_1_n_n : DotDims S8x1024 S1024x1 S8x1 where
  lhsContracting := [1]
  rhsContracting := [0]
  lhsNonContracting := [0]
  rhsNonContracting := [1]
  lhsBatch := []
  rhsBatch := []
  wf := dot_S8x1024_S1024x1_S8x1_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1000x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S1000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1000x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v50) S1000x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1000x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v70) S1000x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S1000x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S1000x1024.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v75) S1000x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v80) S1000x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v95) S1000x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v45) S1000x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v97) S1024.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v99) S1024.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v100) S1000x1024.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v100) S1000x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v102) S1024x1024.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v105) S1000x1024.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v120) S1000x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v100) S1000x1024.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v122) S1024.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v124) S1024.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v125) S1000x1024.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v137) S8x1024.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_v138) S6x1024x1024.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg10) S6x1024.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v139) S1024x1.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg12) S1.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v140) S8.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S10000x128 : Shape := ⟨2, ![10000, 128]⟩
abbrev S2x160000 : Shape := ⟨2, ![2, 160000]⟩
abbrev S10000 : Shape := ⟨1, ![10000]⟩
abbrev S128x1024 : Shape := ⟨2, ![128, 1024]⟩
abbrev S1024 : Shape := ⟨1, ![1024]⟩
abbrev S3x1024x1024 : Shape := ⟨3, ![3, 1024, 1024]⟩
abbrev S3x1024 : Shape := ⟨2, ![3, 1024]⟩
abbrev S4x1024 : Shape := ⟨2, ![4, 1024]⟩
abbrev S6x1024x1024 : Shape := ⟨3, ![6, 1024, 1024]⟩
abbrev S6x1024 : Shape := ⟨2, ![6, 1024]⟩
abbrev S1024x1 : Shape := ⟨2, ![1024, 1]⟩
abbrev S1 : Shape := ⟨1, ![1]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S10000x1024 : Shape := ⟨2, ![10000, 1024]⟩
abbrev S170000x1024 : Shape := ⟨2, ![170000, 1024]⟩
abbrev S1x1024 : Shape := ⟨2, ![1, 1024]⟩
abbrev S10000x1 : Shape := ⟨2, ![10000, 1]⟩
abbrev S1x1024x1024 : Shape := ⟨3, ![1, 1024, 1024]⟩
abbrev S1024x1024 : Shape := ⟨2, ![1024, 1024]⟩
abbrev S8 : Shape := ⟨1, ![8]⟩
abbrev S8x1024 : Shape := ⟨2, ![8, 1024]⟩
abbrev S8x1 : Shape := ⟨2, ![8, 1]⟩
abbrev S1x1 : Shape := ⟨2, ![1, 1]⟩

abbrev nBuf : Space → Nat
  | .hbm => 372
  | .vmem => 0
  | .smem => 0
  | _ => 0

abbrev hbmTy0_0 (i : Nat) : BufTy := match i % 128 with
  | 0 => ⟨S10000x128, .f32⟩
  | 1 => ⟨S2x160000, .i32⟩
  | 2 => ⟨S10000, .i32⟩
  | 3 => ⟨S128x1024, .f32⟩
  | 4 => ⟨S1024, .f32⟩
  | 5 => ⟨S3x1024x1024, .f32⟩
  | 6 => ⟨S3x1024, .f32⟩
  | 7 => ⟨S4x1024, .f32⟩
  | 8 => ⟨S4x1024, .f32⟩
  | 9 => ⟨S6x1024x1024, .f32⟩
  | 10 => ⟨S6x1024, .f32⟩
  | 11 => ⟨S1024x1, .f32⟩
  | 12 => ⟨S1, .f32⟩
  | 13 => ⟨S10000, .i32⟩
  | 14 => ⟨S1x160000, .i32⟩
  | 15 => ⟨S160000, .i32⟩
  | 16 => ⟨S170000, .i32⟩
  | 17 => ⟨S1x160000, .i32⟩
  | 18 => ⟨S160000, .i32⟩
  | 19 => ⟨S170000, .i32⟩
  | 20 => ⟨S_, .f32⟩
  | 21 => ⟨S170000, .f32⟩
  | 22 => ⟨S_, .f32⟩
  | 23 => ⟨S10000, .f32⟩
  | 24 => ⟨S170000x1, .i32⟩
  | 25 => ⟨S10000, .f32⟩
  | 26 => ⟨S_, .f32⟩
  | 27 => ⟨S10000, .f32⟩
  | 28 => ⟨S10000, .f32⟩
  | 29 => ⟨S10000, .f32⟩
  | 30 => ⟨S_, .i32⟩
  | 31 => ⟨S170000, .i32⟩
  | 32 => ⟨S170000, .i1⟩
  | 33 => ⟨S_, .i32⟩
  | 34 => ⟨S170000, .i32⟩
  | 35 => ⟨S170000, .i32⟩
  | 36 => ⟨S170000, .i32⟩
  | 37 => ⟨S170000x1, .i32⟩
  | 38 => ⟨S170000, .f32⟩
  | 39 => ⟨S_, .i32⟩
  | 40 => ⟨S170000, .i32⟩
  | 41 => ⟨S170000, .i1⟩
  | 42 => ⟨S_, .i32⟩
  | 43 => ⟨S170000, .i32⟩
  | 44 => ⟨S170000, .i32⟩
  | 45 => ⟨S170000, .i32⟩
  | 46 => ⟨S170000x1, .i32⟩
  | 47 => ⟨S170000, .f32⟩
  | 48 => ⟨S170000, .f32⟩
  | 49 => ⟨S170000x1, .f32⟩
  | 50 => ⟨S10000x1024, .f32⟩
  | 51 => ⟨S_, .i32⟩
  | 52 => ⟨S170000, .i32⟩
  | 53 => ⟨S170000, .i1⟩
  | 54 => ⟨S_, .i32⟩
  | 55 => ⟨S170000, .i32⟩
  | 56 => ⟨S170000, .i32⟩
  | 57 => ⟨S170000, .i32⟩
  | 58 => ⟨S170000x1, .i32⟩
  | 59 => ⟨S170000x1024, .f32⟩
  | 60 => ⟨S170000x1024, .f32⟩
  | 61 => ⟨S170000x1024, .f32⟩
  | 62 => ⟨S_, .f32⟩
  | 63 => ⟨S10000x1024, .f32⟩
  | 64 => ⟨S170000x1, .i32⟩
  | 65 => ⟨S10000x1024, .f32⟩
  | 66 => ⟨S1x1024, .f32⟩
  | 67 => ⟨S10000x1024, .f32⟩
  | 68 => ⟨S10000x1024, .f32⟩
  | 69 => ⟨S1x1024, .f32⟩
  | 70 => ⟨S1024, .f32⟩
  | 71 => ⟨S1x1024, .f32⟩
  | 72 => ⟨S1024, .f32⟩
  | 73 => ⟨S_, .f32⟩
  | 74 => ⟨S10000, .f32⟩
  | 75 => ⟨S10000x1, .f32⟩
  | 76 => ⟨S_, .f32⟩
  | 77 => ⟨S10000x1, .f32⟩
  | 78 => ⟨S10000x1, .f32⟩
  | 79 => ⟨S10000x1024, .f32⟩
  | 80 => ⟨S10000x1024, .f32⟩
  | 81 => ⟨S10000x1024, .f32⟩
  | 82 => ⟨S_, .f32⟩
  | 83 => ⟨S10000, .f32⟩
  | 84 => ⟨S10000x1, .f32⟩
  | 85 => ⟨S_, .f32⟩
  | 86 => ⟨S10000x1, .f32⟩
  | 87 => ⟨S10000x1, .f32⟩
  | 88 => ⟨S10000x1024, .f32⟩
  | 89 => ⟨S10000x1024, .f32⟩
  | 90 => ⟨S_, .f32⟩
  | 91 => ⟨S10000x1, .f32⟩
  | 92 => ⟨S10000x1, .f32⟩
  | 93 => ⟨S10000x1, .f32⟩
  | 94 => ⟨S10000x1024, .f32⟩
  | 95 => ⟨S10000x1024, .f32⟩
  | 96 => ⟨S1x1024, .f32⟩
  | 97 => ⟨S10000x1024, .f32⟩
  | 98 => ⟨S10000x1024, .f32⟩
  | 99 => ⟨S1x1024, .f32⟩
  | 100 => ⟨S10000x1024, .f32⟩
  | 101 => ⟨S10000x1024, .f32⟩
  | 102 => ⟨S_, .f32⟩
  | 103 => ⟨S10000x1024, .f32⟩
  | 104 => ⟨S10000x1024, .f32⟩
  | 105 => ⟨S1x1024x1024, .f32⟩
  | 106 => ⟨S1024x1024, .f32⟩
  | 107 => ⟨S1x1024, .f32⟩
  | 108 => ⟨S1024, .f32⟩
  | 109 => ⟨S10000x1024, .f32⟩
  | 110 => ⟨S_, .i32⟩
  | 111 => ⟨S170000, .i32⟩
  | 112 => ⟨S170000, .i1⟩
  | 113 => ⟨S_, .i32⟩
  | 114 => ⟨S170000, .i32⟩
  | 115 => ⟨S170000, .i32⟩
  | 116 => ⟨S170000, .i32⟩
  | 117 => ⟨S170000x1, .i32⟩
  | 118 => ⟨S170000x1024, .f32⟩
  | 119 => ⟨S170000x1024, .f32⟩
  | 120 => ⟨S170000x1024, .f32⟩
  | 121 => ⟨S_, .f32⟩
  | 122 => ⟨S10000x1024, .f32⟩
  | 123 => ⟨S170000x1, .i32⟩
  | 124 => ⟨S10000x1024, .f32⟩
  | 125 => ⟨S1x1024, .f32⟩
  | 126 => ⟨S10000x1024, .f32⟩
  | 127 => ⟨S10000x1024, .f32⟩
  | _ => ⟨S10000x128, .f32⟩

abbrev hbmTy0_1 (i : Nat) : BufTy := match i % 128 with
  | 0 => ⟨S10000x1024, .f32⟩
  | 1 => ⟨S1x1024, .f32⟩
  | 2 => ⟨S1024, .f32⟩
  | 3 => ⟨S1x1024, .f32⟩
  | 4 => ⟨S1024, .f32⟩
  | 5 => ⟨S_, .f32⟩
  | 6 => ⟨S10000, .f32⟩
  | 7 => ⟨S10000x1, .f32⟩
  | 8 => ⟨S_, .f32⟩
  | 9 => ⟨S10000x1, .f32⟩
  | 10 => ⟨S10000x1, .f32⟩
  | 11 => ⟨S10000x1024, .f32⟩
  | 12 => ⟨S10000x1024, .f32⟩
  | 13 => ⟨S10000x1024, .f32⟩
  | 14 => ⟨S_, .f32⟩
  | 15 => ⟨S10000, .f32⟩
  | 16 => ⟨S10000x1, .f32⟩
  | 17 => ⟨S_, .f32⟩
  | 18 => ⟨S10000x1, .f32⟩
  | 19 => ⟨S10000x1, .f32⟩
  | 20 => ⟨S10000x1024, .f32⟩
  | 21 => ⟨S10000x1024, .f32⟩
  | 22 => ⟨S_, .f32⟩
  | 23 => ⟨S10000x1, .f32⟩
  | 24 => ⟨S10000x1, .f32⟩
  | 25 => ⟨S10000x1, .f32⟩
  | 26 => ⟨S10000x1024, .f32⟩
  | 27 => ⟨S10000x1024, .f32⟩
  | 28 => ⟨S1x1024, .f32⟩
  | 29 => ⟨S10000x1024, .f32⟩
  | 30 => ⟨S10000x1024, .f32⟩
  | 31 => ⟨S1x1024, .f32⟩
  | 32 => ⟨S10000x1024, .f32⟩
  | 33 => ⟨S10000x1024, .f32⟩
  | 34 => ⟨S_, .f32⟩
  | 35 => ⟨S10000x1024, .f32⟩
  | 36 => ⟨S10000x1024, .f32⟩
  | 37 => ⟨S1x1024x1024, .f32⟩
  | 38 => ⟨S1024x1024, .f32⟩
  | 39 => ⟨S1x1024, .f32⟩
  | 40 => ⟨S1024, .f32⟩
  | 41 => ⟨S10000x1024, .f32⟩
  | 42 => ⟨S_, .i32⟩
  | 43 => ⟨S170000, .i32⟩
  | 44 => ⟨S170000, .i1⟩
  | 45 => ⟨S_, .i32⟩
  | 46 => ⟨S170000, .i32⟩
  | 47 => ⟨S170000, .i32⟩
  | 48 => ⟨S170000, .i32⟩
  | 49 => ⟨S170000x1, .i32⟩
  | 50 => ⟨S170000x1024, .f32⟩
  | 51 => ⟨S170000x1024, .f32⟩
  | 52 => ⟨S170000x1024, .f32⟩
  | 53 => ⟨S_, .f32⟩
  | 54 => ⟨S10000x1024, .f32⟩
  | 55 => ⟨S170000x1, .i32⟩
  | 56 => ⟨S10000x1024, .f32⟩
  | 57 => ⟨S1x1024, .f32⟩
  | 58 => ⟨S10000x1024, .f32⟩
  | 59 => ⟨S10000x1024, .f32⟩
  | 60 => ⟨S10000x1024, .f32⟩
  | 61 => ⟨S1x1024, .f32⟩
  | 62 => ⟨S1024, .f32⟩
  | 63 => ⟨S1x1024, .f32⟩
  | 64 => ⟨S1024, .f32⟩
  | 65 => ⟨S_, .f32⟩
  | 66 => ⟨S10000, .f32⟩
  | 67 => ⟨S10000x1, .f32⟩
  | 68 => ⟨S_, .f32⟩
  | 69 => ⟨S10000x1, .f32⟩
  | 70 => ⟨S10000x1, .f32⟩
  | 71 => ⟨S10000x1024, .f32⟩
  | 72 => ⟨S10000x1024, .f32⟩
  | 73 => ⟨S10000x1024, .f32⟩
  | 74 => ⟨S_, .f32⟩
  | 75 => ⟨S10000, .f32⟩
  | 76 => ⟨S10000x1, .f32⟩
  | 77 => ⟨S_, .f32⟩
  | 78 => ⟨S10000x1, .f32⟩
  | 79 => ⟨S10000x1, .f32⟩
  | 80 => ⟨S10000x1024, .f32⟩
  | 81 => ⟨S10000x1024, .f32⟩
  | 82 => ⟨S_, .f32⟩
  | 83 => ⟨S10000x1, .f32⟩
  | 84 => ⟨S10000x1, .f32⟩
  | 85 => ⟨S10000x1, .f32⟩
  | 86 => ⟨S10000x1024, .f32⟩
  | 87 => ⟨S10000x1024, .f32⟩
  | 88 => ⟨S1x1024, .f32⟩
  | 89 => ⟨S10000x1024, .f32⟩
  | 90 => ⟨S10000x1024, .f32⟩
  | 91 => ⟨S1x1024, .f32⟩
  | 92 => ⟨S10000x1024, .f32⟩
  | 93 => ⟨S10000x1024, .f32⟩
  | 94 => ⟨S_, .f32⟩
  | 95 => ⟨S10000x1024, .f32⟩
  | 96 => ⟨S10000x1024, .f32⟩
  | 97 => ⟨S1x1024x1024, .f32⟩
  | 98 => ⟨S1024x1024, .f32⟩
  | 99 => ⟨S1x1024, .f32⟩
  | 100 => ⟨S1024, .f32⟩
  | 101 => ⟨S10000x1024, .f32⟩
  | 102 => ⟨S_, .i32⟩
  | 103 => ⟨S170000, .i32⟩
  | 104 => ⟨S170000, .i1⟩
  | 105 => ⟨S_, .i32⟩
  | 106 => ⟨S170000, .i32⟩
  | 107 => ⟨S170000, .i32⟩
  | 108 => ⟨S170000, .i32⟩
  | 109 => ⟨S170000x1, .i32⟩
  | 110 => ⟨S170000x1024, .f32⟩
  | 111 => ⟨S170000x1024, .f32⟩
  | 112 => ⟨S170000x1024, .f32⟩
  | 113 => ⟨S_, .f32⟩
  | 114 => ⟨S10000x1024, .f32⟩
  | 115 => ⟨S170000x1, .i32⟩
  | 116 => ⟨S10000x1024, .f32⟩
  | 117 => ⟨S1x1024, .f32⟩
  | 118 => ⟨S10000x1024, .f32⟩
  | 119 => ⟨S10000x1024, .f32⟩
  | 120 => ⟨S10000x1024, .f32⟩
  | 121 => ⟨S1x1024, .f32⟩
  | 122 => ⟨S1024, .f32⟩
  | 123 => ⟨S1x1024, .f32⟩
  | 124 => ⟨S1024, .f32⟩
  | 125 => ⟨S_, .f32⟩
  | 126 => ⟨S10000, .f32⟩
  | 127 => ⟨S10000x1, .f32⟩
  | _ => ⟨S10000x128, .f32⟩

abbrev hbmTy0_2 (i : Nat) : BufTy := match i % 128 with
  | 0 => ⟨S_, .f32⟩
  | 1 => ⟨S10000x1, .f32⟩
  | 2 => ⟨S10000x1, .f32⟩
  | 3 => ⟨S10000x1024, .f32⟩
  | 4 => ⟨S10000x1024, .f32⟩
  | 5 => ⟨S10000x1024, .f32⟩
  | 6 => ⟨S_, .f32⟩
  | 7 => ⟨S10000, .f32⟩
  | 8 => ⟨S10000x1, .f32⟩
  | 9 => ⟨S_, .f32⟩
  | 10 => ⟨S10000x1, .f32⟩
  | 11 => ⟨S10000x1, .f32⟩
  | 12 => ⟨S10000x1024, .f32⟩
  | 13 => ⟨S10000x1024, .f32⟩
  | 14 => ⟨S_, .f32⟩
  | 15 => ⟨S10000x1, .f32⟩
  | 16 => ⟨S10000x1, .f32⟩
  | 17 => ⟨S10000x1, .f32⟩
  | 18 => ⟨S10000x1024, .f32⟩
  | 19 => ⟨S10000x1024, .f32⟩
  | 20 => ⟨S1x1024, .f32⟩
  | 21 => ⟨S10000x1024, .f32⟩
  | 22 => ⟨S10000x1024, .f32⟩
  | 23 => ⟨S1x1024, .f32⟩
  | 24 => ⟨S10000x1024, .f32⟩
  | 25 => ⟨S10000x1024, .f32⟩
  | 26 => ⟨S_, .f32⟩
  | 27 => ⟨S10000x1024, .f32⟩
  | 28 => ⟨S10000x1024, .f32⟩
  | 29 => ⟨S_, .f32⟩
  | 30 => ⟨S10000, .f32⟩
  | 31 => ⟨S_, .f32⟩
  | 32 => ⟨S8, .f32⟩
  | 33 => ⟨S10000x1, .i32⟩
  | 34 => ⟨S8, .f32⟩
  | 35 => ⟨S_, .f32⟩
  | 36 => ⟨S8x1024, .f32⟩
  | 37 => ⟨S10000x1, .i32⟩
  | 38 => ⟨S8x1024, .f32⟩
  | 39 => ⟨S_, .f32⟩
  | 40 => ⟨S8, .f32⟩
  | 41 => ⟨S8, .f32⟩
  | 42 => ⟨S8x1, .f32⟩
  | 43 => ⟨S8x1024, .f32⟩
  | 44 => ⟨S8x1024, .f32⟩
  | 45 => ⟨S1x1024x1024, .f32⟩
  | 46 => ⟨S1024x1024, .f32⟩
  | 47 => ⟨S8x1024, .f32⟩
  | 48 => ⟨S1x1024, .f32⟩
  | 49 => ⟨S1024, .f32⟩
  | 50 => ⟨S1x1024, .f32⟩
  | 51 => ⟨S8x1024, .f32⟩
  | 52 => ⟨S8x1024, .f32⟩
  | 53 => ⟨S_, .f32⟩
  | 54 => ⟨S8x1024, .f32⟩
  | 55 => ⟨S8x1024, .f32⟩
  | 56 => ⟨S1x1024x1024, .f32⟩
  | 57 => ⟨S1024x1024, .f32⟩
  | 58 => ⟨S8x1024, .f32⟩
  | 59 => ⟨S1x1024, .f32⟩
  | 60 => ⟨S1024, .f32⟩
  | 61 => ⟨S1x1024, .f32⟩
  | 62 => ⟨S8x1024, .f32⟩
  | 63 => ⟨S8x1024, .f32⟩
  | 64 => ⟨S_, .f32⟩
  | 65 => ⟨S8x1024, .f32⟩
  | 66 => ⟨S8x1024, .f32⟩
  | 67 => ⟨S1x1024x1024, .f32⟩
  | 68 => ⟨S1024x1024, .f32⟩
  | 69 => ⟨S8x1024, .f32⟩
  | 70 => ⟨S1x1024, .f32⟩
  | 71 => ⟨S1024, .f32⟩
  | 72 => ⟨S1x1024, .f32⟩
  | 73 => ⟨S8x1024, .f32⟩
  | 74 => ⟨S8x1024, .f32⟩
  | 75 => ⟨S_, .f32⟩
  | 76 => ⟨S8x1024, .f32⟩
  | 77 => ⟨S8x1024, .f32⟩
  | 78 => ⟨S1x1024x1024, .f32⟩
  | 79 => ⟨S1024x1024, .f32⟩
  | 80 => ⟨S8x1024, .f32⟩
  | 81 => ⟨S1x1024, .f32⟩
  | 82 => ⟨S1024, .f32⟩
  | 83 => ⟨S1x1024, .f32⟩
  | 84 => ⟨S8x1024, .f32⟩
  | 85 => ⟨S8x1024, .f32⟩
  | 86 => ⟨S_, .f32⟩
  | 87 => ⟨S8x1024, .f32⟩
  | 88 => ⟨S8x1024, .f32⟩
  | 89 => ⟨S1x1024x1024, .f32⟩
  | 90 => ⟨S1024x1024, .f32⟩
  | 91 => ⟨S8x1024, .f32⟩
  | 92 => ⟨S1x1024, .f32⟩
  | 93 => ⟨S1024, .f32⟩
  | 94 => ⟨S1x1024, .f32⟩
  | 95 => ⟨S8x1024, .f32⟩
  | 96 => ⟨S8x1024, .f32⟩
  | 97 => ⟨S_, .f32⟩
  | 98 => ⟨S8x1024, .f32⟩
  | 99 => ⟨S8x1024, .f32⟩
  | 100 => ⟨S1x1024x1024, .f32⟩
  | 101 => ⟨S1024x1024, .f32⟩
  | 102 => ⟨S8x1024, .f32⟩
  | 103 => ⟨S1x1024, .f32⟩
  | 104 => ⟨S1024, .f32⟩
  | 105 => ⟨S1x1024, .f32⟩
  | 106 => ⟨S8x1024, .f32⟩
  | 107 => ⟨S8x1024, .f32⟩
  | 108 => ⟨S_, .f32⟩
  | 109 => ⟨S8x1024, .f32⟩
  | 110 => ⟨S8x1024, .f32⟩
  | 111 => ⟨S8x1, .f32⟩
  | 112 => ⟨S1x1, .f32⟩
  | 113 => ⟨S8x1, .f32⟩
  | 114 => ⟨S8x1, .f32⟩
  | 115 => ⟨S8, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_call0_cst : Ref sig .tc := ⟨.hbm, 102, rfl⟩
abbrev main_call0_v0 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_13 : Ref sig .tc := ⟨.hbm, 110, rfl⟩
abbrev main_v80 : Ref sig .tc := ⟨.hbm, 111, rfl⟩
abbrev main_v81 : Ref sig .tc := ⟨.hbm, 112, rfl⟩
abbrev main_c_14 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_15 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_16 : Ref sig .tc := ⟨.hbm, 133, rfl⟩
abbrev main_v100 : Ref sig .tc := ⟨.hbm, 134, rfl⟩
abbrev main_v101 : Ref sig .tc := ⟨.hbm, 135, rfl⟩
abbrev main_cst_17 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_18 : Ref sig .tc := ⟨.hbm, 142, rfl⟩
abbrev main_v107 : Ref sig .tc := ⟨.hbm, 143, rfl⟩
abbrev main_v108 : Ref sig .tc := ⟨.hbm, 144, rfl⟩
abbrev main_cst_19 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_20 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_call1_cst : Ref sig .tc := ⟨.hbm, 162, rfl⟩
abbrev main_call1_v0 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_c_21 : Ref sig .tc := ⟨.hbm, 170, rfl⟩
abbrev main_v130 : Ref sig .tc := ⟨.hbm, 171, rfl⟩
abbrev main_v131 : Ref sig .tc := ⟨.hbm, 172, rfl⟩
abbrev main_c_22 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_cst_23 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_cst_24 : Ref sig .tc := ⟨.hbm, 193, rfl⟩
abbrev main_v150 : Ref sig .tc := ⟨.hbm, 194, rfl⟩
abbrev main_v151 : Ref sig .tc := ⟨.hbm, 195, rfl⟩
abbrev main_cst_25 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_cst_26 : Ref sig .tc := ⟨.hbm, 202, rfl⟩
abbrev main_v157 : Ref sig .tc := ⟨.hbm, 203, rfl⟩
abbrev main_v158 : Ref sig .tc := ⟨.hbm, 204, rfl⟩
abbrev main_cst_27 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_cst_28 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_call2_cst : Ref sig .tc := ⟨.hbm, 222, rfl⟩
abbrev main_call2_v0 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_c_29 : Ref sig .tc := ⟨.hbm, 230, rfl⟩
abbrev main_v180 : Ref sig .tc := ⟨.hbm, 231, rfl⟩
abbrev main_v181 : Ref sig .tc := ⟨.hbm, 232, rfl⟩
abbrev main_c_30 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_cst_31 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_cst_32 : Ref sig .tc := ⟨.hbm, 253, rfl⟩
abbrev main_v200 : Ref sig .tc := ⟨.hbm, 254, rfl⟩
abbrev main_v201 : Ref sig .tc := ⟨.hbm, 255, rfl⟩
abbrev main_cst_33 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_cst_34 : Ref sig .tc := ⟨.hbm, 262, rfl⟩
abbrev main_v207 : Ref sig .tc := ⟨.hbm, 263, rfl⟩
abbrev main_v208 : Ref sig .tc := ⟨.hbm, 264, rfl⟩
abbrev main_cst_35 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_cst_36 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_call3_cst : Ref sig .tc := ⟨.hbm, 282, rfl⟩
abbrev main_call3_v0 : Ref sig .tc := ⟨.hbm, 283, rfl⟩
abbrev main_v224 : Ref sig .tc := ⟨.hbm, 284, rfl⟩
abbrev main_cst_37 : Ref sig .tc := ⟨.hbm, 285, rfl⟩
abbrev main_v225 : Ref sig .tc := ⟨.hbm, 286, rfl⟩
abbrev main_cst_38 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_cst_39 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_cst_40 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_call4_cst : Ref sig .tc := ⟨.hbm, 309, rfl⟩
abbrev main_call4_v0 : Ref sig .tc := ⟨.hbm, 310, rfl⟩
abbrev main_v245 : Ref sig .tc := ⟨.hbm, 311, rfl⟩
abbrev main_v246 : Ref sig .tc := ⟨.hbm, 312, rfl⟩
abbrev main_v247 : Ref sig .tc := ⟨.hbm, 313, rfl⟩
abbrev main_v248 : Ref sig .tc := ⟨.hbm, 314, rfl⟩
abbrev main_v249 : Ref sig .tc := ⟨.hbm, 315, rfl⟩
abbrev main_v250 : Ref sig .tc := ⟨.hbm, 316, rfl⟩
abbrev main_v251 : Ref sig .tc := ⟨.hbm, 317, rfl⟩
abbrev main_v252 : Ref sig .tc := ⟨.hbm, 318, rfl⟩
abbrev main_v253 : Ref sig .tc := ⟨.hbm, 319, rfl⟩
abbrev main_call5_cst : Ref sig .tc := ⟨.hbm, 320, rfl⟩
abbrev main_call5_v0 : Ref sig .tc := ⟨.hbm, 321, rfl⟩
abbrev main_v254 : Ref sig .tc := ⟨.hbm, 322, rfl⟩
abbrev main_v255 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_v261 : Ref sig .tc := ⟨.hbm, 329, rfl⟩
abbrev main_v262 : Ref sig .tc := ⟨.hbm, 330, rfl⟩
abbrev main_call6_cst : Ref sig .tc := ⟨.hbm, 331, rfl⟩
abbrev main_call6_v0 : Ref sig .tc := ⟨.hbm, 332, rfl⟩
abbrev main_v263 : Ref sig .tc := ⟨.hbm, 333, rfl⟩
abbrev main_v264 : Ref sig .tc := ⟨.hbm, 334, rfl⟩
abbrev main_v265 : Ref sig .tc := ⟨.hbm, 335, rfl⟩
abbrev main_v266 : Ref sig .tc := ⟨.hbm, 336, rfl⟩
abbrev main_v267 : Ref sig .tc := ⟨.hbm, 337, rfl⟩
abbrev main_v268 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_call7_cst : Ref sig .tc := ⟨.hbm, 342, rfl⟩
abbrev main_call7_v0 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_v276 : Ref sig .tc := ⟨.hbm, 348, rfl⟩
abbrev main_v277 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_call8_cst : Ref sig .tc := ⟨.hbm, 353, rfl⟩
abbrev main_call8_v0 : Ref sig .tc := ⟨.hbm, 354, rfl⟩
abbrev main_v281 : Ref sig .tc := ⟨.hbm, 355, rfl⟩
abbrev main_v282 : Ref sig .tc := ⟨.hbm, 356, rfl⟩
abbrev main_v283 : Ref sig .tc := ⟨.hbm, 357, rfl⟩
abbrev main_v284 : Ref sig .tc := ⟨.hbm, 358, rfl⟩
abbrev main_v285 : Ref sig .tc := ⟨.hbm, 359, rfl⟩
abbrev main_v286 : Ref sig .tc := ⟨.hbm, 360, rfl⟩
abbrev main_v287 : Ref sig .tc := ⟨.hbm, 361, rfl⟩
abbrev main_v288 : Ref sig .tc := ⟨.hbm, 362, rfl⟩
abbrev main_v289 : Ref sig .tc := ⟨.hbm, 363, rfl⟩
abbrev main_call9_cst : Ref sig .tc := ⟨.hbm, 364, rfl⟩
abbrev main_call9_v0 : Ref sig .tc := ⟨.hbm, 365, rfl⟩
abbrev main_v290 : Ref sig .tc := ⟨.hbm, 366, rfl⟩
abbrev main_v291 : Ref sig .tc := ⟨.hbm, 367, rfl⟩
abbrev main_v292 : Ref sig .tc := ⟨.hbm, 368, rfl⟩
abbrev main_v293 : Ref sig .tc := ⟨.hbm, 369, rfl⟩
abbrev main_v294 : Ref sig .tc := ⟨.hbm, 370, rfl⟩
abbrev main_v295 : Ref sig .tc := ⟨.hbm, 371, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S170000x1_S170000x1024_0_1 : S170000x1.BroadcastsInDim S170000x1024 (![0, 1] : Fin 2 → Fin S170000x1024.rank)
  bcast_S_S10000x1024 : S_.BroadcastsInDim S10000x1024 (![] : Fin 0 → Fin S10000x1024.rank)
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  slices_S4x1024_S1x1024_0_0 : S4x1024.Slices ![0, 0] S1x1024
  shapeCasts_S1x1024_S1024 : S1x1024.ShapeCasts S1024
  reducesTo_S10000x1024_S10000_d1 : S10000x1024.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x1024_0_1 : S10000x1.BroadcastsInDim S10000x1024 (![0, 1] : Fin 2 → Fin S10000x1024.rank)
  slices_S3x1024x1024_S1x1024x1024_0_0_0 : S3x1024x1024.Slices ![0, 0, 0] S1x1024x1024
  shapeCasts_S1x1024x1024_S1024x1024 : S1x1024x1024.ShapeCasts S1024x1024
  slices_S3x1024_S1x1024_0_0 : S3x1024.Slices ![0, 0] S1x1024
  slices_S4x1024_S1x1024_1_0 : S4x1024.Slices ![1, 0] S1x1024
  slices_S3x1024x1024_S1x1024x1024_1_0_0 : S3x1024x1024.Slices ![1, 0, 0] S1x1024x1024
  slices_S3x1024_S1x1024_1_0 : S3x1024.Slices ![1, 0] S1x1024
  slices_S4x1024_S1x1024_2_0 : S4x1024.Slices ![2, 0] S1x1024
  slices_S3x1024x1024_S1x1024x1024_2_0_0 : S3x1024x1024.Slices ![2, 0, 0] S1x1024x1024
  slices_S3x1024_S1x1024_2_0 : S3x1024.Slices ![2, 0] S1x1024
  slices_S4x1024_S1x1024_3_0 : S4x1024.Slices ![3, 0] S1x1024
  bcast_S_S8 : S_.BroadcastsInDim S8 (![] : Fin 0 → Fin S8.rank)
  bcast_S_S8x1024 : S_.BroadcastsInDim S8x1024 (![] : Fin 0 → Fin S8x1024.rank)
  bcast_S8_S8x1_0 : S8.BroadcastsInDim S8x1 (![0] : Fin 1 → Fin S8x1.rank)
  bcast_S8x1_S8x1024_0_1 : S8x1.BroadcastsInDim S8x1024 (![0, 1] : Fin 2 → Fin S8x1024.rank)
  slices_S6x1024x1024_S1x1024x1024_0_0_0 : S6x1024x1024.Slices ![0, 0, 0] S1x1024x1024
  slices_S6x1024_S1x1024_0_0 : S6x1024.Slices ![0, 0] S1x1024
  bcast_S1x1024_S8x1024_0_1 : S1x1024.BroadcastsInDim S8x1024 (![0, 1] : Fin 2 → Fin S8x1024.rank)
  slices_S6x1024x1024_S1x1024x1024_1_0_0 : S6x1024x1024.Slices ![1, 0, 0] S1x1024x1024
  slices_S6x1024_S1x1024_1_0 : S6x1024.Slices ![1, 0] S1x1024
  slices_S6x1024x1024_S1x1024x1024_2_0_0 : S6x1024x1024.Slices ![2, 0, 0] S1x1024x1024
  slices_S6x1024_S1x1024_2_0 : S6x1024.Slices ![2, 0] S1x1024
  slices_S6x1024x1024_S1x1024x1024_3_0_0 : S6x1024x1024.Slices ![3, 0, 0] S1x1024x1024
  slices_S6x1024_S1x1024_3_0 : S6x1024.Slices ![3, 0] S1x1024
  slices_S6x1024x1024_S1x1024x1024_4_0_0 : S6x1024x1024.Slices ![4, 0, 0] S1x1024x1024
  slices_S6x1024_S1x1024_4_0 : S6x1024.Slices ![4, 0] S1x1024
  slices_S6x1024x1024_S1x1024x1024_5_0_0 : S6x1024x1024.Slices ![5, 0, 0] S1x1024x1024
  slices_S6x1024_S1x1024_5_0 : S6x1024.Slices ![5, 0] S1x1024
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  shapeCasts_S8x1_S8 : S8x1.ShapeCasts S8
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S10000x128_S128x1024_S10000x1024_1_0_0_1_n_n_wf : DotDims.WF S10000x128 S128x1024 S10000x1024 [1] [0] [0] [1] [] []
  gather_S10000x1024_S170000x1_S170000x1024_1_0_n_n_0_1_11024_wf : GatherDims.WF S10000x1024 S170000x1 S170000x1024 [1] [0] [] [0] [] 1 ![1, 1024]
  scatter_S10000x1024_S170000x1_S170000x1024_1_0_0_1_wf : ScatterDims.WF S10000x1024 S170000x1 S170000x1024 [1] [0] [0] 1
  dot_S10000x1024_S1024x1024_S10000x1024_1_0_0_1_n_n_wf : DotDims.WF S10000x1024 S1024x1024 S10000x1024 [1] [0] [0] [1] [] []
  scatter_S8_S10000x1_S10000_n_0_0_1_wf : ScatterDims.WF S8 S10000x1 S10000 [] [0] [0] 1
  scatter_S8x1024_S10000x1_S10000x1024_1_0_0_1_wf : ScatterDims.WF S8x1024 S10000x1 S10000x1024 [1] [0] [0] 1
  dot_S8x1024_S1024x1024_S8x1024_1_0_0_1_n_n_wf : DotDims.WF S8x1024 S1024x1024 S8x1024 [1] [0] [0] [1] [] []
  dot_S8x1024_S1024x1_S8x1_1_0_0_1_n_n_wf : DotDims.WF S8x1024 S1024x1 S8x1 [1] [0] [0] [1] [] []

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S10000x128_S128x1024_S10000x1024_1_0_0_1_n_n : DotDims S10000x128 S128x1024 S10000x1024 where
  lhsContracting := [1]
  rhsContracting := [0]
  lhsNonContracting := [0]
  rhsNonContracting := [1]
  lhsBatch := []
  rhsBatch := []
  wf := dot_S10000x128_S128x1024_S10000x1024_1_0_0_1_n_n_wf
def gather_S10000x1024_S170000x1_S170000x1024_1_0_n_n_0_1_11024 : GatherDims S10000x1024 S170000x1 S170000x1024 where
  offsetDims := [1]
  collapsedSliceDims := [0]
  operandBatchingDims := []
  startIndicesBatchingDims := []
  startIndexMap := [0]
  indexVectorDim := 1
  sliceSizes := ![1, 1024]
  wf := gather_S10000x1024_S170000x1_S170000x1024_1_0_n_n_0_1_11024_wf
def scatter_S10000x1024_S170000x1_S170000x1024_1_0_0_1 : ScatterDims S10000x1024 S170000x1 S170000x1024 where
  updateWindowDims := [1]
  insertedWindowDims := [0]
  scatterDimsToOperandDims := [0]
  indexVectorDim := 1
  wf := scatter_S10000x1024_S170000x1_S170000x1024_1_0_0_1_wf
def dot_S10000x1024_S1024x1024_S10000x1024_1_0_0_1_n_n : DotDims S10000x1024 S1024x1024 S10000x1024 where
  lhsContracting := [1]
  rhsContracting := [0]
  lhsNonContracting := [0]
  rhsNonContracting := [1]
  lhsBatch := []
  rhsBatch := []
  wf := dot_S10000x1024_S1024x1024_S10000x1024_1_0_0_1_n_n_wf
def scatter_S8_S10000x1_S10000_n_0_0_1 : ScatterDims S8 S10000x1 S10000 where
  updateWindowDims := []
  insertedWindowDims := [0]
  scatterDimsToOperandDims := [0]
  indexVectorDim := 1
  wf := scatter_S8_S10000x1_S10000_n_0_0_1_wf
def scatter_S8x1024_S10000x1_S10000x1024_1_0_0_1 : ScatterDims S8x1024 S10000x1 S10000x1024 where
  updateWindowDims := [1]
  insertedWindowDims := [0]
  scatterDimsToOperandDims := [0]
  indexVectorDim := 1
  wf := scatter_S8x1024_S10000x1_S10000x1024_1_0_0_1_wf
def dot_S8x1024_S1024x1024_S8x1024_1_0_0_1_n_n : DotDims S8x1024 S1024x1024 S8x1024 where
  lhsContracting := [1]
  rhsContracting := [0]
  lhsNonContracting := [0]
  rhsNonContracting := [1]
  lhsBatch := []
  rhsBatch := []
  wf := dot_S8x1024_S1024x1024_S8x1024_1_0_0_1_n_n_wf
def dot_S8x1024_S1024x1_S8x1_1_0_0_1_n_n : DotDims S8x1024 S1024x1 S8x1 where
  lhsContracting := [1]
  rhsContracting := [0]
  lhsNonContracting := [0]
  rhsNonContracting := [1]
  lhsBatch := []
  rhsBatch := []
  wf := dot_S8x1024_S1024x1_S8x1_1_0_0_1_n_n_wf

class Facts : Prop extends Facts₀ where

variable [Facts]
-- ==== Proof.KernelRun.lean ====
/-
  The idealized kernel's run with its three results named.

  @main is eighteen segments: nine stretches of host operations alternating with nine pipelined regions. The contents of
  every buffer at each segment boundary are a fold through @main from the launch memory: a host stretch applies its
  operations in order; a region leaves each of its arrays at what its write-backs fold into it and every other buffer
  untouched. The run below says that every weakly fair execution terminates without a fault with each result buffer
  at the LAST boundary's contents and the argument arrays as launched. Nothing is computed here: what those contents
  are, as functions of the arguments, is read off the fold elsewhere.
-/
import proofs.«166496_j23596550324766_1_alg».proof.Proof.Gen.KernelIdeal.Frame

set_option maxRecDepth 16384

noncomputable section

namespace Cert.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the three results at the last segment
    boundary's contents and the arguments as launched. -/
theorem run_results : θ_run defs (onTc (τ := τ) (main (F := F))) ⟨m, fun _ => 0, ρ⟩ (fun r => ∀ c : Dev nD,
      r.2.mem ((c.tc : Thread nD τ).loc main_v125) = W18 m ρ c (Proc.devRef .tc main_v125)
      ∧ r.2.mem ((c.tc : Thread nD τ).loc main_v137) = W18 m ρ c (Proc.devRef .tc main_v137)
      ∧ r.2.mem ((c.tc : Thread nD τ).loc main_v140) = W18 m ρ c (Proc.devRef .tc main_v140)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v125 (by decide)),
       h c _ (mem_uc main_v137 (by decide)),
       h c _ (mem_uc main_v140 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c)⟩)

end Cert.Bridge

end
-- ==== Proof.RefOps.lean ====
/-
  The idealized reference's @main as a list of its 359 host operations, each writing one fresh buffer, in order; that
  @main is the run of that list; that the program scopes no buffer and no semaphore; and that every operation touches
  TensorCore buffers only.
-/
import proofs.«166496_j23596550324766_1_alg».proof.Proof.Gen.ReferenceIdeal
import Idealize.ShloMosaic.Lib.StableHlo.Run

noncomputable section

namespace Cert.Bridge.RefOps

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
/-- @main's 359 operations, in order (a called function's operations stand in its call's place, spelt `TRef.…`). -/
abbrev ops : List (HloOp τ sig (Elt F)) :=
  [ nullary main_v0 (iotaInDim S10000 32 0),
    unary main_arg1 main_v1 ((extractStridedSlice S1x160000 ![0, 0] · slices_S2x160000_S1x160000_0_0) : (⟨S2x160000, .i32⟩ : BufTy).Contents (Elt F) → (⟨S1x160000, .i32⟩ : BufTy).Contents (Elt F)),
    reshape main_v1 main_v2 rfl shapeCasts_S1x160000_S160000,
    binary main_v2 main_v0 main_v3 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)),
    unary main_arg1 main_v4 ((extractStridedSlice S1x160000 ![1, 0] · slices_S2x160000_S1x160000_1_0) : (⟨S2x160000, .i32⟩ : BufTy).Contents (Elt F) → (⟨S1x160000, .i32⟩ : BufTy).Contents (Elt F)),
    reshape main_v4 main_v5 rfl shapeCasts_S1x160000_S160000,
    binary main_v5 main_v0 main_v6 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)),
    nullary main_cst (constant S_ .f32 0x3F800000#32),
    unary main_cst main_v7 (broadcastInDim S170000 ![] bcast_S_S170000 : (⟨S_, .f32⟩ : BufTy).Contents (Elt F) → (⟨S170000, .f32⟩ : BufTy).Contents (Elt F)),
    nullary main_cst_0 (constant S_ .f32 0x00000000#32),
    unary main_cst_0 main_v8 (broadcastInDim S10000 ![] bcast_S_S10000 : (⟨S_, .f32⟩ : BufTy).Contents (Elt F) → (⟨S10000, .f32⟩ : BufTy).Contents (Elt F)),
    unary main_v6 main_v9 (broadcastInDim S170000x1 ![0] bcast_S170000_S170000x1_0 : (⟨S170000, .i32⟩ : BufTy).Contents (Elt F) → (⟨S170000x1, .i32⟩ : BufTy).Contents (Elt F)),
    ternary main_v8 main_v9 main_v7 main_v10 ((fun x i u => Host.scatterAdd scatter_S10000_S170000x1_S170000_n_0_0_1 x i u) : (⟨S10000, .f32⟩ : BufTy).Contents (Elt F) → (⟨S170000x1, .i32⟩ : BufTy).Contents (Elt F) → (⟨S170000, .f32⟩ : BufTy).Contents (Elt F) → (⟨S10000, .f32⟩ : BufTy).Contents (Elt F)),
    nullary main_cst_1 (constant S_ .f32 0x3F800000#32),
    unary main_cst_1 main_v11 (broadcastInDim S10000 ![] bcast_S_S10000 : (⟨S_, .f32⟩ : BufTy).Contents (Elt F) → (⟨S10000, .f32⟩ : BufTy).Contents (Elt F)),
    binary main_v10 main_v11 main_v12 (maximumf : (⟨S10000, .f32⟩ : BufTy).Contents (Elt F) → (⟨S10000, .f32⟩ : BufTy).Contents (Elt F) → (⟨S10000, .f32⟩ : BufTy).Contents (Elt F)),
    unary main_v12 main_v13 (Host.rsqrt : (⟨S10000, .f32⟩ : BufTy).Contents (Elt F) → (⟨S10000, .f32⟩ : BufTy).Contents (Elt F)),
    nullary main_c (constantI S_ 32 0#32),
    unary main_c main_v14 (broadcastInDim S170000 ![] bcast_S_S170000 : (⟨S_, .i32⟩ : BufTy).Contents (Elt F) → (⟨S170000, .i32⟩ : BufTy).Contents (Elt F)),
    binary main_v3 main_v14 main_v15 (cmpi .slt : (⟨S170000, .i32⟩ : BufTy).Contents (Elt F) → (⟨S170000, .i32⟩ : BufTy).Contents (Elt F) → (⟨S170000, .i1⟩ : BufTy).Contents (Elt F)),
    nullary main_c_2 (constantI S_ 32 10000#32),
    unary main_c_2 main_v16 (broadcastInDim S170000 ![] bcast_S_S170000 : (⟨S_, .i32⟩ : BufTy).Contents (Elt F) → (⟨S170000, .i32⟩ : BufTy).Contents (Elt F)),
    binary main_v3 main_v16 main_v17 (addi : (⟨S170000, .i32⟩ : BufTy).Contents (Elt F) → (⟨S170000, .i32⟩ : BufTy).Contents (Elt F) → (⟨S170000, .i32⟩ : BufTy).Contents (Elt F)),
    ternary main_v15 main_v17 main_v3 main_v18 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v18 main_v19 (broadcastInDim S170000x1 ![0] bcast_S170000_S170000x1_0 : (⟨S170000, .i32⟩ : BufTy).Contents (Elt F) → (⟨S170000x1, .i32⟩ : BufTy).Contents (Elt F)),
    binary main_v13 main_v19 main_v20 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    nullary main_c_3 (constantI S_ 32 0#32),
    unary main_c_3 main_v21 (broadcastInDim S170000 ![] bcast_S_S170000 : (⟨S_, .i32⟩ : BufTy).Contents (Elt F) → (⟨S170000, .i32⟩ : BufTy).Contents (Elt F)),
    binary main_v6 main_v21 main_v22 (cmpi .slt : (⟨S170000, .i32⟩ : BufTy).Contents (Elt F) → (⟨S170000, .i32⟩ : BufTy).Contents (Elt F) → (⟨S170000, .i1⟩ : BufTy).Contents (Elt F)),
    nullary main_c_4 (constantI S_ 32 10000#32),
    unary main_c_4 main_v23 (broadcastInDim S170000 ![] bcast_S_S170000 : (⟨S_, .i32⟩ : BufTy).Contents (Elt F) → (⟨S170000, .i32⟩ : BufTy).Contents (Elt F)),
    binary main_v6 main_v23 main_v24 (addi : (⟨S170000, .i32⟩ : BufTy).Contents (Elt F) → (⟨S170000, .i32⟩ : BufTy).Contents (Elt F) → (⟨S170000, .i32⟩ : BufTy).Contents (Elt F)),
    ternary main_v22 main_v24 main_v6 main_v25 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v25 main_v26 (broadcastInDim S170000x1 ![0] bcast_S170000_S170000x1_0 : (⟨S170000, .i32⟩ : BufTy).Contents (Elt F) → (⟨S170000x1, .i32⟩ : BufTy).Contents (Elt F)),
    binary main_v13 main_v26 main_v27 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    binary main_v20 main_v27 main_v28 (mulf : (⟨S170000, .f32⟩ : BufTy).Contents (Elt F) → (⟨S170000, .f32⟩ : BufTy).Contents (Elt F) → (⟨S170000, .f32⟩ : BufTy).Contents (Elt F)),
    unary main_v28 main_v29 (broadcastInDim S170000x1 ![0] bcast_S170000_S170000x1_0 : (⟨S170000, .f32⟩ : BufTy).Contents (Elt F) → (⟨S170000x1, .f32⟩ : BufTy).Contents (Elt F)),
    binary main_arg0 main_arg3 main_v30 ((fun l r => Host.dotGeneral dot_S10000x128_S128x1024_S10000x1024_1_0_0_1_n_n none l r) : (⟨S10000x128, .f32⟩ : BufTy).Contents (Elt F) → (⟨S128x1024, .f32⟩ : BufTy).Contents (Elt F) → (⟨S10000x1024, .f32⟩ : BufTy).Contents (Elt F)),
    nullary main_c_5 (constantI S_ 32 0#32),
    unary main_c_5 main_v31 (broadcastInDim S170000 ![] bcast_S_S170000 : (⟨S_, .i32⟩ : BufTy).Contents (Elt F) → (⟨S170000, .i32⟩ : BufTy).Contents (Elt F)),
    binary main_v3 main_v31 main_v32 (cmpi .slt : (⟨S170000, .i32⟩ : BufTy).Contents (Elt F) → (⟨S170000, .i32⟩ : BufTy).Contents (Elt F) → (⟨S170000, .i1⟩ : BufTy).Contents (Elt F)),
    nullary main_c_6 (constantI S_ 32 10000#32),
    unary main_c_6 main_v33 (broadcastInDim S170000 ![] bcast_S_S170000 : (⟨S_, .i32⟩ : BufTy).Contents (Elt F) → (⟨S170000, .i32⟩ : BufTy).Contents (Elt F)),
    binary main_v3 main_v33 main_v34 (addi : (⟨S170000, .i32⟩ : BufTy).Contents (Elt F) → (⟨S170000, .i32⟩ : BufTy).Contents (Elt F) → (⟨S170000, .i32⟩ : BufTy).Contents (Elt F)),
    ternary main_v32 main_v34 main_v3 main_v35 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v35 main_v36 (broadcastInDim S170000x1 ![0] bcast_S170000_S170000x1_0 : (⟨S170000, .i32⟩ : BufTy).Contents (Elt F) → (⟨S170000x1, .i32⟩ : BufTy).Contents (Elt F)),
    binary main_v30 main_v36 main_v37 ((fun x i => Host.gather gather_S10000x1024_S170000x1_S170000x1024_1_0_n_n_0_1_11024 x i) : (⟨S10000x1024, .f32⟩ : BufTy).Contents (Elt F) → (⟨S170000x1, .i32⟩ : BufTy).Contents (Elt F) → (⟨S170000x1024, .f32⟩ : BufTy).Contents (Elt F)),
    unary main_v29 main_v38 (broadcastInDim S170000x1024 ![0, 1] bcast_S170000x1_S170000x1024_0_1 : (⟨S170000x1, .f32⟩ : BufTy).Contents (Elt F) → (⟨S170000x1024, .f32⟩ : BufTy).Contents (Elt F)),
    binary main_v37 main_v38 main_v39 (mulf : (⟨S170000x1024, .f32⟩ : BufTy).Contents (Elt F) → (⟨S170000x1024, .f32⟩ : BufTy).Contents (Elt F) → (⟨S170000x1024, .f32⟩ : BufTy).Contents (Elt F)),
    nullary main_cst_7 (constant S_ .f32 0x00000000#32),
    unary main_cst_7 main_v40 (broadcastInDim S10000x1024 ![] bcast_S_S10000x1024 : (⟨S_, .f32⟩ : BufTy).Contents (Elt F) → (⟨S10000x1024, .f32⟩ : BufTy).Contents (Elt F)),
    unary main_v6 main_v41 (broadcastInDim S170000x1 ![0] bcast_S170000_S170000x1_0 : (⟨S170000, .i32⟩ : BufTy).Contents (Elt F) → (⟨S170000x1, .i32⟩ : BufTy).Contents (Elt F)),
    ternary main_v40 main_v41 main_v39 main_v42 ((fun x i u => Host.scatterAdd scatter_S10000x1024_S170000x1_S170000x1024_1_0_0_1 x i u) : (⟨S10000x1024, .f32⟩ : BufTy).Contents (Elt F) → (⟨S170000x1, .i32⟩ : BufTy).Contents (Elt F) → (⟨S170000x1024, .f32⟩ : BufTy).Contents (Elt F) → (⟨S10000x1024, .f32⟩ : BufTy).Contents (Elt F)),
    unary main_arg4 main_v43 (broadcastInDim S1x1024 ![1] bcast_S1024_S1x1024_1 : (⟨S1024, .f32⟩ : BufTy).Contents (Elt F) → (⟨S1x1024, .f32⟩ : BufTy).Contents (Elt F)),
    unary main_v43 main_v44 (broadcastInDim S10000x1024 ![0, 1] bcast_S1x1024_S10000x1024_0_1 : (⟨S1x1024, .f32⟩ : BufTy).Contents (Elt F) → (⟨S10000x1024, .f32⟩ : BufTy).Contents (Elt F)),
    binary main_v42 main_v44 main_v45 (addf : (⟨S10000x1024, .f32⟩ : BufTy).Contents (Elt F) → (⟨S10000x1024, .f32⟩ : BufTy).Contents (Elt F) → (⟨S10000x1024, .f32⟩ : BufTy).Contents (Elt F)),
    unary main_arg7 main_v46 ((extractStridedSlice S1x1024 ![0, 0] · slices_S4x1024_S1x1024_0_0) : (⟨S4x1024, .f32⟩ : BufTy).Contents (Elt F) → (⟨S1x1024, .f32⟩ : BufTy).Contents (Elt F)),
    reshape main_v46 main_v47 rfl shapeCasts_S1x1024_S1024,
    unary main_arg8 main_v48 ((extractStridedSlice S1x1024 ![0, 0] · slices_S4x1024_S1x1024_0_0) : (⟨S4x1024, .f32⟩ : BufTy).Contents (Elt F) → (⟨S1x1024, .f32⟩ : BufTy).Contents (Elt F)),
    reshape main_v48 main_v49 rfl shapeCasts_S1x1024_S1024,
    nullary main_cst_8 (constant S_ .f32 0x00000000#32),
    binary main_v45 main_cst_8 main_v50 ((fun x v => Host.reduceAdd x v reducesTo_S10000x1024_S10000_d1 h_S_) : (⟨S10000x1024, .f32⟩ : BufTy).Contents (Elt F) → (⟨S_, .f32⟩ : BufTy).Contents (Elt F) → (⟨S10000, .f32⟩ : BufTy).Contents (Elt F)),
    unary main_v50 main_v51 (broadcastInDim S10000x1 ![0] bcast_S10000_S10000x1_0 : (⟨S10000, .f32⟩ : BufTy).Contents (Elt F) → (⟨S10000x1, .f32⟩ : BufTy).Contents (Elt F)),
    nullary main_cst_9 (constant S_ .f32 0x44800000#32),
    unary main_cst_9 main_v52 (broadcastInDim S10000x1 ![] bcast_S_S10000x1 : (⟨S_, .f32⟩ : BufTy).Contents (Elt F) → (⟨S10000x1, .f32⟩ : BufTy).Contents (Elt F)),
    binary main_v51 main_v52 main_v53 (Host.divf : (⟨S10000x1, .f32⟩ : BufTy).Contents (Elt F) → (⟨S10000x1, .f32⟩ : BufTy).Contents (Elt F) → (⟨S10000x1, .f32⟩ : BufTy).Contents (Elt F)),
    unary main_v53 main_v54 (broadcastInDim S10000x1024 ![0, 1] bcast_S10000x1_S10000x1024_0_1 : (⟨S10000x1, .f32⟩ : BufTy).Contents (Elt F) → (⟨S10000x1024, .f32⟩ : BufTy).Contents (Elt F)),
    binary main_v45 main_v54 main_v55 (subf : (⟨S10000x1024, .f32⟩ : BufTy).Contents (Elt F) → (⟨S10000x1024, .f32⟩ : BufTy).Contents (Elt F) → (⟨S10000x1024, .f32⟩ : BufTy).Contents (Elt F)),
    binary main_v55 main_v55 main_v56 (mulf : (⟨S10000x1024, .f32⟩ : BufTy).Contents (Elt F) → (⟨S10000x1024, .f32⟩ : BufTy).Contents (Elt F) → (⟨S10000x1024, .f32⟩ : BufTy).Contents (Elt F)),
    nullary main_cst_10 (constant S_ .f32 0x00000000#32),
    binary main_v56 main_cst_10 main_v57 ((fun x v => Host.reduceAdd x v reducesTo_S10000x1024_S10000_d1 h_S_) : (⟨S10000x1024, .f32⟩ : BufTy).Contents (Elt F) → (⟨S_, .f32⟩ : BufTy).Contents (Elt F) → (⟨S10000, .f32⟩ : BufTy).Contents (Elt F)),
    unary main_v57 main_v58 (broadcastInDim S10000x1 ![0] bcast_S10000_S10000x1_0 : (⟨S10000, .f32⟩ : BufTy).Contents (Elt F) → (⟨S10000x1, .f32⟩ : BufTy).Contents (Elt F)),
    nullary main_cst_11 (constant S_ .f32 0x44800000#32),
    unary main_cst_11 main_v59 (broadcastInDim S10000x1 ![] bcast_S_S10000x1 : (⟨S_, .f32⟩ : BufTy).Contents (Elt F) → (⟨S10000x1, .f32⟩ : BufTy).Contents (Elt F)),
    binary main_v58 main_v59 main_v60 (Host.divf : (⟨S10000x1, .f32⟩ : BufTy).Contents (Elt F) → (⟨S10000x1, .f32⟩ : BufTy).Contents (Elt F) → (⟨S10000x1, .f32⟩ : BufTy).Contents (Elt F)),
    unary main_v53 main_v61 (broadcastInDim S10000x1024 ![0, 1] bcast_S10000x1_S10000x1024_0_1 : (⟨S10000x1, .f32⟩ : BufTy).Contents (Elt F) → (⟨S10000x1024, .f32⟩ : BufTy).Contents (Elt F)),
    binary main_v45 main_v61 main_v62 (subf : (⟨S10000x1024, .f32⟩ : BufTy).Contents (Elt F) → (⟨S10000x1024, .f32⟩ : BufTy).Contents (Elt F) → (⟨S10000x1024, .f32⟩ : BufTy).Contents (Elt F)),
    nullary main_cst_12 (constant S_ .f32 0x3727C5AC#32),
    unary main_cst_12 main_v63 (broadcastInDim S10000x1 ![] bcast_S_S10000x1 : (⟨S_, .f32⟩ : BufTy).Contents (Elt F) → (⟨S10000x1, .f32⟩ : BufTy).Contents (Elt F)),
    binary main_v60 main_v63 main_v64 (addf : (⟨S10000x1, .f32⟩ : BufTy).Contents (Elt F) → (⟨S10000x1, .f32⟩ : BufTy).Contents (Elt F) → (⟨S10000x1, .f32⟩ : BufTy).Contents (Elt F)),
    unary main_v64 main_v65 (Host.rsqrt : (⟨S10000x1, .f32⟩ : BufTy).Contents (Elt F) → (⟨S10000x1, .f32⟩ : BufTy).Contents (Elt F)),
    unary main_v65 main_v66 (broadcastInDim S10000x1024 ![0, 1] bcast_S10000x1_S10000x1024_0_1 : (⟨S10000x1, .f32⟩ : BufTy).Contents (Elt F) → (⟨S10000x1024, .f32⟩ : BufTy).Contents (Elt F)),
    binary main_v62 main_v66 main_v67 (mulf : (⟨S10000x1024, .f32⟩ : BufTy).Contents (Elt F) → (⟨S10000x1024, .f32⟩ : BufTy).Contents (Elt F) → (⟨S10000x1024, .f32⟩ : BufTy).Contents (Elt F)),
    unary main_v47 main_v68 (broadcastInDim S1x1024 ![1] bcast_S1024_S1x1024_1 : (⟨S1024, .f32⟩ : BufTy).Contents (Elt F) → (⟨S1x1024, .f32⟩ : BufTy).Contents (Elt F)),
    unary main_v68 main_v69 (broadcastInDim S10000x1024 ![0, 1] bcast_S1x1024_S10000x1024_0_1 : (⟨S1x1024, .f32⟩ : BufTy).Contents (Elt F) → (⟨S10000x1024, .f32⟩ : BufTy).Contents (Elt F)),
    binary main_v67 main_v69 main_v70 (mulf : (⟨S10000x1024, .f32⟩ : BufTy).Contents (Elt F) → (⟨S10000x1024, .f32⟩ : BufTy).Contents (Elt F) → (⟨S10000x1024, .f32⟩ : BufTy).Contents (Elt F)),
    unary main_v49 main_v71 (broadcastInDim S1x1024 ![1] bcast_S1024_S1x1024_1 : (⟨S1024, .f32⟩ : BufTy).Contents (Elt F) → (⟨S1x1024, .f32⟩ : BufTy).Contents (Elt F)),
    unary main_v71 main_v72 (broadcastInDim S10000x1024 ![0, 1] bcast_S1x1024_S10000x1024_0_1 : (⟨S1x1024, .f32⟩ : BufTy).Contents (Elt F) → (⟨S10000x1024, .f32⟩ : BufTy).Contents (Elt F)),
    binary main_v70 main_v72 main_v73 (addf : (⟨S10000x1024, .f32⟩ : BufTy).Contents (Elt F) → (⟨S10000x1024, .f32⟩ : BufTy).Contents (Elt F) → (⟨S10000x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x1024, .f32⟩) main_call0_v0) (broadcastInDim S10000x1024 ![] bcast_S_S10000x1024),
    TRef.binary (TRef.of (T := ⟨S10000x1024, .f32⟩) main_v73) (TRef.of (T := ⟨S10000x1024, .f32⟩) main_call0_v0) (TRef.of (T := ⟨S10000x1024, .f32⟩) main_v74) maximumf,
    unary main_arg5 main_v75 ((extractStridedSlice S1x1024x1024 ![0, 0, 0] · slices_S3x1024x1024_S1x1024x1024_0_0_0) : (⟨S3x1024x1024, .f32⟩ : BufTy).Contents (Elt F) → (⟨S1x1024x1024, .f32⟩ : BufTy).Contents (Elt F)),
    reshape main_v75 main_v76 rfl shapeCasts_S1x1024x1024_S1024x1024,
    unary main_arg6 main_v77 ((extractStridedSlice S1x1024 ![0, 0] · slices_S3x1024_S1x1024_0_0) : (⟨S3x1024, .f32⟩ : BufTy).Contents (Elt F) → (⟨S1x1024, .f32⟩ : BufTy).Contents (Elt F)),
    reshape main_v77 main_v78 rfl shapeCasts_S1x1024_S1024,
    binary main_v74 main_v76 main_v79 ((fun l r => Host.dotGeneral dot_S10000x1024_S1024x1024_S10000x1024_1_0_0_1_n_n none l r) : (⟨S10000x1024, .f32⟩ : BufTy).Contents (Elt F) → (⟨S1024x1024, .f32⟩ : BufTy).Contents (Elt F) → (⟨S10000x1024, .f32⟩ : BufTy).Contents (Elt F)),
    nullary main_c_13 (constantI S_ 32 0#32),
    unary main_c_13 main_v80 (broadcastInDim S170000 ![] bcast_S_S170000 : (⟨S_, .i32⟩ : BufTy).Contents (Elt F) → (⟨S170000, .i32⟩ : BufTy).Contents (Elt F)),
    binary main_v3 main_v80 main_v81 (cmpi .slt : (⟨S170000, .i32⟩ : BufTy).Contents (Elt F) → (⟨S170000, .i32⟩ : BufTy).Contents (Elt F) → (⟨S170000, .i1⟩ : BufTy).Contents (Elt F)),
    nullary main_c_14 (constantI S_ 32 10000#32),
    unary main_c_14 main_v82 (broadcastInDim S170000 ![] bcast_S_S170000 : (⟨S_, .i32⟩ : BufTy).Contents (Elt F) → (⟨S170000, .i32⟩ : BufTy).Contents (Elt F)),
    binary main_v3 main_v82 main_v83 (addi : (⟨S170000, .i32⟩ : BufTy).Contents (Elt F) → (⟨S170000, .i32⟩ : BufTy).Contents (Elt F) → (⟨S170000, .i32⟩ : BufTy).Contents (Elt F)),
    ternary main_v81 main_v83 main_v3 main_v84 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v84 main_v85 (broadcastInDim S170000x1 ![0] bcast_S170000_S170000x1_0 : (⟨S170000, .i32⟩ : BufTy).Contents (Elt F) → (⟨S170000x1, .i32⟩ : BufTy).Contents (Elt F)),
    binary main_v79 main_v85 main_v86 ((fun x i => Host.gather gather_S10000x1024_S170000x1_S170000x1024_1_0_n_n_0_1_11024 x i) : (⟨S10000x1024, .f32⟩ : BufTy).Contents (Elt F) → (⟨S170000x1, .i32⟩ : BufTy).Contents (Elt F) → (⟨S170000x1024, .f32⟩ : BufTy).Contents (Elt F)),
    unary main_v29 main_v87 (broadcastInDim S170000x1024 ![0, 1] bcast_S170000x1_S170000x1024_0_1 : (⟨S170000x1, .f32⟩ : BufTy).Contents (Elt F) → (⟨S170000x1024, .f32⟩ : BufTy).Contents (Elt F)),
    binary main_v86 main_v87 main_v88 (mulf : (⟨S170000x1024, .f32⟩ : BufTy).Contents (Elt F) → (⟨S170000x1024, .f32⟩ : BufTy).Contents (Elt F) → (⟨S170000x1024, .f32⟩ : BufTy).Contents (Elt F)),
    nullary main_cst_15 (constant S_ .f32 0x00000000#32),
    unary main_cst_15 main_v89 (broadcastInDim S10000x1024 ![] bcast_S_S10000x1024 : (⟨S_, .f32⟩ : BufTy).Contents (Elt F) → (⟨S10000x1024, .f32⟩ : BufTy).Contents (Elt F)),
    unary main_v6 main_v90 (broadcastInDim S170000x1 ![0] bcast_S170000_S170000x1_0 : (⟨S170000, .i32⟩ : BufTy).Contents (Elt F) → (⟨S170000x1, .i32⟩ : BufTy).Contents (Elt F)),
    ternary main_v89 main_v90 main_v88 main_v91 ((fun x i u => Host.scatterAdd scatter_S10000x1024_S170000x1_S170000x1024_1_0_0_1 x i u) : (⟨S10000x1024, .f32⟩ : BufTy).Contents (Elt F) → (⟨S170000x1, .i32⟩ : BufTy).Contents (Elt F) → (⟨S170000x1024, .f32⟩ : BufTy).Contents (Elt F) → (⟨S10000x1024, .f32⟩ : BufTy).Contents (Elt F)),
    unary main_v78 main_v92 (broadcastInDim S1x1024 ![1] bcast_S1024_S1x1024_1 : (⟨S1024, .f32⟩ : BufTy).Contents (Elt F) → (⟨S1x1024, .f32⟩ : BufTy).Contents (Elt F)),
    unary main_v92 main_v93 (broadcastInDim S10000x1024 ![0, 1] bcast_S1x1024_S10000x1024_0_1 : (⟨S1x1024, .f32⟩ : BufTy).Contents (Elt F) → (⟨S10000x1024, .f32⟩ : BufTy).Contents (Elt F)),
    binary main_v91 main_v93 main_v94 (addf : (⟨S10000x1024, .f32⟩ : BufTy).Contents (Elt F) → (⟨S10000x1024, .f32⟩ : BufTy).Contents (Elt F) → (⟨S10000x1024, .f32⟩ : BufTy).Contents (Elt F)),
    binary main_v94 main_v45 main_v95 (addf : (⟨S10000x1024, .f32⟩ : BufTy).Contents (Elt F) → (⟨S10000x1024, .f32⟩ : BufTy).Contents (Elt F) → (⟨S10000x1024, .f32⟩ : BufTy).Contents (Elt F)),
    unary main_arg7 main_v96 ((extractStridedSlice S1x1024 ![1, 0] · slices_S4x1024_S1x1024_1_0) : (⟨S4x1024, .f32⟩ : BufTy).Contents (Elt F) → (⟨S1x1024, .f32⟩ : BufTy).Contents (Elt F)),
    reshape main_v96 main_v97 rfl shapeCasts_S1x1024_S1024,
    unary main_arg8 main_v98 ((extractStridedSlice S1x1024 ![1, 0] · slices_S4x1024_S1x1024_1_0) : (⟨S4x1024, .f32⟩ : BufTy).Contents (Elt F) → (⟨S1x1024, .f32⟩ : BufTy).Contents (Elt F)),
    reshape main_v98 main_v99 rfl shapeCasts_S1x1024_S1024,
    nullary main_cst_16 (constant S_ .f32 0x00000000#32),
    binary main_v95 main_cst_16 main_v100 ((fun x v => Host.reduceAdd x v reducesTo_S10000x1024_S10000_d1 h_S_) : (⟨S10000x1024, .f32⟩ : BufTy).Contents (Elt F) → (⟨S_, .f32⟩ : BufTy).Contents (Elt F) → (⟨S10000, .f32⟩ : BufTy).Contents (Elt F)),
    unary main_v100 main_v101 (broadcastInDim S10000x1 ![0] bcast_S10000_S10000x1_0 : (⟨S10000, .f32⟩ : BufTy).Contents (Elt F) → (⟨S10000x1, .f32⟩ : BufTy).Contents (Elt F)),
    nullary main_cst_17 (constant S_ .f32 0x44800000#32),
    unary main_cst_17 main_v102 (broadcastInDim S10000x1 ![] bcast_S_S10000x1 : (⟨S_, .f32⟩ : BufTy).Contents (Elt F) → (⟨S10000x1, .f32⟩ : BufTy).Contents (Elt F)),
    binary main_v101 main_v102 main_v103 (Host.divf : (⟨S10000x1, .f32⟩ : BufTy).Contents (Elt F) → (⟨S10000x1, .f32⟩ : BufTy).Contents (Elt F) → (⟨S10000x1, .f32⟩ : BufTy).Contents (Elt F)),
    unary main_v103 main_v104 (broadcastInDim S10000x1024 ![0, 1] bcast_S10000x1_S10000x1024_0_1 : (⟨S10000x1, .f32⟩ : BufTy).Contents (Elt F) → (⟨S10000x1024, .f32⟩ : BufTy).Contents (Elt F)),
    binary main_v95 main_v104 main_v105 (subf : (⟨S10000x1024, .f32⟩ : BufTy).Contents (Elt F) → (⟨S10000x1024, .f32⟩ : BufTy).Contents (Elt F) → (⟨S10000x1024, .f32⟩ : BufTy).Contents (Elt F)),
    binary main_v105 main_v105 main_v106 (mulf : (⟨S10000x1024, .f32⟩ : BufTy).Contents (Elt F) → (⟨S10000x1024, .f32⟩ : BufTy).Contents (Elt F) → (⟨S10000x1024, .f32⟩ : BufTy).Contents (Elt F)),
    nullary main_cst_18 (constant S_ .f32 0x00000000#32),
    binary main_v106 main_cst_18 main_v107 ((fun x v => Host.reduceAdd x v reducesTo_S10000x1024_S10000_d1 h_S_) : (⟨S10000x1024, .f32⟩ : BufTy).Contents (Elt F) → (⟨S_, .f32⟩ : BufTy).Contents (Elt F) → (⟨S10000, .f32⟩ : BufTy).Contents (Elt F)),
    unary main_v107 main_v108 (broadcastInDim S10000x1 ![0] bcast_S10000_S10000x1_0 : (⟨S10000, .f32⟩ : BufTy).Contents (Elt F) → (⟨S10000x1, .f32⟩ : BufTy).Contents (Elt F)),
    nullary main_cst_19 (constant S_ .f32 0x44800000#32),
    unary main_cst_19 main_v109 (broadcastInDim S10000x1 ![] bcast_S_S10000x1 : (⟨S_, .f32⟩ : BufTy).Contents (Elt F) → (⟨S10000x1, .f32⟩ : BufTy).Contents (Elt F)),
    binary main_v108 main_v109 main_v110 (Host.divf : (⟨S10000x1, .f32⟩ : BufTy).Contents (Elt F) → (⟨S10000x1, .f32⟩ : BufTy).Contents (Elt F) → (⟨S10000x1, .f32⟩ : BufTy).Contents (Elt F)),
    unary main_v103 main_v111 (broadcastInDim S10000x1024 ![0, 1] bcast_S10000x1_S10000x1024_0_1 : (⟨S10000x1, .f32⟩ : BufTy).Contents (Elt F) → (⟨S10000x1024, .f32⟩ : BufTy).Contents (Elt F)),
    binary main_v95 main_v111 main_v112 (subf : (⟨S10000x1024, .f32⟩ : BufTy).Contents (Elt F) → (⟨S10000x1024, .f32⟩ : BufTy).Contents (Elt F) → (⟨S10000x1024, .f32⟩ : BufTy).Contents (Elt F)),
    nullary main_cst_20 (constant S_ .f32 0x3727C5AC#32),
    unary main_cst_20 main_v113 (broadcastInDim S10000x1 ![] bcast_S_S10000x1 : (⟨S_, .f32⟩ : BufTy).Contents (Elt F) → (⟨S10000x1, .f32⟩ : BufTy).Contents (Elt F)),
    binary main_v110 main_v113 main_v114 (addf : (⟨S10000x1, .f32⟩ : BufTy).Contents (Elt F) → (⟨S10000x1, .f32⟩ : BufTy).Contents (Elt F) → (⟨S10000x1, .f32⟩ : BufTy).Contents (Elt F)),
    unary main_v114 main_v115 (Host.rsqrt : (⟨S10000x1, .f32⟩ : BufTy).Contents (Elt F) → (⟨S10000x1, .f32⟩ : BufTy).Contents (Elt F)),
    unary main_v115 main_v116 (broadcastInDim S10000x1024 ![0, 1] bcast_S10000x1_S10000x1024_0_1 : (⟨S10000x1, .f32⟩ : BufTy).Contents (Elt F) → (⟨S10000x1024, .f32⟩ : BufTy).Contents (Elt F)),
    binary main_v112 main_v116 main_v117 (mulf : (⟨S10000x1024, .f32⟩ : BufTy).Contents (Elt F) → (⟨S10000x1024, .f32⟩ : BufTy).Contents (Elt F) → (⟨S10000x1024, .f32⟩ : BufTy).Contents (Elt F)),
    unary main_v97 main_v118 (broadcastInDim S1x1024 ![1] bcast_S1024_S1x1024_1 : (⟨S1024, .f32⟩ : BufTy).Contents (Elt F) → (⟨S1x1024, .f32⟩ : BufTy).Contents (Elt F)),
    unary main_v118 main_v119 (broadcastInDim S10000x1024 ![0, 1] bcast_S1x1024_S10000x1024_0_1 : (⟨S1x1024, .f32⟩ : BufTy).Contents (Elt F) → (⟨S10000x1024, .f32⟩ : BufTy).Contents (Elt F)),
    binary main_v117 main_v119 main_v120 (mulf : (⟨S10000x1024, .f32⟩ : BufTy).Contents (Elt F) → (⟨S10000x1024, .f32⟩ : BufTy).Contents (Elt F) → (⟨S10000x1024, .f32⟩ : BufTy).Contents (Elt F)),
    unary main_v99 main_v121 (broadcastInDim S1x1024 ![1] bcast_S1024_S1x1024_1 : (⟨S1024, .f32⟩ : BufTy).Contents (Elt F) → (⟨S1x1024, .f32⟩ : BufTy).Contents (Elt F)),
    unary main_v121 main_v122 (broadcastInDim S10000x1024 ![0, 1] bcast_S1x1024_S10000x1024_0_1 : (⟨S1x1024, .f32⟩ : BufTy).Contents (Elt F) → (⟨S10000x1024, .f32⟩ : BufTy).Contents (Elt F)),
    binary main_v120 main_v122 main_v123 (addf : (⟨S10000x1024, .f32⟩ : BufTy).Contents (Elt F) → (⟨S10000x1024, .f32⟩ : BufTy).Contents (Elt F) → (⟨S10000x1024, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x1024, .f32⟩) main_call1_v0) (broadcastInDim S10000x1024 ![] bcast_S_S10000x1024),
    TRef.binary (TRef.of (T := ⟨S10000x1024, .f32⟩) main_v123) (TRef.of (T := ⟨S10000x1024, .f32⟩) main_call1_v0) (TRef.of (T := ⟨S10000x1024, .f32⟩) main_v124) maximumf,
    unary main_arg5 main_v125 ((extractStridedSlice S1x1024x1024 ![1, 0, 0] · slices_S3x1024x1024_S1x1024x1024_1_0_0) : (⟨S3x1024x1024, .f32⟩ : BufTy).Contents (Elt F) → (⟨S1x1024x1024, .f32⟩ : BufTy).Contents (Elt F)),
    reshape main_v125 main_v126 rfl shapeCasts_S1x1024x1024_S1024x1024,
    unary main_arg6 main_v127 ((extractStridedSlice S1x1024 ![1, 0] · slices_S3x1024_S1x1024_1_0) : (⟨S3x1024, .f32⟩ : BufTy).Contents (Elt F) → (⟨S1x1024, .f32⟩ : BufTy).Contents (Elt F)),
    reshape main_v127 main_v128 rfl shapeCasts_S1x1024_S1024,
    binary main_v124 main_v126 main_v129 ((fun l r => Host.dotGeneral dot_S10000x1024_S1024x1024_S10000x1024_1_0_0_1_n_n none l r) : (⟨S10000x1024, .f32⟩ : BufTy).Contents (Elt F) → (⟨S1024x1024, .f32⟩ : BufTy).Contents (Elt F) → (⟨S10000x1024, .f32⟩ : BufTy).Contents (Elt F)),
    nullary main_c_21 (constantI S_ 32 0#32),
    unary main_c_21 main_v130 (broadcastInDim S170000 ![] bcast_S_S170000 : (⟨S_, .i32⟩ : BufTy).Contents (Elt F) → (⟨S170000, .i32⟩ : BufTy).Contents (Elt F)),
    binary main_v3 main_v130 main_v131 (cmpi .slt : (⟨S170000, .i32⟩ : BufTy).Contents (Elt F) → (⟨S170000, .i32⟩ : BufTy).Contents (Elt F) → (⟨S170000, .i1⟩ : BufTy).Contents (Elt F)),
    nullary main_c_22 (constantI S_ 32 10000#32),
    unary main_c_22 main_v132 (broadcastInDim S170000 ![] bcast_S_S170000 : (⟨S_, .i32⟩ : BufTy).Contents (Elt F) → (⟨S170000, .i32⟩ : BufTy).Contents (Elt F)),
    binary main_v3 main_v132 main_v133 (addi : (⟨S170000, .i32⟩ : BufTy).Contents (Elt F) → (⟨S170000, .i32⟩ : BufTy).Contents (Elt F) → (⟨S170000, .i32⟩ : BufTy).Contents (Elt F)),
    ternary main_v131 main_v133 main_v3 main_v134 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v134 main_v135 (broadcastInDim S170000x1 ![0] bcast_S170000_S170000x1_0 : (⟨S170000, .i32⟩ : BufTy).Contents (Elt F) → (⟨S170000x1, .i32⟩ : BufTy).Contents (Elt F)),
    binary main_v129 main_v135 main_v136 ((fun x i => Host.gather gather_S10000x1024_S170000x1_S170000x1024_1_0_n_n_0_1_11024 x i) : (⟨S10000x1024, .f32⟩ : BufTy).Contents (Elt F) → (⟨S170000x1, .i32⟩ : BufTy).Contents (Elt F) → (⟨S170000x1024, .f32⟩ : BufTy).Contents (Elt F)),
    unary main_v29 main_v137 (broadcastInDim S170000x1024 ![0, 1] bcast_S170000x1_S170000x1024_0_1 : (⟨S170000x1, .f32⟩ : BufTy).Contents (Elt F) → (⟨S170000x1024, .f32⟩ : BufTy).Contents (Elt F)),
    binary main_v136 main_v137 main_v138 (mulf : (⟨S170000x1024, .f32⟩ : BufTy).Contents (Elt F) → (⟨S170000x1024, .f32⟩ : BufTy).Contents (Elt F) → (⟨S170000x1024, .f32⟩ : BufTy).Contents (Elt F)),
    nullary main_cst_23 (constant S_ .f32 0x00000000#32),
    unary main_cst_23 main_v139 (broadcastInDim S10000x1024 ![] bcast_S_S10000x1024 : (⟨S_, .f32⟩ : BufTy).Contents (Elt F) → (⟨S10000x1024, .f32⟩ : BufTy).Contents (Elt F)),
    unary main_v6 main_v140 (broadcastInDim S170000x1 ![0] bcast_S170000_S170000x1_0 : (⟨S170000, .i32⟩ : BufTy).Contents (Elt F) → (⟨S170000x1, .i32⟩ : BufTy).Contents (Elt F)),
    ternary main_v139 main_v140 main_v138 main_v141 ((fun x i u => Host.scatterAdd scatter_S10000x1024_S170000x1_S170000x1024_1_0_0_1 x i u) : (⟨S10000x1024, .f32⟩ : BufTy).Contents (Elt F) → (⟨S170000x1, .i32⟩ : BufTy).Contents (Elt F) → (⟨S170000x1024, .f32⟩ : BufTy).Contents (Elt F) → (⟨S10000x1024, .f32⟩ : BufTy).Contents (Elt F)),
    unary main_v128 main_v142 (broadcastInDim S1x1024 ![1] bcast_S1024_S1x1024_1 : (⟨S1024, .f32⟩ : BufTy).Contents (Elt F) → (⟨S1x1024, .f32⟩ : BufTy).Contents (Elt F)),
    unary main_v142 main_v143 (broadcastInDim S10000x1024 ![0, 1] bcast_S1x1024_S10000x1024_0_1 : (⟨S1x1024, .f32⟩ : BufTy).Contents (Elt F) → (⟨S10000x1024, .f32⟩ : BufTy).Contents (Elt F)),
    binary main_v141 main_v143 main_v144 (addf : (⟨S10000x1024, .f32⟩ : BufTy).Contents (Elt F) → (⟨S10000x1024, .f32⟩ : BufTy).Contents (Elt F) → (⟨S10000x1024, .f32⟩ : BufTy).Contents (Elt F)),
    binary main_v144 main_v45 main_v145 (addf : (⟨S10000x1024, .f32⟩ : BufTy).Contents (Elt F) → (⟨S10000x1024, .f32⟩ : BufTy).Contents (Elt F) → (⟨S10000x1024, .f32⟩ : BufTy).Contents (Elt F)),
    unary main_arg7 main_v146 ((extractStridedSlice S1x1024 ![2, 0] · slices_S4x1024_S1x1024_2_0) : (⟨S4x1024, .f32⟩ : BufTy).Contents (Elt F) → (⟨S1x1024, .f32⟩ : BufTy).Contents (Elt F)),
    reshape main_v146 main_v147 rfl shapeCasts_S1x1024_S1024,
    unary main_arg8 main_v148 ((extractStridedSlice S1x1024 ![2, 0] · slices_S4x1024_S1x1024_2_0) : (⟨S4x1024, .f32⟩ : BufTy).Contents (Elt F) → (⟨S1x1024, .f32⟩ : BufTy).Contents (Elt F)),
    reshape main_v148 main_v149 rfl shapeCasts_S1x1024_S1024,
    nullary main_cst_24 (constant S_ .f32 0x00000000#32),
    binary main_v145 main_cst_24 main_v150 ((fun x v => Host.reduceAdd x v reducesTo_S10000x1024_S10000_d1 h_S_) : (⟨S10000x1024, .f32⟩ : BufTy).Contents (Elt F) → (⟨S_, .f32⟩ : BufTy).Contents (Elt F) → (⟨S10000, .f32⟩ : BufTy).Contents (Elt F)),
    unary main_v150 main_v151 (broadcastInDim S10000x1 ![0] bcast_S10000_S10000x1_0 : (⟨S10000, .f32⟩ : BufTy).Contents (Elt F) → (⟨S10000x1, .f32⟩ : BufTy).Contents (Elt F)),
    nullary main_cst_25 (constant S_ .f32 0x44800000#32),
    unary main_cst_25 main_v152 (broadcastInDim S10000x1 ![] bcast_S_S10000x1 : (⟨S_, .f32⟩ : BufTy).Contents (Elt F) → (⟨S10000x1, .f32⟩ : BufTy).Contents (Elt F)),
    binary main_v151 main_v152 main_v153 (Host.divf : (⟨S10000x1, .f32⟩ : BufTy).Contents (Elt F) → (⟨S10000x1, .f32⟩ : BufTy).Contents (Elt F) → (⟨S10000x1, .f32⟩ : BufTy).Contents (Elt F)),
    unary main_v153 main_v154 (broadcastInDim S10000x1024 ![0, 1] bcast_S10000x1_S10000x1024_0_1 : (⟨S10000x1, .f32⟩ : BufTy).Contents (Elt F) → (⟨S10000x1024, .f32⟩ : BufTy).Contents (Elt F)),
    binary main_v145 main_v154 main_v155 (subf : (⟨S10000x1024, .f32⟩ : BufTy).Contents (Elt F) → (⟨S10000x1024, .f32⟩ : BufTy).Contents (Elt F) → (⟨S10000x1024, .f32⟩ : BufTy).Contents (Elt F)),
    binary main_v155 main_v155 main_v156 (mulf : (⟨S10000x1024, .f32⟩ : BufTy).Contents (Elt F) → (⟨S10000x1024, .f32⟩ : BufTy).Contents (Elt F) → (⟨S10000x1024, .f32⟩ : BufTy).Contents (Elt F)),
    nullary main_cst_26 (constant S_ .f32 0x00000000#32),
    binary main_v156 main_cst_26 main_v157 ((fun x v => Host.reduceAdd x v reducesTo_S10000x1024_S10000_d1 h_S_) : (⟨S10000x1024, .f32⟩ : BufTy).Contents (Elt F) → (⟨S_, .f32⟩ : BufTy).Contents (Elt F) → (⟨S10000, .f32⟩ : BufTy).Contents (Elt F)),
    unary main_v157 main_v158 (broadcastInDim S10000x1 ![0] bcast_S10000_S10000x1_0 : (⟨S10000, .f32⟩ : BufTy).Contents (Elt F) → (⟨S10000x1, .f32⟩ : BufTy).Contents (Elt F)),
    nullary main_cst_27 (constant S_ .f32 0x44800000#32),
    unary main_cst_27 main_v159 (broadcastInDim S10000x1 ![] bcast_S_S10000x1 : (⟨S_, .f32⟩ : BufTy).Contents (Elt F) → (⟨S10000x1, .f32⟩ : BufTy).Contents (Elt F)),
    binary main_v158 main_v159 main_v160 (Host.divf : (⟨S10000x1, .f32⟩ : BufTy).Contents (Elt F) → (⟨S10000x1, .f32⟩ : BufTy).Contents (Elt F) → (⟨S10000x1, .f32⟩ : BufTy).Contents (Elt F)),
    unary main_v153 main_v161 (broadcastInDim S10000x1024 ![0, 1] bcast_S10000x1_S10000x1024_0_1 : (⟨S10000x1, .f32⟩ : BufTy).Contents (Elt F) → (⟨S10000x1024, .f32⟩ : BufTy).Contents (Elt F)),
    binary main_v145 main_v161 main_v162 (subf : (⟨S10000x1024, .f32⟩ : BufTy).Contents (Elt F) → (⟨S10000x1024, .f32⟩ : BufTy).Contents (Elt F) → (⟨S10000x1024, .f32⟩ : BufTy).Contents (Elt F)),
    nullary main_cst_28 (constant S_ .f32 0x3727C5AC#32),
    unary main_cst_28 main_v163 (broadcastInDim S10000x1 ![] bcast_S_S10000x1 : (⟨S_, .f32⟩ : BufTy).Contents (Elt F) → (⟨S10000x1, .f32⟩ : BufTy).Contents (Elt F)),
    binary main_v160 main_v163 main_v164 (addf : (⟨S10000x1, .f32⟩ : BufTy).Contents (Elt F) → (⟨S10000x1, .f32⟩ : BufTy).Contents (Elt F) → (⟨S10000x1, .f32⟩ : BufTy).Contents (Elt F)),
    unary main_v164 main_v165 (Host.rsqrt : (⟨S10000x1, .f32⟩ : BufTy).Contents (Elt F) → (⟨S10000x1, .f32⟩ : BufTy).Contents (Elt F)),
    unary main_v165 main_v166 (broadcastInDim S10000x1024 ![0, 1] bcast_S10000x1_S10000x1024_0_1 : (⟨S10000x1, .f32⟩ : BufTy).Contents (Elt F) → (⟨S10000x1024, .f32⟩ : BufTy).Contents (Elt F)),
    binary main_v162 main_v166 main_v167 (mulf : (⟨S10000x1024, .f32⟩ : BufTy).Contents (Elt F) → (⟨S10000x1024, .f32⟩ : BufTy).Contents (Elt F) → (⟨S10000x1024, .f32⟩ : BufTy).Contents (Elt F)),
    unary main_v147 main_v168 (broadcastInDim S1x1024 ![1] bcast_S1024_S1x1024_1 : (⟨S1024, .f32⟩ : BufTy).Contents (Elt F) → (⟨S1x1024, .f32⟩ : BufTy).Contents (Elt F)),
    unary main_v168 main_v169 (broadcastInDim S10000x1024 ![0, 1] bcast_S1x1024_S10000x1024_0_1 : (⟨S1x1024, .f32⟩ : BufTy).Contents (Elt F) → (⟨S10000x1024, .f32⟩ : BufTy).Contents (Elt F)),
    binary main_v167 main_v169 main_v170 (mulf : (⟨S10000x1024, .f32⟩ : BufTy).Contents (Elt F) → (⟨S10000x1024, .f32⟩ : BufTy).Contents (Elt F) → (⟨S10000x1024, .f32⟩ : BufTy).Contents (Elt F)),
    unary main_v149 main_v171 (broadcastInDim S1x1024 ![1] bcast_S1024_S1x1024_1 : (⟨S1024, .f32⟩ : BufTy).Contents (Elt F) → (⟨S1x1024, .f32⟩ : BufTy).Contents (Elt F)),
    unary main_v171 main_v172 (broadcastInDim S10000x1024 ![0, 1] bcast_S1x1024_S10000x1024_0_1 : (⟨S1x1024, .f32⟩ : BufTy).Contents (Elt F) → (⟨S10000x1024, .f32⟩ : BufTy).Contents (Elt F)),
    binary main_v170 main_v172 main_v173 (addf : (⟨S10000x1024, .f32⟩ : BufTy).Contents (Elt F) → (⟨S10000x1024, .f32⟩ : BufTy).Contents (Elt F) → (⟨S10000x1024, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S10000x1024, .f32⟩) main_call2_v0) (broadcastInDim S10000x1024 ![] bcast_S_S10000x1024),
    TRef.binary (TRef.of (T := ⟨S10000x1024, .f32⟩) main_v173) (TRef.of (T := ⟨S10000x1024, .f32⟩) main_call2_v0) (TRef.of (T := ⟨S10000x1024, .f32⟩) main_v174) maximumf,
    unary main_arg5 main_v175 ((extractStridedSlice S1x1024x1024 ![2, 0, 0] · slices_S3x1024x1024_S1x1024x1024_2_0_0) : (⟨S3x1024x1024, .f32⟩ : BufTy).Contents (Elt F) → (⟨S1x1024x1024, .f32⟩ : BufTy).Contents (Elt F)),
    reshape main_v175 main_v176 rfl shapeCasts_S1x1024x1024_S1024x1024,
    unary main_arg6 main_v177 ((extractStridedSlice S1x1024 ![2, 0] · slices_S3x1024_S1x1024_2_0) : (⟨S3x1024, .f32⟩ : BufTy).Contents (Elt F) → (⟨S1x1024, .f32⟩ : BufTy).Contents (Elt F)),
    reshape main_v177 main_v178 rfl shapeCasts_S1x1024_S1024,
    binary main_v174 main_v176 main_v179 ((fun l r => Host.dotGeneral dot_S10000x1024_S1024x1024_S10000x1024_1_0_0_1_n_n none l r) : (⟨S10000x1024, .f32⟩ : BufTy).Contents (Elt F) → (⟨S1024x1024, .f32⟩ : BufTy).Contents (Elt F) → (⟨S10000x1024, .f32⟩ : BufTy).Contents (Elt F)),
    nullary main_c_29 (constantI S_ 32 0#32),
    unary main_c_29 main_v180 (broadcastInDim S170000 ![] bcast_S_S170000 : (⟨S_, .i32⟩ : BufTy).Contents (Elt F) → (⟨S170000, .i32⟩ : BufTy).Contents (Elt F)),
    binary main_v3 main_v180 main_v181 (cmpi .slt : (⟨S170000, .i32⟩ : BufTy).Contents (Elt F) → (⟨S170000, .i32⟩ : BufTy).Contents (Elt F) → (⟨S170000, .i1⟩ : BufTy).Contents (Elt F)),
    nullary main_c_30 (constantI S_ 32 10000#32),
    unary main_c_30 main_v182 (broadcastInDim S170000 ![] bcast_S_S170000 : (⟨S_, .i32⟩ : BufTy).Contents (Elt F) → (⟨S170000, .i32⟩ : BufTy).Contents (Elt F)),
    binary main_v3 main_v182 main_v183 (addi : (⟨S170000, .i32⟩ : BufTy).Contents (Elt F) → (⟨S170000, .i32⟩ : BufTy).Contents (Elt F) → (⟨S170000, .i32⟩ : BufTy).Contents (Elt F)),
    ternary main_v181 main_v183 main_v3 main_v184 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v184 main_v185 (broadcastInDim S170000x1 ![0] bcast_S170000_S170000x1_0 : (⟨S170000, .i32⟩ : BufTy).Contents (Elt F) → (⟨S170000x1, .i32⟩ : BufTy).Contents (Elt F)),
    binary main_v179 main_v185 main_v186 ((fun x i => Host.gather gather_S10000x1024_S170000x1_S170000x1024_1_0_n_n_0_1_11024 x i) : (⟨S10000x1024, .f32⟩ : BufTy).Contents (Elt F) → (⟨S170000x1, .i32⟩ : BufTy).Contents (Elt F) → (⟨S170000x1024, .f32⟩ : BufTy).Contents (Elt F)),
    unary main_v29 main_v187 (broadcastInDim S170000x1024 ![0, 1] bcast_S170000x1_S170000x1024_0_1 : (⟨S170000x1, .f32⟩ : BufTy).Contents (Elt F) → (⟨S170000x1024, .f32⟩ : BufTy).Contents (Elt F)),
    binary main_v186 main_v187 main_v188 (mulf : (⟨S170000x1024, .f32⟩ : BufTy).Contents (Elt F) → (⟨S170000x1024, .f32⟩ : BufTy).Contents (Elt F) → (⟨S170000x1024, .f32⟩ : BufTy).Contents (Elt F)),
    nullary main_cst_31 (constant S_ .f32 0x00000000#32),
    unary main_cst_31 main_v189 (broadcastInDim S10000x1024 ![] bcast_S_S10000x1024 : (⟨S_, .f32⟩ : BufTy).Contents (Elt F) → (⟨S10000x1024, .f32⟩ : BufTy).Contents (Elt F)),
    unary main_v6 main_v190 (broadcastInDim S170000x1 ![0] bcast_S170000_S170000x1_0 : (⟨S170000, .i32⟩ : BufTy).Contents (Elt F) → (⟨S170000x1, .i32⟩ : BufTy).Contents (Elt F)),
    ternary main_v189 main_v190 main_v188 main_v191 ((fun x i u => Host.scatterAdd scatter_S10000x1024_S170000x1_S170000x1024_1_0_0_1 x i u) : (⟨S10000x1024, .f32⟩ : BufTy).Contents (Elt F) → (⟨S170000x1, .i32⟩ : BufTy).Contents (Elt F) → (⟨S170000x1024, .f32⟩ : BufTy).Contents (Elt F) → (⟨S10000x1024, .f32⟩ : BufTy).Contents (Elt F)),
    unary main_v178 main_v192 (broadcastInDim S1x1024 ![1] bcast_S1024_S1x1024_1 : (⟨S1024, .f32⟩ : BufTy).Contents (Elt F) → (⟨S1x1024, .f32⟩ : BufTy).Contents (Elt F)),
    unary main_v192 main_v193 (broadcastInDim S10000x1024 ![0, 1] bcast_S1x1024_S10000x1024_0_1 : (⟨S1x1024, .f32⟩ : BufTy).Contents (Elt F) → (⟨S10000x1024, .f32⟩ : BufTy).Contents (Elt F)),
    binary main_v191 main_v193 main_v194 (addf : (⟨S10000x1024, .f32⟩ : BufTy).Contents (Elt F) → (⟨S10000x1024, .f32⟩ : BufTy).Contents (Elt F) → (⟨S10000x1024, .f32⟩ : BufTy).Contents (Elt F)),
    binary main_v194 main_v174 main_v195 (addf : (⟨S10000x1024, .f32⟩ : BufTy).Contents (Elt F) → (⟨S10000x1024, .f32⟩ : BufTy).Contents (Elt F) → (⟨S10000x1024, .f32⟩ : BufTy).Contents (Elt F)),
    unary main_arg7 main_v196 ((extractStridedSlice S1x1024 ![3, 0] · slices_S4x1024_S1x1024_3_0) : (⟨S4x1024, .f32⟩ : BufTy).Contents (Elt F) → (⟨S1x1024, .f32⟩ : BufTy).Contents (Elt F)),
    reshape main_v196 main_v197 rfl shapeCasts_S1x1024_S1024,
    unary main_arg8 main_v198 ((extractStridedSlice S1x1024 ![3, 0] · slices_S4x1024_S1x1024_3_0) : (⟨S4x1024, .f32⟩ : BufTy).Contents (Elt F) → (⟨S1x1024, .f32⟩ : BufTy).Contents (Elt F)),
    reshape main_v198 main_v199 rfl shapeCasts_S1x1024_S1024,
    nullary main_cst_32 (constant S_ .f32 0x00000000#32),
    binary main_v195 main_cst_32 main_v200 ((fun x v => Host.reduceAdd x v reducesTo_S10000x1024_S10000_d1 h_S_) : (⟨S10000x1024, .f32⟩ : BufTy).Contents (Elt F) → (⟨S_, .f32⟩ : BufTy).Contents (Elt F) → (⟨S10000, .f32⟩ : BufTy).Contents (Elt F)),
    unary main_v200 main_v201 (broadcastInDim S10000x1 ![0] bcast_S10000_S10000x1_0 : (⟨S10000, .f32⟩ : BufTy).Contents (Elt F) → (⟨S10000x1, .f32⟩ : BufTy).Contents (Elt F)),
    nullary main_cst_33 (constant S_ .f32 0x44800000#32),
    unary main_cst_33 main_v202 (broadcastInDim S10000x1 ![] bcast_S_S10000x1 : (⟨S_, .f32⟩ : BufTy).Contents (Elt F) → (⟨S10000x1, .f32⟩ : BufTy).Contents (Elt F)),
    binary main_v201 main_v202 main_v203 (Host.divf : (⟨S10000x1, .f32⟩ : BufTy).Contents (Elt F) → (⟨S10000x1, .f32⟩ : BufTy).Contents (Elt F) → (⟨S10000x1, .f32⟩ : BufTy).Contents (Elt F)),
    unary main_v203 main_v204 (broadcastInDim S10000x1024 ![0, 1] bcast_S10000x1_S10000x1024_0_1 : (⟨S10000x1, .f32⟩ : BufTy).Contents (Elt F) → (⟨S10000x1024, .f32⟩ : BufTy).Contents (Elt F)),
    binary main_v195 main_v204 main_v205 (subf : (⟨S10000x1024, .f32⟩ : BufTy).Contents (Elt F) → (⟨S10000x1024, .f32⟩ : BufTy).Contents (Elt F) → (⟨S10000x1024, .f32⟩ : BufTy).Contents (Elt F)),
    binary main_v205 main_v205 main_v206 (mulf : (⟨S10000x1024, .f32⟩ : BufTy).Contents (Elt F) → (⟨S10000x1024, .f32⟩ : BufTy).Contents (Elt F) → (⟨S10000x1024, .f32⟩ : BufTy).Contents (Elt F)),
    nullary main_cst_34 (constant S_ .f32 0x00000000#32),
    binary main_v206 main_cst_34 main_v207 ((fun x v => Host.reduceAdd x v reducesTo_S10000x1024_S10000_d1 h_S_) : (⟨S10000x1024, .f32⟩ : BufTy).Contents (Elt F) → (⟨S_, .f32⟩ : BufTy).Contents (Elt F) → (⟨S10000, .f32⟩ : BufTy).Contents (Elt F)),
    unary main_v207 main_v208 (broadcastInDim S10000x1 ![0] bcast_S10000_S10000x1_0 : (⟨S10000, .f32⟩ : BufTy).Contents (Elt F) → (⟨S10000x1, .f32⟩ : BufTy).Contents (Elt F)),
    nullary main_cst_35 (constant S_ .f32 0x44800000#32),
    unary main_cst_35 main_v209 (broadcastInDim S10000x1 ![] bcast_S_S10000x1 : (⟨S_, .f32⟩ : BufTy).Contents (Elt F) → (⟨S10000x1, .f32⟩ : BufTy).Contents (Elt F)),
    binary main_v208 main_v209 main_v210 (Host.divf : (⟨S10000x1, .f32⟩ : BufTy).Contents (Elt F) → (⟨S10000x1, .f32⟩ : BufTy).Contents (Elt F) → (⟨S10000x1, .f32⟩ : BufTy).Contents (Elt F)),
    unary main_v203 main_v211 (broadcastInDim S10000x1024 ![0, 1] bcast_S10000x1_S10000x1024_0_1 : (⟨S10000x1, .f32⟩ : BufTy).Contents (Elt F) → (⟨S10000x1024, .f32⟩ : BufTy).Contents (Elt F)),
    binary main_v195 main_v211 main_v212 (subf : (⟨S10000x1024, .f32⟩ : BufTy).Contents (Elt F) → (⟨S10000x1024, .f32⟩ : BufTy).Contents (Elt F) → (⟨S10000x1024, .f32⟩ : BufTy).Contents (Elt F)),
    nullary main_cst_36 (constant S_ .f32 0x3727C5AC#32),
    unary main_cst_36 main_v213 (broadcastInDim S10000x1 ![] bcast_S_S10000x1 : (⟨S_, .f32⟩ : BufTy).Contents (Elt F) → (⟨S10000x1, .f32⟩ : BufTy).Contents (Elt F)),
    binary main_v210 main_v213 main_v214 (addf : (⟨S10000x1, .f32⟩ : BufTy).Contents (Elt F) → (⟨S10000x1, .f32⟩ : BufTy).Contents (Elt F) → (⟨S10000x1, .f32⟩ : BufTy).Contents (Elt F)),
    unary main_v214 main_v215 (Host.rsqrt : (⟨S10000x1, .f32⟩ : BufTy).Contents (Elt F) → (⟨S10000x1, .f32⟩ : BufTy).Contents (Elt F)),
    unary main_v215 main_v216 (broadcastInDim S10000x1024 ![0, 1] bcast_S10000x1_S10000x1024_0_1 : (⟨S10000x1, .f32⟩ : BufTy).Contents (Elt F) → (⟨S10000x1024, .f32⟩ : BufTy).Contents (Elt F)),
    binary main_v212 main_v216 main_v217 (mulf : (⟨S10000x1024, .f32⟩ : BufTy).Contents (Elt F) → (⟨S10000x1024, .f32⟩ : BufTy).Contents (Elt F) → (⟨S10000x1024, .f32⟩ : BufTy).Contents (Elt F)),
    unary main_v197 main_v218 (broadcastInDim S1x1024 ![1] bcast_S1024_S1x1024_1 : (⟨S1024, .f32⟩ : BufTy).Contents (Elt F) → (⟨S1x1024, .f32⟩ : BufTy).Contents (Elt F)),
    unary main_v218 main_v219 (broadcastInDim S10000x1024 ![0, 1] bcast_S1x1024_S10000x1024_0_1 : (⟨S1x1024, .f32⟩ : BufTy).Contents (Elt F) → (⟨S10000x1024, .f32⟩ : BufTy).Contents (Elt F)),
    binary main_v217 main_v219 main_v220 (mulf : (⟨S10000x1024, .f32⟩ : BufTy).Contents (Elt F) → (⟨S10000x1024, .f32⟩ : BufTy).Contents (Elt F) → (⟨S10000x1024, .f32⟩ : BufTy).Contents (Elt F)),
    unary main_v199 main_v221 (broadcastInDim S1x1024 ![1] bcast_S1024_S1x1024_1 : (⟨S1024, .f32⟩ : BufTy).Contents (Elt F) → (⟨S1x1024, .f32⟩ : BufTy).Contents (Elt F)),
    unary main_v221 main_v222 (broadcastInDim S10000x1024 ![0, 1] bcast_S1x1024_S10000x1024_0_1 : (⟨S1x1024, .f32⟩ : BufTy).Contents (Elt F) → (⟨S10000x1024, .f32⟩ : BufTy).Contents (Elt F)),
    binary main_v220 main_v222 main_v223 (addf : (⟨S10000x1024, .f32⟩ : BufTy).Contents (Elt F) → (⟨S10000x1024, .f32⟩ : BufTy).Contents (Elt F) → (⟨S10000x1024, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S10000x1024, .f32⟩) main_call3_v0) (broadcastInDim S10000x1024 ![] bcast_S_S10000x1024),
    TRef.binary (TRef.of (T := ⟨S10000x1024, .f32⟩) main_v223) (TRef.of (T := ⟨S10000x1024, .f32⟩) main_call3_v0) (TRef.of (T := ⟨S10000x1024, .f32⟩) main_v224) maximumf,
    nullary main_cst_37 (constant S_ .f32 0x3F800000#32),
    unary main_cst_37 main_v225 (broadcastInDim S10000 ![] bcast_S_S10000 : (⟨S_, .f32⟩ : BufTy).Contents (Elt F) → (⟨S10000, .f32⟩ : BufTy).Contents (Elt F)),
    nullary main_cst_38 (constant S_ .f32 0x00000000#32),
    unary main_cst_38 main_v226 (broadcastInDim S8 ![] bcast_S_S8 : (⟨S_, .f32⟩ : BufTy).Contents (Elt F) → (⟨S8, .f32⟩ : BufTy).Contents (Elt F)),
    unary main_arg2 main_v227 (broadcastInDim S10000x1 ![0] bcast_S10000_S10000x1_0 : (⟨S10000, .i32⟩ : BufTy).Contents (Elt F) → (⟨S10000x1, .i32⟩ : BufTy).Contents (Elt F)),
    ternary main_v226 main_v227 main_v225 main_v228 ((fun x i u => Host.scatterAdd scatter_S8_S10000x1_S10000_n_0_0_1 x i u) : (⟨S8, .f32⟩ : BufTy).Contents (Elt F) → (⟨S10000x1, .i32⟩ : BufTy).Contents (Elt F) → (⟨S10000, .f32⟩ : BufTy).Contents (Elt F) → (⟨S8, .f32⟩ : BufTy).Contents (Elt F)),
    nullary main_cst_39 (constant S_ .f32 0x00000000#32),
    unary main_cst_39 main_v229 (broadcastInDim S8x1024 ![] bcast_S_S8x1024 : (⟨S_, .f32⟩ : BufTy).Contents (Elt F) → (⟨S8x1024, .f32⟩ : BufTy).Contents (Elt F)),
    unary main_arg2 main_v230 (broadcastInDim S10000x1 ![0] bcast_S10000_S10000x1_0 : (⟨S10000, .i32⟩ : BufTy).Contents (Elt F) → (⟨S10000x1, .i32⟩ : BufTy).Contents (Elt F)),
    ternary main_v229 main_v230 main_v224 main_v231 ((fun x i u => Host.scatterAdd scatter_S8x1024_S10000x1_S10000x1024_1_0_0_1 x i u) : (⟨S8x1024, .f32⟩ : BufTy).Contents (Elt F) → (⟨S10000x1, .i32⟩ : BufTy).Contents (Elt F) → (⟨S10000x1024, .f32⟩ : BufTy).Contents (Elt F) → (⟨S8x1024, .f32⟩ : BufTy).Contents (Elt F)),
    nullary main_cst_40 (constant S_ .f32 0x3F800000#32),
    unary main_cst_40 main_v232 (broadcastInDim S8 ![] bcast_S_S8 : (⟨S_, .f32⟩ : BufTy).Contents (Elt F) → (⟨S8, .f32⟩ : BufTy).Contents (Elt F)),
    binary main_v228 main_v232 main_v233 (maximumf : (⟨S8, .f32⟩ : BufTy).Contents (Elt F) → (⟨S8, .f32⟩ : BufTy).Contents (Elt F) → (⟨S8, .f32⟩ : BufTy).Contents (Elt F)),
    unary main_v233 main_v234 (broadcastInDim S8x1 ![0] bcast_S8_S8x1_0 : (⟨S8, .f32⟩ : BufTy).Contents (Elt F) → (⟨S8x1, .f32⟩ : BufTy).Contents (Elt F)),
    unary main_v234 main_v235 (broadcastInDim S8x1024 ![0, 1] bcast_S8x1_S8x1024_0_1 : (⟨S8x1, .f32⟩ : BufTy).Contents (Elt F) → (⟨S8x1024, .f32⟩ : BufTy).Contents (Elt F)),
    binary main_v231 main_v235 main_v236 (Host.divf : (⟨S8x1024, .f32⟩ : BufTy).Contents (Elt F) → (⟨S8x1024, .f32⟩ : BufTy).Contents (Elt F) → (⟨S8x1024, .f32⟩ : BufTy).Contents (Elt F)),
    unary main_arg9 main_v237 ((extractStridedSlice S1x1024x1024 ![0, 0, 0] · slices_S6x1024x1024_S1x1024x1024_0_0_0) : (⟨S6x1024x1024, .f32⟩ : BufTy).Contents (Elt F) → (⟨S1x1024x1024, .f32⟩ : BufTy).Contents (Elt F)),
    reshape main_v237 main_v238 rfl shapeCasts_S1x1024x1024_S1024x1024,
    binary main_v236 main_v238 main_v239 ((fun l r => Host.dotGeneral dot_S8x1024_S1024x1024_S8x1024_1_0_0_1_n_n none l r) : (⟨S8x1024, .f32⟩ : BufTy).Contents (Elt F) → (⟨S1024x1024, .f32⟩ : BufTy).Contents (Elt F) → (⟨S8x1024, .f32⟩ : BufTy).Contents (Elt F)),
    unary main_arg10 main_v240 ((extractStridedSlice S1x1024 ![0, 0] · slices_S6x1024_S1x1024_0_0) : (⟨S6x1024, .f32⟩ : BufTy).Contents (Elt F) → (⟨S1x1024, .f32⟩ : BufTy).Contents (Elt F)),
    reshape main_v240 main_v241 rfl shapeCasts_S1x1024_S1024,
    unary main_v241 main_v242 (broadcastInDim S1x1024 ![1] bcast_S1024_S1x1024_1 : (⟨S1024, .f32⟩ : BufTy).Contents (Elt F) → (⟨S1x1024, .f32⟩ : BufTy).Contents (Elt F)),
    unary main_v242 main_v243 (broadcastInDim S8x1024 ![0, 1] bcast_S1x1024_S8x1024_0_1 : (⟨S1x1024, .f32⟩ : BufTy).Contents (Elt F) → (⟨S8x1024, .f32⟩ : BufTy).Contents (Elt F)),
    binary main_v239 main_v243 main_v244 (addf : (⟨S8x1024, .f32⟩ : BufTy).Contents (Elt F) → (⟨S8x1024, .f32⟩ : BufTy).Contents (Elt F) → (⟨S8x1024, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S8x1024, .f32⟩) main_call4_v0) (broadcastInDim S8x1024 ![] bcast_S_S8x1024),
    TRef.binary (TRef.of (T := ⟨S8x1024, .f32⟩) main_v244) (TRef.of (T := ⟨S8x1024, .f32⟩) main_call4_v0) (TRef.of (T := ⟨S8x1024, .f32⟩) main_v245) maximumf,
    unary main_arg9 main_v246 ((extractStridedSlice S1x1024x1024 ![1, 0, 0] · slices_S6x1024x1024_S1x1024x1024_1_0_0) : (⟨S6x1024x1024, .f32⟩ : BufTy).Contents (Elt F) → (⟨S1x1024x1024, .f32⟩ : BufTy).Contents (Elt F)),
    reshape main_v246 main_v247 rfl shapeCasts_S1x1024x1024_S1024x1024,
    binary main_v245 main_v247 main_v248 ((fun l r => Host.dotGeneral dot_S8x1024_S1024x1024_S8x1024_1_0_0_1_n_n none l r) : (⟨S8x1024, .f32⟩ : BufTy).Contents (Elt F) → (⟨S1024x1024, .f32⟩ : BufTy).Contents (Elt F) → (⟨S8x1024, .f32⟩ : BufTy).Contents (Elt F)),
    unary main_arg10 main_v249 ((extractStridedSlice S1x1024 ![1, 0] · slices_S6x1024_S1x1024_1_0) : (⟨S6x1024, .f32⟩ : BufTy).Contents (Elt F) → (⟨S1x1024, .f32⟩ : BufTy).Contents (Elt F)),
    reshape main_v249 main_v250 rfl shapeCasts_S1x1024_S1024,
    unary main_v250 main_v251 (broadcastInDim S1x1024 ![1] bcast_S1024_S1x1024_1 : (⟨S1024, .f32⟩ : BufTy).Contents (Elt F) → (⟨S1x1024, .f32⟩ : BufTy).Contents (Elt F)),
    unary main_v251 main_v252 (broadcastInDim S8x1024 ![0, 1] bcast_S1x1024_S8x1024_0_1 : (⟨S1x1024, .f32⟩ : BufTy).Contents (Elt F) → (⟨S8x1024, .f32⟩ : BufTy).Contents (Elt F)),
    binary main_v248 main_v252 main_v253 (addf : (⟨S8x1024, .f32⟩ : BufTy).Contents (Elt F) → (⟨S8x1024, .f32⟩ : BufTy).Contents (Elt F) → (⟨S8x1024, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S8x1024, .f32⟩) main_call5_v0) (broadcastInDim S8x1024 ![] bcast_S_S8x1024),
    TRef.binary (TRef.of (T := ⟨S8x1024, .f32⟩) main_v253) (TRef.of (T := ⟨S8x1024, .f32⟩) main_call5_v0) (TRef.of (T := ⟨S8x1024, .f32⟩) main_v254) maximumf,
    unary main_arg9 main_v255 ((extractStridedSlice S1x1024x1024 ![2, 0, 0] · slices_S6x1024x1024_S1x1024x1024_2_0_0) : (⟨S6x1024x1024, .f32⟩ : BufTy).Contents (Elt F) → (⟨S1x1024x1024, .f32⟩ : BufTy).Contents (Elt F)),
    reshape main_v255 main_v256 rfl shapeCasts_S1x1024x1024_S1024x1024,
    binary main_v254 main_v256 main_v257 ((fun l r => Host.dotGeneral dot_S8x1024_S1024x1024_S8x1024_1_0_0_1_n_n none l r) : (⟨S8x1024, .f32⟩ : BufTy).Contents (Elt F) → (⟨S1024x1024, .f32⟩ : BufTy).Contents (Elt F) → (⟨S8x1024, .f32⟩ : BufTy).Contents (Elt F)),
    unary main_arg10 main_v258 ((extractStridedSlice S1x1024 ![2, 0] · slices_S6x1024_S1x1024_2_0) : (⟨S6x1024, .f32⟩ : BufTy).Contents (Elt F) → (⟨S1x1024, .f32⟩ : BufTy).Contents (Elt F)),
    reshape main_v258 main_v259 rfl shapeCasts_S1x1024_S1024,
    unary main_v259 main_v260 (broadcastInDim S1x1024 ![1] bcast_S1024_S1x1024_1 : (⟨S1024, .f32⟩ : BufTy).Contents (Elt F) → (⟨S1x1024, .f32⟩ : BufTy).Contents (Elt F)),
    unary main_v260 main_v261 (broadcastInDim S8x1024 ![0, 1] bcast_S1x1024_S8x1024_0_1 : (⟨S1x1024, .f32⟩ : BufTy).Contents (Elt F) → (⟨S8x1024, .f32⟩ : BufTy).Contents (Elt F)),
    binary main_v257 main_v261 main_v262 (addf : (⟨S8x1024, .f32⟩ : BufTy).Contents (Elt F) → (⟨S8x1024, .f32⟩ : BufTy).Contents (Elt F) → (⟨S8x1024, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S8x1024, .f32⟩) main_call6_v0) (broadcastInDim S8x1024 ![] bcast_S_S8x1024),
    TRef.binary (TRef.of (T := ⟨S8x1024, .f32⟩) main_v262) (TRef.of (T := ⟨S8x1024, .f32⟩) main_call6_v0) (TRef.of (T := ⟨S8x1024, .f32⟩) main_v263) maximumf,
    unary main_arg9 main_v264 ((extractStridedSlice S1x1024x1024 ![3, 0, 0] · slices_S6x1024x1024_S1x1024x1024_3_0_0) : (⟨S6x1024x1024, .f32⟩ : BufTy).Contents (Elt F) → (⟨S1x1024x1024, .f32⟩ : BufTy).Contents (Elt F)),
    reshape main_v264 main_v265 rfl shapeCasts_S1x1024x1024_S1024x1024,
    binary main_v263 main_v265 main_v266 ((fun l r => Host.dotGeneral dot_S8x1024_S1024x1024_S8x1024_1_0_0_1_n_n none l r) : (⟨S8x1024, .f32⟩ : BufTy).Contents (Elt F) → (⟨S1024x1024, .f32⟩ : BufTy).Contents (Elt F) → (⟨S8x1024, .f32⟩ : BufTy).Contents (Elt F)),
    unary main_arg10 main_v267 ((extractStridedSlice S1x1024 ![3, 0] · slices_S6x1024_S1x1024_3_0) : (⟨S6x1024, .f32⟩ : BufTy).Contents (Elt F) → (⟨S1x1024, .f32⟩ : BufTy).Contents (Elt F)),
    reshape main_v267 main_v268 rfl shapeCasts_S1x1024_S1024,
    unary main_v268 main_v269 (broadcastInDim S1x1024 ![1] bcast_S1024_S1x1024_1 : (⟨S1024, .f32⟩ : BufTy).Contents (Elt F) → (⟨S1x1024, .f32⟩ : BufTy).Contents (Elt F)),
    unary main_v269 main_v270 (broadcastInDim S8x1024 ![0, 1] bcast_S1x1024_S8x1024_0_1 : (⟨S1x1024, .f32⟩ : BufTy).Contents (Elt F) → (⟨S8x1024, .f32⟩ : BufTy).Contents (Elt F)),
    binary main_v266 main_v270 main_v271 (addf : (⟨S8x1024, .f32⟩ : BufTy).Contents (Elt F) → (⟨S8x1024, .f32⟩ : BufTy).Contents (Elt F) → (⟨S8x1024, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S8x1024, .f32⟩) main_call7_v0) (broadcastInDim S8x1024 ![] bcast_S_S8x1024),
    TRef.binary (TRef.of (T := ⟨S8x1024, .f32⟩) main_v271) (TRef.of (T := ⟨S8x1024, .f32⟩) main_call7_v0) (TRef.of (T := ⟨S8x1024, .f32⟩) main_v272) maximumf,
    unary main_arg9 main_v273 ((extractStridedSlice S1x1024x1024 ![4, 0, 0] · slices_S6x1024x1024_S1x1024x1024_4_0_0) : (⟨S6x1024x1024, .f32⟩ : BufTy).Contents (Elt F) → (⟨S1x1024x1024, .f32⟩ : BufTy).Contents (Elt F)),
    reshape main_v273 main_v274 rfl shapeCasts_S1x1024x1024_S1024x1024,
    binary main_v272 main_v274 main_v275 ((fun l r => Host.dotGeneral dot_S8x1024_S1024x1024_S8x1024_1_0_0_1_n_n none l r) : (⟨S8x1024, .f32⟩ : BufTy).Contents (Elt F) → (⟨S1024x1024, .f32⟩ : BufTy).Contents (Elt F) → (⟨S8x1024, .f32⟩ : BufTy).Contents (Elt F)),
    unary main_arg10 main_v276 ((extractStridedSlice S1x1024 ![4, 0] · slices_S6x1024_S1x1024_4_0) : (⟨S6x1024, .f32⟩ : BufTy).Contents (Elt F) → (⟨S1x1024, .f32⟩ : BufTy).Contents (Elt F)),
    reshape main_v276 main_v277 rfl shapeCasts_S1x1024_S1024,
    unary main_v277 main_v278 (broadcastInDim S1x1024 ![1] bcast_S1024_S1x1024_1 : (⟨S1024, .f32⟩ : BufTy).Contents (Elt F) → (⟨S1x1024, .f32⟩ : BufTy).Contents (Elt F)),
    unary main_v278 main_v279 (broadcastInDim S8x1024 ![0, 1] bcast_S1x1024_S8x1024_0_1 : (⟨S1x1024, .f32⟩ : BufTy).Contents (Elt F) → (⟨S8x1024, .f32⟩ : BufTy).Contents (Elt F)),
    binary main_v275 main_v279 main_v280 (addf : (⟨S8x1024, .f32⟩ : BufTy).Contents (Elt F) → (⟨S8x1024, .f32⟩ : BufTy).Contents (Elt F) → (⟨S8x1024, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S8x1024, .f32⟩) main_call8_v0) (broadcastInDim S8x1024 ![] bcast_S_S8x1024),
    TRef.binary (TRef.of (T := ⟨S8x1024, .f32⟩) main_v280) (TRef.of (T := ⟨S8x1024, .f32⟩) main_call8_v0) (TRef.of (T := ⟨S8x1024, .f32⟩) main_v281) maximumf,
    unary main_arg9 main_v282 ((extractStridedSlice S1x1024x1024 ![5, 0, 0] · slices_S6x1024x1024_S1x1024x1024_5_0_0) : (⟨S6x1024x1024, .f32⟩ : BufTy).Contents (Elt F) → (⟨S1x1024x1024, .f32⟩ : BufTy).Contents (Elt F)),
    reshape main_v282 main_v283 rfl shapeCasts_S1x1024x1024_S1024x1024,
    binary main_v281 main_v283 main_v284 ((fun l r => Host.dotGeneral dot_S8x1024_S1024x1024_S8x1024_1_0_0_1_n_n none l r) : (⟨S8x1024, .f32⟩ : BufTy).Contents (Elt F) → (⟨S1024x1024, .f32⟩ : BufTy).Contents (Elt F) → (⟨S8x1024, .f32⟩ : BufTy).Contents (Elt F)),
    unary main_arg10 main_v285 ((extractStridedSlice S1x1024 ![5, 0] · slices_S6x1024_S1x1024_5_0) : (⟨S6x1024, .f32⟩ : BufTy).Contents (Elt F) → (⟨S1x1024, .f32⟩ : BufTy).Contents (Elt F)),
    reshape main_v285 main_v286 rfl shapeCasts_S1x1024_S1024,
    unary main_v286 main_v287 (broadcastInDim S1x1024 ![1] bcast_S1024_S1x1024_1 : (⟨S1024, .f32⟩ : BufTy).Contents (Elt F) → (⟨S1x1024, .f32⟩ : BufTy).Contents (Elt F)),
    unary main_v287 main_v288 (broadcastInDim S8x1024 ![0, 1] bcast_S1x1024_S8x1024_0_1 : (⟨S1x1024, .f32⟩ : BufTy).Contents (Elt F) → (⟨S8x1024, .f32⟩ : BufTy).Contents (Elt F)),
    binary main_v284 main_v288 main_v289 (addf : (⟨S8x1024, .f32⟩ : BufTy).Contents (Elt F) → (⟨S8x1024, .f32⟩ : BufTy).Contents (Elt F) → (⟨S8x1024, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S8x1024, .f32⟩) main_call9_v0) (broadcastInDim S8x1024 ![] bcast_S_S8x1024),
    TRef.binary (TRef.of (T := ⟨S8x1024, .f32⟩) main_v289) (TRef.of (T := ⟨S8x1024, .f32⟩) main_call9_v0) (TRef.of (T := ⟨S8x1024, .f32⟩) main_v290) maximumf,
    binary main_v290 main_arg11 main_v291 ((fun l r => Host.dotGeneral dot_S8x1024_S1024x1_S8x1_1_0_0_1_n_n none l r) : (⟨S8x1024, .f32⟩ : BufTy).Contents (Elt F) → (⟨S1024x1, .f32⟩ : BufTy).Contents (Elt F) → (⟨S8x1, .f32⟩ : BufTy).Contents (Elt F)),
    unary main_arg12 main_v292 (broadcastInDim S1x1 ![1] bcast_S1_S1x1_1 : (⟨S1, .f32⟩ : BufTy).Contents (Elt F) → (⟨S1x1, .f32⟩ : BufTy).Contents (Elt F)),
    unary main_v292 main_v293 (broadcastInDim S8x1 ![0, 1] bcast_S1x1_S8x1_0_1 : (⟨S1x1, .f32⟩ : BufTy).Contents (Elt F) → (⟨S8x1, .f32⟩ : BufTy).Contents (Elt F)),
    binary main_v291 main_v293 main_v294 (addf : (⟨S8x1, .f32⟩ : BufTy).Contents (Elt F) → (⟨S8x1, .f32⟩ : BufTy).Contents (Elt F) → (⟨S8x1, .f32⟩ : BufTy).Contents (Elt F)),
    reshape main_v294 main_v295 rfl shapeCasts_S8x1_S8 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

end Cert.Bridge.RefOps

end
-- ==== Proof.RefLine.lean ====
/-
  A straight line of host operations, run in stretches.

  The buffer contents after a line of operations are a fold over the line: each operation rewrites the buffer it writes
  and leaves the rest. So a line that is two stretches one after the other leaves what the second stretch leaves when it
  starts from what the first one left.
-/
import Idealize.ShloMosaic.Lib.StableHlo.Run

namespace Cert.Bridge.RefOps

open Idealize.ShloMosaic Idealize.ShloMosaic.StableHlo

/-- A line run after another is their concatenation run as one. -/
theorem after_append {τ : Topo} {sig : RefSig} {Val : EltTy → Type} :
    ∀ (l₁ l₂ : List (HloOp τ sig Val)) (W : Valuation τ sig Val), after (l₁ ++ l₂) W = after l₂ (after l₁ W)
  | [], _, _ => rfl
  | op :: l₁, l₂, W => by rw [List.cons_append, after_cons, after_cons, after_append l₁ l₂]

end Cert.Bridge.RefOps
-- ==== Proof.RefStages.lean ====
/-
  The reference's run, stage by stage.

  The reference's @main is a straight line of 359 host operations, each writing one buffer of its own. The line is cut
  into 18 consecutive stretches; the buffer contents after the whole line are the stretches applied one after the
  other (`after_ops`). For each stretch and each buffer that is read after it (or is one of the three results), the
  contents after the stretch are the buffer's STAGE — the value `val_…` of the argument arrays that the reference's
  reading names for it: for a buffer the stretch writes, by reading the stretch's operations at that buffer down to the
  buffers the stretch starts from, which hold their stages; for a buffer written earlier, because no operation of the
  stretch writes it. No value is ever written out as a composed term of the arguments beyond one stretch. The argument
  arrays are written by no operation and keep their contents throughout. Each of the two concatenations is a stretch of
  its own: its operands are then buffers the stretch starts from.
-/
import proofs.«166496_j23596550324766_1_alg».proof.Proof.RefOps
import proofs.«166496_j23596550324766_1_alg».proof.Proof.RefRead
import proofs.«166496_j23596550324766_1_alg».proof.Proof.RefLine

set_option maxRecDepth 16384

noncomputable section

namespace Cert.Bridge.RefOps

open Cert.ReferenceIdeal Cert.ReferenceIdeal.Gen Cert.ReferenceIdeal.ReadP Idealize.ShloMosaic Idealize.ShloMosaic.TcCoe Idealize.SL.Sem Idealize.ShloMosaic.StableHlo

section Stretches
variable {F : FTy → Type} [FloatOps F]

/-! ## The stretches -/

/-- Operations 1 to 3 of the line. -/
abbrev stretch0 : List (HloOp τ sig (Elt F)) :=
  [ nullary main_v0 (iotaInDim S10000 32 0),
    unary main_arg1 main_v1 ((extractStridedSlice S1x160000 ![0, 0] · slices_S2x160000_S1x160000_0_0) : (⟨S2x160000, .i32⟩ : BufTy).Contents (Elt F) → (⟨S1x160000, .i32⟩ : BufTy).Contents (Elt F)),
    reshape main_v1 main_v2 rfl shapeCasts_S1x160000_S160000 ]

/-- The buffers they write. -/
abbrev stretch0_W : List (Ref sig .tc) := [main_v0, main_v1, main_v2]

theorem stretch0_writes : (stretch0 : List (HloOp τ sig (Elt F))).Forall fun op => op.writes ⊆ (stretch0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 4 to 4 of the line. -/
abbrev stretch1 : List (HloOp τ sig (Elt F)) :=
  [ binary main_v2 main_v0 main_v3 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)) ]

/-- The buffers they write. -/
abbrev stretch1_W : List (Ref sig .tc) := [main_v3]

theorem stretch1_writes : (stretch1 : List (HloOp τ sig (Elt F))).Forall fun op => op.writes ⊆ (stretch1_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))

/-- Operations 5 to 6 of the line. -/
abbrev stretch2 : List (HloOp τ sig (Elt F)) :=
  [ unary main_arg1 main_v4 ((extractStridedSlice S1x160000 ![1, 0] · slices_S2x160000_S1x160000_1_0) : (⟨S2x160000, .i32⟩ : BufTy).Contents (Elt F) → (⟨S1x160000, .i32⟩ : BufTy).Contents (Elt F)),
    reshape main_v4 main_v5 rfl shapeCasts_S1x160000_S160000 ]

/-- The buffers they write. -/
abbrev stretch2_W : List (Ref sig .tc) := [main_v4, main_v5]

theorem stretch2_writes : (stretch2 : List (HloOp τ sig (Elt F))).Forall fun op => op.writes ⊆ (stretch2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 7 to 7 of the line. -/
abbrev stretch3 : List (HloOp τ sig (Elt F)) :=
  [ binary main_v5 main_v0 main_v6 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)) ]

/-- The buffers they write. -/
abbrev stretch3_W : List (Ref sig .tc) := [main_v6]

theorem stretch3_writes : (stretch3 : List (HloOp τ sig (Elt F))).Forall fun op => op.writes ⊆ (stretch3_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))

/-- Operations 8 to 17 of the line. -/
abbrev stretch4 : List (HloOp τ sig (Elt F)) :=
  [ nullary main_cst (constant S_ .f32 0x3F800000#32),
    unary main_cst main_v7 (broadcastInDim S170000 ![] bcast_S_S170000 : (⟨S_, .f32⟩ : BufTy).Contents (Elt F) → (⟨S170000, .f32⟩ : BufTy).Contents (Elt F)),
    nullary main_cst_0 (constant S_ .f32 0x00000000#32),
    unary main_cst_0 main_v8 (broadcastInDim S10000 ![] bcast_S_S10000 : (⟨S_, .f32⟩ : BufTy).Contents (Elt F) → (⟨S10000, .f32⟩ : BufTy).Contents (Elt F)),
    unary main_v6 main_v9 (broadcastInDim S170000x1 ![0] bcast_S170000_S170000x1_0 : (⟨S170000, .i32⟩ : BufTy).Contents (Elt F) → (⟨S170000x1, .i32⟩ : BufTy).Contents (Elt F)),
    ternary main_v8 main_v9 main_v7 main_v10 ((fun x i u => Host.scatterAdd scatter_S10000_S170000x1_S170000_n_0_0_1 x i u) : (⟨S10000, .f32⟩ : BufTy).Contents (Elt F) → (⟨S170000x1, .i32⟩ : BufTy).Contents (Elt F) → (⟨S170000, .f32⟩ : BufTy).Contents (Elt F) → (⟨S10000, .f32⟩ : BufTy).Contents (Elt F)),
    nullary main_cst_1 (constant S_ .f32 0x3F800000#32),
    unary main_cst_1 main_v11 (broadcastInDim S10000 ![] bcast_S_S10000 : (⟨S_, .f32⟩ : BufTy).Contents (Elt F) → (⟨S10000, .f32⟩ : BufTy).Contents (Elt F)),
    binary main_v10 main_v11 main_v12 (maximumf : (⟨S10000, .f32⟩ : BufTy).Contents (Elt F) → (⟨S10000, .f32⟩ : BufTy).Contents (Elt F) → (⟨S10000, .f32⟩ : BufTy).Contents (Elt F)),
    unary main_v12 main_v13 (Host.rsqrt : (⟨S10000, .f32⟩ : BufTy).Contents (Elt F) → (⟨S10000, .f32⟩ : BufTy).Contents (Elt F)) ]

/-- The buffers they write. -/
abbrev stretch4_W : List (Ref sig .tc) := [main_cst, main_v7, main_cst_0, main_v8, main_v9, main_v10, main_cst_1, main_v11, main_v12, main_v13]

theorem stretch4_writes : (stretch4 : List (HloOp τ sig (Elt F))).Forall fun op => op.writes ⊆ (stretch4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 18 to 37 of the line. -/
abbrev stretch5 : List (HloOp τ sig (Elt F)) :=
  [ nullary main_c (constantI S_ 32 0#32),
    unary main_c main_v14 (broadcastInDim S170000 ![] bcast_S_S170000 : (⟨S_, .i32⟩ : BufTy).Contents (Elt F) → (⟨S170000, .i32⟩ : BufTy).Contents (Elt F)),
    binary main_v3 main_v14 main_v15 (cmpi .slt : (⟨S170000, .i32⟩ : BufTy).Contents (Elt F) → (⟨S170000, .i32⟩ : BufTy).Contents (Elt F) → (⟨S170000, .i1⟩ : BufTy).Contents (Elt F)),
    nullary main_c_2 (constantI S_ 32 10000#32),
    unary main_c_2 main_v16 (broadcastInDim S170000 ![] bcast_S_S170000 : (⟨S_, .i32⟩ : BufTy).Contents (Elt F) → (⟨S170000, .i32⟩ : BufTy).Contents (Elt F)),
    binary main_v3 main_v16 main_v17 (addi : (⟨S170000, .i32⟩ : BufTy).Contents (Elt F) → (⟨S170000, .i32⟩ : BufTy).Contents (Elt F) → (⟨S170000, .i32⟩ : BufTy).Contents (Elt F)),
    ternary main_v15 main_v17 main_v3 main_v18 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v18 main_v19 (broadcastInDim S170000x1 ![0] bcast_S170000_S170000x1_0 : (⟨S170000, .i32⟩ : BufTy).Contents (Elt F) → (⟨S170000x1, .i32⟩ : BufTy).Contents (Elt F)),
    binary main_v13 main_v19 main_v20 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    nullary main_c_3 (constantI S_ 32 0#32),
    unary main_c_3 main_v21 (broadcastInDim S170000 ![] bcast_S_S170000 : (⟨S_, .i32⟩ : BufTy).Contents (Elt F) → (⟨S170000, .i32⟩ : BufTy).Contents (Elt F)),
    binary main_v6 main_v21 main_v22 (cmpi .slt : (⟨S170000, .i32⟩ : BufTy).Contents (Elt F) → (⟨S170000, .i32⟩ : BufTy).Contents (Elt F) → (⟨S170000, .i1⟩ : BufTy).Contents (Elt F)),
    nullary main_c_4 (constantI S_ 32 10000#32),
    unary main_c_4 main_v23 (broadcastInDim S170000 ![] bcast_S_S170000 : (⟨S_, .i32⟩ : BufTy).Contents (Elt F) → (⟨S170000, .i32⟩ : BufTy).Contents (Elt F)),
    binary main_v6 main_v23 main_v24 (addi : (⟨S170000, .i32⟩ : BufTy).Contents (Elt F) → (⟨S170000, .i32⟩ : BufTy).Contents (Elt F) → (⟨S170000, .i32⟩ : BufTy).Contents (Elt F)),
    ternary main_v22 main_v24 main_v6 main_v25 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v25 main_v26 (broadcastInDim S170000x1 ![0] bcast_S170000_S170000x1_0 : (⟨S170000, .i32⟩ : BufTy).Contents (Elt F) → (⟨S170000x1, .i32⟩ : BufTy).Contents (Elt F)),
    binary main_v13 main_v26 main_v27 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    binary main_v20 main_v27 main_v28 (mulf : (⟨S170000, .f32⟩ : BufTy).Contents (Elt F) → (⟨S170000, .f32⟩ : BufTy).Contents (Elt F) → (⟨S170000, .f32⟩ : BufTy).Contents (Elt F)),
    unary main_v28 main_v29 (broadcastInDim S170000x1 ![0] bcast_S170000_S170000x1_0 : (⟨S170000, .f32⟩ : BufTy).Contents (Elt F) → (⟨S170000x1, .f32⟩ : BufTy).Contents (Elt F)) ]

/-- The buffers they write. -/
abbrev stretch5_W : List (Ref sig .tc) := [main_c, main_v14, main_v15, main_c_2, main_v16, main_v17, main_v18, main_v19, main_v20, main_c_3, main_v21, main_v22, main_c_4, main_v23, main_v24, main_v25, main_v26, main_v27, main_v28, main_v29]

theorem stretch5_writes : (stretch5 : List (HloOp τ sig (Elt F))).Forall fun op => op.writes ⊆ (stretch5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 38 to 56 of the line. -/
abbrev stretch6 : List (HloOp τ sig (Elt F)) :=
  [ binary main_arg0 main_arg3 main_v30 ((fun l r => Host.dotGeneral dot_S10000x128_S128x1024_S10000x1024_1_0_0_1_n_n none l r) : (⟨S10000x128, .f32⟩ : BufTy).Contents (Elt F) → (⟨S128x1024, .f32⟩ : BufTy).Contents (Elt F) → (⟨S10000x1024, .f32⟩ : BufTy).Contents (Elt F)),
    nullary main_c_5 (constantI S_ 32 0#32),
    unary main_c_5 main_v31 (broadcastInDim S170000 ![] bcast_S_S170000 : (⟨S_, .i32⟩ : BufTy).Contents (Elt F) → (⟨S170000, .i32⟩ : BufTy).Contents (Elt F)),
    binary main_v3 main_v31 main_v32 (cmpi .slt : (⟨S170000, .i32⟩ : BufTy).Contents (Elt F) → (⟨S170000, .i32⟩ : BufTy).Contents (Elt F) → (⟨S170000, .i1⟩ : BufTy).Contents (Elt F)),
    nullary main_c_6 (constantI S_ 32 10000#32),
    unary main_c_6 main_v33 (broadcastInDim S170000 ![] bcast_S_S170000 : (⟨S_, .i32⟩ : BufTy).Contents (Elt F) → (⟨S170000, .i32⟩ : BufTy).Contents (Elt F)),
    binary main_v3 main_v33 main_v34 (addi : (⟨S170000, .i32⟩ : BufTy).Contents (Elt F) → (⟨S170000, .i32⟩ : BufTy).Contents (Elt F) → (⟨S170000, .i32⟩ : BufTy).Contents (Elt F)),
    ternary main_v32 main_v34 main_v3 main_v35 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v35 main_v36 (broadcastInDim S170000x1 ![0] bcast_S170000_S170000x1_0 : (⟨S170000, .i32⟩ : BufTy).Contents (Elt F) → (⟨S170000x1, .i32⟩ : BufTy).Contents (Elt F)),
    binary main_v30 main_v36 main_v37 ((fun x i => Host.gather gather_S10000x1024_S170000x1_S170000x1024_1_0_n_n_0_1_11024 x i) : (⟨S10000x1024, .f32⟩ : BufTy).Contents (Elt F) → (⟨S170000x1, .i32⟩ : BufTy).Contents (Elt F) → (⟨S170000x1024, .f32⟩ : BufTy).Contents (Elt F)),
    unary main_v29 main_v38 (broadcastInDim S170000x1024 ![0, 1] bcast_S170000x1_S170000x1024_0_1 : (⟨S170000x1, .f32⟩ : BufTy).Contents (Elt F) → (⟨S170000x1024, .f32⟩ : BufTy).Contents (Elt F)),
    binary main_v37 main_v38 main_v39 (mulf : (⟨S170000x1024, .f32⟩ : BufTy).Contents (Elt F) → (⟨S170000x1024, .f32⟩ : BufTy).Contents (Elt F) → (⟨S170000x1024, .f32⟩ : BufTy).Contents (Elt F)),
    nullary main_cst_7 (constant S_ .f32 0x00000000#32),
    unary main_cst_7 main_v40 (broadcastInDim S10000x1024 ![] bcast_S_S10000x1024 : (⟨S_, .f32⟩ : BufTy).Contents (Elt F) → (⟨S10000x1024, .f32⟩ : BufTy).Contents (Elt F)),
    unary main_v6 main_v41 (broadcastInDim S170000x1 ![0] bcast_S170000_S170000x1_0 : (⟨S170000, .i32⟩ : BufTy).Contents (Elt F) → (⟨S170000x1, .i32⟩ : BufTy).Contents (Elt F)),
    ternary main_v40 main_v41 main_v39 main_v42 ((fun x i u => Host.scatterAdd scatter_S10000x1024_S170000x1_S170000x1024_1_0_0_1 x i u) : (⟨S10000x1024, .f32⟩ : BufTy).Contents (Elt F) → (⟨S170000x1, .i32⟩ : BufTy).Contents (Elt F) → (⟨S170000x1024, .f32⟩ : BufTy).Contents (Elt F) → (⟨S10000x1024, .f32⟩ : BufTy).Contents (Elt F)),
    unary main_arg4 main_v43 (broadcastInDim S1x1024 ![1] bcast_S1024_S1x1024_1 : (⟨S1024, .f32⟩ : BufTy).Contents (Elt F) → (⟨S1x1024, .f32⟩ : BufTy).Contents (Elt F)),
    unary main_v43 main_v44 (broadcastInDim S10000x1024 ![0, 1] bcast_S1x1024_S10000x1024_0_1 : (⟨S1x1024, .f32⟩ : BufTy).Contents (Elt F) → (⟨S10000x1024, .f32⟩ : BufTy).Contents (Elt F)),
    binary main_v42 main_v44 main_v45 (addf : (⟨S10000x1024, .f32⟩ : BufTy).Contents (Elt F) → (⟨S10000x1024, .f32⟩ : BufTy).Contents (Elt F) → (⟨S10000x1024, .f32⟩ : BufTy).Contents (Elt F)) ]

/-- The buffers they write. -/
abbrev stretch6_W : List (Ref sig .tc) := [main_v30, main_c_5, main_v31, main_v32, main_c_6, main_v33, main_v34, main_v35, main_v36, main_v37, main_v38, main_v39, main_cst_7, main_v40, main_v41, main_v42, main_v43, main_v44, main_v45]

theorem stretch6_writes : (stretch6 : List (HloOp τ sig (Elt F))).Forall fun op => op.writes ⊆ (stretch6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 57 to 88 of the line. -/
abbrev stretch7 : List (HloOp τ sig (Elt F)) :=
  [ unary main_arg7 main_v46 ((extractStridedSlice S1x1024 ![0, 0] · slices_S4x1024_S1x1024_0_0) : (⟨S4x1024, .f32⟩ : BufTy).Contents (Elt F) → (⟨S1x1024, .f32⟩ : BufTy).Contents (Elt F)),
    reshape main_v46 main_v47 rfl shapeCasts_S1x1024_S1024,
    unary main_arg8 main_v48 ((extractStridedSlice S1x1024 ![0, 0] · slices_S4x1024_S1x1024_0_0) : (⟨S4x1024, .f32⟩ : BufTy).Contents (Elt F) → (⟨S1x1024, .f32⟩ : BufTy).Contents (Elt F)),
    reshape main_v48 main_v49 rfl shapeCasts_S1x1024_S1024,
    nullary main_cst_8 (constant S_ .f32 0x00000000#32),
    binary main_v45 main_cst_8 main_v50 ((fun x v => Host.reduceAdd x v reducesTo_S10000x1024_S10000_d1 h_S_) : (⟨S10000x1024, .f32⟩ : BufTy).Contents (Elt F) → (⟨S_, .f32⟩ : BufTy).Contents (Elt F) → (⟨S10000, .f32⟩ : BufTy).Contents (Elt F)),
    unary main_v50 main_v51 (broadcastInDim S10000x1 ![0] bcast_S10000_S10000x1_0 : (⟨S10000, .f32⟩ : BufTy).Contents (Elt F) → (⟨S10000x1, .f32⟩ : BufTy).Contents (Elt F)),
    nullary main_cst_9 (constant S_ .f32 0x44800000#32),
    unary main_cst_9 main_v52 (broadcastInDim S10000x1 ![] bcast_S_S10000x1 : (⟨S_, .f32⟩ : BufTy).Contents (Elt F) → (⟨S10000x1, .f32⟩ : BufTy).Contents (Elt F)),
    binary main_v51 main_v52 main_v53 (Host.divf : (⟨S10000x1, .f32⟩ : BufTy).Contents (Elt F) → (⟨S10000x1, .f32⟩ : BufTy).Contents (Elt F) → (⟨S10000x1, .f32⟩ : BufTy).Contents (Elt F)),
    unary main_v53 main_v54 (broadcastInDim S10000x1024 ![0, 1] bcast_S10000x1_S10000x1024_0_1 : (⟨S10000x1, .f32⟩ : BufTy).Contents (Elt F) → (⟨S10000x1024, .f32⟩ : BufTy).Contents (Elt F)),
    binary main_v45 main_v54 main_v55 (subf : (⟨S10000x1024, .f32⟩ : BufTy).Contents (Elt F) → (⟨S10000x1024, .f32⟩ : BufTy).Contents (Elt F) → (⟨S10000x1024, .f32⟩ : BufTy).Contents (Elt F)),
    binary main_v55 main_v55 main_v56 (mulf : (⟨S10000x1024, .f32⟩ : BufTy).Contents (Elt F) → (⟨S10000x1024, .f32⟩ : BufTy).Contents (Elt F) → (⟨S10000x1024, .f32⟩ : BufTy).Contents (Elt F)),
    nullary main_cst_10 (constant S_ .f32 0x00000000#32),
    binary main_v56 main_cst_10 main_v57 ((fun x v => Host.reduceAdd x v reducesTo_S10000x1024_S10000_d1 h_S_) : (⟨S10000x1024, .f32⟩ : BufTy).Contents (Elt F) → (⟨S_, .f32⟩ : BufTy).Contents (Elt F) → (⟨S10000, .f32⟩ : BufTy).Contents (Elt F)),
    unary main_v57 main_v58 (broadcastInDim S10000x1 ![0] bcast_S10000_S10000x1_0 : (⟨S10000, .f32⟩ : BufTy).Contents (Elt F) → (⟨S10000x1, .f32⟩ : BufTy).Contents (Elt F)),
    nullary main_cst_11 (constant S_ .f32 0x44800000#32),
    unary main_cst_11 main_v59 (broadcastInDim S10000x1 ![] bcast_S_S10000x1 : (⟨S_, .f32⟩ : BufTy).Contents (Elt F) → (⟨S10000x1, .f32⟩ : BufTy).Contents (Elt F)),
    binary main_v58 main_v59 main_v60 (Host.divf : (⟨S10000x1, .f32⟩ : BufTy).Contents (Elt F) → (⟨S10000x1, .f32⟩ : BufTy).Contents (Elt F) → (⟨S10000x1, .f32⟩ : BufTy).Contents (Elt F)),
    unary main_v53 main_v61 (broadcastInDim S10000x1024 ![0, 1] bcast_S10000x1_S10000x1024_0_1 : (⟨S10000x1, .f32⟩ : BufTy).Contents (Elt F) → (⟨S10000x1024, .f32⟩ : BufTy).Contents (Elt F)),
    binary main_v45 main_v61 main_v62 (subf : (⟨S10000x1024, .f32⟩ : BufTy).Contents (Elt F) → (⟨S10000x1024, .f32⟩ : BufTy).Contents (Elt F) → (⟨S10000x1024, .f32⟩ : BufTy).Contents (Elt F)),
    nullary main_cst_12 (constant S_ .f32 0x3727C5AC#32),
    unary main_cst_12 main_v63 (broadcastInDim S10000x1 ![] bcast_S_S10000x1 : (⟨S_, .f32⟩ : BufTy).Contents (Elt F) → (⟨S10000x1, .f32⟩ : BufTy).Contents (Elt F)),
    binary main_v60 main_v63 main_v64 (addf : (⟨S10000x1, .f32⟩ : BufTy).Contents (Elt F) → (⟨S10000x1, .f32⟩ : BufTy).Contents (Elt F) → (⟨S10000x1, .f32⟩ : BufTy).Contents (Elt F)),
    unary main_v64 main_v65 (Host.rsqrt : (⟨S10000x1, .f32⟩ : BufTy).Contents (Elt F) → (⟨S10000x1, .f32⟩ : BufTy).Contents (Elt F)),
    unary main_v65 main_v66 (broadcastInDim S10000x1024 ![0, 1] bcast_S10000x1_S10000x1024_0_1 : (⟨S10000x1, .f32⟩ : BufTy).Contents (Elt F) → (⟨S10000x1024, .f32⟩ : BufTy).Contents (Elt F)),
    binary main_v62 main_v66 main_v67 (mulf : (⟨S10000x1024, .f32⟩ : BufTy).Contents (Elt F) → (⟨S10000x1024, .f32⟩ : BufTy).Contents (Elt F) → (⟨S10000x1024, .f32⟩ : BufTy).Contents (Elt F)),
    unary main_v47 main_v68 (broadcastInDim S1x1024 ![1] bcast_S1024_S1x1024_1 : (⟨S1024, .f32⟩ : BufTy).Contents (Elt F) → (⟨S1x1024, .f32⟩ : BufTy).Contents (Elt F)),
    unary main_v68 main_v69 (broadcastInDim S10000x1024 ![0, 1] bcast_S1x1024_S10000x1024_0_1 : (⟨S1x1024, .f32⟩ : BufTy).Contents (Elt F) → (⟨S10000x1024, .f32⟩ : BufTy).Contents (Elt F)),
    binary main_v67 main_v69 main_v70 (mulf : (⟨S10000x1024, .f32⟩ : BufTy).Contents (Elt F) → (⟨S10000x1024, .f32⟩ : BufTy).Contents (Elt F) → (⟨S10000x1024, .f32⟩ : BufTy).Contents (Elt F)),
    unary main_v49 main_v71 (broadcastInDim S1x1024 ![1] bcast_S1024_S1x1024_1 : (⟨S1024, .f32⟩ : BufTy).Contents (Elt F) → (⟨S1x1024, .f32⟩ : BufTy).Contents (Elt F)),
    unary main_v71 main_v72 (broadcastInDim S10000x1024 ![0, 1] bcast_S1x1024_S10000x1024_0_1 : (⟨S1x1024, .f32⟩ : BufTy).Contents (Elt F) → (⟨S10000x1024, .f32⟩ : BufTy).Contents (Elt F)) ]

/-- The buffers they write. -/
abbrev stretch7_W : List (Ref sig .tc) := [main_v46, main_v47, main_v48, main_v49, main_cst_8, main_v50, main_v51, main_cst_9, main_v52, main_v53, main_v54, main_v55, main_v56, main_cst_10, main_v57, main_v58, main_cst_11, main_v59, main_v60, main_v61, main_v62, main_cst_12, main_v63, main_v64, main_v65, main_v66, main_v67, main_v68, main_v69, main_v70, main_v71, main_v72]

theorem stretch7_writes : (stretch7 : List (HloOp τ sig (Elt F))).Forall fun op => op.writes ⊆ (stretch7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 89 to 116 of the line. -/
abbrev stretch8 : List (HloOp τ sig (Elt F)) :=
  [ binary main_v70 main_v72 main_v73 (addf : (⟨S10000x1024, .f32⟩ : BufTy).Contents (Elt F) → (⟨S10000x1024, .f32⟩ : BufTy).Contents (Elt F) → (⟨S10000x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x1024, .f32⟩) main_call0_v0) (broadcastInDim S10000x1024 ![] bcast_S_S10000x1024),
    TRef.binary (TRef.of (T := ⟨S10000x1024, .f32⟩) main_v73) (TRef.of (T := ⟨S10000x1024, .f32⟩) main_call0_v0) (TRef.of (T := ⟨S10000x1024, .f32⟩) main_v74) maximumf,
    unary main_arg5 main_v75 ((extractStridedSlice S1x1024x1024 ![0, 0, 0] · slices_S3x1024x1024_S1x1024x1024_0_0_0) : (⟨S3x1024x1024, .f32⟩ : BufTy).Contents (Elt F) → (⟨S1x1024x1024, .f32⟩ : BufTy).Contents (Elt F)),
    reshape main_v75 main_v76 rfl shapeCasts_S1x1024x1024_S1024x1024,
    unary main_arg6 main_v77 ((extractStridedSlice S1x1024 ![0, 0] · slices_S3x1024_S1x1024_0_0) : (⟨S3x1024, .f32⟩ : BufTy).Contents (Elt F) → (⟨S1x1024, .f32⟩ : BufTy).Contents (Elt F)),
    reshape main_v77 main_v78 rfl shapeCasts_S1x1024_S1024,
    binary main_v74 main_v76 main_v79 ((fun l r => Host.dotGeneral dot_S10000x1024_S1024x1024_S10000x1024_1_0_0_1_n_n none l r) : (⟨S10000x1024, .f32⟩ : BufTy).Contents (Elt F) → (⟨S1024x1024, .f32⟩ : BufTy).Contents (Elt F) → (⟨S10000x1024, .f32⟩ : BufTy).Contents (Elt F)),
    nullary main_c_13 (constantI S_ 32 0#32),
    unary main_c_13 main_v80 (broadcastInDim S170000 ![] bcast_S_S170000 : (⟨S_, .i32⟩ : BufTy).Contents (Elt F) → (⟨S170000, .i32⟩ : BufTy).Contents (Elt F)),
    binary main_v3 main_v80 main_v81 (cmpi .slt : (⟨S170000, .i32⟩ : BufTy).Contents (Elt F) → (⟨S170000, .i32⟩ : BufTy).Contents (Elt F) → (⟨S170000, .i1⟩ : BufTy).Contents (Elt F)),
    nullary main_c_14 (constantI S_ 32 10000#32),
    unary main_c_14 main_v82 (broadcastInDim S170000 ![] bcast_S_S170000 : (⟨S_, .i32⟩ : BufTy).Contents (Elt F) → (⟨S170000, .i32⟩ : BufTy).Contents (Elt F)),
    binary main_v3 main_v82 main_v83 (addi : (⟨S170000, .i32⟩ : BufTy).Contents (Elt F) → (⟨S170000, .i32⟩ : BufTy).Contents (Elt F) → (⟨S170000, .i32⟩ : BufTy).Contents (Elt F)),
    ternary main_v81 main_v83 main_v3 main_v84 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v84 main_v85 (broadcastInDim S170000x1 ![0] bcast_S170000_S170000x1_0 : (⟨S170000, .i32⟩ : BufTy).Contents (Elt F) → (⟨S170000x1, .i32⟩ : BufTy).Contents (Elt F)),
    binary main_v79 main_v85 main_v86 ((fun x i => Host.gather gather_S10000x1024_S170000x1_S170000x1024_1_0_n_n_0_1_11024 x i) : (⟨S10000x1024, .f32⟩ : BufTy).Contents (Elt F) → (⟨S170000x1, .i32⟩ : BufTy).Contents (Elt F) → (⟨S170000x1024, .f32⟩ : BufTy).Contents (Elt F)),
    unary main_v29 main_v87 (broadcastInDim S170000x1024 ![0, 1] bcast_S170000x1_S170000x1024_0_1 : (⟨S170000x1, .f32⟩ : BufTy).Contents (Elt F) → (⟨S170000x1024, .f32⟩ : BufTy).Contents (Elt F)),
    binary main_v86 main_v87 main_v88 (mulf : (⟨S170000x1024, .f32⟩ : BufTy).Contents (Elt F) → (⟨S170000x1024, .f32⟩ : BufTy).Contents (Elt F) → (⟨S170000x1024, .f32⟩ : BufTy).Contents (Elt F)),
    nullary main_cst_15 (constant S_ .f32 0x00000000#32),
    unary main_cst_15 main_v89 (broadcastInDim S10000x1024 ![] bcast_S_S10000x1024 : (⟨S_, .f32⟩ : BufTy).Contents (Elt F) → (⟨S10000x1024, .f32⟩ : BufTy).Contents (Elt F)),
    unary main_v6 main_v90 (broadcastInDim S170000x1 ![0] bcast_S170000_S170000x1_0 : (⟨S170000, .i32⟩ : BufTy).Contents (Elt F) → (⟨S170000x1, .i32⟩ : BufTy).Contents (Elt F)),
    ternary main_v89 main_v90 main_v88 main_v91 ((fun x i u => Host.scatterAdd scatter_S10000x1024_S170000x1_S170000x1024_1_0_0_1 x i u) : (⟨S10000x1024, .f32⟩ : BufTy).Contents (Elt F) → (⟨S170000x1, .i32⟩ : BufTy).Contents (Elt F) → (⟨S170000x1024, .f32⟩ : BufTy).Contents (Elt F) → (⟨S10000x1024, .f32⟩ : BufTy).Contents (Elt F)),
    unary main_v78 main_v92 (broadcastInDim S1x1024 ![1] bcast_S1024_S1x1024_1 : (⟨S1024, .f32⟩ : BufTy).Contents (Elt F) → (⟨S1x1024, .f32⟩ : BufTy).Contents (Elt F)),
    unary main_v92 main_v93 (broadcastInDim S10000x1024 ![0, 1] bcast_S1x1024_S10000x1024_0_1 : (⟨S1x1024, .f32⟩ : BufTy).Contents (Elt F) → (⟨S10000x1024, .f32⟩ : BufTy).Contents (Elt F)),
    binary main_v91 main_v93 main_v94 (addf : (⟨S10000x1024, .f32⟩ : BufTy).Contents (Elt F) → (⟨S10000x1024, .f32⟩ : BufTy).Contents (Elt F) → (⟨S10000x1024, .f32⟩ : BufTy).Contents (Elt F)),
    binary main_v94 main_v45 main_v95 (addf : (⟨S10000x1024, .f32⟩ : BufTy).Contents (Elt F) → (⟨S10000x1024, .f32⟩ : BufTy).Contents (Elt F) → (⟨S10000x1024, .f32⟩ : BufTy).Contents (Elt F)) ]

/-- The buffers they write. -/
abbrev stretch8_W : List (Ref sig .tc) := [main_v73, main_call0_cst, main_call0_v0, main_v74, main_v75, main_v76, main_v77, main_v78, main_v79, main_c_13, main_v80, main_v81, main_c_14, main_v82, main_v83, main_v84, main_v85, main_v86, main_v87, main_v88, main_cst_15, main_v89, main_v90, main_v91, main_v92, main_v93, main_v94, main_v95]

theorem stretch8_writes : (stretch8 : List (HloOp τ sig (Elt F))).Forall fun op => op.writes ⊆ (stretch8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 117 to 148 of the line. -/
abbrev stretch9 : List (HloOp τ sig (Elt F)) :=
  [ unary main_arg7 main_v96 ((extractStridedSlice S1x1024 ![1, 0] · slices_S4x1024_S1x1024_1_0) : (⟨S4x1024, .f32⟩ : BufTy).Contents (Elt F) → (⟨S1x1024, .f32⟩ : BufTy).Contents (Elt F)),
    reshape main_v96 main_v97 rfl shapeCasts_S1x1024_S1024,
    unary main_arg8 main_v98 ((extractStridedSlice S1x1024 ![1, 0] · slices_S4x1024_S1x1024_1_0) : (⟨S4x1024, .f32⟩ : BufTy).Contents (Elt F) → (⟨S1x1024, .f32⟩ : BufTy).Contents (Elt F)),
    reshape main_v98 main_v99 rfl shapeCasts_S1x1024_S1024,
    nullary main_cst_16 (constant S_ .f32 0x00000000#32),
    binary main_v95 main_cst_16 main_v100 ((fun x v => Host.reduceAdd x v reducesTo_S10000x1024_S10000_d1 h_S_) : (⟨S10000x1024, .f32⟩ : BufTy).Contents (Elt F) → (⟨S_, .f32⟩ : BufTy).Contents (Elt F) → (⟨S10000, .f32⟩ : BufTy).Contents (Elt F)),
    unary main_v100 main_v101 (broadcastInDim S10000x1 ![0] bcast_S10000_S10000x1_0 : (⟨S10000, .f32⟩ : BufTy).Contents (Elt F) → (⟨S10000x1, .f32⟩ : BufTy).Contents (Elt F)),
    nullary main_cst_17 (constant S_ .f32 0x44800000#32),
    unary main_cst_17 main_v102 (broadcastInDim S10000x1 ![] bcast_S_S10000x1 : (⟨S_, .f32⟩ : BufTy).Contents (Elt F) → (⟨S10000x1, .f32⟩ : BufTy).Contents (Elt F)),
    binary main_v101 main_v102 main_v103 (Host.divf : (⟨S10000x1, .f32⟩ : BufTy).Contents (Elt F) → (⟨S10000x1, .f32⟩ : BufTy).Contents (Elt F) → (⟨S10000x1, .f32⟩ : BufTy).Contents (Elt F)),
    unary main_v103 main_v104 (broadcastInDim S10000x1024 ![0, 1] bcast_S10000x1_S10000x1024_0_1 : (⟨S10000x1, .f32⟩ : BufTy).Contents (Elt F) → (⟨S10000x1024, .f32⟩ : BufTy).Contents (Elt F)),
    binary main_v95 main_v104 main_v105 (subf : (⟨S10000x1024, .f32⟩ : BufTy).Contents (Elt F) → (⟨S10000x1024, .f32⟩ : BufTy).Contents (Elt F) → (⟨S10000x1024, .f32⟩ : BufTy).Contents (Elt F)),
    binary main_v105 main_v105 main_v106 (mulf : (⟨S10000x1024, .f32⟩ : BufTy).Contents (Elt F) → (⟨S10000x1024, .f32⟩ : BufTy).Contents (Elt F) → (⟨S10000x1024, .f32⟩ : BufTy).Contents (Elt F)),
    nullary main_cst_18 (constant S_ .f32 0x00000000#32),
    binary main_v106 main_cst_18 main_v107 ((fun x v => Host.reduceAdd x v reducesTo_S10000x1024_S10000_d1 h_S_) : (⟨S10000x1024, .f32⟩ : BufTy).Contents (Elt F) → (⟨S_, .f32⟩ : BufTy).Contents (Elt F) → (⟨S10000, .f32⟩ : BufTy).Contents (Elt F)),
    unary main_v107 main_v108 (broadcastInDim S10000x1 ![0] bcast_S10000_S10000x1_0 : (⟨S10000, .f32⟩ : BufTy).Contents (Elt F) → (⟨S10000x1, .f32⟩ : BufTy).Contents (Elt F)),
    nullary main_cst_19 (constant S_ .f32 0x44800000#32),
    unary main_cst_19 main_v109 (broadcastInDim S10000x1 ![] bcast_S_S10000x1 : (⟨S_, .f32⟩ : BufTy).Contents (Elt F) → (⟨S10000x1, .f32⟩ : BufTy).Contents (Elt F)),
    binary main_v108 main_v109 main_v110 (Host.divf : (⟨S10000x1, .f32⟩ : BufTy).Contents (Elt F) → (⟨S10000x1, .f32⟩ : BufTy).Contents (Elt F) → (⟨S10000x1, .f32⟩ : BufTy).Contents (Elt F)),
    unary main_v103 main_v111 (broadcastInDim S10000x1024 ![0, 1] bcast_S10000x1_S10000x1024_0_1 : (⟨S10000x1, .f32⟩ : BufTy).Contents (Elt F) → (⟨S10000x1024, .f32⟩ : BufTy).Contents (Elt F)),
    binary main_v95 main_v111 main_v112 (subf : (⟨S10000x1024, .f32⟩ : BufTy).Contents (Elt F) → (⟨S10000x1024, .f32⟩ : BufTy).Contents (Elt F) → (⟨S10000x1024, .f32⟩ : BufTy).Contents (Elt F)),
    nullary main_cst_20 (constant S_ .f32 0x3727C5AC#32),
    unary main_cst_20 main_v113 (broadcastInDim S10000x1 ![] bcast_S_S10000x1 : (⟨S_, .f32⟩ : BufTy).Contents (Elt F) → (⟨S10000x1, .f32⟩ : BufTy).Contents (Elt F)),
    binary main_v110 main_v113 main_v114 (addf : (⟨S10000x1, .f32⟩ : BufTy).Contents (Elt F) → (⟨S10000x1, .f32⟩ : BufTy).Contents (Elt F) → (⟨S10000x1, .f32⟩ : BufTy).Contents (Elt F)),
    unary main_v114 main_v115 (Host.rsqrt : (⟨S10000x1, .f32⟩ : BufTy).Contents (Elt F) → (⟨S10000x1, .f32⟩ : BufTy).Contents (Elt F)),
    unary main_v115 main_v116 (broadcastInDim S10000x1024 ![0, 1] bcast_S10000x1_S10000x1024_0_1 : (⟨S10000x1, .f32⟩ : BufTy).Contents (Elt F) → (⟨S10000x1024, .f32⟩ : BufTy).Contents (Elt F)),
    binary main_v112 main_v116 main_v117 (mulf : (⟨S10000x1024, .f32⟩ : BufTy).Contents (Elt F) → (⟨S10000x1024, .f32⟩ : BufTy).Contents (Elt F) → (⟨S10000x1024, .f32⟩ : BufTy).Contents (Elt F)),
    unary main_v97 main_v118 (broadcastInDim S1x1024 ![1] bcast_S1024_S1x1024_1 : (⟨S1024, .f32⟩ : BufTy).Contents (Elt F) → (⟨S1x1024, .f32⟩ : BufTy).Contents (Elt F)),
    unary main_v118 main_v119 (broadcastInDim S10000x1024 ![0, 1] bcast_S1x1024_S10000x1024_0_1 : (⟨S1x1024, .f32⟩ : BufTy).Contents (Elt F) → (⟨S10000x1024, .f32⟩ : BufTy).Contents (Elt F)),
    binary main_v117 main_v119 main_v120 (mulf : (⟨S10000x1024, .f32⟩ : BufTy).Contents (Elt F) → (⟨S10000x1024, .f32⟩ : BufTy).Contents (Elt F) → (⟨S10000x1024, .f32⟩ : BufTy).Contents (Elt F)),
    unary main_v99 main_v121 (broadcastInDim S1x1024 ![1] bcast_S1024_S1x1024_1 : (⟨S1024, .f32⟩ : BufTy).Contents (Elt F) → (⟨S1x1024, .f32⟩ : BufTy).Contents (Elt F)),
    unary main_v121 main_v122 (broadcastInDim S10000x1024 ![0, 1] bcast_S1x1024_S10000x1024_0_1 : (⟨S1x1024, .f32⟩ : BufTy).Contents (Elt F) → (⟨S10000x1024, .f32⟩ : BufTy).Contents (Elt F)) ]

/-- The buffers they write. -/
abbrev stretch9_W : List (Ref sig .tc) := [main_v96, main_v97, main_v98, main_v99, main_cst_16, main_v100, main_v101, main_cst_17, main_v102, main_v103, main_v104, main_v105, main_v106, main_cst_18, main_v107, main_v108, main_cst_19, main_v109, main_v110, main_v111, main_v112, main_cst_20, main_v113, main_v114, main_v115, main_v116, main_v117, main_v118, main_v119, main_v120, main_v121, main_v122]

theorem stretch9_writes : (stretch9 : List (HloOp τ sig (Elt F))).Forall fun op => op.writes ⊆ (stretch9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 149 to 176 of the line. -/
abbrev stretch10 : List (HloOp τ sig (Elt F)) :=
  [ binary main_v120 main_v122 main_v123 (addf : (⟨S10000x1024, .f32⟩ : BufTy).Contents (Elt F) → (⟨S10000x1024, .f32⟩ : BufTy).Contents (Elt F) → (⟨S10000x1024, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x1024, .f32⟩) main_call1_v0) (broadcastInDim S10000x1024 ![] bcast_S_S10000x1024),
    TRef.binary (TRef.of (T := ⟨S10000x1024, .f32⟩) main_v123) (TRef.of (T := ⟨S10000x1024, .f32⟩) main_call1_v0) (TRef.of (T := ⟨S10000x1024, .f32⟩) main_v124) maximumf,
    unary main_arg5 main_v125 ((extractStridedSlice S1x1024x1024 ![1, 0, 0] · slices_S3x1024x1024_S1x1024x1024_1_0_0) : (⟨S3x1024x1024, .f32⟩ : BufTy).Contents (Elt F) → (⟨S1x1024x1024, .f32⟩ : BufTy).Contents (Elt F)),
    reshape main_v125 main_v126 rfl shapeCasts_S1x1024x1024_S1024x1024,
    unary main_arg6 main_v127 ((extractStridedSlice S1x1024 ![1, 0] · slices_S3x1024_S1x1024_1_0) : (⟨S3x1024, .f32⟩ : BufTy).Contents (Elt F) → (⟨S1x1024, .f32⟩ : BufTy).Contents (Elt F)),
    reshape main_v127 main_v128 rfl shapeCasts_S1x1024_S1024,
    binary main_v124 main_v126 main_v129 ((fun l r => Host.dotGeneral dot_S10000x1024_S1024x1024_S10000x1024_1_0_0_1_n_n none l r) : (⟨S10000x1024, .f32⟩ : BufTy).Contents (Elt F) → (⟨S1024x1024, .f32⟩ : BufTy).Contents (Elt F) → (⟨S10000x1024, .f32⟩ : BufTy).Contents (Elt F)),
    nullary main_c_21 (constantI S_ 32 0#32),
    unary main_c_21 main_v130 (broadcastInDim S170000 ![] bcast_S_S170000 : (⟨S_, .i32⟩ : BufTy).Contents (Elt F) → (⟨S170000, .i32⟩ : BufTy).Contents (Elt F)),
    binary main_v3 main_v130 main_v131 (cmpi .slt : (⟨S170000, .i32⟩ : BufTy).Contents (Elt F) → (⟨S170000, .i32⟩ : BufTy).Contents (Elt F) → (⟨S170000, .i1⟩ : BufTy).Contents (Elt F)),
    nullary main_c_22 (constantI S_ 32 10000#32),
    unary main_c_22 main_v132 (broadcastInDim S170000 ![] bcast_S_S170000 : (⟨S_, .i32⟩ : BufTy).Contents (Elt F) → (⟨S170000, .i32⟩ : BufTy).Contents (Elt F)),
    binary main_v3 main_v132 main_v133 (addi : (⟨S170000, .i32⟩ : BufTy).Contents (Elt F) → (⟨S170000, .i32⟩ : BufTy).Contents (Elt F) → (⟨S170000, .i32⟩ : BufTy).Contents (Elt F)),
    ternary main_v131 main_v133 main_v3 main_v134 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v134 main_v135 (broadcastInDim S170000x1 ![0] bcast_S170000_S170000x1_0 : (⟨S170000, .i32⟩ : BufTy).Contents (Elt F) → (⟨S170000x1, .i32⟩ : BufTy).Contents (Elt F)),
    binary main_v129 main_v135 main_v136 ((fun x i => Host.gather gather_S10000x1024_S170000x1_S170000x1024_1_0_n_n_0_1_11024 x i) : (⟨S10000x1024, .f32⟩ : BufTy).Contents (Elt F) → (⟨S170000x1, .i32⟩ : BufTy).Contents (Elt F) → (⟨S170000x1024, .f32⟩ : BufTy).Contents (Elt F)),
    unary main_v29 main_v137 (broadcastInDim S170000x1024 ![0, 1] bcast_S170000x1_S170000x1024_0_1 : (⟨S170000x1, .f32⟩ : BufTy).Contents (Elt F) → (⟨S170000x1024, .f32⟩ : BufTy).Contents (Elt F)),
    binary main_v136 main_v137 main_v138 (mulf : (⟨S170000x1024, .f32⟩ : BufTy).Contents (Elt F) → (⟨S170000x1024, .f32⟩ : BufTy).Contents (Elt F) → (⟨S170000x1024, .f32⟩ : BufTy).Contents (Elt F)),
    nullary main_cst_23 (constant S_ .f32 0x00000000#32),
    unary main_cst_23 main_v139 (broadcastInDim S10000x1024 ![] bcast_S_S10000x1024 : (⟨S_, .f32⟩ : BufTy).Contents (Elt F) → (⟨S10000x1024, .f32⟩ : BufTy).Contents (Elt F)),
    unary main_v6 main_v140 (broadcastInDim S170000x1 ![0] bcast_S170000_S170000x1_0 : (⟨S170000, .i32⟩ : BufTy).Contents (Elt F) → (⟨S170000x1, .i32⟩ : BufTy).Contents (Elt F)),
    ternary main_v139 main_v140 main_v138 main_v141 ((fun x i u => Host.scatterAdd scatter_S10000x1024_S170000x1_S170000x1024_1_0_0_1 x i u) : (⟨S10000x1024, .f32⟩ : BufTy).Contents (Elt F) → (⟨S170000x1, .i32⟩ : BufTy).Contents (Elt F) → (⟨S170000x1024, .f32⟩ : BufTy).Contents (Elt F) → (⟨S10000x1024, .f32⟩ : BufTy).Contents (Elt F)),
    unary main_v128 main_v142 (broadcastInDim S1x1024 ![1] bcast_S1024_S1x1024_1 : (⟨S1024, .f32⟩ : BufTy).Contents (Elt F) → (⟨S1x1024, .f32⟩ : BufTy).Contents (Elt F)),
    unary main_v142 main_v143 (broadcastInDim S10000x1024 ![0, 1] bcast_S1x1024_S10000x1024_0_1 : (⟨S1x1024, .f32⟩ : BufTy).Contents (Elt F) → (⟨S10000x1024, .f32⟩ : BufTy).Contents (Elt F)),
    binary main_v141 main_v143 main_v144 (addf : (⟨S10000x1024, .f32⟩ : BufTy).Contents (Elt F) → (⟨S10000x1024, .f32⟩ : BufTy).Contents (Elt F) → (⟨S10000x1024, .f32⟩ : BufTy).Contents (Elt F)),
    binary main_v144 main_v45 main_v145 (addf : (⟨S10000x1024, .f32⟩ : BufTy).Contents (Elt F) → (⟨S10000x1024, .f32⟩ : BufTy).Contents (Elt F) → (⟨S10000x1024, .f32⟩ : BufTy).Contents (Elt F)) ]

/-- The buffers they write. -/
abbrev stretch10_W : List (Ref sig .tc) := [main_v123, main_call1_cst, main_call1_v0, main_v124, main_v125, main_v126, main_v127, main_v128, main_v129, main_c_21, main_v130, main_v131, main_c_22, main_v132, main_v133, main_v134, main_v135, main_v136, main_v137, main_v138, main_cst_23, main_v139, main_v140, main_v141, main_v142, main_v143, main_v144, main_v145]

theorem stretch10_writes : (stretch10 : List (HloOp τ sig (Elt F))).Forall fun op => op.writes ⊆ (stretch10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 177 to 208 of the line. -/
abbrev stretch11 : List (HloOp τ sig (Elt F)) :=
  [ unary main_arg7 main_v146 ((extractStridedSlice S1x1024 ![2, 0] · slices_S4x1024_S1x1024_2_0) : (⟨S4x1024, .f32⟩ : BufTy).Contents (Elt F) → (⟨S1x1024, .f32⟩ : BufTy).Contents (Elt F)),
    reshape main_v146 main_v147 rfl shapeCasts_S1x1024_S1024,
    unary main_arg8 main_v148 ((extractStridedSlice S1x1024 ![2, 0] · slices_S4x1024_S1x1024_2_0) : (⟨S4x1024, .f32⟩ : BufTy).Contents (Elt F) → (⟨S1x1024, .f32⟩ : BufTy).Contents (Elt F)),
    reshape main_v148 main_v149 rfl shapeCasts_S1x1024_S1024,
    nullary main_cst_24 (constant S_ .f32 0x00000000#32),
    binary main_v145 main_cst_24 main_v150 ((fun x v => Host.reduceAdd x v reducesTo_S10000x1024_S10000_d1 h_S_) : (⟨S10000x1024, .f32⟩ : BufTy).Contents (Elt F) → (⟨S_, .f32⟩ : BufTy).Contents (Elt F) → (⟨S10000, .f32⟩ : BufTy).Contents (Elt F)),
    unary main_v150 main_v151 (broadcastInDim S10000x1 ![0] bcast_S10000_S10000x1_0 : (⟨S10000, .f32⟩ : BufTy).Contents (Elt F) → (⟨S10000x1, .f32⟩ : BufTy).Contents (Elt F)),
    nullary main_cst_25 (constant S_ .f32 0x44800000#32),
    unary main_cst_25 main_v152 (broadcastInDim S10000x1 ![] bcast_S_S10000x1 : (⟨S_, .f32⟩ : BufTy).Contents (Elt F) → (⟨S10000x1, .f32⟩ : BufTy).Contents (Elt F)),
    binary main_v151 main_v152 main_v153 (Host.divf : (⟨S10000x1, .f32⟩ : BufTy).Contents (Elt F) → (⟨S10000x1, .f32⟩ : BufTy).Contents (Elt F) → (⟨S10000x1, .f32⟩ : BufTy).Contents (Elt F)),
    unary main_v153 main_v154 (broadcastInDim S10000x1024 ![0, 1] bcast_S10000x1_S10000x1024_0_1 : (⟨S10000x1, .f32⟩ : BufTy).Contents (Elt F) → (⟨S10000x1024, .f32⟩ : BufTy).Contents (Elt F)),
    binary main_v145 main_v154 main_v155 (subf : (⟨S10000x1024, .f32⟩ : BufTy).Contents (Elt F) → (⟨S10000x1024, .f32⟩ : BufTy).Contents (Elt F) → (⟨S10000x1024, .f32⟩ : BufTy).Contents (Elt F)),
    binary main_v155 main_v155 main_v156 (mulf : (⟨S10000x1024, .f32⟩ : BufTy).Contents (Elt F) → (⟨S10000x1024, .f32⟩ : BufTy).Contents (Elt F) → (⟨S10000x1024, .f32⟩ : BufTy).Contents (Elt F)),
    nullary main_cst_26 (constant S_ .f32 0x00000000#32),
    binary main_v156 main_cst_26 main_v157 ((fun x v => Host.reduceAdd x v reducesTo_S10000x1024_S10000_d1 h_S_) : (⟨S10000x1024, .f32⟩ : BufTy).Contents (Elt F) → (⟨S_, .f32⟩ : BufTy).Contents (Elt F) → (⟨S10000, .f32⟩ : BufTy).Contents (Elt F)),
    unary main_v157 main_v158 (broadcastInDim S10000x1 ![0] bcast_S10000_S10000x1_0 : (⟨S10000, .f32⟩ : BufTy).Contents (Elt F) → (⟨S10000x1, .f32⟩ : BufTy).Contents (Elt F)),
    nullary main_cst_27 (constant S_ .f32 0x44800000#32),
    unary main_cst_27 main_v159 (broadcastInDim S10000x1 ![] bcast_S_S10000x1 : (⟨S_, .f32⟩ : BufTy).Contents (Elt F) → (⟨S10000x1, .f32⟩ : BufTy).Contents (Elt F)),
    binary main_v158 main_v159 main_v160 (Host.divf : (⟨S10000x1, .f32⟩ : BufTy).Contents (Elt F) → (⟨S10000x1, .f32⟩ : BufTy).Contents (Elt F) → (⟨S10000x1, .f32⟩ : BufTy).Contents (Elt F)),
    unary main_v153 main_v161 (broadcastInDim S10000x1024 ![0, 1] bcast_S10000x1_S10000x1024_0_1 : (⟨S10000x1, .f32⟩ : BufTy).Contents (Elt F) → (⟨S10000x1024, .f32⟩ : BufTy).Contents (Elt F)),
    binary main_v145 main_v161 main_v162 (subf : (⟨S10000x1024, .f32⟩ : BufTy).Contents (Elt F) → (⟨S10000x1024, .f32⟩ : BufTy).Contents (Elt F) → (⟨S10000x1024, .f32⟩ : BufTy).Contents (Elt F)),
    nullary main_cst_28 (constant S_ .f32 0x3727C5AC#32),
    unary main_cst_28 main_v163 (broadcastInDim S10000x1 ![] bcast_S_S10000x1 : (⟨S_, .f32⟩ : BufTy).Contents (Elt F) → (⟨S10000x1, .f32⟩ : BufTy).Contents (Elt F)),
    binary main_v160 main_v163 main_v164 (addf : (⟨S10000x1, .f32⟩ : BufTy).Contents (Elt F) → (⟨S10000x1, .f32⟩ : BufTy).Contents (Elt F) → (⟨S10000x1, .f32⟩ : BufTy).Contents (Elt F)),
    unary main_v164 main_v165 (Host.rsqrt : (⟨S10000x1, .f32⟩ : BufTy).Contents (Elt F) → (⟨S10000x1, .f32⟩ : BufTy).Contents (Elt F)),
    unary main_v165 main_v166 (broadcastInDim S10000x1024 ![0, 1] bcast_S10000x1_S10000x1024_0_1 : (⟨S10000x1, .f32⟩ : BufTy).Contents (Elt F) → (⟨S10000x1024, .f32⟩ : BufTy).Contents (Elt F)),
    binary main_v162 main_v166 main_v167 (mulf : (⟨S10000x1024, .f32⟩ : BufTy).Contents (Elt F) → (⟨S10000x1024, .f32⟩ : BufTy).Contents (Elt F) → (⟨S10000x1024, .f32⟩ : BufTy).Contents (Elt F)),
    unary main_v147 main_v168 (broadcastInDim S1x1024 ![1] bcast_S1024_S1x1024_1 : (⟨S1024, .f32⟩ : BufTy).Contents (Elt F) → (⟨S1x1024, .f32⟩ : BufTy).Contents (Elt F)),
    unary main_v168 main_v169 (broadcastInDim S10000x1024 ![0, 1] bcast_S1x1024_S10000x1024_0_1 : (⟨S1x1024, .f32⟩ : BufTy).Contents (Elt F) → (⟨S10000x1024, .f32⟩ : BufTy).Contents (Elt F)),
    binary main_v167 main_v169 main_v170 (mulf : (⟨S10000x1024, .f32⟩ : BufTy).Contents (Elt F) → (⟨S10000x1024, .f32⟩ : BufTy).Contents (Elt F) → (⟨S10000x1024, .f32⟩ : BufTy).Contents (Elt F)),
    unary main_v149 main_v171 (broadcastInDim S1x1024 ![1] bcast_S1024_S1x1024_1 : (⟨S1024, .f32⟩ : BufTy).Contents (Elt F) → (⟨S1x1024, .f32⟩ : BufTy).Contents (Elt F)),
    unary main_v171 main_v172 (broadcastInDim S10000x1024 ![0, 1] bcast_S1x1024_S10000x1024_0_1 : (⟨S1x1024, .f32⟩ : BufTy).Contents (Elt F) → (⟨S10000x1024, .f32⟩ : BufTy).Contents (Elt F)) ]

/-- The buffers they write. -/
abbrev stretch11_W : List (Ref sig .tc) := [main_v146, main_v147, main_v148, main_v149, main_cst_24, main_v150, main_v151, main_cst_25, main_v152, main_v153, main_v154, main_v155, main_v156, main_cst_26, main_v157, main_v158, main_cst_27, main_v159, main_v160, main_v161, main_v162, main_cst_28, main_v163, main_v164, main_v165, main_v166, main_v167, main_v168, main_v169, main_v170, main_v171, main_v172]

theorem stretch11_writes : (stretch11 : List (HloOp τ sig (Elt F))).Forall fun op => op.writes ⊆ (stretch11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 209 to 236 of the line. -/
abbrev stretch12 : List (HloOp τ sig (Elt F)) :=
  [ binary main_v170 main_v172 main_v173 (addf : (⟨S10000x1024, .f32⟩ : BufTy).Contents (Elt F) → (⟨S10000x1024, .f32⟩ : BufTy).Contents (Elt F) → (⟨S10000x1024, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S10000x1024, .f32⟩) main_call2_v0) (broadcastInDim S10000x1024 ![] bcast_S_S10000x1024),
    TRef.binary (TRef.of (T := ⟨S10000x1024, .f32⟩) main_v173) (TRef.of (T := ⟨S10000x1024, .f32⟩) main_call2_v0) (TRef.of (T := ⟨S10000x1024, .f32⟩) main_v174) maximumf,
    unary main_arg5 main_v175 ((extractStridedSlice S1x1024x1024 ![2, 0, 0] · slices_S3x1024x1024_S1x1024x1024_2_0_0) : (⟨S3x1024x1024, .f32⟩ : BufTy).Contents (Elt F) → (⟨S1x1024x1024, .f32⟩ : BufTy).Contents (Elt F)),
    reshape main_v175 main_v176 rfl shapeCasts_S1x1024x1024_S1024x1024,
    unary main_arg6 main_v177 ((extractStridedSlice S1x1024 ![2, 0] · slices_S3x1024_S1x1024_2_0) : (⟨S3x1024, .f32⟩ : BufTy).Contents (Elt F) → (⟨S1x1024, .f32⟩ : BufTy).Contents (Elt F)),
    reshape main_v177 main_v178 rfl shapeCasts_S1x1024_S1024,
    binary main_v174 main_v176 main_v179 ((fun l r => Host.dotGeneral dot_S10000x1024_S1024x1024_S10000x1024_1_0_0_1_n_n none l r) : (⟨S10000x1024, .f32⟩ : BufTy).Contents (Elt F) → (⟨S1024x1024, .f32⟩ : BufTy).Contents (Elt F) → (⟨S10000x1024, .f32⟩ : BufTy).Contents (Elt F)),
    nullary main_c_29 (constantI S_ 32 0#32),
    unary main_c_29 main_v180 (broadcastInDim S170000 ![] bcast_S_S170000 : (⟨S_, .i32⟩ : BufTy).Contents (Elt F) → (⟨S170000, .i32⟩ : BufTy).Contents (Elt F)),
    binary main_v3 main_v180 main_v181 (cmpi .slt : (⟨S170000, .i32⟩ : BufTy).Contents (Elt F) → (⟨S170000, .i32⟩ : BufTy).Contents (Elt F) → (⟨S170000, .i1⟩ : BufTy).Contents (Elt F)),
    nullary main_c_30 (constantI S_ 32 10000#32),
    unary main_c_30 main_v182 (broadcastInDim S170000 ![] bcast_S_S170000 : (⟨S_, .i32⟩ : BufTy).Contents (Elt F) → (⟨S170000, .i32⟩ : BufTy).Contents (Elt F)),
    binary main_v3 main_v182 main_v183 (addi : (⟨S170000, .i32⟩ : BufTy).Contents (Elt F) → (⟨S170000, .i32⟩ : BufTy).Contents (Elt F) → (⟨S170000, .i32⟩ : BufTy).Contents (Elt F)),
    ternary main_v181 main_v183 main_v3 main_v184 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    unary main_v184 main_v185 (broadcastInDim S170000x1 ![0] bcast_S170000_S170000x1_0 : (⟨S170000, .i32⟩ : BufTy).Contents (Elt F) → (⟨S170000x1, .i32⟩ : BufTy).Contents (Elt F)),
    binary main_v179 main_v185 main_v186 ((fun x i => Host.gather gather_S10000x1024_S170000x1_S170000x1024_1_0_n_n_0_1_11024 x i) : (⟨S10000x1024, .f32⟩ : BufTy).Contents (Elt F) → (⟨S170000x1, .i32⟩ : BufTy).Contents (Elt F) → (⟨S170000x1024, .f32⟩ : BufTy).Contents (Elt F)),
    unary main_v29 main_v187 (broadcastInDim S170000x1024 ![0, 1] bcast_S170000x1_S170000x1024_0_1 : (⟨S170000x1, .f32⟩ : BufTy).Contents (Elt F) → (⟨S170000x1024, .f32⟩ : BufTy).Contents (Elt F)),
    binary main_v186 main_v187 main_v188 (mulf : (⟨S170000x1024, .f32⟩ : BufTy).Contents (Elt F) → (⟨S170000x1024, .f32⟩ : BufTy).Contents (Elt F) → (⟨S170000x1024, .f32⟩ : BufTy).Contents (Elt F)),
    nullary main_cst_31 (constant S_ .f32 0x00000000#32),
    unary main_cst_31 main_v189 (broadcastInDim S10000x1024 ![] bcast_S_S10000x1024 : (⟨S_, .f32⟩ : BufTy).Contents (Elt F) → (⟨S10000x1024, .f32⟩ : BufTy).Contents (Elt F)),
    unary main_v6 main_v190 (broadcastInDim S170000x1 ![0] bcast_S170000_S170000x1_0 : (⟨S170000, .i32⟩ : BufTy).Contents (Elt F) → (⟨S170000x1, .i32⟩ : BufTy).Contents (Elt F)),
    ternary main_v189 main_v190 main_v188 main_v191 ((fun x i u => Host.scatterAdd scatter_S10000x1024_S170000x1_S170000x1024_1_0_0_1 x i u) : (⟨S10000x1024, .f32⟩ : BufTy).Contents (Elt F) → (⟨S170000x1, .i32⟩ : BufTy).Contents (Elt F) → (⟨S170000x1024, .f32⟩ : BufTy).Contents (Elt F) → (⟨S10000x1024, .f32⟩ : BufTy).Contents (Elt F)),
    unary main_v178 main_v192 (broadcastInDim S1x1024 ![1] bcast_S1024_S1x1024_1 : (⟨S1024, .f32⟩ : BufTy).Contents (Elt F) → (⟨S1x1024, .f32⟩ : BufTy).Contents (Elt F)),
    unary main_v192 main_v193 (broadcastInDim S10000x1024 ![0, 1] bcast_S1x1024_S10000x1024_0_1 : (⟨S1x1024, .f32⟩ : BufTy).Contents (Elt F) → (⟨S10000x1024, .f32⟩ : BufTy).Contents (Elt F)),
    binary main_v191 main_v193 main_v194 (addf : (⟨S10000x1024, .f32⟩ : BufTy).Contents (Elt F) → (⟨S10000x1024, .f32⟩ : BufTy).Contents (Elt F) → (⟨S10000x1024, .f32⟩ : BufTy).Contents (Elt F)),
    binary main_v194 main_v174 main_v195 (addf : (⟨S10000x1024, .f32⟩ : BufTy).Contents (Elt F) → (⟨S10000x1024, .f32⟩ : BufTy).Contents (Elt F) → (⟨S10000x1024, .f32⟩ : BufTy).Contents (Elt F)) ]

/-- The buffers they write. -/
abbrev stretch12_W : List (Ref sig .tc) := [main_v173, main_call2_cst, main_call2_v0, main_v174, main_v175, main_v176, main_v177, main_v178, main_v179, main_c_29, main_v180, main_v181, main_c_30, main_v182, main_v183, main_v184, main_v185, main_v186, main_v187, main_v188, main_cst_31, main_v189, main_v190, main_v191, main_v192, main_v193, main_v194, main_v195]

theorem stretch12_writes : (stretch12 : List (HloOp τ sig (Elt F))).Forall fun op => op.writes ⊆ (stretch12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 237 to 268 of the line. -/
abbrev stretch13 : List (HloOp τ sig (Elt F)) :=
  [ unary main_arg7 main_v196 ((extractStridedSlice S1x1024 ![3, 0] · slices_S4x1024_S1x1024_3_0) : (⟨S4x1024, .f32⟩ : BufTy).Contents (Elt F) → (⟨S1x1024, .f32⟩ : BufTy).Contents (Elt F)),
    reshape main_v196 main_v197 rfl shapeCasts_S1x1024_S1024,
    unary main_arg8 main_v198 ((extractStridedSlice S1x1024 ![3, 0] · slices_S4x1024_S1x1024_3_0) : (⟨S4x1024, .f32⟩ : BufTy).Contents (Elt F) → (⟨S1x1024, .f32⟩ : BufTy).Contents (Elt F)),
    reshape main_v198 main_v199 rfl shapeCasts_S1x1024_S1024,
    nullary main_cst_32 (constant S_ .f32 0x00000000#32),
    binary main_v195 main_cst_32 main_v200 ((fun x v => Host.reduceAdd x v reducesTo_S10000x1024_S10000_d1 h_S_) : (⟨S10000x1024, .f32⟩ : BufTy).Contents (Elt F) → (⟨S_, .f32⟩ : BufTy).Contents (Elt F) → (⟨S10000, .f32⟩ : BufTy).Contents (Elt F)),
    unary main_v200 main_v201 (broadcastInDim S10000x1 ![0] bcast_S10000_S10000x1_0 : (⟨S10000, .f32⟩ : BufTy).Contents (Elt F) → (⟨S10000x1, .f32⟩ : BufTy).Contents (Elt F)),
    nullary main_cst_33 (constant S_ .f32 0x44800000#32),
    unary main_cst_33 main_v202 (broadcastInDim S10000x1 ![] bcast_S_S10000x1 : (⟨S_, .f32⟩ : BufTy).Contents (Elt F) → (⟨S10000x1, .f32⟩ : BufTy).Contents (Elt F)),
    binary main_v201 main_v202 main_v203 (Host.divf : (⟨S10000x1, .f32⟩ : BufTy).Contents (Elt F) → (⟨S10000x1, .f32⟩ : BufTy).Contents (Elt F) → (⟨S10000x1, .f32⟩ : BufTy).Contents (Elt F)),
    unary main_v203 main_v204 (broadcastInDim S10000x1024 ![0, 1] bcast_S10000x1_S10000x1024_0_1 : (⟨S10000x1, .f32⟩ : BufTy).Contents (Elt F) → (⟨S10000x1024, .f32⟩ : BufTy).Contents (Elt F)),
    binary main_v195 main_v204 main_v205 (subf : (⟨S10000x1024, .f32⟩ : BufTy).Contents (Elt F) → (⟨S10000x1024, .f32⟩ : BufTy).Contents (Elt F) → (⟨S10000x1024, .f32⟩ : BufTy).Contents (Elt F)),
    binary main_v205 main_v205 main_v206 (mulf : (⟨S10000x1024, .f32⟩ : BufTy).Contents (Elt F) → (⟨S10000x1024, .f32⟩ : BufTy).Contents (Elt F) → (⟨S10000x1024, .f32⟩ : BufTy).Contents (Elt F)),
    nullary main_cst_34 (constant S_ .f32 0x00000000#32),
    binary main_v206 main_cst_34 main_v207 ((fun x v => Host.reduceAdd x v reducesTo_S10000x1024_S10000_d1 h_S_) : (⟨S10000x1024, .f32⟩ : BufTy).Contents (Elt F) → (⟨S_, .f32⟩ : BufTy).Contents (Elt F) → (⟨S10000, .f32⟩ : BufTy).Contents (Elt F)),
    unary main_v207 main_v208 (broadcastInDim S10000x1 ![0] bcast_S10000_S10000x1_0 : (⟨S10000, .f32⟩ : BufTy).Contents (Elt F) → (⟨S10000x1, .f32⟩ : BufTy).Contents (Elt F)),
    nullary main_cst_35 (constant S_ .f32 0x44800000#32),
    unary main_cst_35 main_v209 (broadcastInDim S10000x1 ![] bcast_S_S10000x1 : (⟨S_, .f32⟩ : BufTy).Contents (Elt F) → (⟨S10000x1, .f32⟩ : BufTy).Contents (Elt F)),
    binary main_v208 main_v209 main_v210 (Host.divf : (⟨S10000x1, .f32⟩ : BufTy).Contents (Elt F) → (⟨S10000x1, .f32⟩ : BufTy).Contents (Elt F) → (⟨S10000x1, .f32⟩ : BufTy).Contents (Elt F)),
    unary main_v203 main_v211 (broadcastInDim S10000x1024 ![0, 1] bcast_S10000x1_S10000x1024_0_1 : (⟨S10000x1, .f32⟩ : BufTy).Contents (Elt F) → (⟨S10000x1024, .f32⟩ : BufTy).Contents (Elt F)),
    binary main_v195 main_v211 main_v212 (subf : (⟨S10000x1024, .f32⟩ : BufTy).Contents (Elt F) → (⟨S10000x1024, .f32⟩ : BufTy).Contents (Elt F) → (⟨S10000x1024, .f32⟩ : BufTy).Contents (Elt F)),
    nullary main_cst_36 (constant S_ .f32 0x3727C5AC#32),
    unary main_cst_36 main_v213 (broadcastInDim S10000x1 ![] bcast_S_S10000x1 : (⟨S_, .f32⟩ : BufTy).Contents (Elt F) → (⟨S10000x1, .f32⟩ : BufTy).Contents (Elt F)),
    binary main_v210 main_v213 main_v214 (addf : (⟨S10000x1, .f32⟩ : BufTy).Contents (Elt F) → (⟨S10000x1, .f32⟩ : BufTy).Contents (Elt F) → (⟨S10000x1, .f32⟩ : BufTy).Contents (Elt F)),
    unary main_v214 main_v215 (Host.rsqrt : (⟨S10000x1, .f32⟩ : BufTy).Contents (Elt F) → (⟨S10000x1, .f32⟩ : BufTy).Contents (Elt F)),
    unary main_v215 main_v216 (broadcastInDim S10000x1024 ![0, 1] bcast_S10000x1_S10000x1024_0_1 : (⟨S10000x1, .f32⟩ : BufTy).Contents (Elt F) → (⟨S10000x1024, .f32⟩ : BufTy).Contents (Elt F)),
    binary main_v212 main_v216 main_v217 (mulf : (⟨S10000x1024, .f32⟩ : BufTy).Contents (Elt F) → (⟨S10000x1024, .f32⟩ : BufTy).Contents (Elt F) → (⟨S10000x1024, .f32⟩ : BufTy).Contents (Elt F)),
    unary main_v197 main_v218 (broadcastInDim S1x1024 ![1] bcast_S1024_S1x1024_1 : (⟨S1024, .f32⟩ : BufTy).Contents (Elt F) → (⟨S1x1024, .f32⟩ : BufTy).Contents (Elt F)),
    unary main_v218 main_v219 (broadcastInDim S10000x1024 ![0, 1] bcast_S1x1024_S10000x1024_0_1 : (⟨S1x1024, .f32⟩ : BufTy).Contents (Elt F) → (⟨S10000x1024, .f32⟩ : BufTy).Contents (Elt F)),
    binary main_v217 main_v219 main_v220 (mulf : (⟨S10000x1024, .f32⟩ : BufTy).Contents (Elt F) → (⟨S10000x1024, .f32⟩ : BufTy).Contents (Elt F) → (⟨S10000x1024, .f32⟩ : BufTy).Contents (Elt F)),
    unary main_v199 main_v221 (broadcastInDim S1x1024 ![1] bcast_S1024_S1x1024_1 : (⟨S1024, .f32⟩ : BufTy).Contents (Elt F) → (⟨S1x1024, .f32⟩ : BufTy).Contents (Elt F)),
    unary main_v221 main_v222 (broadcastInDim S10000x1024 ![0, 1] bcast_S1x1024_S10000x1024_0_1 : (⟨S1x1024, .f32⟩ : BufTy).Contents (Elt F) → (⟨S10000x1024, .f32⟩ : BufTy).Contents (Elt F)) ]

/-- The buffers they write. -/
abbrev stretch13_W : List (Ref sig .tc) := [main_v196, main_v197, main_v198, main_v199, main_cst_32, main_v200, main_v201, main_cst_33, main_v202, main_v203, main_v204, main_v205, main_v206, main_cst_34, main_v207, main_v208, main_cst_35, main_v209, main_v210, main_v211, main_v212, main_cst_36, main_v213, main_v214, main_v215, main_v216, main_v217, main_v218, main_v219, main_v220, main_v221, main_v222]

theorem stretch13_writes : (stretch13 : List (HloOp τ sig (Elt F))).Forall fun op => op.writes ⊆ (stretch13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 269 to 288 of the line. -/
abbrev stretch14 : List (HloOp τ sig (Elt F)) :=
  [ binary main_v220 main_v222 main_v223 (addf : (⟨S10000x1024, .f32⟩ : BufTy).Contents (Elt F) → (⟨S10000x1024, .f32⟩ : BufTy).Contents (Elt F) → (⟨S10000x1024, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S10000x1024, .f32⟩) main_call3_v0) (broadcastInDim S10000x1024 ![] bcast_S_S10000x1024),
    TRef.binary (TRef.of (T := ⟨S10000x1024, .f32⟩) main_v223) (TRef.of (T := ⟨S10000x1024, .f32⟩) main_call3_v0) (TRef.of (T := ⟨S10000x1024, .f32⟩) main_v224) maximumf,
    nullary main_cst_37 (constant S_ .f32 0x3F800000#32),
    unary main_cst_37 main_v225 (broadcastInDim S10000 ![] bcast_S_S10000 : (⟨S_, .f32⟩ : BufTy).Contents (Elt F) → (⟨S10000, .f32⟩ : BufTy).Contents (Elt F)),
    nullary main_cst_38 (constant S_ .f32 0x00000000#32),
    unary main_cst_38 main_v226 (broadcastInDim S8 ![] bcast_S_S8 : (⟨S_, .f32⟩ : BufTy).Contents (Elt F) → (⟨S8, .f32⟩ : BufTy).Contents (Elt F)),
    unary main_arg2 main_v227 (broadcastInDim S10000x1 ![0] bcast_S10000_S10000x1_0 : (⟨S10000, .i32⟩ : BufTy).Contents (Elt F) → (⟨S10000x1, .i32⟩ : BufTy).Contents (Elt F)),
    ternary main_v226 main_v227 main_v225 main_v228 ((fun x i u => Host.scatterAdd scatter_S8_S10000x1_S10000_n_0_0_1 x i u) : (⟨S8, .f32⟩ : BufTy).Contents (Elt F) → (⟨S10000x1, .i32⟩ : BufTy).Contents (Elt F) → (⟨S10000, .f32⟩ : BufTy).Contents (Elt F) → (⟨S8, .f32⟩ : BufTy).Contents (Elt F)),
    nullary main_cst_39 (constant S_ .f32 0x00000000#32),
    unary main_cst_39 main_v229 (broadcastInDim S8x1024 ![] bcast_S_S8x1024 : (⟨S_, .f32⟩ : BufTy).Contents (Elt F) → (⟨S8x1024, .f32⟩ : BufTy).Contents (Elt F)),
    unary main_arg2 main_v230 (broadcastInDim S10000x1 ![0] bcast_S10000_S10000x1_0 : (⟨S10000, .i32⟩ : BufTy).Contents (Elt F) → (⟨S10000x1, .i32⟩ : BufTy).Contents (Elt F)),
    ternary main_v229 main_v230 main_v224 main_v231 ((fun x i u => Host.scatterAdd scatter_S8x1024_S10000x1_S10000x1024_1_0_0_1 x i u) : (⟨S8x1024, .f32⟩ : BufTy).Contents (Elt F) → (⟨S10000x1, .i32⟩ : BufTy).Contents (Elt F) → (⟨S10000x1024, .f32⟩ : BufTy).Contents (Elt F) → (⟨S8x1024, .f32⟩ : BufTy).Contents (Elt F)),
    nullary main_cst_40 (constant S_ .f32 0x3F800000#32),
    unary main_cst_40 main_v232 (broadcastInDim S8 ![] bcast_S_S8 : (⟨S_, .f32⟩ : BufTy).Contents (Elt F) → (⟨S8, .f32⟩ : BufTy).Contents (Elt F)),
    binary main_v228 main_v232 main_v233 (maximumf : (⟨S8, .f32⟩ : BufTy).Contents (Elt F) → (⟨S8, .f32⟩ : BufTy).Contents (Elt F) → (⟨S8, .f32⟩ : BufTy).Contents (Elt F)),
    unary main_v233 main_v234 (broadcastInDim S8x1 ![0] bcast_S8_S8x1_0 : (⟨S8, .f32⟩ : BufTy).Contents (Elt F) → (⟨S8x1, .f32⟩ : BufTy).Contents (Elt F)),
    unary main_v234 main_v235 (broadcastInDim S8x1024 ![0, 1] bcast_S8x1_S8x1024_0_1 : (⟨S8x1, .f32⟩ : BufTy).Contents (Elt F) → (⟨S8x1024, .f32⟩ : BufTy).Contents (Elt F)),
    binary main_v231 main_v235 main_v236 (Host.divf : (⟨S8x1024, .f32⟩ : BufTy).Contents (Elt F) → (⟨S8x1024, .f32⟩ : BufTy).Contents (Elt F) → (⟨S8x1024, .f32⟩ : BufTy).Contents (Elt F)) ]

/-- The buffers they write. -/
abbrev stretch14_W : List (Ref sig .tc) := [main_v223, main_call3_cst, main_call3_v0, main_v224, main_cst_37, main_v225, main_cst_38, main_v226, main_v227, main_v228, main_cst_39, main_v229, main_v230, main_v231, main_cst_40, main_v232, main_v233, main_v234, main_v235, main_v236]

theorem stretch14_writes : (stretch14 : List (HloOp τ sig (Elt F))).Forall fun op => op.writes ⊆ (stretch14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 289 to 318 of the line. -/
abbrev stretch15 : List (HloOp τ sig (Elt F)) :=
  [ unary main_arg9 main_v237 ((extractStridedSlice S1x1024x1024 ![0, 0, 0] · slices_S6x1024x1024_S1x1024x1024_0_0_0) : (⟨S6x1024x1024, .f32⟩ : BufTy).Contents (Elt F) → (⟨S1x1024x1024, .f32⟩ : BufTy).Contents (Elt F)),
    reshape main_v237 main_v238 rfl shapeCasts_S1x1024x1024_S1024x1024,
    binary main_v236 main_v238 main_v239 ((fun l r => Host.dotGeneral dot_S8x1024_S1024x1024_S8x1024_1_0_0_1_n_n none l r) : (⟨S8x1024, .f32⟩ : BufTy).Contents (Elt F) → (⟨S1024x1024, .f32⟩ : BufTy).Contents (Elt F) → (⟨S8x1024, .f32⟩ : BufTy).Contents (Elt F)),
    unary main_arg10 main_v240 ((extractStridedSlice S1x1024 ![0, 0] · slices_S6x1024_S1x1024_0_0) : (⟨S6x1024, .f32⟩ : BufTy).Contents (Elt F) → (⟨S1x1024, .f32⟩ : BufTy).Contents (Elt F)),
    reshape main_v240 main_v241 rfl shapeCasts_S1x1024_S1024,
    unary main_v241 main_v242 (broadcastInDim S1x1024 ![1] bcast_S1024_S1x1024_1 : (⟨S1024, .f32⟩ : BufTy).Contents (Elt F) → (⟨S1x1024, .f32⟩ : BufTy).Contents (Elt F)),
    unary main_v242 main_v243 (broadcastInDim S8x1024 ![0, 1] bcast_S1x1024_S8x1024_0_1 : (⟨S1x1024, .f32⟩ : BufTy).Contents (Elt F) → (⟨S8x1024, .f32⟩ : BufTy).Contents (Elt F)),
    binary main_v239 main_v243 main_v244 (addf : (⟨S8x1024, .f32⟩ : BufTy).Contents (Elt F) → (⟨S8x1024, .f32⟩ : BufTy).Contents (Elt F) → (⟨S8x1024, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S8x1024, .f32⟩) main_call4_v0) (broadcastInDim S8x1024 ![] bcast_S_S8x1024),
    TRef.binary (TRef.of (T := ⟨S8x1024, .f32⟩) main_v244) (TRef.of (T := ⟨S8x1024, .f32⟩) main_call4_v0) (TRef.of (T := ⟨S8x1024, .f32⟩) main_v245) maximumf,
    unary main_arg9 main_v246 ((extractStridedSlice S1x1024x1024 ![1, 0, 0] · slices_S6x1024x1024_S1x1024x1024_1_0_0) : (⟨S6x1024x1024, .f32⟩ : BufTy).Contents (Elt F) → (⟨S1x1024x1024, .f32⟩ : BufTy).Contents (Elt F)),
    reshape main_v246 main_v247 rfl shapeCasts_S1x1024x1024_S1024x1024,
    binary main_v245 main_v247 main_v248 ((fun l r => Host.dotGeneral dot_S8x1024_S1024x1024_S8x1024_1_0_0_1_n_n none l r) : (⟨S8x1024, .f32⟩ : BufTy).Contents (Elt F) → (⟨S1024x1024, .f32⟩ : BufTy).Contents (Elt F) → (⟨S8x1024, .f32⟩ : BufTy).Contents (Elt F)),
    unary main_arg10 main_v249 ((extractStridedSlice S1x1024 ![1, 0] · slices_S6x1024_S1x1024_1_0) : (⟨S6x1024, .f32⟩ : BufTy).Contents (Elt F) → (⟨S1x1024, .f32⟩ : BufTy).Contents (Elt F)),
    reshape main_v249 main_v250 rfl shapeCasts_S1x1024_S1024,
    unary main_v250 main_v251 (broadcastInDim S1x1024 ![1] bcast_S1024_S1x1024_1 : (⟨S1024, .f32⟩ : BufTy).Contents (Elt F) → (⟨S1x1024, .f32⟩ : BufTy).Contents (Elt F)),
    unary main_v251 main_v252 (broadcastInDim S8x1024 ![0, 1] bcast_S1x1024_S8x1024_0_1 : (⟨S1x1024, .f32⟩ : BufTy).Contents (Elt F) → (⟨S8x1024, .f32⟩ : BufTy).Contents (Elt F)),
    binary main_v248 main_v252 main_v253 (addf : (⟨S8x1024, .f32⟩ : BufTy).Contents (Elt F) → (⟨S8x1024, .f32⟩ : BufTy).Contents (Elt F) → (⟨S8x1024, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S8x1024, .f32⟩) main_call5_v0) (broadcastInDim S8x1024 ![] bcast_S_S8x1024),
    TRef.binary (TRef.of (T := ⟨S8x1024, .f32⟩) main_v253) (TRef.of (T := ⟨S8x1024, .f32⟩) main_call5_v0) (TRef.of (T := ⟨S8x1024, .f32⟩) main_v254) maximumf,
    unary main_arg9 main_v255 ((extractStridedSlice S1x1024x1024 ![2, 0, 0] · slices_S6x1024x1024_S1x1024x1024_2_0_0) : (⟨S6x1024x1024, .f32⟩ : BufTy).Contents (Elt F) → (⟨S1x1024x1024, .f32⟩ : BufTy).Contents (Elt F)),
    reshape main_v255 main_v256 rfl shapeCasts_S1x1024x1024_S1024x1024,
    binary main_v254 main_v256 main_v257 ((fun l r => Host.dotGeneral dot_S8x1024_S1024x1024_S8x1024_1_0_0_1_n_n none l r) : (⟨S8x1024, .f32⟩ : BufTy).Contents (Elt F) → (⟨S1024x1024, .f32⟩ : BufTy).Contents (Elt F) → (⟨S8x1024, .f32⟩ : BufTy).Contents (Elt F)),
    unary main_arg10 main_v258 ((extractStridedSlice S1x1024 ![2, 0] · slices_S6x1024_S1x1024_2_0) : (⟨S6x1024, .f32⟩ : BufTy).Contents (Elt F) → (⟨S1x1024, .f32⟩ : BufTy).Contents (Elt F)),
    reshape main_v258 main_v259 rfl shapeCasts_S1x1024_S1024,
    unary main_v259 main_v260 (broadcastInDim S1x1024 ![1] bcast_S1024_S1x1024_1 : (⟨S1024, .f32⟩ : BufTy).Contents (Elt F) → (⟨S1x1024, .f32⟩ : BufTy).Contents (Elt F)),
    unary main_v260 main_v261 (broadcastInDim S8x1024 ![0, 1] bcast_S1x1024_S8x1024_0_1 : (⟨S1x1024, .f32⟩ : BufTy).Contents (Elt F) → (⟨S8x1024, .f32⟩ : BufTy).Contents (Elt F)),
    binary main_v257 main_v261 main_v262 (addf : (⟨S8x1024, .f32⟩ : BufTy).Contents (Elt F) → (⟨S8x1024, .f32⟩ : BufTy).Contents (Elt F) → (⟨S8x1024, .f32⟩ : BufTy).Contents (Elt F)) ]

/-- The buffers they write. -/
abbrev stretch15_W : List (Ref sig .tc) := [main_v237, main_v238, main_v239, main_v240, main_v241, main_v242, main_v243, main_v244, main_call4_cst, main_call4_v0, main_v245, main_v246, main_v247, main_v248, main_v249, main_v250, main_v251, main_v252, main_v253, main_call5_cst, main_call5_v0, main_v254, main_v255, main_v256, main_v257, main_v258, main_v259, main_v260, main_v261, main_v262]

theorem stretch15_writes : (stretch15 : List (HloOp τ sig (Elt F))).Forall fun op => op.writes ⊆ (stretch15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 319 to 346 of the line. -/
abbrev stretch16 : List (HloOp τ sig (Elt F)) :=
  [ TRef.nullary (TRef.of (T := ⟨S_, .f32⟩) main_call6_cst) (constant S_ .f32 0x00000000#32),
    TRef.unary (TRef.of (T := ⟨S_, .f32⟩) main_call6_cst) (TRef.of (T := ⟨S8x1024, .f32⟩) main_call6_v0) (broadcastInDim S8x1024 ![] bcast_S_S8x1024),
    TRef.binary (TRef.of (T := ⟨S8x1024, .f32⟩) main_v262) (TRef.of (T := ⟨S8x1024, .f32⟩) main_call6_v0) (TRef.of (T := ⟨S8x1024, .f32⟩) main_v263) maximumf,
    unary main_arg9 main_v264 ((extractStridedSlice S1x1024x1024 ![3, 0, 0] · slices_S6x1024x1024_S1x1024x1024_3_0_0) : (⟨S6x1024x1024, .f32⟩ : BufTy).Contents (Elt F) → (⟨S1x1024x1024, .f32⟩ : BufTy).Contents (Elt F)),
    reshape main_v264 main_v265 rfl shapeCasts_S1x1024x1024_S1024x1024,
    binary main_v263 main_v265 main_v266 ((fun l r => Host.dotGeneral dot_S8x1024_S1024x1024_S8x1024_1_0_0_1_n_n none l r) : (⟨S8x1024, .f32⟩ : BufTy).Contents (Elt F) → (⟨S1024x1024, .f32⟩ : BufTy).Contents (Elt F) → (⟨S8x1024, .f32⟩ : BufTy).Contents (Elt F)),
    unary main_arg10 main_v267 ((extractStridedSlice S1x1024 ![3, 0] · slices_S6x1024_S1x1024_3_0) : (⟨S6x1024, .f32⟩ : BufTy).Contents (Elt F) → (⟨S1x1024, .f32⟩ : BufTy).Contents (Elt F)),
    reshape main_v267 main_v268 rfl shapeCasts_S1x1024_S1024,
    unary main_v268 main_v269 (broadcastInDim S1x1024 ![1] bcast_S1024_S1x1024_1 : (⟨S1024, .f32⟩ : BufTy).Contents (Elt F) → (⟨S1x1024, .f32⟩ : BufTy).Contents (Elt F)),
    unary main_v269 main_v270 (broadcastInDim S8x1024 ![0, 1] bcast_S1x1024_S8x1024_0_1 : (⟨S1x1024, .f32⟩ : BufTy).Contents (Elt F) → (⟨S8x1024, .f32⟩ : BufTy).Contents (Elt F)),
    binary main_v266 main_v270 main_v271 (addf : (⟨S8x1024, .f32⟩ : BufTy).Contents (Elt F) → (⟨S8x1024, .f32⟩ : BufTy).Contents (Elt F) → (⟨S8x1024, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S8x1024, .f32⟩) main_call7_v0) (broadcastInDim S8x1024 ![] bcast_S_S8x1024),
    TRef.binary (TRef.of (T := ⟨S8x1024, .f32⟩) main_v271) (TRef.of (T := ⟨S8x1024, .f32⟩) main_call7_v0) (TRef.of (T := ⟨S8x1024, .f32⟩) main_v272) maximumf,
    unary main_arg9 main_v273 ((extractStridedSlice S1x1024x1024 ![4, 0, 0] · slices_S6x1024x1024_S1x1024x1024_4_0_0) : (⟨S6x1024x1024, .f32⟩ : BufTy).Contents (Elt F) → (⟨S1x1024x1024, .f32⟩ : BufTy).Contents (Elt F)),
    reshape main_v273 main_v274 rfl shapeCasts_S1x1024x1024_S1024x1024,
    binary main_v272 main_v274 main_v275 ((fun l r => Host.dotGeneral dot_S8x1024_S1024x1024_S8x1024_1_0_0_1_n_n none l r) : (⟨S8x1024, .f32⟩ : BufTy).Contents (Elt F) → (⟨S1024x1024, .f32⟩ : BufTy).Contents (Elt F) → (⟨S8x1024, .f32⟩ : BufTy).Contents (Elt F)),
    unary main_arg10 main_v276 ((extractStridedSlice S1x1024 ![4, 0] · slices_S6x1024_S1x1024_4_0) : (⟨S6x1024, .f32⟩ : BufTy).Contents (Elt F) → (⟨S1x1024, .f32⟩ : BufTy).Contents (Elt F)),
    reshape main_v276 main_v277 rfl shapeCasts_S1x1024_S1024,
    unary main_v277 main_v278 (broadcastInDim S1x1024 ![1] bcast_S1024_S1x1024_1 : (⟨S1024, .f32⟩ : BufTy).Contents (Elt F) → (⟨S1x1024, .f32⟩ : BufTy).Contents (Elt F)),
    unary main_v278 main_v279 (broadcastInDim S8x1024 ![0, 1] bcast_S1x1024_S8x1024_0_1 : (⟨S1x1024, .f32⟩ : BufTy).Contents (Elt F) → (⟨S8x1024, .f32⟩ : BufTy).Contents (Elt F)),
    binary main_v275 main_v279 main_v280 (addf : (⟨S8x1024, .f32⟩ : BufTy).Contents (Elt F) → (⟨S8x1024, .f32⟩ : BufTy).Contents (Elt F) → (⟨S8x1024, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S8x1024, .f32⟩) main_call8_v0) (broadcastInDim S8x1024 ![] bcast_S_S8x1024),
    TRef.binary (TRef.of (T := ⟨S8x1024, .f32⟩) main_v280) (TRef.of (T := ⟨S8x1024, .f32⟩) main_call8_v0) (TRef.of (T := ⟨S8x1024, .f32⟩) main_v281) maximumf,
    unary main_arg9 main_v282 ((extractStridedSlice S1x1024x1024 ![5, 0, 0] · slices_S6x1024x1024_S1x1024x1024_5_0_0) : (⟨S6x1024x1024, .f32⟩ : BufTy).Contents (Elt F) → (⟨S1x1024x1024, .f32⟩ : BufTy).Contents (Elt F)),
    reshape main_v282 main_v283 rfl shapeCasts_S1x1024x1024_S1024x1024,
    binary main_v281 main_v283 main_v284 ((fun l r => Host.dotGeneral dot_S8x1024_S1024x1024_S8x1024_1_0_0_1_n_n none l r) : (⟨S8x1024, .f32⟩ : BufTy).Contents (Elt F) → (⟨S1024x1024, .f32⟩ : BufTy).Contents (Elt F) → (⟨S8x1024, .f32⟩ : BufTy).Contents (Elt F)) ]

/-- The buffers they write. -/
abbrev stretch16_W : List (Ref sig .tc) := [main_call6_cst, main_call6_v0, main_v263, main_v264, main_v265, main_v266, main_v267, main_v268, main_v269, main_v270, main_v271, main_call7_cst, main_call7_v0, main_v272, main_v273, main_v274, main_v275, main_v276, main_v277, main_v278, main_v279, main_v280, main_call8_cst, main_call8_v0, main_v281, main_v282, main_v283, main_v284]

theorem stretch16_writes : (stretch16 : List (HloOp τ sig (Elt F))).Forall fun op => op.writes ⊆ (stretch16_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 347 to 359 of the line. -/
abbrev stretch17 : List (HloOp τ sig (Elt F)) :=
  [ unary main_arg10 main_v285 ((extractStridedSlice S1x1024 ![5, 0] · slices_S6x1024_S1x1024_5_0) : (⟨S6x1024, .f32⟩ : BufTy).Contents (Elt F) → (⟨S1x1024, .f32⟩ : BufTy).Contents (Elt F)),
    reshape main_v285 main_v286 rfl shapeCasts_S1x1024_S1024,
    unary main_v286 main_v287 (broadcastInDim S1x1024 ![1] bcast_S1024_S1x1024_1 : (⟨S1024, .f32⟩ : BufTy).Contents (Elt F) → (⟨S1x1024, .f32⟩ : BufTy).Contents (Elt F)),
    unary main_v287 main_v288 (broadcastInDim S8x1024 ![0, 1] bcast_S1x1024_S8x1024_0_1 : (⟨S1x1024, .f32⟩ : BufTy).Contents (Elt F) → (⟨S8x1024, .f32⟩ : BufTy).Contents (Elt F)),
    binary main_v284 main_v288 main_v289 (addf : (⟨S8x1024, .f32⟩ : BufTy).Contents (Elt F) → (⟨S8x1024, .f32⟩ : BufTy).Contents (Elt F) → (⟨S8x1024, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S8x1024, .f32⟩) main_call9_v0) (broadcastInDim S8x1024 ![] bcast_S_S8x1024),
    TRef.binary (TRef.of (T := ⟨S8x1024, .f32⟩) main_v289) (TRef.of (T := ⟨S8x1024, .f32⟩) main_call9_v0) (TRef.of (T := ⟨S8x1024, .f32⟩) main_v290) maximumf,
    binary main_v290 main_arg11 main_v291 ((fun l r => Host.dotGeneral dot_S8x1024_S1024x1_S8x1_1_0_0_1_n_n none l r) : (⟨S8x1024, .f32⟩ : BufTy).Contents (Elt F) → (⟨S1024x1, .f32⟩ : BufTy).Contents (Elt F) → (⟨S8x1, .f32⟩ : BufTy).Contents (Elt F)),
    unary main_arg12 main_v292 (broadcastInDim S1x1 ![1] bcast_S1_S1x1_1 : (⟨S1, .f32⟩ : BufTy).Contents (Elt F) → (⟨S1x1, .f32⟩ : BufTy).Contents (Elt F)),
    unary main_v292 main_v293 (broadcastInDim S8x1 ![0, 1] bcast_S1x1_S8x1_0_1 : (⟨S1x1, .f32⟩ : BufTy).Contents (Elt F) → (⟨S8x1, .f32⟩ : BufTy).Contents (Elt F)),
    binary main_v291 main_v293 main_v294 (addf : (⟨S8x1, .f32⟩ : BufTy).Contents (Elt F) → (⟨S8x1, .f32⟩ : BufTy).Contents (Elt F) → (⟨S8x1, .f32⟩ : BufTy).Contents (Elt F)),
    reshape main_v294 main_v295 rfl shapeCasts_S8x1_S8 ]

/-- The buffers they write. -/
abbrev stretch17_W : List (Ref sig .tc) := [main_v285, main_v286, main_v287, main_v288, main_v289, main_call9_cst, main_call9_v0, main_v290, main_v291, main_v292, main_v293, main_v294, main_v295]

theorem stretch17_writes : (stretch17 : List (HloOp τ sig (Elt F))).Forall fun op => op.writes ⊆ (stretch17_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The line is its stretches, in order. -/
theorem ops_eq : (ops : List (HloOp τ sig (Elt F))) = stretch0 ++ (stretch1 ++ (stretch2 ++ (stretch3 ++ (stretch4 ++ (stretch5 ++ (stretch6 ++ (stretch7 ++ (stretch8 ++ (stretch9 ++ (stretch10 ++ (stretch11 ++ (stretch12 ++ (stretch13 ++ (stretch14 ++ (stretch15 ++ (stretch16 ++ (stretch17))))))))))))))))) := rfl

end Stretches

variable (V : Valuation τ sig (Elt Ideal))

/-! ## The buffer contents after each stretch -/

/-- The contents the line starts from. -/
def W0 : Valuation τ sig (Elt Ideal) := V
/-- The contents after stretches 0 to 0. -/
def W1 : Valuation τ sig (Elt Ideal) := after (stretch0 (F := Ideal)) (W0 V)
/-- The contents after stretches 0 to 1. -/
def W2 : Valuation τ sig (Elt Ideal) := after (stretch1 (F := Ideal)) (W1 V)
/-- The contents after stretches 0 to 2. -/
def W3 : Valuation τ sig (Elt Ideal) := after (stretch2 (F := Ideal)) (W2 V)
/-- The contents after stretches 0 to 3. -/
def W4 : Valuation τ sig (Elt Ideal) := after (stretch3 (F := Ideal)) (W3 V)
/-- The contents after stretches 0 to 4. -/
def W5 : Valuation τ sig (Elt Ideal) := after (stretch4 (F := Ideal)) (W4 V)
/-- The contents after stretches 0 to 5. -/
def W6 : Valuation τ sig (Elt Ideal) := after (stretch5 (F := Ideal)) (W5 V)
/-- The contents after stretches 0 to 6. -/
def W7 : Valuation τ sig (Elt Ideal) := after (stretch6 (F := Ideal)) (W6 V)
/-- The contents after stretches 0 to 7. -/
def W8 : Valuation τ sig (Elt Ideal) := after (stretch7 (F := Ideal)) (W7 V)
/-- The contents after stretches 0 to 8. -/
def W9 : Valuation τ sig (Elt Ideal) := after (stretch8 (F := Ideal)) (W8 V)
/-- The contents after stretches 0 to 9. -/
def W10 : Valuation τ sig (Elt Ideal) := after (stretch9 (F := Ideal)) (W9 V)
/-- The contents after stretches 0 to 10. -/
def W11 : Valuation τ sig (Elt Ideal) := after (stretch10 (F := Ideal)) (W10 V)
/-- The contents after stretches 0 to 11. -/
def W12 : Valuation τ sig (Elt Ideal) := after (stretch11 (F := Ideal)) (W11 V)
/-- The contents after stretches 0 to 12. -/
def W13 : Valuation τ sig (Elt Ideal) := after (stretch12 (F := Ideal)) (W12 V)
/-- The contents after stretches 0 to 13. -/
def W14 : Valuation τ sig (Elt Ideal) := after (stretch13 (F := Ideal)) (W13 V)
/-- The contents after stretches 0 to 14. -/
def W15 : Valuation τ sig (Elt Ideal) := after (stretch14 (F := Ideal)) (W14 V)
/-- The contents after stretches 0 to 15. -/
def W16 : Valuation τ sig (Elt Ideal) := after (stretch15 (F := Ideal)) (W15 V)
/-- The contents after stretches 0 to 16. -/
def W17 : Valuation τ sig (Elt Ideal) := after (stretch16 (F := Ideal)) (W16 V)
/-- The contents after stretches 0 to 17. -/
def W18 : Valuation τ sig (Elt Ideal) := after (stretch17 (F := Ideal)) (W17 V)

/-- The contents after the whole line are the contents after the last stretch. -/
theorem after_ops : after (ops (F := Ideal)) V = W18 V := by
  rw [ops_eq]
  simp only [after_append]
  rfl

/-! ## A buffer a stretch does not write keeps its contents through it -/

theorem keep0 (r : Ref sig .tc) (h : r ∉ stretch0_W) : W1 V (Proc.devRef .tc r) = W0 V (Proc.devRef .tc r) :=
  after_of_writes_sub (stretch0 (F := Ideal)) _ stretch0_writes h
theorem keep1 (r : Ref sig .tc) (h : r ∉ stretch1_W) : W2 V (Proc.devRef .tc r) = W1 V (Proc.devRef .tc r) :=
  after_of_writes_sub (stretch1 (F := Ideal)) _ stretch1_writes h
theorem keep2 (r : Ref sig .tc) (h : r ∉ stretch2_W) : W3 V (Proc.devRef .tc r) = W2 V (Proc.devRef .tc r) :=
  after_of_writes_sub (stretch2 (F := Ideal)) _ stretch2_writes h
theorem keep3 (r : Ref sig .tc) (h : r ∉ stretch3_W) : W4 V (Proc.devRef .tc r) = W3 V (Proc.devRef .tc r) :=
  after_of_writes_sub (stretch3 (F := Ideal)) _ stretch3_writes h
theorem keep4 (r : Ref sig .tc) (h : r ∉ stretch4_W) : W5 V (Proc.devRef .tc r) = W4 V (Proc.devRef .tc r) :=
  after_of_writes_sub (stretch4 (F := Ideal)) _ stretch4_writes h
theorem keep5 (r : Ref sig .tc) (h : r ∉ stretch5_W) : W6 V (Proc.devRef .tc r) = W5 V (Proc.devRef .tc r) :=
  after_of_writes_sub (stretch5 (F := Ideal)) _ stretch5_writes h
theorem keep6 (r : Ref sig .tc) (h : r ∉ stretch6_W) : W7 V (Proc.devRef .tc r) = W6 V (Proc.devRef .tc r) :=
  after_of_writes_sub (stretch6 (F := Ideal)) _ stretch6_writes h
theorem keep7 (r : Ref sig .tc) (h : r ∉ stretch7_W) : W8 V (Proc.devRef .tc r) = W7 V (Proc.devRef .tc r) :=
  after_of_writes_sub (stretch7 (F := Ideal)) _ stretch7_writes h
theorem keep8 (r : Ref sig .tc) (h : r ∉ stretch8_W) : W9 V (Proc.devRef .tc r) = W8 V (Proc.devRef .tc r) :=
  after_of_writes_sub (stretch8 (F := Ideal)) _ stretch8_writes h
theorem keep9 (r : Ref sig .tc) (h : r ∉ stretch9_W) : W10 V (Proc.devRef .tc r) = W9 V (Proc.devRef .tc r) :=
  after_of_writes_sub (stretch9 (F := Ideal)) _ stretch9_writes h
theorem keep10 (r : Ref sig .tc) (h : r ∉ stretch10_W) : W11 V (Proc.devRef .tc r) = W10 V (Proc.devRef .tc r) :=
  after_of_writes_sub (stretch10 (F := Ideal)) _ stretch10_writes h
theorem keep11 (r : Ref sig .tc) (h : r ∉ stretch11_W) : W12 V (Proc.devRef .tc r) = W11 V (Proc.devRef .tc r) :=
  after_of_writes_sub (stretch11 (F := Ideal)) _ stretch11_writes h
theorem keep12 (r : Ref sig .tc) (h : r ∉ stretch12_W) : W13 V (Proc.devRef .tc r) = W12 V (Proc.devRef .tc r) :=
  after_of_writes_sub (stretch12 (F := Ideal)) _ stretch12_writes h
theorem keep13 (r : Ref sig .tc) (h : r ∉ stretch13_W) : W14 V (Proc.devRef .tc r) = W13 V (Proc.devRef .tc r) :=
  after_of_writes_sub (stretch13 (F := Ideal)) _ stretch13_writes h
theorem keep14 (r : Ref sig .tc) (h : r ∉ stretch14_W) : W15 V (Proc.devRef .tc r) = W14 V (Proc.devRef .tc r) :=
  after_of_writes_sub (stretch14 (F := Ideal)) _ stretch14_writes h
theorem keep15 (r : Ref sig .tc) (h : r ∉ stretch15_W) : W16 V (Proc.devRef .tc r) = W15 V (Proc.devRef .tc r) :=
  after_of_writes_sub (stretch15 (F := Ideal)) _ stretch15_writes h
theorem keep16 (r : Ref sig .tc) (h : r ∉ stretch16_W) : W17 V (Proc.devRef .tc r) = W16 V (Proc.devRef .tc r) :=
  after_of_writes_sub (stretch16 (F := Ideal)) _ stretch16_writes h
theorem keep17 (r : Ref sig .tc) (h : r ∉ stretch17_W) : W18 V (Proc.devRef .tc r) = W17 V (Proc.devRef .tc r) :=
  after_of_writes_sub (stretch17 (F := Ideal)) _ stretch17_writes h

/-! ## The argument arrays keep their contents -/

theorem a0_main_arg0 : W0 V (Proc.devRef .tc main_arg0) = V (Proc.devRef .tc main_arg0) := rfl
theorem a1_main_arg0 : W1 V (Proc.devRef .tc main_arg0) = V (Proc.devRef .tc main_arg0) := (keep0 V main_arg0 (by decide)).trans (a0_main_arg0 V)
theorem a2_main_arg0 : W2 V (Proc.devRef .tc main_arg0) = V (Proc.devRef .tc main_arg0) := (keep1 V main_arg0 (by decide)).trans (a1_main_arg0 V)
theorem a3_main_arg0 : W3 V (Proc.devRef .tc main_arg0) = V (Proc.devRef .tc main_arg0) := (keep2 V main_arg0 (by decide)).trans (a2_main_arg0 V)
theorem a4_main_arg0 : W4 V (Proc.devRef .tc main_arg0) = V (Proc.devRef .tc main_arg0) := (keep3 V main_arg0 (by decide)).trans (a3_main_arg0 V)
theorem a5_main_arg0 : W5 V (Proc.devRef .tc main_arg0) = V (Proc.devRef .tc main_arg0) := (keep4 V main_arg0 (by decide)).trans (a4_main_arg0 V)
theorem a6_main_arg0 : W6 V (Proc.devRef .tc main_arg0) = V (Proc.devRef .tc main_arg0) := (keep5 V main_arg0 (by decide)).trans (a5_main_arg0 V)
theorem a7_main_arg0 : W7 V (Proc.devRef .tc main_arg0) = V (Proc.devRef .tc main_arg0) := (keep6 V main_arg0 (by decide)).trans (a6_main_arg0 V)
theorem a8_main_arg0 : W8 V (Proc.devRef .tc main_arg0) = V (Proc.devRef .tc main_arg0) := (keep7 V main_arg0 (by decide)).trans (a7_main_arg0 V)
theorem a9_main_arg0 : W9 V (Proc.devRef .tc main_arg0) = V (Proc.devRef .tc main_arg0) := (keep8 V main_arg0 (by decide)).trans (a8_main_arg0 V)
theorem a10_main_arg0 : W10 V (Proc.devRef .tc main_arg0) = V (Proc.devRef .tc main_arg0) := (keep9 V main_arg0 (by decide)).trans (a9_main_arg0 V)
theorem a11_main_arg0 : W11 V (Proc.devRef .tc main_arg0) = V (Proc.devRef .tc main_arg0) := (keep10 V main_arg0 (by decide)).trans (a10_main_arg0 V)
theorem a12_main_arg0 : W12 V (Proc.devRef .tc main_arg0) = V (Proc.devRef .tc main_arg0) := (keep11 V main_arg0 (by decide)).trans (a11_main_arg0 V)
theorem a13_main_arg0 : W13 V (Proc.devRef .tc main_arg0) = V (Proc.devRef .tc main_arg0) := (keep12 V main_arg0 (by decide)).trans (a12_main_arg0 V)
theorem a14_main_arg0 : W14 V (Proc.devRef .tc main_arg0) = V (Proc.devRef .tc main_arg0) := (keep13 V main_arg0 (by decide)).trans (a13_main_arg0 V)
theorem a15_main_arg0 : W15 V (Proc.devRef .tc main_arg0) = V (Proc.devRef .tc main_arg0) := (keep14 V main_arg0 (by decide)).trans (a14_main_arg0 V)
theorem a16_main_arg0 : W16 V (Proc.devRef .tc main_arg0) = V (Proc.devRef .tc main_arg0) := (keep15 V main_arg0 (by decide)).trans (a15_main_arg0 V)
theorem a17_main_arg0 : W17 V (Proc.devRef .tc main_arg0) = V (Proc.devRef .tc main_arg0) := (keep16 V main_arg0 (by decide)).trans (a16_main_arg0 V)
theorem a18_main_arg0 : W18 V (Proc.devRef .tc main_arg0) = V (Proc.devRef .tc main_arg0) := (keep17 V main_arg0 (by decide)).trans (a17_main_arg0 V)
theorem a0_main_arg1 : W0 V (Proc.devRef .tc main_arg1) = V (Proc.devRef .tc main_arg1) := rfl
theorem a1_main_arg1 : W1 V (Proc.devRef .tc main_arg1) = V (Proc.devRef .tc main_arg1) := (keep0 V main_arg1 (by decide)).trans (a0_main_arg1 V)
theorem a2_main_arg1 : W2 V (Proc.devRef .tc main_arg1) = V (Proc.devRef .tc main_arg1) := (keep1 V main_arg1 (by decide)).trans (a1_main_arg1 V)
theorem a3_main_arg1 : W3 V (Proc.devRef .tc main_arg1) = V (Proc.devRef .tc main_arg1) := (keep2 V main_arg1 (by decide)).trans (a2_main_arg1 V)
theorem a4_main_arg1 : W4 V (Proc.devRef .tc main_arg1) = V (Proc.devRef .tc main_arg1) := (keep3 V main_arg1 (by decide)).trans (a3_main_arg1 V)
theorem a5_main_arg1 : W5 V (Proc.devRef .tc main_arg1) = V (Proc.devRef .tc main_arg1) := (keep4 V main_arg1 (by decide)).trans (a4_main_arg1 V)
theorem a6_main_arg1 : W6 V (Proc.devRef .tc main_arg1) = V (Proc.devRef .tc main_arg1) := (keep5 V main_arg1 (by decide)).trans (a5_main_arg1 V)
theorem a7_main_arg1 : W7 V (Proc.devRef .tc main_arg1) = V (Proc.devRef .tc main_arg1) := (keep6 V main_arg1 (by decide)).trans (a6_main_arg1 V)
theorem a8_main_arg1 : W8 V (Proc.devRef .tc main_arg1) = V (Proc.devRef .tc main_arg1) := (keep7 V main_arg1 (by decide)).trans (a7_main_arg1 V)
theorem a9_main_arg1 : W9 V (Proc.devRef .tc main_arg1) = V (Proc.devRef .tc main_arg1) := (keep8 V main_arg1 (by decide)).trans (a8_main_arg1 V)
theorem a10_main_arg1 : W10 V (Proc.devRef .tc main_arg1) = V (Proc.devRef .tc main_arg1) := (keep9 V main_arg1 (by decide)).trans (a9_main_arg1 V)
theorem a11_main_arg1 : W11 V (Proc.devRef .tc main_arg1) = V (Proc.devRef .tc main_arg1) := (keep10 V main_arg1 (by decide)).trans (a10_main_arg1 V)
theorem a12_main_arg1 : W12 V (Proc.devRef .tc main_arg1) = V (Proc.devRef .tc main_arg1) := (keep11 V main_arg1 (by decide)).trans (a11_main_arg1 V)
theorem a13_main_arg1 : W13 V (Proc.devRef .tc main_arg1) = V (Proc.devRef .tc main_arg1) := (keep12 V main_arg1 (by decide)).trans (a12_main_arg1 V)
theorem a14_main_arg1 : W14 V (Proc.devRef .tc main_arg1) = V (Proc.devRef .tc main_arg1) := (keep13 V main_arg1 (by decide)).trans (a13_main_arg1 V)
theorem a15_main_arg1 : W15 V (Proc.devRef .tc main_arg1) = V (Proc.devRef .tc main_arg1) := (keep14 V main_arg1 (by decide)).trans (a14_main_arg1 V)
theorem a16_main_arg1 : W16 V (Proc.devRef .tc main_arg1) = V (Proc.devRef .tc main_arg1) := (keep15 V main_arg1 (by decide)).trans (a15_main_arg1 V)
theorem a17_main_arg1 : W17 V (Proc.devRef .tc main_arg1) = V (Proc.devRef .tc main_arg1) := (keep16 V main_arg1 (by decide)).trans (a16_main_arg1 V)
theorem a18_main_arg1 : W18 V (Proc.devRef .tc main_arg1) = V (Proc.devRef .tc main_arg1) := (keep17 V main_arg1 (by decide)).trans (a17_main_arg1 V)
theorem a0_main_arg2 : W0 V (Proc.devRef .tc main_arg2) = V (Proc.devRef .tc main_arg2) := rfl
theorem a1_main_arg2 : W1 V (Proc.devRef .tc main_arg2) = V (Proc.devRef .tc main_arg2) := (keep0 V main_arg2 (by decide)).trans (a0_main_arg2 V)
theorem a2_main_arg2 : W2 V (Proc.devRef .tc main_arg2) = V (Proc.devRef .tc main_arg2) := (keep1 V main_arg2 (by decide)).trans (a1_main_arg2 V)
theorem a3_main_arg2 : W3 V (Proc.devRef .tc main_arg2) = V (Proc.devRef .tc main_arg2) := (keep2 V main_arg2 (by decide)).trans (a2_main_arg2 V)
theorem a4_main_arg2 : W4 V (Proc.devRef .tc main_arg2) = V (Proc.devRef .tc main_arg2) := (keep3 V main_arg2 (by decide)).trans (a3_main_arg2 V)
theorem a5_main_arg2 : W5 V (Proc.devRef .tc main_arg2) = V (Proc.devRef .tc main_arg2) := (keep4 V main_arg2 (by decide)).trans (a4_main_arg2 V)
theorem a6_main_arg2 : W6 V (Proc.devRef .tc main_arg2) = V (Proc.devRef .tc main_arg2) := (keep5 V main_arg2 (by decide)).trans (a5_main_arg2 V)
theorem a7_main_arg2 : W7 V (Proc.devRef .tc main_arg2) = V (Proc.devRef .tc main_arg2) := (keep6 V main_arg2 (by decide)).trans (a6_main_arg2 V)
theorem a8_main_arg2 : W8 V (Proc.devRef .tc main_arg2) = V (Proc.devRef .tc main_arg2) := (keep7 V main_arg2 (by decide)).trans (a7_main_arg2 V)
theorem a9_main_arg2 : W9 V (Proc.devRef .tc main_arg2) = V (Proc.devRef .tc main_arg2) := (keep8 V main_arg2 (by decide)).trans (a8_main_arg2 V)
theorem a10_main_arg2 : W10 V (Proc.devRef .tc main_arg2) = V (Proc.devRef .tc main_arg2) := (keep9 V main_arg2 (by decide)).trans (a9_main_arg2 V)
theorem a11_main_arg2 : W11 V (Proc.devRef .tc main_arg2) = V (Proc.devRef .tc main_arg2) := (keep10 V main_arg2 (by decide)).trans (a10_main_arg2 V)
theorem a12_main_arg2 : W12 V (Proc.devRef .tc main_arg2) = V (Proc.devRef .tc main_arg2) := (keep11 V main_arg2 (by decide)).trans (a11_main_arg2 V)
theorem a13_main_arg2 : W13 V (Proc.devRef .tc main_arg2) = V (Proc.devRef .tc main_arg2) := (keep12 V main_arg2 (by decide)).trans (a12_main_arg2 V)
theorem a14_main_arg2 : W14 V (Proc.devRef .tc main_arg2) = V (Proc.devRef .tc main_arg2) := (keep13 V main_arg2 (by decide)).trans (a13_main_arg2 V)
theorem a15_main_arg2 : W15 V (Proc.devRef .tc main_arg2) = V (Proc.devRef .tc main_arg2) := (keep14 V main_arg2 (by decide)).trans (a14_main_arg2 V)
theorem a16_main_arg2 : W16 V (Proc.devRef .tc main_arg2) = V (Proc.devRef .tc main_arg2) := (keep15 V main_arg2 (by decide)).trans (a15_main_arg2 V)
theorem a17_main_arg2 : W17 V (Proc.devRef .tc main_arg2) = V (Proc.devRef .tc main_arg2) := (keep16 V main_arg2 (by decide)).trans (a16_main_arg2 V)
theorem a18_main_arg2 : W18 V (Proc.devRef .tc main_arg2) = V (Proc.devRef .tc main_arg2) := (keep17 V main_arg2 (by decide)).trans (a17_main_arg2 V)
theorem a0_main_arg3 : W0 V (Proc.devRef .tc main_arg3) = V (Proc.devRef .tc main_arg3) := rfl
theorem a1_main_arg3 : W1 V (Proc.devRef .tc main_arg3) = V (Proc.devRef .tc main_arg3) := (keep0 V main_arg3 (by decide)).trans (a0_main_arg3 V)
theorem a2_main_arg3 : W2 V (Proc.devRef .tc main_arg3) = V (Proc.devRef .tc main_arg3) := (keep1 V main_arg3 (by decide)).trans (a1_main_arg3 V)
theorem a3_main_arg3 : W3 V (Proc.devRef .tc main_arg3) = V (Proc.devRef .tc main_arg3) := (keep2 V main_arg3 (by decide)).trans (a2_main_arg3 V)
theorem a4_main_arg3 : W4 V (Proc.devRef .tc main_arg3) = V (Proc.devRef .tc main_arg3) := (keep3 V main_arg3 (by decide)).trans (a3_main_arg3 V)
theorem a5_main_arg3 : W5 V (Proc.devRef .tc main_arg3) = V (Proc.devRef .tc main_arg3) := (keep4 V main_arg3 (by decide)).trans (a4_main_arg3 V)
theorem a6_main_arg3 : W6 V (Proc.devRef .tc main_arg3) = V (Proc.devRef .tc main_arg3) := (keep5 V main_arg3 (by decide)).trans (a5_main_arg3 V)
theorem a7_main_arg3 : W7 V (Proc.devRef .tc main_arg3) = V (Proc.devRef .tc main_arg3) := (keep6 V main_arg3 (by decide)).trans (a6_main_arg3 V)
theorem a8_main_arg3 : W8 V (Proc.devRef .tc main_arg3) = V (Proc.devRef .tc main_arg3) := (keep7 V main_arg3 (by decide)).trans (a7_main_arg3 V)
theorem a9_main_arg3 : W9 V (Proc.devRef .tc main_arg3) = V (Proc.devRef .tc main_arg3) := (keep8 V main_arg3 (by decide)).trans (a8_main_arg3 V)
theorem a10_main_arg3 : W10 V (Proc.devRef .tc main_arg3) = V (Proc.devRef .tc main_arg3) := (keep9 V main_arg3 (by decide)).trans (a9_main_arg3 V)
theorem a11_main_arg3 : W11 V (Proc.devRef .tc main_arg3) = V (Proc.devRef .tc main_arg3) := (keep10 V main_arg3 (by decide)).trans (a10_main_arg3 V)
theorem a12_main_arg3 : W12 V (Proc.devRef .tc main_arg3) = V (Proc.devRef .tc main_arg3) := (keep11 V main_arg3 (by decide)).trans (a11_main_arg3 V)
theorem a13_main_arg3 : W13 V (Proc.devRef .tc main_arg3) = V (Proc.devRef .tc main_arg3) := (keep12 V main_arg3 (by decide)).trans (a12_main_arg3 V)
theorem a14_main_arg3 : W14 V (Proc.devRef .tc main_arg3) = V (Proc.devRef .tc main_arg3) := (keep13 V main_arg3 (by decide)).trans (a13_main_arg3 V)
theorem a15_main_arg3 : W15 V (Proc.devRef .tc main_arg3) = V (Proc.devRef .tc main_arg3) := (keep14 V main_arg3 (by decide)).trans (a14_main_arg3 V)
theorem a16_main_arg3 : W16 V (Proc.devRef .tc main_arg3) = V (Proc.devRef .tc main_arg3) := (keep15 V main_arg3 (by decide)).trans (a15_main_arg3 V)
theorem a17_main_arg3 : W17 V (Proc.devRef .tc main_arg3) = V (Proc.devRef .tc main_arg3) := (keep16 V main_arg3 (by decide)).trans (a16_main_arg3 V)
theorem a18_main_arg3 : W18 V (Proc.devRef .tc main_arg3) = V (Proc.devRef .tc main_arg3) := (keep17 V main_arg3 (by decide)).trans (a17_main_arg3 V)
theorem a0_main_arg4 : W0 V (Proc.devRef .tc main_arg4) = V (Proc.devRef .tc main_arg4) := rfl
theorem a1_main_arg4 : W1 V (Proc.devRef .tc main_arg4) = V (Proc.devRef .tc main_arg4) := (keep0 V main_arg4 (by decide)).trans (a0_main_arg4 V)
theorem a2_main_arg4 : W2 V (Proc.devRef .tc main_arg4) = V (Proc.devRef .tc main_arg4) := (keep1 V main_arg4 (by decide)).trans (a1_main_arg4 V)
theorem a3_main_arg4 : W3 V (Proc.devRef .tc main_arg4) = V (Proc.devRef .tc main_arg4) := (keep2 V main_arg4 (by decide)).trans (a2_main_arg4 V)
theorem a4_main_arg4 : W4 V (Proc.devRef .tc main_arg4) = V (Proc.devRef .tc main_arg4) := (keep3 V main_arg4 (by decide)).trans (a3_main_arg4 V)
theorem a5_main_arg4 : W5 V (Proc.devRef .tc main_arg4) = V (Proc.devRef .tc main_arg4) := (keep4 V main_arg4 (by decide)).trans (a4_main_arg4 V)
theorem a6_main_arg4 : W6 V (Proc.devRef .tc main_arg4) = V (Proc.devRef .tc main_arg4) := (keep5 V main_arg4 (by decide)).trans (a5_main_arg4 V)
theorem a7_main_arg4 : W7 V (Proc.devRef .tc main_arg4) = V (Proc.devRef .tc main_arg4) := (keep6 V main_arg4 (by decide)).trans (a6_main_arg4 V)
theorem a8_main_arg4 : W8 V (Proc.devRef .tc main_arg4) = V (Proc.devRef .tc main_arg4) := (keep7 V main_arg4 (by decide)).trans (a7_main_arg4 V)
theorem a9_main_arg4 : W9 V (Proc.devRef .tc main_arg4) = V (Proc.devRef .tc main_arg4) := (keep8 V main_arg4 (by decide)).trans (a8_main_arg4 V)
theorem a10_main_arg4 : W10 V (Proc.devRef .tc main_arg4) = V (Proc.devRef .tc main_arg4) := (keep9 V main_arg4 (by decide)).trans (a9_main_arg4 V)
theorem a11_main_arg4 : W11 V (Proc.devRef .tc main_arg4) = V (Proc.devRef .tc main_arg4) := (keep10 V main_arg4 (by decide)).trans (a10_main_arg4 V)
theorem a12_main_arg4 : W12 V (Proc.devRef .tc main_arg4) = V (Proc.devRef .tc main_arg4) := (keep11 V main_arg4 (by decide)).trans (a11_main_arg4 V)
theorem a13_main_arg4 : W13 V (Proc.devRef .tc main_arg4) = V (Proc.devRef .tc main_arg4) := (keep12 V main_arg4 (by decide)).trans (a12_main_arg4 V)
theorem a14_main_arg4 : W14 V (Proc.devRef .tc main_arg4) = V (Proc.devRef .tc main_arg4) := (keep13 V main_arg4 (by decide)).trans (a13_main_arg4 V)
theorem a15_main_arg4 : W15 V (Proc.devRef .tc main_arg4) = V (Proc.devRef .tc main_arg4) := (keep14 V main_arg4 (by decide)).trans (a14_main_arg4 V)
theorem a16_main_arg4 : W16 V (Proc.devRef .tc main_arg4) = V (Proc.devRef .tc main_arg4) := (keep15 V main_arg4 (by decide)).trans (a15_main_arg4 V)
theorem a17_main_arg4 : W17 V (Proc.devRef .tc main_arg4) = V (Proc.devRef .tc main_arg4) := (keep16 V main_arg4 (by decide)).trans (a16_main_arg4 V)
theorem a18_main_arg4 : W18 V (Proc.devRef .tc main_arg4) = V (Proc.devRef .tc main_arg4) := (keep17 V main_arg4 (by decide)).trans (a17_main_arg4 V)
theorem a0_main_arg5 : W0 V (Proc.devRef .tc main_arg5) = V (Proc.devRef .tc main_arg5) := rfl
theorem a1_main_arg5 : W1 V (Proc.devRef .tc main_arg5) = V (Proc.devRef .tc main_arg5) := (keep0 V main_arg5 (by decide)).trans (a0_main_arg5 V)
theorem a2_main_arg5 : W2 V (Proc.devRef .tc main_arg5) = V (Proc.devRef .tc main_arg5) := (keep1 V main_arg5 (by decide)).trans (a1_main_arg5 V)
theorem a3_main_arg5 : W3 V (Proc.devRef .tc main_arg5) = V (Proc.devRef .tc main_arg5) := (keep2 V main_arg5 (by decide)).trans (a2_main_arg5 V)
theorem a4_main_arg5 : W4 V (Proc.devRef .tc main_arg5) = V (Proc.devRef .tc main_arg5) := (keep3 V main_arg5 (by decide)).trans (a3_main_arg5 V)
theorem a5_main_arg5 : W5 V (Proc.devRef .tc main_arg5) = V (Proc.devRef .tc main_arg5) := (keep4 V main_arg5 (by decide)).trans (a4_main_arg5 V)
theorem a6_main_arg5 : W6 V (Proc.devRef .tc main_arg5) = V (Proc.devRef .tc main_arg5) := (keep5 V main_arg5 (by decide)).trans (a5_main_arg5 V)
theorem a7_main_arg5 : W7 V (Proc.devRef .tc main_arg5) = V (Proc.devRef .tc main_arg5) := (keep6 V main_arg5 (by decide)).trans (a6_main_arg5 V)
theorem a8_main_arg5 : W8 V (Proc.devRef .tc main_arg5) = V (Proc.devRef .tc main_arg5) := (keep7 V main_arg5 (by decide)).trans (a7_main_arg5 V)
theorem a9_main_arg5 : W9 V (Proc.devRef .tc main_arg5) = V (Proc.devRef .tc main_arg5) := (keep8 V main_arg5 (by decide)).trans (a8_main_arg5 V)
theorem a10_main_arg5 : W10 V (Proc.devRef .tc main_arg5) = V (Proc.devRef .tc main_arg5) := (keep9 V main_arg5 (by decide)).trans (a9_main_arg5 V)
theorem a11_main_arg5 : W11 V (Proc.devRef .tc main_arg5) = V (Proc.devRef .tc main_arg5) := (keep10 V main_arg5 (by decide)).trans (a10_main_arg5 V)
theorem a12_main_arg5 : W12 V (Proc.devRef .tc main_arg5) = V (Proc.devRef .tc main_arg5) := (keep11 V main_arg5 (by decide)).trans (a11_main_arg5 V)
theorem a13_main_arg5 : W13 V (Proc.devRef .tc main_arg5) = V (Proc.devRef .tc main_arg5) := (keep12 V main_arg5 (by decide)).trans (a12_main_arg5 V)
theorem a14_main_arg5 : W14 V (Proc.devRef .tc main_arg5) = V (Proc.devRef .tc main_arg5) := (keep13 V main_arg5 (by decide)).trans (a13_main_arg5 V)
theorem a15_main_arg5 : W15 V (Proc.devRef .tc main_arg5) = V (Proc.devRef .tc main_arg5) := (keep14 V main_arg5 (by decide)).trans (a14_main_arg5 V)
theorem a16_main_arg5 : W16 V (Proc.devRef .tc main_arg5) = V (Proc.devRef .tc main_arg5) := (keep15 V main_arg5 (by decide)).trans (a15_main_arg5 V)
theorem a17_main_arg5 : W17 V (Proc.devRef .tc main_arg5) = V (Proc.devRef .tc main_arg5) := (keep16 V main_arg5 (by decide)).trans (a16_main_arg5 V)
theorem a18_main_arg5 : W18 V (Proc.devRef .tc main_arg5) = V (Proc.devRef .tc main_arg5) := (keep17 V main_arg5 (by decide)).trans (a17_main_arg5 V)
theorem a0_main_arg6 : W0 V (Proc.devRef .tc main_arg6) = V (Proc.devRef .tc main_arg6) := rfl
theorem a1_main_arg6 : W1 V (Proc.devRef .tc main_arg6) = V (Proc.devRef .tc main_arg6) := (keep0 V main_arg6 (by decide)).trans (a0_main_arg6 V)
theorem a2_main_arg6 : W2 V (Proc.devRef .tc main_arg6) = V (Proc.devRef .tc main_arg6) := (keep1 V main_arg6 (by decide)).trans (a1_main_arg6 V)
theorem a3_main_arg6 : W3 V (Proc.devRef .tc main_arg6) = V (Proc.devRef .tc main_arg6) := (keep2 V main_arg6 (by decide)).trans (a2_main_arg6 V)
theorem a4_main_arg6 : W4 V (Proc.devRef .tc main_arg6) = V (Proc.devRef .tc main_arg6) := (keep3 V main_arg6 (by decide)).trans (a3_main_arg6 V)
theorem a5_main_arg6 : W5 V (Proc.devRef .tc main_arg6) = V (Proc.devRef .tc main_arg6) := (keep4 V main_arg6 (by decide)).trans (a4_main_arg6 V)
theorem a6_main_arg6 : W6 V (Proc.devRef .tc main_arg6) = V (Proc.devRef .tc main_arg6) := (keep5 V main_arg6 (by decide)).trans (a5_main_arg6 V)
theorem a7_main_arg6 : W7 V (Proc.devRef .tc main_arg6) = V (Proc.devRef .tc main_arg6) := (keep6 V main_arg6 (by decide)).trans (a6_main_arg6 V)
theorem a8_main_arg6 : W8 V (Proc.devRef .tc main_arg6) = V (Proc.devRef .tc main_arg6) := (keep7 V main_arg6 (by decide)).trans (a7_main_arg6 V)
theorem a9_main_arg6 : W9 V (Proc.devRef .tc main_arg6) = V (Proc.devRef .tc main_arg6) := (keep8 V main_arg6 (by decide)).trans (a8_main_arg6 V)
theorem a10_main_arg6 : W10 V (Proc.devRef .tc main_arg6) = V (Proc.devRef .tc main_arg6) := (keep9 V main_arg6 (by decide)).trans (a9_main_arg6 V)
theorem a11_main_arg6 : W11 V (Proc.devRef .tc main_arg6) = V (Proc.devRef .tc main_arg6) := (keep10 V main_arg6 (by decide)).trans (a10_main_arg6 V)
theorem a12_main_arg6 : W12 V (Proc.devRef .tc main_arg6) = V (Proc.devRef .tc main_arg6) := (keep11 V main_arg6 (by decide)).trans (a11_main_arg6 V)
theorem a13_main_arg6 : W13 V (Proc.devRef .tc main_arg6) = V (Proc.devRef .tc main_arg6) := (keep12 V main_arg6 (by decide)).trans (a12_main_arg6 V)
theorem a14_main_arg6 : W14 V (Proc.devRef .tc main_arg6) = V (Proc.devRef .tc main_arg6) := (keep13 V main_arg6 (by decide)).trans (a13_main_arg6 V)
theorem a15_main_arg6 : W15 V (Proc.devRef .tc main_arg6) = V (Proc.devRef .tc main_arg6) := (keep14 V main_arg6 (by decide)).trans (a14_main_arg6 V)
theorem a16_main_arg6 : W16 V (Proc.devRef .tc main_arg6) = V (Proc.devRef .tc main_arg6) := (keep15 V main_arg6 (by decide)).trans (a15_main_arg6 V)
theorem a17_main_arg6 : W17 V (Proc.devRef .tc main_arg6) = V (Proc.devRef .tc main_arg6) := (keep16 V main_arg6 (by decide)).trans (a16_main_arg6 V)
theorem a18_main_arg6 : W18 V (Proc.devRef .tc main_arg6) = V (Proc.devRef .tc main_arg6) := (keep17 V main_arg6 (by decide)).trans (a17_main_arg6 V)
theorem a0_main_arg7 : W0 V (Proc.devRef .tc main_arg7) = V (Proc.devRef .tc main_arg7) := rfl
theorem a1_main_arg7 : W1 V (Proc.devRef .tc main_arg7) = V (Proc.devRef .tc main_arg7) := (keep0 V main_arg7 (by decide)).trans (a0_main_arg7 V)
theorem a2_main_arg7 : W2 V (Proc.devRef .tc main_arg7) = V (Proc.devRef .tc main_arg7) := (keep1 V main_arg7 (by decide)).trans (a1_main_arg7 V)
theorem a3_main_arg7 : W3 V (Proc.devRef .tc main_arg7) = V (Proc.devRef .tc main_arg7) := (keep2 V main_arg7 (by decide)).trans (a2_main_arg7 V)
theorem a4_main_arg7 : W4 V (Proc.devRef .tc main_arg7) = V (Proc.devRef .tc main_arg7) := (keep3 V main_arg7 (by decide)).trans (a3_main_arg7 V)
theorem a5_main_arg7 : W5 V (Proc.devRef .tc main_arg7) = V (Proc.devRef .tc main_arg7) := (keep4 V main_arg7 (by decide)).trans (a4_main_arg7 V)
theorem a6_main_arg7 : W6 V (Proc.devRef .tc main_arg7) = V (Proc.devRef .tc main_arg7) := (keep5 V main_arg7 (by decide)).trans (a5_main_arg7 V)
theorem a7_main_arg7 : W7 V (Proc.devRef .tc main_arg7) = V (Proc.devRef .tc main_arg7) := (keep6 V main_arg7 (by decide)).trans (a6_main_arg7 V)
theorem a8_main_arg7 : W8 V (Proc.devRef .tc main_arg7) = V (Proc.devRef .tc main_arg7) := (keep7 V main_arg7 (by decide)).trans (a7_main_arg7 V)
theorem a9_main_arg7 : W9 V (Proc.devRef .tc main_arg7) = V (Proc.devRef .tc main_arg7) := (keep8 V main_arg7 (by decide)).trans (a8_main_arg7 V)
theorem a10_main_arg7 : W10 V (Proc.devRef .tc main_arg7) = V (Proc.devRef .tc main_arg7) := (keep9 V main_arg7 (by decide)).trans (a9_main_arg7 V)
theorem a11_main_arg7 : W11 V (Proc.devRef .tc main_arg7) = V (Proc.devRef .tc main_arg7) := (keep10 V main_arg7 (by decide)).trans (a10_main_arg7 V)
theorem a12_main_arg7 : W12 V (Proc.devRef .tc main_arg7) = V (Proc.devRef .tc main_arg7) := (keep11 V main_arg7 (by decide)).trans (a11_main_arg7 V)
theorem a13_main_arg7 : W13 V (Proc.devRef .tc main_arg7) = V (Proc.devRef .tc main_arg7) := (keep12 V main_arg7 (by decide)).trans (a12_main_arg7 V)
theorem a14_main_arg7 : W14 V (Proc.devRef .tc main_arg7) = V (Proc.devRef .tc main_arg7) := (keep13 V main_arg7 (by decide)).trans (a13_main_arg7 V)
theorem a15_main_arg7 : W15 V (Proc.devRef .tc main_arg7) = V (Proc.devRef .tc main_arg7) := (keep14 V main_arg7 (by decide)).trans (a14_main_arg7 V)
theorem a16_main_arg7 : W16 V (Proc.devRef .tc main_arg7) = V (Proc.devRef .tc main_arg7) := (keep15 V main_arg7 (by decide)).trans (a15_main_arg7 V)
theorem a17_main_arg7 : W17 V (Proc.devRef .tc main_arg7) = V (Proc.devRef .tc main_arg7) := (keep16 V main_arg7 (by decide)).trans (a16_main_arg7 V)
theorem a18_main_arg7 : W18 V (Proc.devRef .tc main_arg7) = V (Proc.devRef .tc main_arg7) := (keep17 V main_arg7 (by decide)).trans (a17_main_arg7 V)
theorem a0_main_arg8 : W0 V (Proc.devRef .tc main_arg8) = V (Proc.devRef .tc main_arg8) := rfl
theorem a1_main_arg8 : W1 V (Proc.devRef .tc main_arg8) = V (Proc.devRef .tc main_arg8) := (keep0 V main_arg8 (by decide)).trans (a0_main_arg8 V)
theorem a2_main_arg8 : W2 V (Proc.devRef .tc main_arg8) = V (Proc.devRef .tc main_arg8) := (keep1 V main_arg8 (by decide)).trans (a1_main_arg8 V)
theorem a3_main_arg8 : W3 V (Proc.devRef .tc main_arg8) = V (Proc.devRef .tc main_arg8) := (keep2 V main_arg8 (by decide)).trans (a2_main_arg8 V)
theorem a4_main_arg8 : W4 V (Proc.devRef .tc main_arg8) = V (Proc.devRef .tc main_arg8) := (keep3 V main_arg8 (by decide)).trans (a3_main_arg8 V)
theorem a5_main_arg8 : W5 V (Proc.devRef .tc main_arg8) = V (Proc.devRef .tc main_arg8) := (keep4 V main_arg8 (by decide)).trans (a4_main_arg8 V)
theorem a6_main_arg8 : W6 V (Proc.devRef .tc main_arg8) = V (Proc.devRef .tc main_arg8) := (keep5 V main_arg8 (by decide)).trans (a5_main_arg8 V)
theorem a7_main_arg8 : W7 V (Proc.devRef .tc main_arg8) = V (Proc.devRef .tc main_arg8) := (keep6 V main_arg8 (by decide)).trans (a6_main_arg8 V)
theorem a8_main_arg8 : W8 V (Proc.devRef .tc main_arg8) = V (Proc.devRef .tc main_arg8) := (keep7 V main_arg8 (by decide)).trans (a7_main_arg8 V)
theorem a9_main_arg8 : W9 V (Proc.devRef .tc main_arg8) = V (Proc.devRef .tc main_arg8) := (keep8 V main_arg8 (by decide)).trans (a8_main_arg8 V)
theorem a10_main_arg8 : W10 V (Proc.devRef .tc main_arg8) = V (Proc.devRef .tc main_arg8) := (keep9 V main_arg8 (by decide)).trans (a9_main_arg8 V)
theorem a11_main_arg8 : W11 V (Proc.devRef .tc main_arg8) = V (Proc.devRef .tc main_arg8) := (keep10 V main_arg8 (by decide)).trans (a10_main_arg8 V)
theorem a12_main_arg8 : W12 V (Proc.devRef .tc main_arg8) = V (Proc.devRef .tc main_arg8) := (keep11 V main_arg8 (by decide)).trans (a11_main_arg8 V)
theorem a13_main_arg8 : W13 V (Proc.devRef .tc main_arg8) = V (Proc.devRef .tc main_arg8) := (keep12 V main_arg8 (by decide)).trans (a12_main_arg8 V)
theorem a14_main_arg8 : W14 V (Proc.devRef .tc main_arg8) = V (Proc.devRef .tc main_arg8) := (keep13 V main_arg8 (by decide)).trans (a13_main_arg8 V)
theorem a15_main_arg8 : W15 V (Proc.devRef .tc main_arg8) = V (Proc.devRef .tc main_arg8) := (keep14 V main_arg8 (by decide)).trans (a14_main_arg8 V)
theorem a16_main_arg8 : W16 V (Proc.devRef .tc main_arg8) = V (Proc.devRef .tc main_arg8) := (keep15 V main_arg8 (by decide)).trans (a15_main_arg8 V)
theorem a17_main_arg8 : W17 V (Proc.devRef .tc main_arg8) = V (Proc.devRef .tc main_arg8) := (keep16 V main_arg8 (by decide)).trans (a16_main_arg8 V)
theorem a18_main_arg8 : W18 V (Proc.devRef .tc main_arg8) = V (Proc.devRef .tc main_arg8) := (keep17 V main_arg8 (by decide)).trans (a17_main_arg8 V)
theorem a0_main_arg9 : W0 V (Proc.devRef .tc main_arg9) = V (Proc.devRef .tc main_arg9) := rfl
theorem a1_main_arg9 : W1 V (Proc.devRef .tc main_arg9) = V (Proc.devRef .tc main_arg9) := (keep0 V main_arg9 (by decide)).trans (a0_main_arg9 V)
theorem a2_main_arg9 : W2 V (Proc.devRef .tc main_arg9) = V (Proc.devRef .tc main_arg9) := (keep1 V main_arg9 (by decide)).trans (a1_main_arg9 V)
theorem a3_main_arg9 : W3 V (Proc.devRef .tc main_arg9) = V (Proc.devRef .tc main_arg9) := (keep2 V main_arg9 (by decide)).trans (a2_main_arg9 V)
theorem a4_main_arg9 : W4 V (Proc.devRef .tc main_arg9) = V (Proc.devRef .tc main_arg9) := (keep3 V main_arg9 (by decide)).trans (a3_main_arg9 V)
theorem a5_main_arg9 : W5 V (Proc.devRef .tc main_arg9) = V (Proc.devRef .tc main_arg9) := (keep4 V main_arg9 (by decide)).trans (a4_main_arg9 V)
theorem a6_main_arg9 : W6 V (Proc.devRef .tc main_arg9) = V (Proc.devRef .tc main_arg9) := (keep5 V main_arg9 (by decide)).trans (a5_main_arg9 V)
theorem a7_main_arg9 : W7 V (Proc.devRef .tc main_arg9) = V (Proc.devRef .tc main_arg9) := (keep6 V main_arg9 (by decide)).trans (a6_main_arg9 V)
theorem a8_main_arg9 : W8 V (Proc.devRef .tc main_arg9) = V (Proc.devRef .tc main_arg9) := (keep7 V main_arg9 (by decide)).trans (a7_main_arg9 V)
theorem a9_main_arg9 : W9 V (Proc.devRef .tc main_arg9) = V (Proc.devRef .tc main_arg9) := (keep8 V main_arg9 (by decide)).trans (a8_main_arg9 V)
theorem a10_main_arg9 : W10 V (Proc.devRef .tc main_arg9) = V (Proc.devRef .tc main_arg9) := (keep9 V main_arg9 (by decide)).trans (a9_main_arg9 V)
theorem a11_main_arg9 : W11 V (Proc.devRef .tc main_arg9) = V (Proc.devRef .tc main_arg9) := (keep10 V main_arg9 (by decide)).trans (a10_main_arg9 V)
theorem a12_main_arg9 : W12 V (Proc.devRef .tc main_arg9) = V (Proc.devRef .tc main_arg9) := (keep11 V main_arg9 (by decide)).trans (a11_main_arg9 V)
theorem a13_main_arg9 : W13 V (Proc.devRef .tc main_arg9) = V (Proc.devRef .tc main_arg9) := (keep12 V main_arg9 (by decide)).trans (a12_main_arg9 V)
theorem a14_main_arg9 : W14 V (Proc.devRef .tc main_arg9) = V (Proc.devRef .tc main_arg9) := (keep13 V main_arg9 (by decide)).trans (a13_main_arg9 V)
theorem a15_main_arg9 : W15 V (Proc.devRef .tc main_arg9) = V (Proc.devRef .tc main_arg9) := (keep14 V main_arg9 (by decide)).trans (a14_main_arg9 V)
theorem a16_main_arg9 : W16 V (Proc.devRef .tc main_arg9) = V (Proc.devRef .tc main_arg9) := (keep15 V main_arg9 (by decide)).trans (a15_main_arg9 V)
theorem a17_main_arg9 : W17 V (Proc.devRef .tc main_arg9) = V (Proc.devRef .tc main_arg9) := (keep16 V main_arg9 (by decide)).trans (a16_main_arg9 V)
theorem a18_main_arg9 : W18 V (Proc.devRef .tc main_arg9) = V (Proc.devRef .tc main_arg9) := (keep17 V main_arg9 (by decide)).trans (a17_main_arg9 V)
theorem a0_main_arg10 : W0 V (Proc.devRef .tc main_arg10) = V (Proc.devRef .tc main_arg10) := rfl
theorem a1_main_arg10 : W1 V (Proc.devRef .tc main_arg10) = V (Proc.devRef .tc main_arg10) := (keep0 V main_arg10 (by decide)).trans (a0_main_arg10 V)
theorem a2_main_arg10 : W2 V (Proc.devRef .tc main_arg10) = V (Proc.devRef .tc main_arg10) := (keep1 V main_arg10 (by decide)).trans (a1_main_arg10 V)
theorem a3_main_arg10 : W3 V (Proc.devRef .tc main_arg10) = V (Proc.devRef .tc main_arg10) := (keep2 V main_arg10 (by decide)).trans (a2_main_arg10 V)
theorem a4_main_arg10 : W4 V (Proc.devRef .tc main_arg10) = V (Proc.devRef .tc main_arg10) := (keep3 V main_arg10 (by decide)).trans (a3_main_arg10 V)
theorem a5_main_arg10 : W5 V (Proc.devRef .tc main_arg10) = V (Proc.devRef .tc main_arg10) := (keep4 V main_arg10 (by decide)).trans (a4_main_arg10 V)
theorem a6_main_arg10 : W6 V (Proc.devRef .tc main_arg10) = V (Proc.devRef .tc main_arg10) := (keep5 V main_arg10 (by decide)).trans (a5_main_arg10 V)
theorem a7_main_arg10 : W7 V (Proc.devRef .tc main_arg10) = V (Proc.devRef .tc main_arg10) := (keep6 V main_arg10 (by decide)).trans (a6_main_arg10 V)
theorem a8_main_arg10 : W8 V (Proc.devRef .tc main_arg10) = V (Proc.devRef .tc main_arg10) := (keep7 V main_arg10 (by decide)).trans (a7_main_arg10 V)
theorem a9_main_arg10 : W9 V (Proc.devRef .tc main_arg10) = V (Proc.devRef .tc main_arg10) := (keep8 V main_arg10 (by decide)).trans (a8_main_arg10 V)
theorem a10_main_arg10 : W10 V (Proc.devRef .tc main_arg10) = V (Proc.devRef .tc main_arg10) := (keep9 V main_arg10 (by decide)).trans (a9_main_arg10 V)
theorem a11_main_arg10 : W11 V (Proc.devRef .tc main_arg10) = V (Proc.devRef .tc main_arg10) := (keep10 V main_arg10 (by decide)).trans (a10_main_arg10 V)
theorem a12_main_arg10 : W12 V (Proc.devRef .tc main_arg10) = V (Proc.devRef .tc main_arg10) := (keep11 V main_arg10 (by decide)).trans (a11_main_arg10 V)
theorem a13_main_arg10 : W13 V (Proc.devRef .tc main_arg10) = V (Proc.devRef .tc main_arg10) := (keep12 V main_arg10 (by decide)).trans (a12_main_arg10 V)
theorem a14_main_arg10 : W14 V (Proc.devRef .tc main_arg10) = V (Proc.devRef .tc main_arg10) := (keep13 V main_arg10 (by decide)).trans (a13_main_arg10 V)
theorem a15_main_arg10 : W15 V (Proc.devRef .tc main_arg10) = V (Proc.devRef .tc main_arg10) := (keep14 V main_arg10 (by decide)).trans (a14_main_arg10 V)
theorem a16_main_arg10 : W16 V (Proc.devRef .tc main_arg10) = V (Proc.devRef .tc main_arg10) := (keep15 V main_arg10 (by decide)).trans (a15_main_arg10 V)
theorem a17_main_arg10 : W17 V (Proc.devRef .tc main_arg10) = V (Proc.devRef .tc main_arg10) := (keep16 V main_arg10 (by decide)).trans (a16_main_arg10 V)
theorem a18_main_arg10 : W18 V (Proc.devRef .tc main_arg10) = V (Proc.devRef .tc main_arg10) := (keep17 V main_arg10 (by decide)).trans (a17_main_arg10 V)
theorem a0_main_arg11 : W0 V (Proc.devRef .tc main_arg11) = V (Proc.devRef .tc main_arg11) := rfl
theorem a1_main_arg11 : W1 V (Proc.devRef .tc main_arg11) = V (Proc.devRef .tc main_arg11) := (keep0 V main_arg11 (by decide)).trans (a0_main_arg11 V)
theorem a2_main_arg11 : W2 V (Proc.devRef .tc main_arg11) = V (Proc.devRef .tc main_arg11) := (keep1 V main_arg11 (by decide)).trans (a1_main_arg11 V)
theorem a3_main_arg11 : W3 V (Proc.devRef .tc main_arg11) = V (Proc.devRef .tc main_arg11) := (keep2 V main_arg11 (by decide)).trans (a2_main_arg11 V)
theorem a4_main_arg11 : W4 V (Proc.devRef .tc main_arg11) = V (Proc.devRef .tc main_arg11) := (keep3 V main_arg11 (by decide)).trans (a3_main_arg11 V)
theorem a5_main_arg11 : W5 V (Proc.devRef .tc main_arg11) = V (Proc.devRef .tc main_arg11) := (keep4 V main_arg11 (by decide)).trans (a4_main_arg11 V)
theorem a6_main_arg11 : W6 V (Proc.devRef .tc main_arg11) = V (Proc.devRef .tc main_arg11) := (keep5 V main_arg11 (by decide)).trans (a5_main_arg11 V)
theorem a7_main_arg11 : W7 V (Proc.devRef .tc main_arg11) = V (Proc.devRef .tc main_arg11) := (keep6 V main_arg11 (by decide)).trans (a6_main_arg11 V)
theorem a8_main_arg11 : W8 V (Proc.devRef .tc main_arg11) = V (Proc.devRef .tc main_arg11) := (keep7 V main_arg11 (by decide)).trans (a7_main_arg11 V)
theorem a9_main_arg11 : W9 V (Proc.devRef .tc main_arg11) = V (Proc.devRef .tc main_arg11) := (keep8 V main_arg11 (by decide)).trans (a8_main_arg11 V)
theorem a10_main_arg11 : W10 V (Proc.devRef .tc main_arg11) = V (Proc.devRef .tc main_arg11) := (keep9 V main_arg11 (by decide)).trans (a9_main_arg11 V)
theorem a11_main_arg11 : W11 V (Proc.devRef .tc main_arg11) = V (Proc.devRef .tc main_arg11) := (keep10 V main_arg11 (by decide)).trans (a10_main_arg11 V)
theorem a12_main_arg11 : W12 V (Proc.devRef .tc main_arg11) = V (Proc.devRef .tc main_arg11) := (keep11 V main_arg11 (by decide)).trans (a11_main_arg11 V)
theorem a13_main_arg11 : W13 V (Proc.devRef .tc main_arg11) = V (Proc.devRef .tc main_arg11) := (keep12 V main_arg11 (by decide)).trans (a12_main_arg11 V)
theorem a14_main_arg11 : W14 V (Proc.devRef .tc main_arg11) = V (Proc.devRef .tc main_arg11) := (keep13 V main_arg11 (by decide)).trans (a13_main_arg11 V)
theorem a15_main_arg11 : W15 V (Proc.devRef .tc main_arg11) = V (Proc.devRef .tc main_arg11) := (keep14 V main_arg11 (by decide)).trans (a14_main_arg11 V)
theorem a16_main_arg11 : W16 V (Proc.devRef .tc main_arg11) = V (Proc.devRef .tc main_arg11) := (keep15 V main_arg11 (by decide)).trans (a15_main_arg11 V)
theorem a17_main_arg11 : W17 V (Proc.devRef .tc main_arg11) = V (Proc.devRef .tc main_arg11) := (keep16 V main_arg11 (by decide)).trans (a16_main_arg11 V)
theorem a18_main_arg11 : W18 V (Proc.devRef .tc main_arg11) = V (Proc.devRef .tc main_arg11) := (keep17 V main_arg11 (by decide)).trans (a17_main_arg11 V)
theorem a0_main_arg12 : W0 V (Proc.devRef .tc main_arg12) = V (Proc.devRef .tc main_arg12) := rfl
theorem a1_main_arg12 : W1 V (Proc.devRef .tc main_arg12) = V (Proc.devRef .tc main_arg12) := (keep0 V main_arg12 (by decide)).trans (a0_main_arg12 V)
theorem a2_main_arg12 : W2 V (Proc.devRef .tc main_arg12) = V (Proc.devRef .tc main_arg12) := (keep1 V main_arg12 (by decide)).trans (a1_main_arg12 V)
theorem a3_main_arg12 : W3 V (Proc.devRef .tc main_arg12) = V (Proc.devRef .tc main_arg12) := (keep2 V main_arg12 (by decide)).trans (a2_main_arg12 V)
theorem a4_main_arg12 : W4 V (Proc.devRef .tc main_arg12) = V (Proc.devRef .tc main_arg12) := (keep3 V main_arg12 (by decide)).trans (a3_main_arg12 V)
theorem a5_main_arg12 : W5 V (Proc.devRef .tc main_arg12) = V (Proc.devRef .tc main_arg12) := (keep4 V main_arg12 (by decide)).trans (a4_main_arg12 V)
theorem a6_main_arg12 : W6 V (Proc.devRef .tc main_arg12) = V (Proc.devRef .tc main_arg12) := (keep5 V main_arg12 (by decide)).trans (a5_main_arg12 V)
theorem a7_main_arg12 : W7 V (Proc.devRef .tc main_arg12) = V (Proc.devRef .tc main_arg12) := (keep6 V main_arg12 (by decide)).trans (a6_main_arg12 V)
theorem a8_main_arg12 : W8 V (Proc.devRef .tc main_arg12) = V (Proc.devRef .tc main_arg12) := (keep7 V main_arg12 (by decide)).trans (a7_main_arg12 V)
theorem a9_main_arg12 : W9 V (Proc.devRef .tc main_arg12) = V (Proc.devRef .tc main_arg12) := (keep8 V main_arg12 (by decide)).trans (a8_main_arg12 V)
theorem a10_main_arg12 : W10 V (Proc.devRef .tc main_arg12) = V (Proc.devRef .tc main_arg12) := (keep9 V main_arg12 (by decide)).trans (a9_main_arg12 V)
theorem a11_main_arg12 : W11 V (Proc.devRef .tc main_arg12) = V (Proc.devRef .tc main_arg12) := (keep10 V main_arg12 (by decide)).trans (a10_main_arg12 V)
theorem a12_main_arg12 : W12 V (Proc.devRef .tc main_arg12) = V (Proc.devRef .tc main_arg12) := (keep11 V main_arg12 (by decide)).trans (a11_main_arg12 V)
theorem a13_main_arg12 : W13 V (Proc.devRef .tc main_arg12) = V (Proc.devRef .tc main_arg12) := (keep12 V main_arg12 (by decide)).trans (a12_main_arg12 V)
theorem a14_main_arg12 : W14 V (Proc.devRef .tc main_arg12) = V (Proc.devRef .tc main_arg12) := (keep13 V main_arg12 (by decide)).trans (a13_main_arg12 V)
theorem a15_main_arg12 : W15 V (Proc.devRef .tc main_arg12) = V (Proc.devRef .tc main_arg12) := (keep14 V main_arg12 (by decide)).trans (a14_main_arg12 V)
theorem a16_main_arg12 : W16 V (Proc.devRef .tc main_arg12) = V (Proc.devRef .tc main_arg12) := (keep15 V main_arg12 (by decide)).trans (a15_main_arg12 V)
theorem a17_main_arg12 : W17 V (Proc.devRef .tc main_arg12) = V (Proc.devRef .tc main_arg12) := (keep16 V main_arg12 (by decide)).trans (a16_main_arg12 V)
theorem a18_main_arg12 : W18 V (Proc.devRef .tc main_arg12) = V (Proc.devRef .tc main_arg12) := (keep17 V main_arg12 (by decide)).trans (a17_main_arg12 V)

/-! ## Each live buffer at its stage -/

/-! ### After stretch 0 (operations 1 to 3) -/

theorem s1_main_v0 : W1 V (Proc.devRef .tc main_v0) = val_main_v0 (F := Ideal) := by
  unfold W1
  simp only [stretch0]
  after_results_simp
  rfl

theorem s1_main_v2 : W1 V (Proc.devRef .tc main_v2) = val_main_v2 (F := Ideal) (V (Proc.devRef .tc main_arg1)) := by
  unfold W1
  simp only [stretch0]
  after_results_simp
  rw [a0_main_arg1 V]
  rfl

/-! ### After stretch 1 (operations 4 to 4) -/

theorem s2_main_v0 : W2 V (Proc.devRef .tc main_v0) = val_main_v0 (F := Ideal) :=
  (keep1 V main_v0 (by decide)).trans (s1_main_v0 V)

theorem s2_main_v3 : W2 V (Proc.devRef .tc main_v3) = val_main_v3 (F := Ideal) (V (Proc.devRef .tc main_arg1)) := by
  unfold W2
  simp only [stretch1]
  after_results_simp
  rw [s1_main_v2 V, s1_main_v0 V]
  rfl

/-! ### After stretch 2 (operations 5 to 6) -/

theorem s3_main_v0 : W3 V (Proc.devRef .tc main_v0) = val_main_v0 (F := Ideal) :=
  (keep2 V main_v0 (by decide)).trans (s2_main_v0 V)

theorem s3_main_v3 : W3 V (Proc.devRef .tc main_v3) = val_main_v3 (F := Ideal) (V (Proc.devRef .tc main_arg1)) :=
  (keep2 V main_v3 (by decide)).trans (s2_main_v3 V)

theorem s3_main_v5 : W3 V (Proc.devRef .tc main_v5) = val_main_v5 (F := Ideal) (V (Proc.devRef .tc main_arg1)) := by
  unfold W3
  simp only [stretch2]
  after_results_simp
  rw [a2_main_arg1 V]
  rfl

/-! ### After stretch 3 (operations 7 to 7) -/

theorem s4_main_v3 : W4 V (Proc.devRef .tc main_v3) = val_main_v3 (F := Ideal) (V (Proc.devRef .tc main_arg1)) :=
  (keep3 V main_v3 (by decide)).trans (s3_main_v3 V)

theorem s4_main_v6 : W4 V (Proc.devRef .tc main_v6) = val_main_v6 (F := Ideal) (V (Proc.devRef .tc main_arg1)) := by
  unfold W4
  simp only [stretch3]
  after_results_simp
  rw [s3_main_v5 V, s3_main_v0 V]
  rfl

/-! ### After stretch 4 (operations 8 to 17) -/

theorem s5_main_v3 : W5 V (Proc.devRef .tc main_v3) = val_main_v3 (F := Ideal) (V (Proc.devRef .tc main_arg1)) :=
  (keep4 V main_v3 (by decide)).trans (s4_main_v3 V)

theorem s5_main_v6 : W5 V (Proc.devRef .tc main_v6) = val_main_v6 (F := Ideal) (V (Proc.devRef .tc main_arg1)) :=
  (keep4 V main_v6 (by decide)).trans (s4_main_v6 V)

theorem s5_main_v13 : W5 V (Proc.devRef .tc main_v13) = val_main_v13 (F := Ideal) (V (Proc.devRef .tc main_arg1)) := by
  unfold W5
  simp only [stretch4]
  after_results_simp
  rw [s4_main_v6 V]
  rfl

/-! ### After stretch 5 (operations 18 to 37) -/

theorem s6_main_v3 : W6 V (Proc.devRef .tc main_v3) = val_main_v3 (F := Ideal) (V (Proc.devRef .tc main_arg1)) :=
  (keep5 V main_v3 (by decide)).trans (s5_main_v3 V)

theorem s6_main_v6 : W6 V (Proc.devRef .tc main_v6) = val_main_v6 (F := Ideal) (V (Proc.devRef .tc main_arg1)) :=
  (keep5 V main_v6 (by decide)).trans (s5_main_v6 V)

theorem s6_main_v29 : W6 V (Proc.devRef .tc main_v29) = val_main_v29 (F := Ideal) (V (Proc.devRef .tc main_arg1)) := by
  unfold W6
  simp only [stretch5]
  after_results_simp
  rw [s5_main_v13 V, s5_main_v3 V, s5_main_v6 V]
  rfl

/-! ### After stretch 6 (operations 38 to 56) -/

theorem s7_main_v3 : W7 V (Proc.devRef .tc main_v3) = val_main_v3 (F := Ideal) (V (Proc.devRef .tc main_arg1)) :=
  (keep6 V main_v3 (by decide)).trans (s6_main_v3 V)

theorem s7_main_v6 : W7 V (Proc.devRef .tc main_v6) = val_main_v6 (F := Ideal) (V (Proc.devRef .tc main_arg1)) :=
  (keep6 V main_v6 (by decide)).trans (s6_main_v6 V)

theorem s7_main_v29 : W7 V (Proc.devRef .tc main_v29) = val_main_v29 (F := Ideal) (V (Proc.devRef .tc main_arg1)) :=
  (keep6 V main_v29 (by decide)).trans (s6_main_v29 V)

theorem s7_main_v45 : W7 V (Proc.devRef .tc main_v45) = val_main_v45 (F := Ideal) (V (Proc.devRef .tc main_arg0)) (V (Proc.devRef .tc main_arg1)) (V (Proc.devRef .tc main_arg3)) (V (Proc.devRef .tc main_arg4)) := by
  unfold W7
  simp only [stretch6]
  after_results_simp
  rw [s6_main_v6 V, a6_main_arg0 V, a6_main_arg3 V, s6_main_v3 V, s6_main_v29 V, a6_main_arg4 V]
  rfl

/-! ### After stretch 7 (operations 57 to 88) -/

theorem s8_main_v3 : W8 V (Proc.devRef .tc main_v3) = val_main_v3 (F := Ideal) (V (Proc.devRef .tc main_arg1)) :=
  (keep7 V main_v3 (by decide)).trans (s7_main_v3 V)

theorem s8_main_v6 : W8 V (Proc.devRef .tc main_v6) = val_main_v6 (F := Ideal) (V (Proc.devRef .tc main_arg1)) :=
  (keep7 V main_v6 (by decide)).trans (s7_main_v6 V)

theorem s8_main_v29 : W8 V (Proc.devRef .tc main_v29) = val_main_v29 (F := Ideal) (V (Proc.devRef .tc main_arg1)) :=
  (keep7 V main_v29 (by decide)).trans (s7_main_v29 V)

theorem s8_main_v45 : W8 V (Proc.devRef .tc main_v45) = val_main_v45 (F := Ideal) (V (Proc.devRef .tc main_arg0)) (V (Proc.devRef .tc main_arg1)) (V (Proc.devRef .tc main_arg3)) (V (Proc.devRef .tc main_arg4)) :=
  (keep7 V main_v45 (by decide)).trans (s7_main_v45 V)

theorem s8_main_v70 : W8 V (Proc.devRef .tc main_v70) = val_main_v70 (F := Ideal) (V (Proc.devRef .tc main_arg0)) (V (Proc.devRef .tc main_arg1)) (V (Proc.devRef .tc main_arg3)) (V (Proc.devRef .tc main_arg4)) (V (Proc.devRef .tc main_arg7)) := by
  unfold W8
  simp only [stretch7]
  after_results_simp
  rw [s7_main_v45 V, a7_main_arg7 V]
  rfl

theorem s8_main_v72 : W8 V (Proc.devRef .tc main_v72) = val_main_v72 (F := Ideal) (V (Proc.devRef .tc main_arg8)) := by
  unfold W8
  simp only [stretch7]
  after_results_simp
  rw [a7_main_arg8 V]
  rfl

/-! ### After stretch 8 (operations 89 to 116) -/

theorem s9_main_v3 : W9 V (Proc.devRef .tc main_v3) = val_main_v3 (F := Ideal) (V (Proc.devRef .tc main_arg1)) :=
  (keep8 V main_v3 (by decide)).trans (s8_main_v3 V)

theorem s9_main_v6 : W9 V (Proc.devRef .tc main_v6) = val_main_v6 (F := Ideal) (V (Proc.devRef .tc main_arg1)) :=
  (keep8 V main_v6 (by decide)).trans (s8_main_v6 V)

theorem s9_main_v29 : W9 V (Proc.devRef .tc main_v29) = val_main_v29 (F := Ideal) (V (Proc.devRef .tc main_arg1)) :=
  (keep8 V main_v29 (by decide)).trans (s8_main_v29 V)

theorem s9_main_v45 : W9 V (Proc.devRef .tc main_v45) = val_main_v45 (F := Ideal) (V (Proc.devRef .tc main_arg0)) (V (Proc.devRef .tc main_arg1)) (V (Proc.devRef .tc main_arg3)) (V (Proc.devRef .tc main_arg4)) :=
  (keep8 V main_v45 (by decide)).trans (s8_main_v45 V)

theorem s9_main_v95 : W9 V (Proc.devRef .tc main_v95) = val_main_v95 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  unfold W9
  simp only [stretch8]
  after_results_simp
  rw [s8_main_v6 V, s8_main_v70 V, s8_main_v72 V, a8_main_arg5 V, s8_main_v3 V, s8_main_v29 V, a8_main_arg6 V, s8_main_v45 V]
  rfl

/-! ### After stretch 9 (operations 117 to 148) -/

theorem s10_main_v3 : W10 V (Proc.devRef .tc main_v3) = val_main_v3 (F := Ideal) (V (Proc.devRef .tc main_arg1)) :=
  (keep9 V main_v3 (by decide)).trans (s9_main_v3 V)

theorem s10_main_v6 : W10 V (Proc.devRef .tc main_v6) = val_main_v6 (F := Ideal) (V (Proc.devRef .tc main_arg1)) :=
  (keep9 V main_v6 (by decide)).trans (s9_main_v6 V)

theorem s10_main_v29 : W10 V (Proc.devRef .tc main_v29) = val_main_v29 (F := Ideal) (V (Proc.devRef .tc main_arg1)) :=
  (keep9 V main_v29 (by decide)).trans (s9_main_v29 V)

theorem s10_main_v45 : W10 V (Proc.devRef .tc main_v45) = val_main_v45 (F := Ideal) (V (Proc.devRef .tc main_arg0)) (V (Proc.devRef .tc main_arg1)) (V (Proc.devRef .tc main_arg3)) (V (Proc.devRef .tc main_arg4)) :=
  (keep9 V main_v45 (by decide)).trans (s9_main_v45 V)

theorem s10_main_v120 : W10 V (Proc.devRef .tc main_v120) = val_main_v120 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  unfold W10
  simp only [stretch9]
  after_results_simp
  rw [s9_main_v95 V, a9_main_arg7 V]
  rfl

theorem s10_main_v122 : W10 V (Proc.devRef .tc main_v122) = val_main_v122 (F := Ideal) (V (Proc.devRef .tc main_arg8)) := by
  unfold W10
  simp only [stretch9]
  after_results_simp
  rw [a9_main_arg8 V]
  rfl

/-! ### After stretch 10 (operations 149 to 176) -/

theorem s11_main_v3 : W11 V (Proc.devRef .tc main_v3) = val_main_v3 (F := Ideal) (V (Proc.devRef .tc main_arg1)) :=
  (keep10 V main_v3 (by decide)).trans (s10_main_v3 V)

theorem s11_main_v6 : W11 V (Proc.devRef .tc main_v6) = val_main_v6 (F := Ideal) (V (Proc.devRef .tc main_arg1)) :=
  (keep10 V main_v6 (by decide)).trans (s10_main_v6 V)

theorem s11_main_v29 : W11 V (Proc.devRef .tc main_v29) = val_main_v29 (F := Ideal) (V (Proc.devRef .tc main_arg1)) :=
  (keep10 V main_v29 (by decide)).trans (s10_main_v29 V)

theorem s11_main_v145 : W11 V (Proc.devRef .tc main_v145) = val_main_v145 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  unfold W11
  simp only [stretch10]
  after_results_simp
  rw [s10_main_v6 V, s10_main_v120 V, s10_main_v122 V, a10_main_arg5 V, s10_main_v3 V, s10_main_v29 V, a10_main_arg6 V, s10_main_v45 V]
  rfl

/-! ### After stretch 11 (operations 177 to 208) -/

theorem s12_main_v3 : W12 V (Proc.devRef .tc main_v3) = val_main_v3 (F := Ideal) (V (Proc.devRef .tc main_arg1)) :=
  (keep11 V main_v3 (by decide)).trans (s11_main_v3 V)

theorem s12_main_v6 : W12 V (Proc.devRef .tc main_v6) = val_main_v6 (F := Ideal) (V (Proc.devRef .tc main_arg1)) :=
  (keep11 V main_v6 (by decide)).trans (s11_main_v6 V)

theorem s12_main_v29 : W12 V (Proc.devRef .tc main_v29) = val_main_v29 (F := Ideal) (V (Proc.devRef .tc main_arg1)) :=
  (keep11 V main_v29 (by decide)).trans (s11_main_v29 V)

theorem s12_main_v170 : W12 V (Proc.devRef .tc main_v170) = val_main_v170 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  unfold W12
  simp only [stretch11]
  after_results_simp
  rw [s11_main_v145 V, a11_main_arg7 V]
  rfl

theorem s12_main_v172 : W12 V (Proc.devRef .tc main_v172) = val_main_v172 (F := Ideal) (V (Proc.devRef .tc main_arg8)) := by
  unfold W12
  simp only [stretch11]
  after_results_simp
  rw [a11_main_arg8 V]
  rfl

/-! ### After stretch 12 (operations 209 to 236) -/

theorem s13_main_v195 : W13 V (Proc.devRef .tc main_v195) = val_main_v195 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  unfold W13
  simp only [stretch12]
  after_results_simp
  rw [s12_main_v6 V, s12_main_v170 V, s12_main_v172 V, a12_main_arg5 V, s12_main_v3 V, s12_main_v29 V, a12_main_arg6 V]
  rfl

/-! ### After stretch 13 (operations 237 to 268) -/

theorem s14_main_v220 : W14 V (Proc.devRef .tc main_v220) = val_main_v220 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  unfold W14
  simp only [stretch13]
  after_results_simp
  rw [s13_main_v195 V, a13_main_arg7 V]
  rfl

theorem s14_main_v222 : W14 V (Proc.devRef .tc main_v222) = val_main_v222 (F := Ideal) (V (Proc.devRef .tc main_arg8)) := by
  unfold W14
  simp only [stretch13]
  after_results_simp
  rw [a13_main_arg8 V]
  rfl

/-! ### After stretch 14 (operations 269 to 288) -/

theorem s15_main_v224 : W15 V (Proc.devRef .tc main_v224) = val_main_v224 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  unfold W15
  simp only [stretch14]
  after_results_simp
  rw [s14_main_v220 V, s14_main_v222 V]
  rfl

theorem s15_main_v236 : W15 V (Proc.devRef .tc main_v236) = val_main_v236 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  unfold W15
  simp only [stretch14]
  after_results_simp
  rw [a14_main_arg2 V, s14_main_v220 V, s14_main_v222 V]
  rfl

/-! ### After stretch 15 (operations 289 to 318) -/

theorem s16_main_v224 : W16 V (Proc.devRef .tc main_v224) = val_main_v224 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  (keep15 V main_v224 (by decide)).trans (s15_main_v224 V)

theorem s16_main_v236 : W16 V (Proc.devRef .tc main_v236) = val_main_v236 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  (keep15 V main_v236 (by decide)).trans (s15_main_v236 V)

theorem s16_main_v262 : W16 V (Proc.devRef .tc main_v262) = val_main_v262 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  unfold W16
  simp only [stretch15]
  after_results_simp
  rw [s15_main_v236 V, a15_main_arg9 V, a15_main_arg10 V]
  rfl

/-! ### After stretch 16 (operations 319 to 346) -/

theorem s17_main_v224 : W17 V (Proc.devRef .tc main_v224) = val_main_v224 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  (keep16 V main_v224 (by decide)).trans (s16_main_v224 V)

theorem s17_main_v236 : W17 V (Proc.devRef .tc main_v236) = val_main_v236 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  (keep16 V main_v236 (by decide)).trans (s16_main_v236 V)

theorem s17_main_v284 : W17 V (Proc.devRef .tc main_v284) = val_main_v284 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  unfold W17
  simp only [stretch16]
  after_results_simp
  rw [s16_main_v262 V, a16_main_arg9 V, a16_main_arg10 V]
  rfl

/-! ### After stretch 17 (operations 347 to 359) -/

theorem s18_main_v224 : W18 V (Proc.devRef .tc main_v224) = val_main_v224 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  (keep17 V main_v224 (by decide)).trans (s17_main_v224 V)

theorem s18_main_v236 : W18 V (Proc.devRef .tc main_v236) = val_main_v236 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  (keep17 V main_v236 (by decide)).trans (s17_main_v236 V)

theorem s18_main_v295 : W18 V (Proc.devRef .tc main_v295) = val_main_v295 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  unfold W18
  simp only [stretch17]
  after_results_simp
  rw [s17_main_v284 V, a17_main_arg10 V, a17_main_arg11 V, a17_main_arg12 V]
  rfl

/-! ## The results and the arguments after the whole line -/

/-- The fourth normalisation's output after the line is its stage. -/
theorem stage224 : after (ops (F := Ideal)) V (Proc.devRef .tc main_v224) = val_main_v224 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [after_ops]; exact s18_main_v224 V

/-- The pooled features after the line are their stage. -/
theorem stage236 : after (ops (F := Ideal)) V (Proc.devRef .tc main_v236) = val_main_v236 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [after_ops]; exact s18_main_v236 V

/-- The head's output after the line is its stage. -/
theorem stage295 : after (ops (F := Ideal)) V (Proc.devRef .tc main_v295) = val_main_v295 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_ops]; exact s18_main_v295 V

theorem kept_main_arg0 : after (ops (F := Ideal)) V (Proc.devRef .tc main_arg0) = V (Proc.devRef .tc main_arg0) := by
  rw [after_ops]; exact a18_main_arg0 V
theorem kept_main_arg1 : after (ops (F := Ideal)) V (Proc.devRef .tc main_arg1) = V (Proc.devRef .tc main_arg1) := by
  rw [after_ops]; exact a18_main_arg1 V
theorem kept_main_arg2 : after (ops (F := Ideal)) V (Proc.devRef .tc main_arg2) = V (Proc.devRef .tc main_arg2) := by
  rw [after_ops]; exact a18_main_arg2 V
theorem kept_main_arg3 : after (ops (F := Ideal)) V (Proc.devRef .tc main_arg3) = V (Proc.devRef .tc main_arg3) := by
  rw [after_ops]; exact a18_main_arg3 V
theorem kept_main_arg4 : after (ops (F := Ideal)) V (Proc.devRef .tc main_arg4) = V (Proc.devRef .tc main_arg4) := by
  rw [after_ops]; exact a18_main_arg4 V
theorem kept_main_arg5 : after (ops (F := Ideal)) V (Proc.devRef .tc main_arg5) = V (Proc.devRef .tc main_arg5) := by
  rw [after_ops]; exact a18_main_arg5 V
theorem kept_main_arg6 : after (ops (F := Ideal)) V (Proc.devRef .tc main_arg6) = V (Proc.devRef .tc main_arg6) := by
  rw [after_ops]; exact a18_main_arg6 V
theorem kept_main_arg7 : after (ops (F := Ideal)) V (Proc.devRef .tc main_arg7) = V (Proc.devRef .tc main_arg7) := by
  rw [after_ops]; exact a18_main_arg7 V
theorem kept_main_arg8 : after (ops (F := Ideal)) V (Proc.devRef .tc main_arg8) = V (Proc.devRef .tc main_arg8) := by
  rw [after_ops]; exact a18_main_arg8 V
theorem kept_main_arg9 : after (ops (F := Ideal)) V (Proc.devRef .tc main_arg9) = V (Proc.devRef .tc main_arg9) := by
  rw [after_ops]; exact a18_main_arg9 V
theorem kept_main_arg10 : after (ops (F := Ideal)) V (Proc.devRef .tc main_arg10) = V (Proc.devRef .tc main_arg10) := by
  rw [after_ops]; exact a18_main_arg10 V
theorem kept_main_arg11 : after (ops (F := Ideal)) V (Proc.devRef .tc main_arg11) = V (Proc.devRef .tc main_arg11) := by
  rw [after_ops]; exact a18_main_arg11 V
theorem kept_main_arg12 : after (ops (F := Ideal)) V (Proc.devRef .tc main_arg12) = V (Proc.devRef .tc main_arg12) := by
  rw [after_ops]; exact a18_main_arg12 V

end Cert.Bridge.RefOps

end
-- ==== Proof.RefRun.lean ====
/-
  The idealized reference's run, read at its stages.

  The reference's @main is a straight line of 359 host operations, each writing one fresh buffer. From any memory
  with zero counters every weakly fair execution runs them in order and terminates, and a buffer then holds what the
  line computes into it from the launch contents. Each of the three results is stated here at its STAGE — the value
  its operation writes, as a function of the argument arrays it depends on, every stage defined from the stages of
  its operands —, so that the composed term of a result (which repeats every shared operand at each of its uses) is
  never written down; the argument arrays end as launched, since no operation writes one.
-/
import proofs.«166496_j23596550324766_1_alg».proof.Proof.RefOps
import proofs.«166496_j23596550324766_1_alg».proof.Proof.RefStages

noncomputable section

namespace Cert.Bridge.Ref

open Cert.ReferenceIdeal Cert.ReferenceIdeal.Gen Idealize.ShloMosaic Idealize.ShloMosaic.TcCoe Idealize.SL.Sem Idealize.ShloMosaic.StableHlo

/-- On every device, from any memory with zero counters: every weakly fair execution of @main terminates with each
    result at its stage of the argument arrays and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v224) = Cert.ReferenceIdeal.ReadP.val_main_v224 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v236) = Cert.ReferenceIdeal.ReadP.val_main_v236 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v295) = Cert.ReferenceIdeal.ReadP.val_main_v295 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v224).trans (Cert.Bridge.RefOps.stage224 (launchContents m c)),
      (h c main_v236).trans (Cert.Bridge.RefOps.stage236 (launchContents m c)),
      (h c main_v295).trans (Cert.Bridge.RefOps.stage295 (launchContents m c)),
      (h c main_arg0).trans (Cert.Bridge.RefOps.kept_main_arg0 (launchContents m c)),
      (h c main_arg1).trans (Cert.Bridge.RefOps.kept_main_arg1 (launchContents m c)),
      (h c main_arg2).trans (Cert.Bridge.RefOps.kept_main_arg2 (launchContents m c)),
      (h c main_arg3).trans (Cert.Bridge.RefOps.kept_main_arg3 (launchContents m c)),
      (h c main_arg4).trans (Cert.Bridge.RefOps.kept_main_arg4 (launchContents m c)),
      (h c main_arg5).trans (Cert.Bridge.RefOps.kept_main_arg5 (launchContents m c)),
      (h c main_arg6).trans (Cert.Bridge.RefOps.kept_main_arg6 (launchContents m c)),
      (h c main_arg7).trans (Cert.Bridge.RefOps.kept_main_arg7 (launchContents m c)),
      (h c main_arg8).trans (Cert.Bridge.RefOps.kept_main_arg8 (launchContents m c)),
      (h c main_arg9).trans (Cert.Bridge.RefOps.kept_main_arg9 (launchContents m c)),
      (h c main_arg10).trans (Cert.Bridge.RefOps.kept_main_arg10 (launchContents m c)),
      (h c main_arg11).trans (Cert.Bridge.RefOps.kept_main_arg11 (launchContents m c)),
      (h c main_arg12).trans (Cert.Bridge.RefOps.kept_main_arg12 (launchContents m c))⟩)
    (run_seq Cert.Bridge.RefOps.scopedRefs_eq Cert.Bridge.RefOps.scopedSems_eq defs main (fun _ => Cert.Bridge.RefOps.ops)
      Cert.Bridge.RefOps.main_eq (fun _ => Cert.Bridge.RefOps.ops_sub) m ρ)

end Cert.Bridge.Ref

end
-- ==== Proof.Walk.lean ====
/-
  Walking a buffer back through the fold of segment boundaries.

  The contents of the buffers at boundary 2k+1 are the k-th stretch of host operations applied to boundary 2k, and
  boundary 2k+2 is boundary 2k+1 with the k-th region's arrays replaced by what its write-backs leave. A buffer that
  no operation of the stretch writes has the same contents before and after the stretch; a buffer that is none of the
  region's arrays has the same contents before and after the region. Which buffer an operation writes is read off
  the operation (one result buffer each), and two buffers differ when their numbers differ.
-/
import proofs.«166496_j23596550324766_1_alg».proof.Proof.Gen.KernelIdeal.Frame

set_option maxRecDepth 16384

noncomputable section

namespace Cert.Bridge

open Cert.KernelIdeal Cert.KernelIdeal.Gen
open Idealize.ShloMosaic Idealize.ShloMosaic.TcCoe Idealize.ShloMosaic.Tactic
open Idealize.SL Idealize.SL.Sem

/-- No operation of the named stretch writes the buffer in the goal: each operation writes its one result buffer,
    and the buffer's number differs from every one of them. -/
macro "not_written_by " ops:ident : tactic => `(tactic| (
  refine List.forall_iff_forall_mem.mp ?_
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable {F : FTy → Type} [FloatOps F]
variable (m : (ℓ : Loc nD τ sig) → Buf (Elt F) ℓ) (ρ : Dev nD → PrngReg) (c : Dev nD)

/-! ## Past one stretch of host operations -/

theorem host0 (b : Ref sig .tc)
    (hb : ∀ op ∈ (hostOps0 : List (HloOp τ sig (Elt F))), (Proc.devRef .tc b : DevRef τ sig) ∉ op.writes := by not_written_by hostOps0) :
    W1 m ρ c (Proc.devRef .tc b) = W0 m ρ c (Proc.devRef .tc b) := StableHlo.after_of_forall_not_mem _ _ hb

theorem host1 (b : Ref sig .tc)
    (hb : ∀ op ∈ (hostOps1 : List (HloOp τ sig (Elt F))), (Proc.devRef .tc b : DevRef τ sig) ∉ op.writes := by not_written_by hostOps1) :
    W3 m ρ c (Proc.devRef .tc b) = W2 m ρ c (Proc.devRef .tc b) := StableHlo.after_of_forall_not_mem _ _ hb

theorem host2 (b : Ref sig .tc)
    (hb : ∀ op ∈ (hostOps2 : List (HloOp τ sig (Elt F))), (Proc.devRef .tc b : DevRef τ sig) ∉ op.writes := by not_written_by hostOps2) :
    W5 m ρ c (Proc.devRef .tc b) = W4 m ρ c (Proc.devRef .tc b) := StableHlo.after_of_forall_not_mem _ _ hb

theorem host3 (b : Ref sig .tc)
    (hb : ∀ op ∈ (hostOps3 : List (HloOp τ sig (Elt F))), (Proc.devRef .tc b : DevRef τ sig) ∉ op.writes := by not_written_by hostOps3) :
    W7 m ρ c (Proc.devRef .tc b) = W6 m ρ c (Proc.devRef .tc b) := StableHlo.after_of_forall_not_mem _ _ hb

theorem host4 (b : Ref sig .tc)
    (hb : ∀ op ∈ (hostOps4 : List (HloOp τ sig (Elt F))), (Proc.devRef .tc b : DevRef τ sig) ∉ op.writes := by not_written_by hostOps4) :
    W9 m ρ c (Proc.devRef .tc b) = W8 m ρ c (Proc.devRef .tc b) := StableHlo.after_of_forall_not_mem _ _ hb

theorem host5 (b : Ref sig .tc)
    (hb : ∀ op ∈ (hostOps5 : List (HloOp τ sig (Elt F))), (Proc.devRef .tc b : DevRef τ sig) ∉ op.writes := by not_written_by hostOps5) :
    W11 m ρ c (Proc.devRef .tc b) = W10 m ρ c (Proc.devRef .tc b) := StableHlo.after_of_forall_not_mem _ _ hb

theorem host6 (b : Ref sig .tc)
    (hb : ∀ op ∈ (hostOps6 : List (HloOp τ sig (Elt F))), (Proc.devRef .tc b : DevRef τ sig) ∉ op.writes := by not_written_by hostOps6) :
    W13 m ρ c (Proc.devRef .tc b) = W12 m ρ c (Proc.devRef .tc b) := StableHlo.after_of_forall_not_mem _ _ hb

theorem host7 (b : Ref sig .tc)
    (hb : ∀ op ∈ (hostOps7 : List (HloOp τ sig (Elt F))), (Proc.devRef .tc b : DevRef τ sig) ∉ op.writes := by not_written_by hostOps7) :
    W15 m ρ c (Proc.devRef .tc b) = W14 m ρ c (Proc.devRef .tc b) := StableHlo.after_of_forall_not_mem _ _ hb

theorem host8 (b : Ref sig .tc)
    (hb : ∀ op ∈ (hostOps8 : List (HloOp τ sig (Elt F))), (Proc.devRef .tc b : DevRef τ sig) ∉ op.writes := by not_written_by hostOps8) :
    W17 m ρ c (Proc.devRef .tc b) = W16 m ρ c (Proc.devRef .tc b) := StableHlo.after_of_forall_not_mem _ _ hb

/-! ## Past one stretch and the region after it, for a buffer neither touches -/

theorem cross0 (b : Ref sig .tc) (hr : ∀ w, Pipeline.arrRef spec0 w ≠ b := by decide)
    (hb : ∀ op ∈ (hostOps0 : List (HloOp τ sig (Elt F))), (Proc.devRef .tc b : DevRef τ sig) ∉ op.writes := by not_written_by hostOps0) :
    W2 m ρ c (Proc.devRef .tc b) = W0 m ρ c (Proc.devRef .tc b) := (W2_of_ne m ρ c b hr).trans (host0 m ρ c b hb)

theorem cross1 (b : Ref sig .tc) (hr : ∀ w, Pipeline.arrRef spec1 w ≠ b := by decide)
    (hb : ∀ op ∈ (hostOps1 : List (HloOp τ sig (Elt F))), (Proc.devRef .tc b : DevRef τ sig) ∉ op.writes := by not_written_by hostOps1) :
    W4 m ρ c (Proc.devRef .tc b) = W2 m ρ c (Proc.devRef .tc b) := (W4_of_ne m ρ c b hr).trans (host1 m ρ c b hb)

theorem cross2 (b : Ref sig .tc) (hr : ∀ w, Pipeline.arrRef spec2 w ≠ b := by decide)
    (hb : ∀ op ∈ (hostOps2 : List (HloOp τ sig (Elt F))), (Proc.devRef .tc b : DevRef τ sig) ∉ op.writes := by not_written_by hostOps2) :
    W6 m ρ c (Proc.devRef .tc b) = W4 m ρ c (Proc.devRef .tc b) := (W6_of_ne m ρ c b hr).trans (host2 m ρ c b hb)

theorem cross3 (b : Ref sig .tc) (hr : ∀ w, Pipeline.arrRef spec3 w ≠ b := by decide)
    (hb : ∀ op ∈ (hostOps3 : List (HloOp τ sig (Elt F))), (Proc.devRef .tc b : DevRef τ sig) ∉ op.writes := by not_written_by hostOps3) :
    W8 m ρ c (Proc.devRef .tc b) = W6 m ρ c (Proc.devRef .tc b) := (W8_of_ne m ρ c b hr).trans (host3 m ρ c b hb)

theorem cross4 (b : Ref sig .tc) (hr : ∀ w, Pipeline.arrRef spec4 w ≠ b := by decide)
    (hb : ∀ op ∈ (hostOps4 : List (HloOp τ sig (Elt F))), (Proc.devRef .tc b : DevRef τ sig) ∉ op.writes := by not_written_by hostOps4) :
    W10 m ρ c (Proc.devRef .tc b) = W8 m ρ c (Proc.devRef .tc b) := (W10_of_ne m ρ c b hr).trans (host4 m ρ c b hb)

theorem cross5 (b : Ref sig .tc) (hr : ∀ w, Pipeline.arrRef spec5 w ≠ b := by decide)
    (hb : ∀ op ∈ (hostOps5 : List (HloOp τ sig (Elt F))), (Proc.devRef .tc b : DevRef τ sig) ∉ op.writes := by not_written_by hostOps5) :
    W12 m ρ c (Proc.devRef .tc b) = W10 m ρ c (Proc.devRef .tc b) := (W12_of_ne m ρ c b hr).trans (host5 m ρ c b hb)

theorem cross6 (b : Ref sig .tc) (hr : ∀ w, Pipeline.arrRef spec6 w ≠ b := by decide)
    (hb : ∀ op ∈ (hostOps6 : List (HloOp τ sig (Elt F))), (Proc.devRef .tc b : DevRef τ sig) ∉ op.writes := by not_written_by hostOps6) :
    W14 m ρ c (Proc.devRef .tc b) = W12 m ρ c (Proc.devRef .tc b) := (W14_of_ne m ρ c b hr).trans (host6 m ρ c b hb)

theorem cross7 (b : Ref sig .tc) (hr : ∀ w, Pipeline.arrRef spec7 w ≠ b := by decide)
    (hb : ∀ op ∈ (hostOps7 : List (HloOp τ sig (Elt F))), (Proc.devRef .tc b : DevRef τ sig) ∉ op.writes := by not_written_by hostOps7) :
    W16 m ρ c (Proc.devRef .tc b) = W14 m ρ c (Proc.devRef .tc b) := (W16_of_ne m ρ c b hr).trans (host7 m ρ c b hb)

theorem cross8 (b : Ref sig .tc) (hr : ∀ w, Pipeline.arrRef spec8 w ≠ b := by decide)
    (hb : ∀ op ∈ (hostOps8 : List (HloOp τ sig (Elt F))), (Proc.devRef .tc b : DevRef τ sig) ∉ op.writes := by not_written_by hostOps8) :
    W18 m ρ c (Proc.devRef .tc b) = W16 m ρ c (Proc.devRef .tc b) := (W18_of_ne m ρ c b hr).trans (host8 m ρ c b hb)

end Cert.Bridge

end
-- ==== Proof.Chain1.lean ====
/-
  The kernel's buffers at the segment boundaries are the reference's stages: the first two layers.

  Every stretch of host operations in the kernel's @main is, operation for operation, a stretch of the reference's
  @main (the gather of the projected rows along the source nodes, the scaling by the edge norm, the scatter-add at the
  destination nodes, the bias). So once the kernel's region before a stretch is known to leave the reference's stage in
  its output array, the stretch leaves the reference's next stages in its result buffers: the two sides are the same
  operations of equal operands. What each region computes, as a whole-array function of its input arrays, is taken
  here as a record of hypotheses (`Regions`), so that this walk through the boundaries stands on its own.
-/
import proofs.«166496_j23596550324766_1_alg».proof.Proof.Walk
import proofs.«166496_j23596550324766_1_alg».proof.Proof.RefRead

set_option maxRecDepth 16384

noncomputable section

namespace Cert.Bridge

open Cert.KernelIdeal Cert.KernelIdeal.Gen
open Idealize.ShloMosaic Idealize.ShloMosaic.TcCoe Idealize.ShloMosaic.Tactic
open Idealize.SL Idealize.SL.Sem
open Cert.ReferenceIdeal.ReadP

/-- The contents of every TensorCore buffer when a region is entered. -/
abbrev Entry := (c : Dev nD) → (b : Ref sig .tc) → Buf (Elt Ideal) ((c : Thread nD τ).loc b)

/-- What the eight row-tiled regions leave in their output arrays, as whole-array functions of their input arrays as the
    region finds them: the four projections are the host's matrix product of the same operands; the four normalisations
    are one function `ln` of the (summed) input, the scale and the shift, which is also what the reference's chain of
    host operations computes at each of its four normalisations. -/
structure Regions where
  ln : FVec Ideal Cert.ReferenceIdeal.S10000x1024 .f32 → FVec Ideal Cert.ReferenceIdeal.S1024 .f32 → FVec Ideal Cert.ReferenceIdeal.S1024 .f32 → FVec Ideal Cert.ReferenceIdeal.S10000x1024 .f32
  proj0 : ∀ (V : Entry) (c : Dev nD), (dat0 V c).arrAt 2 cfg0.N = Host.dotGeneral (F := Ideal) (φ₁ := .f32) (φ₂ := .f32) Cert.ReferenceIdeal.dot_S10000x128_S128x1024_S10000x1024_1_0_0_1_n_n none (V c main_arg0) (V c main_arg3)
  proj2 : ∀ (V : Entry) (c : Dev nD), (dat2 V c).arrAt 2 cfg2.N = Host.dotGeneral (F := Ideal) (φ₁ := .f32) (φ₂ := .f32) Cert.ReferenceIdeal.dot_S10000x1024_S1024x1024_S10000x1024_1_0_0_1_n_n none (V c main_v50) (V c main_v52)
  proj4 : ∀ (V : Entry) (c : Dev nD), (dat4 V c).arrAt 2 cfg4.N = Host.dotGeneral (F := Ideal) (φ₁ := .f32) (φ₂ := .f32) Cert.ReferenceIdeal.dot_S10000x1024_S1024x1024_S10000x1024_1_0_0_1_n_n none (V c main_v75) (V c main_v77)
  proj6 : ∀ (V : Entry) (c : Dev nD), (dat6 V c).arrAt 2 cfg6.N = Host.dotGeneral (F := Ideal) (φ₁ := .f32) (φ₂ := .f32) Cert.ReferenceIdeal.dot_S10000x1024_S1024x1024_S10000x1024_1_0_0_1_n_n none (V c main_v100) (V c main_v102)
  ln1 : ∀ (V : Entry) (c : Dev nD), (dat1 V c).arrAt 3 cfg1.N = ln (V c main_v45) (V c main_v47) (V c main_v49)
  ln3 : ∀ (V : Entry) (c : Dev nD), (dat3 V c).arrAt 4 cfg3.N = ln (addf (F := Ideal) (s := Cert.ReferenceIdeal.S10000x1024) (φ := .f32) (V c main_v70) (V c main_v45)) (V c main_v72) (V c main_v74)
  ln5 : ∀ (V : Entry) (c : Dev nD), (dat5 V c).arrAt 4 cfg5.N = ln (addf (F := Ideal) (s := Cert.ReferenceIdeal.S10000x1024) (φ := .f32) (V c main_v95) (V c main_v45)) (V c main_v97) (V c main_v99)
  ln7 : ∀ (V : Entry) (c : Dev nD), (dat7 V c).arrAt 4 cfg7.N = ln (addf (F := Ideal) (s := Cert.ReferenceIdeal.S10000x1024) (φ := .f32) (V c main_v120) (V c main_v100)) (V c main_v122) (V c main_v124)
  ref1 : ∀ x0 x1 x3 x4 x7 x8, val_main_v74 (F := Ideal) x0 x1 x3 x4 x7 x8 = ln (val_main_v45 x0 x1 x3 x4) (val_main_v47 x7) (val_main_v49 x8)
  ref3 : ∀ x0 x1 x3 x4 x5 x6 x7 x8, val_main_v124 (F := Ideal) x0 x1 x3 x4 x5 x6 x7 x8 = ln (val_main_v95 x0 x1 x3 x4 x5 x6 x7 x8) (val_main_v97 x7) (val_main_v99 x8)
  ref5 : ∀ x0 x1 x3 x4 x5 x6 x7 x8, val_main_v174 (F := Ideal) x0 x1 x3 x4 x5 x6 x7 x8 = ln (val_main_v145 x0 x1 x3 x4 x5 x6 x7 x8) (val_main_v147 x7) (val_main_v149 x8)
  ref7 : ∀ x0 x1 x3 x4 x5 x6 x7 x8, val_main_v224 (F := Ideal) x0 x1 x3 x4 x5 x6 x7 x8 = ln (val_main_v195 x0 x1 x3 x4 x5 x6 x7 x8) (val_main_v197 x7) (val_main_v199 x8)

variable (m : (ℓ : Loc nD τ sig) → Buf (Elt Ideal) ℓ) (ρ : Dev nD → PrngReg) (c : Dev nD)

/-! ## The edge lists and the edge norm (the first stretch of host operations) -/

theorem src1 : W1 m ρ c (Proc.devRef .tc main_v3) = val_main_v3 (F := Ideal) (m ((c : Thread nD τ).loc main_arg1)) := by
  show StableHlo.after hostOps0 (W0 m ρ c) (Proc.devRef .tc main_v3) = _
  after_results_simp
  rfl

theorem dst1 : W1 m ρ c (Proc.devRef .tc main_v6) = val_main_v6 (F := Ideal) (m ((c : Thread nD τ).loc main_arg1)) := by
  show StableHlo.after hostOps0 (W0 m ρ c) (Proc.devRef .tc main_v6) = _
  after_results_simp
  rfl

theorem norm1 : W1 m ρ c (Proc.devRef .tc main_v29) = val_main_v29 (F := Ideal) (m ((c : Thread nD τ).loc main_arg1)) := by
  show StableHlo.after hostOps0 (W0 m ρ c) (Proc.devRef .tc main_v29) = _
  after_results_simp
  rfl

/-- No later segment touches them: past the first region … -/
theorem src2 : W2 m ρ c (Proc.devRef .tc main_v3) = val_main_v3 (F := Ideal) (m ((c : Thread nD τ).loc main_arg1)) := (W2_of_ne m ρ c main_v3 (by decide)).trans (src1 m ρ c)
theorem dst2 : W2 m ρ c (Proc.devRef .tc main_v6) = val_main_v6 (F := Ideal) (m ((c : Thread nD τ).loc main_arg1)) := (W2_of_ne m ρ c main_v6 (by decide)).trans (dst1 m ρ c)
theorem norm2 : W2 m ρ c (Proc.devRef .tc main_v29) = val_main_v29 (F := Ideal) (m ((c : Thread nD τ).loc main_arg1)) := (W2_of_ne m ρ c main_v29 (by decide)).trans (norm1 m ρ c)

/-- … and past the second stretch, the second region and the third stretch. -/
theorem src6 : W6 m ρ c (Proc.devRef .tc main_v3) = val_main_v3 (F := Ideal) (m ((c : Thread nD τ).loc main_arg1)) := (cross2 m ρ c main_v3).trans ((cross1 m ρ c main_v3).trans (src2 m ρ c))
theorem dst6 : W6 m ρ c (Proc.devRef .tc main_v6) = val_main_v6 (F := Ideal) (m ((c : Thread nD τ).loc main_arg1)) := (cross2 m ρ c main_v6).trans ((cross1 m ρ c main_v6).trans (dst2 m ρ c))
theorem norm6 : W6 m ρ c (Proc.devRef .tc main_v29) = val_main_v29 (F := Ideal) (m ((c : Thread nD τ).loc main_arg1)) := (cross2 m ρ c main_v29).trans ((cross1 m ρ c main_v29).trans (norm2 m ρ c))

/-! ## The argument arrays where the stretches read them -/

theorem arg4_2 : W2 m ρ c (Proc.devRef .tc main_arg4) = (m ((c : Thread nD τ).loc main_arg4)) := cross0 m ρ c main_arg4
theorem arg7_2 : W2 m ρ c (Proc.devRef .tc main_arg7) = (m ((c : Thread nD τ).loc main_arg7)) := cross0 m ρ c main_arg7
theorem arg8_2 : W2 m ρ c (Proc.devRef .tc main_arg8) = (m ((c : Thread nD τ).loc main_arg8)) := cross0 m ρ c main_arg8
theorem arg5_4 : W4 m ρ c (Proc.devRef .tc main_arg5) = (m ((c : Thread nD τ).loc main_arg5)) := (cross1 m ρ c main_arg5).trans (cross0 m ρ c main_arg5)
theorem arg6_4 : W4 m ρ c (Proc.devRef .tc main_arg6) = (m ((c : Thread nD τ).loc main_arg6)) := (cross1 m ρ c main_arg6).trans (cross0 m ρ c main_arg6)
theorem arg7_6 : W6 m ρ c (Proc.devRef .tc main_arg7) = (m ((c : Thread nD τ).loc main_arg7)) := (cross2 m ρ c main_arg7).trans ((cross1 m ρ c main_arg7).trans (arg7_2 m ρ c))
theorem arg8_6 : W6 m ρ c (Proc.devRef .tc main_arg8) = (m ((c : Thread nD τ).loc main_arg8)) := (cross2 m ρ c main_arg8).trans ((cross1 m ρ c main_arg8).trans (arg8_2 m ρ c))

/-! ## Layer 1: the projection (region 0), the aggregation, the normalisation (region 1) -/

theorem p1 (Rg : Regions) : W2 m ρ c (Proc.devRef .tc main_v30) = val_main_v30 (F := Ideal) (m ((c : Thread nD τ).loc main_arg0)) (m ((c : Thread nD τ).loc main_arg3)) := by
  have h1 : W2 m ρ c (Proc.devRef .tc main_v30) = (dat0 (V1 m ρ) c).arrAt 2 cfg0.N := W2_arr m ρ c 2
  have h2 := Rg.proj0 (V1 m ρ) c
  have e0 : V1 m ρ c main_arg0 = (m ((c : Thread nD τ).loc main_arg0)) := host0 m ρ c main_arg0
  have e3 : V1 m ρ c main_arg3 = (m ((c : Thread nD τ).loc main_arg3)) := host0 m ρ c main_arg3
  rw [e0, e3] at h2
  exact h1.trans (h2.trans rfl)

theorem x1_3 (Rg : Regions) : W3 m ρ c (Proc.devRef .tc main_v45) = val_main_v45 (F := Ideal) (m ((c : Thread nD τ).loc main_arg0)) (m ((c : Thread nD τ).loc main_arg1)) (m ((c : Thread nD τ).loc main_arg3)) (m ((c : Thread nD τ).loc main_arg4)) := by
  show StableHlo.after hostOps1 (W2 m ρ c) (Proc.devRef .tc main_v45) = _
  after_results_simp
  rw [src2 m ρ c, dst2 m ρ c, norm2 m ρ c, p1 m ρ c Rg, arg4_2 m ρ c]
  rfl

theorem g0_3 : W3 m ρ c (Proc.devRef .tc main_v47) = val_main_v47 (F := Ideal) (m ((c : Thread nD τ).loc main_arg7)) := by
  show StableHlo.after hostOps1 (W2 m ρ c) (Proc.devRef .tc main_v47) = _
  after_results_simp
  rw [arg7_2 m ρ c]
  rfl

theorem b0_3 : W3 m ρ c (Proc.devRef .tc main_v49) = val_main_v49 (F := Ideal) (m ((c : Thread nD τ).loc main_arg8)) := by
  show StableHlo.after hostOps1 (W2 m ρ c) (Proc.devRef .tc main_v49) = _
  after_results_simp
  rw [arg8_2 m ρ c]
  rfl

theorem h1_4 (Rg : Regions) : W4 m ρ c (Proc.devRef .tc main_v50) = val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) := by
  have h1 : W4 m ρ c (Proc.devRef .tc main_v50) = (dat1 (V3 m ρ) c).arrAt 3 cfg1.N := W4_arr m ρ c 3
  have h2 := Rg.ln1 (V3 m ρ) c
  have e0 : V3 m ρ c main_v45 = val_main_v45 (F := Ideal) (m ((c : Thread nD τ).loc main_arg0)) (m ((c : Thread nD τ).loc main_arg1)) (m ((c : Thread nD τ).loc main_arg3)) (m ((c : Thread nD τ).loc main_arg4)) := x1_3 m ρ c Rg
  have e1 : V3 m ρ c main_v47 = val_main_v47 (F := Ideal) (m ((c : Thread nD τ).loc main_arg7)) := g0_3 m ρ c
  have e2 : V3 m ρ c main_v49 = val_main_v49 (F := Ideal) (m ((c : Thread nD τ).loc main_arg8)) := b0_3 m ρ c
  rw [e0, e1, e2] at h2
  exact h1.trans (h2.trans (Rg.ref1 _ _ _ _ _ _).symm)

/-- The first layer's pre-normalisation sum `x1` is read again by the second and third normalisations: it is an input
    array of region 1, which leaves it as it found it, and nothing else up to the fourth stretch touches it. -/
theorem x1_4 (Rg : Regions) : W4 m ρ c (Proc.devRef .tc main_v45) = val_main_v45 (F := Ideal) (m ((c : Thread nD τ).loc main_arg0)) (m ((c : Thread nD τ).loc main_arg1)) (m ((c : Thread nD τ).loc main_arg3)) (m ((c : Thread nD τ).loc main_arg4)) :=
  ((W4_arr m ρ c 0).trans (((dat1 (V3 m ρ) c).arrAt_in 0 rfl _).trans (A_eq1 (V3 m ρ) c 0))).trans (x1_3 m ρ c Rg)

theorem x1_7 (Rg : Regions) : W7 m ρ c (Proc.devRef .tc main_v45) = val_main_v45 (F := Ideal) (m ((c : Thread nD τ).loc main_arg0)) (m ((c : Thread nD τ).loc main_arg1)) (m ((c : Thread nD τ).loc main_arg3)) (m ((c : Thread nD τ).loc main_arg4)) :=
  (host3 m ρ c main_v45).trans ((cross2 m ρ c main_v45).trans (x1_4 m ρ c Rg))

/-! ## Layer 2: the weights' slice, the projection (region 2) -/

theorem w1_5 : W5 m ρ c (Proc.devRef .tc main_v52) = val_main_v76 (F := Ideal) (m ((c : Thread nD τ).loc main_arg5)) := by
  show StableHlo.after hostOps2 (W4 m ρ c) (Proc.devRef .tc main_v52) = _
  after_results_simp
  rw [arg5_4 m ρ c]
  rfl

theorem c1_5 : W5 m ρ c (Proc.devRef .tc main_v54) = val_main_v78 (F := Ideal) (m ((c : Thread nD τ).loc main_arg6)) := by
  show StableHlo.after hostOps2 (W4 m ρ c) (Proc.devRef .tc main_v54) = _
  after_results_simp
  rw [arg6_4 m ρ c]
  rfl

theorem c1_6 : W6 m ρ c (Proc.devRef .tc main_v54) = val_main_v78 (F := Ideal) (m ((c : Thread nD τ).loc main_arg6)) := (W6_of_ne m ρ c main_v54 (by decide)).trans (c1_5 m ρ c)

theorem p2 (Rg : Regions) : W6 m ρ c (Proc.devRef .tc main_v55) = val_main_v79 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg7)) (m ((c : Thread nD τ).loc main_arg8)) := by
  have h1 : W6 m ρ c (Proc.devRef .tc main_v55) = (dat2 (V5 m ρ) c).arrAt 2 cfg2.N := W6_arr m ρ c 2
  have h2 := Rg.proj2 (V5 m ρ) c
  have e0 : V5 m ρ c main_v50 = val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) := (host2 m ρ c main_v50).trans (h1_4 m ρ c Rg)
  have e1 : V5 m ρ c main_v52 = val_main_v76 (F := Ideal) (m ((c : Thread nD τ).loc main_arg5)) := w1_5 m ρ c
  rw [e0, e1] at h2
  exact h1.trans (h2.trans rfl)

end Cert.Bridge

end
-- ==== Proof.Chain2.lean ====
/-
  The kernel's buffers at the segment boundaries are the reference's stages: layers 2 and 3.

  The same three steps as in the first layer, twice: a stretch of host operations aggregates the projected rows along
  the edges and adds the bias (the reference's operations of equal operands); a region normalises the sum of that
  and the first layer's pre-normalisation sum `x1` (the reference adds the two on the host and runs its chain of host
  operations on the sum: one function `ln`); a stretch slices the next weights and a region projects.
-/
import proofs.«166496_j23596550324766_1_alg».proof.Proof.Chain1

set_option maxRecDepth 16384

noncomputable section

namespace Cert.Bridge

open Cert.KernelIdeal Cert.KernelIdeal.Gen
open Idealize.ShloMosaic Idealize.ShloMosaic.TcCoe Idealize.ShloMosaic.Tactic
open Idealize.SL Idealize.SL.Sem
open Cert.ReferenceIdeal.ReadP

variable (m : (ℓ : Loc nD τ sig) → Buf (Elt Ideal) ℓ) (ρ : Dev nD → PrngReg) (c : Dev nD)

/-! ## Layer 2: the aggregation (fourth stretch) and the normalisation of `x2 + x1` (region 3) -/

theorem x2_7 (Rg : Regions) : W7 m ρ c (Proc.devRef .tc main_v70) = val_main_v94 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W6 m ρ c) (Proc.devRef .tc main_v70) = _
  after_results_simp
  rw [src6 m ρ c, dst6 m ρ c, norm6 m ρ c, p2 m ρ c Rg, c1_6 m ρ c]
  rfl

theorem g1_7 : W7 m ρ c (Proc.devRef .tc main_v72) = val_main_v97 (F := Ideal) (m ((c : Thread nD τ).loc main_arg7)) := by
  show StableHlo.after hostOps3 (W6 m ρ c) (Proc.devRef .tc main_v72) = _
  after_results_simp
  rw [arg7_6 m ρ c]
  rfl

theorem b1_7 : W7 m ρ c (Proc.devRef .tc main_v74) = val_main_v99 (F := Ideal) (m ((c : Thread nD τ).loc main_arg8)) := by
  show StableHlo.after hostOps3 (W6 m ρ c) (Proc.devRef .tc main_v74) = _
  after_results_simp
  rw [arg8_6 m ρ c]
  rfl

theorem h2_8 (Rg : Regions) : W8 m ρ c (Proc.devRef .tc main_v75) = val_main_v124 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h1 : W8 m ρ c (Proc.devRef .tc main_v75) = (dat3 (V7 m ρ) c).arrAt 4 cfg3.N := W8_arr m ρ c 4
  have h2 := Rg.ln3 (V7 m ρ) c
  have e0 : V7 m ρ c main_v70 = val_main_v94 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := x2_7 m ρ c Rg
  have e1 : V7 m ρ c main_v45 = val_main_v45 (F := Ideal) (m ((c : Thread nD τ).loc main_arg0)) (m ((c : Thread nD τ).loc main_arg1)) (m ((c : Thread nD τ).loc main_arg3)) (m ((c : Thread nD τ).loc main_arg4)) := x1_7 m ρ c Rg
  have e2 : V7 m ρ c main_v72 = val_main_v97 (F := Ideal) (m ((c : Thread nD τ).loc main_arg7)) := g1_7 m ρ c
  have e3 : V7 m ρ c main_v74 = val_main_v99 (F := Ideal) (m ((c : Thread nD τ).loc main_arg8)) := b1_7 m ρ c
  rw [e0, e1, e2, e3] at h2
  exact h1.trans (h2.trans (Rg.ref3 _ _ _ _ _ _ _ _).symm)

/-- `x1` is an input array of region 3 too, which leaves it as it found it. -/
theorem x1_8 (Rg : Regions) : W8 m ρ c (Proc.devRef .tc main_v45) = val_main_v45 (F := Ideal) (m ((c : Thread nD τ).loc main_arg0)) (m ((c : Thread nD τ).loc main_arg1)) (m ((c : Thread nD τ).loc main_arg3)) (m ((c : Thread nD τ).loc main_arg4)) :=
  ((W8_arr m ρ c 1).trans (((dat3 (V7 m ρ) c).arrAt_in 1 rfl _).trans (A_eq3 (V7 m ρ) c 1))).trans (x1_7 m ρ c Rg)

theorem x1_11 (Rg : Regions) : W11 m ρ c (Proc.devRef .tc main_v45) = val_main_v45 (F := Ideal) (m ((c : Thread nD τ).loc main_arg0)) (m ((c : Thread nD τ).loc main_arg1)) (m ((c : Thread nD τ).loc main_arg3)) (m ((c : Thread nD τ).loc main_arg4)) :=
  (host5 m ρ c main_v45).trans ((cross4 m ρ c main_v45).trans (x1_8 m ρ c Rg))

/-! ## What the later stretches read, carried past regions 3 and 4 -/

theorem src10 : W10 m ρ c (Proc.devRef .tc main_v3) = val_main_v3 (F := Ideal) (m ((c : Thread nD τ).loc main_arg1)) := (cross4 m ρ c main_v3).trans ((cross3 m ρ c main_v3).trans (src6 m ρ c))
theorem dst10 : W10 m ρ c (Proc.devRef .tc main_v6) = val_main_v6 (F := Ideal) (m ((c : Thread nD τ).loc main_arg1)) := (cross4 m ρ c main_v6).trans ((cross3 m ρ c main_v6).trans (dst6 m ρ c))
theorem norm10 : W10 m ρ c (Proc.devRef .tc main_v29) = val_main_v29 (F := Ideal) (m ((c : Thread nD τ).loc main_arg1)) := (cross4 m ρ c main_v29).trans ((cross3 m ρ c main_v29).trans (norm6 m ρ c))
theorem arg5_8 : W8 m ρ c (Proc.devRef .tc main_arg5) = (m ((c : Thread nD τ).loc main_arg5)) := (cross3 m ρ c main_arg5).trans ((cross2 m ρ c main_arg5).trans (arg5_4 m ρ c))
theorem arg6_8 : W8 m ρ c (Proc.devRef .tc main_arg6) = (m ((c : Thread nD τ).loc main_arg6)) := (cross3 m ρ c main_arg6).trans ((cross2 m ρ c main_arg6).trans (arg6_4 m ρ c))
theorem arg7_10 : W10 m ρ c (Proc.devRef .tc main_arg7) = (m ((c : Thread nD τ).loc main_arg7)) := (cross4 m ρ c main_arg7).trans ((cross3 m ρ c main_arg7).trans (arg7_6 m ρ c))
theorem arg8_10 : W10 m ρ c (Proc.devRef .tc main_arg8) = (m ((c : Thread nD τ).loc main_arg8)) := (cross4 m ρ c main_arg8).trans ((cross3 m ρ c main_arg8).trans (arg8_6 m ρ c))

/-! ## Layer 3: the weights' slice (fifth stretch), the projection (region 4) -/

theorem w2_9 : W9 m ρ c (Proc.devRef .tc main_v77) = val_main_v126 (F := Ideal) (m ((c : Thread nD τ).loc main_arg5)) := by
  show StableHlo.after hostOps4 (W8 m ρ c) (Proc.devRef .tc main_v77) = _
  after_results_simp
  rw [arg5_8 m ρ c]
  rfl

theorem c2_9 : W9 m ρ c (Proc.devRef .tc main_v79) = val_main_v128 (F := Ideal) (m ((c : Thread nD τ).loc main_arg6)) := by
  show StableHlo.after hostOps4 (W8 m ρ c) (Proc.devRef .tc main_v79) = _
  after_results_simp
  rw [arg6_8 m ρ c]
  rfl

theorem c2_10 : W10 m ρ c (Proc.devRef .tc main_v79) = val_main_v128 (F := Ideal) (m ((c : Thread nD τ).loc main_arg6)) := (W10_of_ne m ρ c main_v79 (by decide)).trans (c2_9 m ρ c)

theorem p3 (Rg : Regions) : W10 m ρ c (Proc.devRef .tc main_v80) = val_main_v129 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h1 : W10 m ρ c (Proc.devRef .tc main_v80) = (dat4 (V9 m ρ) c).arrAt 2 cfg4.N := W10_arr m ρ c 2
  have h2 := Rg.proj4 (V9 m ρ) c
  have e0 : V9 m ρ c main_v75 = val_main_v124 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (host4 m ρ c main_v75).trans (h2_8 m ρ c Rg)
  have e1 : V9 m ρ c main_v77 = val_main_v126 (F := Ideal) (m ((c : Thread nD τ).loc main_arg5)) := w2_9 m ρ c
  rw [e0, e1] at h2
  exact h1.trans (h2.trans rfl)

/-! ## Layer 3: the aggregation (sixth stretch) and the normalisation of `x3 + x1` (region 5) -/

theorem x3_11 (Rg : Regions) : W11 m ρ c (Proc.devRef .tc main_v95) = val_main_v144 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps5 (W10 m ρ c) (Proc.devRef .tc main_v95) = _
  after_results_simp
  rw [src10 m ρ c, dst10 m ρ c, norm10 m ρ c, p3 m ρ c Rg, c2_10 m ρ c]
  rfl

theorem g2_11 : W11 m ρ c (Proc.devRef .tc main_v97) = val_main_v147 (F := Ideal) (m ((c : Thread nD τ).loc main_arg7)) := by
  show StableHlo.after hostOps5 (W10 m ρ c) (Proc.devRef .tc main_v97) = _
  after_results_simp
  rw [arg7_10 m ρ c]
  rfl

theorem b2_11 : W11 m ρ c (Proc.devRef .tc main_v99) = val_main_v149 (F := Ideal) (m ((c : Thread nD τ).loc main_arg8)) := by
  show StableHlo.after hostOps5 (W10 m ρ c) (Proc.devRef .tc main_v99) = _
  after_results_simp
  rw [arg8_10 m ρ c]
  rfl

theorem h3_12 (Rg : Regions) : W12 m ρ c (Proc.devRef .tc main_v100) = val_main_v174 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h1 : W12 m ρ c (Proc.devRef .tc main_v100) = (dat5 (V11 m ρ) c).arrAt 4 cfg5.N := W12_arr m ρ c 4
  have h2 := Rg.ln5 (V11 m ρ) c
  have e0 : V11 m ρ c main_v95 = val_main_v144 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := x3_11 m ρ c Rg
  have e1 : V11 m ρ c main_v45 = val_main_v45 (F := Ideal) (m ((c : Thread nD τ).loc main_arg0)) (m ((c : Thread nD τ).loc main_arg1)) (m ((c : Thread nD τ).loc main_arg3)) (m ((c : Thread nD τ).loc main_arg4)) := x1_11 m ρ c Rg
  have e2 : V11 m ρ c main_v97 = val_main_v147 (F := Ideal) (m ((c : Thread nD τ).loc main_arg7)) := g2_11 m ρ c
  have e3 : V11 m ρ c main_v99 = val_main_v149 (F := Ideal) (m ((c : Thread nD τ).loc main_arg8)) := b2_11 m ρ c
  rw [e0, e1, e2, e3] at h2
  exact h1.trans (h2.trans (Rg.ref5 _ _ _ _ _ _ _ _).symm)

end Cert.Bridge

end
-- ==== Proof.Chain3.lean ====
/-
  The kernel's buffers at the segment boundaries are the reference's stages: layer 4, and the first result.

  The fourth layer normalises the sum of its aggregation and the THIRD layer's output `h3` (an input array of region 6,
  which leaves it as it found it). Region 7's output array is the node embeddings, the first result; nothing after
  region 7 writes it.
-/
import proofs.«166496_j23596550324766_1_alg».proof.Proof.Chain2

set_option maxRecDepth 16384

noncomputable section

namespace Cert.Bridge

open Cert.KernelIdeal Cert.KernelIdeal.Gen
open Idealize.ShloMosaic Idealize.ShloMosaic.TcCoe Idealize.ShloMosaic.Tactic
open Idealize.SL Idealize.SL.Sem
open Cert.ReferenceIdeal.ReadP

variable (m : (ℓ : Loc nD τ sig) → Buf (Elt Ideal) ℓ) (ρ : Dev nD → PrngReg) (c : Dev nD)

/-! ## What the last stretches read, carried past regions 5 and 6 -/

theorem src14 : W14 m ρ c (Proc.devRef .tc main_v3) = val_main_v3 (F := Ideal) (m ((c : Thread nD τ).loc main_arg1)) := (cross6 m ρ c main_v3).trans ((cross5 m ρ c main_v3).trans (src10 m ρ c))
theorem dst14 : W14 m ρ c (Proc.devRef .tc main_v6) = val_main_v6 (F := Ideal) (m ((c : Thread nD τ).loc main_arg1)) := (cross6 m ρ c main_v6).trans ((cross5 m ρ c main_v6).trans (dst10 m ρ c))
theorem norm14 : W14 m ρ c (Proc.devRef .tc main_v29) = val_main_v29 (F := Ideal) (m ((c : Thread nD τ).loc main_arg1)) := (cross6 m ρ c main_v29).trans ((cross5 m ρ c main_v29).trans (norm10 m ρ c))
theorem arg5_12 : W12 m ρ c (Proc.devRef .tc main_arg5) = (m ((c : Thread nD τ).loc main_arg5)) := (cross5 m ρ c main_arg5).trans ((cross4 m ρ c main_arg5).trans (arg5_8 m ρ c))
theorem arg6_12 : W12 m ρ c (Proc.devRef .tc main_arg6) = (m ((c : Thread nD τ).loc main_arg6)) := (cross5 m ρ c main_arg6).trans ((cross4 m ρ c main_arg6).trans (arg6_8 m ρ c))
theorem arg7_14 : W14 m ρ c (Proc.devRef .tc main_arg7) = (m ((c : Thread nD τ).loc main_arg7)) := (cross6 m ρ c main_arg7).trans ((cross5 m ρ c main_arg7).trans (arg7_10 m ρ c))
theorem arg8_14 : W14 m ρ c (Proc.devRef .tc main_arg8) = (m ((c : Thread nD τ).loc main_arg8)) := (cross6 m ρ c main_arg8).trans ((cross5 m ρ c main_arg8).trans (arg8_10 m ρ c))

/-! ## Layer 4: the weights' slice (seventh stretch), the projection (region 6) -/

theorem w3_13 : W13 m ρ c (Proc.devRef .tc main_v102) = val_main_v176 (F := Ideal) (m ((c : Thread nD τ).loc main_arg5)) := by
  show StableHlo.after hostOps6 (W12 m ρ c) (Proc.devRef .tc main_v102) = _
  after_results_simp
  rw [arg5_12 m ρ c]
  rfl

theorem c3_13 : W13 m ρ c (Proc.devRef .tc main_v104) = val_main_v178 (F := Ideal) (m ((c : Thread nD τ).loc main_arg6)) := by
  show StableHlo.after hostOps6 (W12 m ρ c) (Proc.devRef .tc main_v104) = _
  after_results_simp
  rw [arg6_12 m ρ c]
  rfl

theorem c3_14 : W14 m ρ c (Proc.devRef .tc main_v104) = val_main_v178 (F := Ideal) (m ((c : Thread nD τ).loc main_arg6)) := (W14_of_ne m ρ c main_v104 (by decide)).trans (c3_13 m ρ c)

theorem h3_13 (Rg : Regions) : W13 m ρ c (Proc.devRef .tc main_v100) = val_main_v174 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (host6 m ρ c main_v100).trans (h3_12 m ρ c Rg)

theorem p4 (Rg : Regions) : W14 m ρ c (Proc.devRef .tc main_v105) = val_main_v179 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h1 : W14 m ρ c (Proc.devRef .tc main_v105) = (dat6 (V13 m ρ) c).arrAt 2 cfg6.N := W14_arr m ρ c 2
  have h2 := Rg.proj6 (V13 m ρ) c
  have e0 : V13 m ρ c main_v100 = val_main_v174 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := h3_13 m ρ c Rg
  have e1 : V13 m ρ c main_v102 = val_main_v176 (F := Ideal) (m ((c : Thread nD τ).loc main_arg5)) := w3_13 m ρ c
  rw [e0, e1] at h2
  exact h1.trans (h2.trans rfl)

/-- `h3` is an input array of region 6, which leaves it as it found it; the eighth stretch does not write it. -/
theorem h3_15 (Rg : Regions) : W15 m ρ c (Proc.devRef .tc main_v100) = val_main_v174 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (host7 m ρ c main_v100).trans (((W14_arr m ρ c 0).trans (((dat6 (V13 m ρ) c).arrAt_in 0 rfl _).trans (A_eq6 (V13 m ρ) c 0))).trans (h3_13 m ρ c Rg))

/-! ## Layer 4: the aggregation (eighth stretch) and the normalisation of `x4 + h3` (region 7) -/

theorem x4_15 (Rg : Regions) : W15 m ρ c (Proc.devRef .tc main_v120) = val_main_v194 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps7 (W14 m ρ c) (Proc.devRef .tc main_v120) = _
  after_results_simp
  rw [src14 m ρ c, dst14 m ρ c, norm14 m ρ c, p4 m ρ c Rg, c3_14 m ρ c]
  rfl

theorem g3_15 : W15 m ρ c (Proc.devRef .tc main_v122) = val_main_v197 (F := Ideal) (m ((c : Thread nD τ).loc main_arg7)) := by
  show StableHlo.after hostOps7 (W14 m ρ c) (Proc.devRef .tc main_v122) = _
  after_results_simp
  rw [arg7_14 m ρ c]
  rfl

theorem b3_15 : W15 m ρ c (Proc.devRef .tc main_v124) = val_main_v199 (F := Ideal) (m ((c : Thread nD τ).loc main_arg8)) := by
  show StableHlo.after hostOps7 (W14 m ρ c) (Proc.devRef .tc main_v124) = _
  after_results_simp
  rw [arg8_14 m ρ c]
  rfl

/-- The node embeddings: region 7's output array. -/
theorem emb_16 (Rg : Regions) : W16 m ρ c (Proc.devRef .tc main_v125) = val_main_v224 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h1 : W16 m ρ c (Proc.devRef .tc main_v125) = (dat7 (V15 m ρ) c).arrAt 4 cfg7.N := W16_arr m ρ c 4
  have h2 := Rg.ln7 (V15 m ρ) c
  have e0 : V15 m ρ c main_v120 = val_main_v194 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := x4_15 m ρ c Rg
  have e1 : V15 m ρ c main_v100 = val_main_v174 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := h3_15 m ρ c Rg
  have e2 : V15 m ρ c main_v122 = val_main_v197 (F := Ideal) (m ((c : Thread nD τ).loc main_arg7)) := g3_15 m ρ c
  have e3 : V15 m ρ c main_v124 = val_main_v199 (F := Ideal) (m ((c : Thread nD τ).loc main_arg8)) := b3_15 m ρ c
  rw [e0, e1, e2, e3] at h2
  exact h1.trans (h2.trans (Rg.ref7 _ _ _ _ _ _ _ _).symm)

/-- THE FIRST RESULT at the last boundary: neither the last stretch nor the last region touches the node embeddings. -/
theorem result0 (Rg : Regions) : W18 m ρ c (Proc.devRef .tc main_v125) = val_main_v224 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (cross8 m ρ c main_v125).trans (emb_16 m ρ c Rg)

end Cert.Bridge

end
-- ==== Proof.Chain4.lean ====
/-
  The kernel's buffers at the segment boundaries are the reference's stages: the pooled embedding and the value head.

  The last stretch of host operations pools the node embeddings per graph (the reference's operations of equal operands:
  the second result) and narrows the head's weights to the product's input format, which changes nothing over the
  extended reals. The last region is the six-layer head; what it computes of its input arrays is one function `head`,
  which is also what the reference's last fifty-odd host operations compute of the pooled embedding: the third result.
-/
import proofs.«166496_j23596550324766_1_alg».proof.Proof.Chain3

set_option maxRecDepth 16384

noncomputable section

namespace Cert.Bridge

open Cert.KernelIdeal Cert.KernelIdeal.Gen
open Idealize.ShloMosaic Idealize.ShloMosaic.TcCoe Idealize.ShloMosaic.Tactic
open Idealize.SL Idealize.SL.Sem
open Cert.ReferenceIdeal.ReadP

variable (m : (ℓ : Loc nD τ sig) → Buf (Elt Ideal) ℓ) (ρ : Dev nD → PrngReg) (c : Dev nD)

/-- What the last region leaves in its output array, and that the reference's last stage is the same function of its
    pooled embedding and its last four arguments. -/
structure Head where
  head : FVec Ideal Cert.ReferenceIdeal.S8x1024 .f32 → FVec Ideal Cert.ReferenceIdeal.S6x1024x1024 .f32 → FVec Ideal Cert.ReferenceIdeal.S6x1024 .f32 → FVec Ideal Cert.ReferenceIdeal.S1024x1 .f32 → FVec Ideal Cert.ReferenceIdeal.S1 .f32 → FVec Ideal Cert.ReferenceIdeal.S8 .f32
  mlp8 : ∀ (V : Entry) (c : Dev nD), (dat8 V c).arrAt 5 cfg8.N = head (V c main_v137) (V c main_v138) (V c main_arg10) (V c main_v139) (V c main_arg12)
  refhead : ∀ x0 x1 x2 x3 x4 x5 x6 x7 x8 x9 x10 x11 x12, val_main_v295 (F := Ideal) x0 x1 x2 x3 x4 x5 x6 x7 x8 x9 x10 x11 x12 = head (val_main_v236 (F := Ideal) x0 x1 x2 x3 x4 x5 x6 x7 x8) x9 x10 x11 x12

/-! ## The arguments the last stretch and the last region read -/

theorem arg2_16 : W16 m ρ c (Proc.devRef .tc main_arg2) = (m ((c : Thread nD τ).loc main_arg2)) := (cross7 m ρ c main_arg2).trans ((cross6 m ρ c main_arg2).trans ((cross5 m ρ c main_arg2).trans ((cross4 m ρ c main_arg2).trans ((cross3 m ρ c main_arg2).trans ((cross2 m ρ c main_arg2).trans ((cross1 m ρ c main_arg2).trans (cross0 m ρ c main_arg2)))))))
theorem arg9_16 : W16 m ρ c (Proc.devRef .tc main_arg9) = (m ((c : Thread nD τ).loc main_arg9)) := (cross7 m ρ c main_arg9).trans ((cross6 m ρ c main_arg9).trans ((cross5 m ρ c main_arg9).trans ((cross4 m ρ c main_arg9).trans ((cross3 m ρ c main_arg9).trans ((cross2 m ρ c main_arg9).trans ((cross1 m ρ c main_arg9).trans (cross0 m ρ c main_arg9)))))))
theorem arg11_16 : W16 m ρ c (Proc.devRef .tc main_arg11) = (m ((c : Thread nD τ).loc main_arg11)) := (cross7 m ρ c main_arg11).trans ((cross6 m ρ c main_arg11).trans ((cross5 m ρ c main_arg11).trans ((cross4 m ρ c main_arg11).trans ((cross3 m ρ c main_arg11).trans ((cross2 m ρ c main_arg11).trans ((cross1 m ρ c main_arg11).trans (cross0 m ρ c main_arg11)))))))
theorem arg10_17 : W17 m ρ c (Proc.devRef .tc main_arg10) = (m ((c : Thread nD τ).loc main_arg10)) := (host8 m ρ c main_arg10).trans ((cross7 m ρ c main_arg10).trans ((cross6 m ρ c main_arg10).trans ((cross5 m ρ c main_arg10).trans ((cross4 m ρ c main_arg10).trans ((cross3 m ρ c main_arg10).trans ((cross2 m ρ c main_arg10).trans ((cross1 m ρ c main_arg10).trans (cross0 m ρ c main_arg10))))))))
theorem arg12_17 : W17 m ρ c (Proc.devRef .tc main_arg12) = (m ((c : Thread nD τ).loc main_arg12)) := (host8 m ρ c main_arg12).trans ((cross7 m ρ c main_arg12).trans ((cross6 m ρ c main_arg12).trans ((cross5 m ρ c main_arg12).trans ((cross4 m ρ c main_arg12).trans ((cross3 m ρ c main_arg12).trans ((cross2 m ρ c main_arg12).trans ((cross1 m ρ c main_arg12).trans (cross0 m ρ c main_arg12))))))))

/-! ## The pooled embedding (the last stretch) -/

theorem pool_17 (Rg : Regions) : W17 m ρ c (Proc.devRef .tc main_v137) = val_main_v236 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps8 (W16 m ρ c) (Proc.devRef .tc main_v137) = _
  after_results_simp
  rw [emb_16 m ρ c Rg, arg2_16 m ρ c]
  rfl

/-- The head's weights, narrowed to the product's input format: over the extended reals the same arrays. -/
theorem wts_17 : W17 m ρ c (Proc.devRef .tc main_v138) = (m ((c : Thread nD τ).loc main_arg9)) := by
  show StableHlo.after hostOps8 (W16 m ρ c) (Proc.devRef .tc main_v138) = _
  after_results_simp
  rw [arg9_16 m ρ c]
  rfl

theorem wout_17 : W17 m ρ c (Proc.devRef .tc main_v139) = (m ((c : Thread nD τ).loc main_arg11)) := by
  show StableHlo.after hostOps8 (W16 m ρ c) (Proc.devRef .tc main_v139) = _
  after_results_simp
  rw [arg11_16 m ρ c]
  rfl

/-- THE SECOND RESULT at the last boundary: the pooled embedding is an input array of the last region, which leaves it as
    it found it. -/
theorem result1 (Rg : Regions) : W18 m ρ c (Proc.devRef .tc main_v137) = val_main_v236 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((W18_arr m ρ c 0).trans (((dat8 (V17 m ρ) c).arrAt_in 0 rfl _).trans (A_eq8 (V17 m ρ) c 0))).trans (pool_17 m ρ c Rg)

/-- THE THIRD RESULT at the last boundary: the last region's output array. -/
theorem result2 (Rg : Regions) (Hd : Head) : W18 m ρ c (Proc.devRef .tc main_v140) = val_main_v295 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have h1 : W18 m ρ c (Proc.devRef .tc main_v140) = (dat8 (V17 m ρ) c).arrAt 5 cfg8.N := W18_arr m ρ c 5
  have h2 := Hd.mlp8 (V17 m ρ) c
  have e0 : V17 m ρ c main_v137 = val_main_v236 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := pool_17 m ρ c Rg
  have e1 : V17 m ρ c main_v138 = (m ((c : Thread nD τ).loc main_arg9)) := wts_17 m ρ c
  have e2 : V17 m ρ c main_arg10 = (m ((c : Thread nD τ).loc main_arg10)) := arg10_17 m ρ c
  have e3 : V17 m ρ c main_v139 = (m ((c : Thread nD τ).loc main_arg11)) := wout_17 m ρ c
  have e4 : V17 m ρ c main_arg12 = (m ((c : Thread nD τ).loc main_arg12)) := arg12_17 m ρ c
  rw [e0, e1, e2, e3, e4] at h2
  exact h1.trans (h2.trans (Hd.refhead _ _ _ _ _ _ _ _ _ _ _ _ _).symm)

end Cert.Bridge

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.LibHostDot.lean ====
/-
  A plain rows-by-columns matrix product computed by the host, read at coordinates, over the extended reals.

  The left operand is contracted on its columns and the right on its rows, with no batch axis. At (p, q) the product
  is the sum over the shared axis of the products of row p of the left operand and column q of the right: nothing
  is rounded and no order of summation is left in it.
-/
import proofs.«166496_j23596550324766_1_alg».proof.Proof.LibPlainMatmul

noncomputable section

namespace Cert.LibHostDot

open Idealize.ShloMosaic Idealize.ShloMosaic.ValueIdx Cert.LibPlainMatmul
open scoped BigOperators

/-- A plain m × k by k × n host product reads, at (p, q), the sum over the shared axis of the products of row p of the
    left operand and column q of the right. -/
theorem dotGeneral_plain {m k n : Nat}
    (wf : DotDims.WF (⟨2, ![m, k]⟩ : Shape) ⟨2, ![k, n]⟩ ⟨2, ![m, n]⟩ [1] [0] [0] [1] [] [])
    {φ₁ φ₂ : FTy} (sched : HostSchedule) (l : FVec Ideal ⟨2, ![m, k]⟩ φ₁) (r : FVec Ideal ⟨2, ![k, n]⟩ φ₂)
    (p : Fin m) (q : Fin n) :
    FloatOps.dotGeneral (plainDims wf) none sched l r (ix2 p q) = ∑ c : Fin k, l (ix2 p c) * r (ix2 c q) := by
  rw [Ideal.dotGeneral_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end Cert.LibHostDot

end
-- ==== Proof.MatmulRead.lean ====
/-
  The four row-tiled projection regions each hold one block product: a block of 1000 rows of the left operand times the
  whole right operand, both narrowed to a shorter format first, accumulated into a zero block. Over the extended reals
  a format change is the identity and nothing is rounded, so the block product read at (p, q) is the sum over the shared
  axis of the products of row p of the left block and column q of the right operand.
-/
import proofs.«166496_j23596550324766_1_alg».proof.Proof.Gen.KernelIdeal.Skeleton
import proofs.«166496_j23596550324766_1_alg».proof.Proof.LibPlainMatmul
import proofs.«166496_j23596550324766_1_alg».proof.Proof.LibHostDot

noncomputable section

namespace Cert.Bridge.MM

open Cert.KernelIdeal Cert.KernelIdeal.Gen
open Idealize.ShloMosaic Idealize.ShloMosaic.ValueIdx Cert.LibPlainMatmul Cert.LibHostDot
open scoped BigOperators

/-- The offsets of a whole-buffer access, however the zeros are spelt. -/
theorem offsets_zero : (![0, 0] : Fin 2 → Nat) = fun _ => 0 := funext fun a => by fin_cases a <;> rfl

/-- The first projection's block product, a [1000, 128] block times the [128, 1024] weight, at (p, q). -/
theorem pay0_apply (x0 : Vec Ideal S1000x128 .f32) (x1 : Vec Ideal S128x1024 .f32) (p : Fin 1000) (q : Fin 1024) :
    k0_pay1 (F := Ideal) x0 x1 (ix2 p q) = ∑ c : Fin 128, x0 (ix2 p c) * x1 (ix2 c q) := by
  unfold k0_pay1
  refine (matmul_zero_plain _ _ _ p q).trans ?_
  rfl

/-- A [1000, 1024] block times a [1024, 1024] weight, each first recast to its own shape and narrowed, at (p, q). -/
theorem square_block_product_apply (x0 : Vec Ideal S1000x1024 .f32) (x1 : Vec Ideal S1024x1024 .f32)
    (p : Fin 1000) (q : Fin 1024) :
    matmul (F := Ideal) dot_S1000x1024_S1024x1024_S1000x1024_1_0_0_1_n_n none
        (truncf .bf16 (shapeCast S1000x1024 x0 shapeCasts_S1000x1024_S1000x1024) bitsLt_bf16_f32)
        (truncf .bf16 (shapeCast S1024x1024 x1 shapeCasts_S1024x1024_S1024x1024) bitsLt_bf16_f32)
        (constant S1000x1024 .f32 0x00000000#32) (ix2 p q)
      = ∑ c : Fin 1024, x0 (ix2 p c) * x1 (ix2 c q) := by
  refine (matmul_zero_plain _ _ _ p q).trans ?_
  refine Finset.sum_congr rfl fun c _ => ?_
  show shapeCast S1000x1024 x0 shapeCasts_S1000x1024_S1000x1024 (ix2 p c)
      * shapeCast S1024x1024 x1 shapeCasts_S1024x1024_S1024x1024 (ix2 c q) = _
  rw [shapeCast_self, shapeCast_self]

/-- The second projection's block product at (p, q). -/
theorem pay2_apply (x0 : Vec Ideal S1000x1024 .f32) (x1 : Vec Ideal S1024x1024 .f32) (p : Fin 1000) (q : Fin 1024) :
    k2_pay1 (F := Ideal) x0 x1 (ix2 p q) = ∑ c : Fin 1024, x0 (ix2 p c) * x1 (ix2 c q) := by
  unfold k2_pay1
  exact square_block_product_apply x0 x1 p q

/-- The third projection's block product at (p, q). -/
theorem pay4_apply (x0 : Vec Ideal S1000x1024 .f32) (x1 : Vec Ideal S1024x1024 .f32) (p : Fin 1000) (q : Fin 1024) :
    k4_pay1 (F := Ideal) x0 x1 (ix2 p q) = ∑ c : Fin 1024, x0 (ix2 p c) * x1 (ix2 c q) := by
  unfold k4_pay1
  exact square_block_product_apply x0 x1 p q

/-- The fourth projection's block product at (p, q). -/
theorem pay6_apply (x0 : Vec Ideal S1000x1024 .f32) (x1 : Vec Ideal S1024x1024 .f32) (p : Fin 1000) (q : Fin 1024) :
    k6_pay1 (F := Ideal) x0 x1 (ix2 p q) = ∑ c : Fin 1024, x0 (ix2 p c) * x1 (ix2 c q) := by
  unfold k6_pay1
  exact square_block_product_apply x0 x1 p q

/-- A rows-by-columns host product of a [10000, k] array and a [k, 1024] array is, at (r, q), any sum over the
    shared axis whose factors are row r of the left array and column q of the right one. -/
theorem hostProduct_eq_of_factors {k : Nat}
    (wf : DotDims.WF (⟨2, ![10000, k]⟩ : Shape) ⟨2, ![k, 1024]⟩ ⟨2, ![10000, 1024]⟩ [1] [0] [0] [1] [] [])
    (A : FVec Ideal ⟨2, ![10000, k]⟩ .f32) (B : FVec Ideal ⟨2, ![k, 1024]⟩ .f32) (r : Fin 10000) (q : Fin 1024)
    (a b : Fin k → EReal) (ha : ∀ c, a c = A (ix2 r c)) (hb : ∀ c, b c = B (ix2 c q)) :
    ∑ c : Fin k, a c * b c = FloatOps.dotGeneral (plainDims wf) none .single A B (ix2 r q) := by
  rw [dotGeneral_plain]
  exact Finset.sum_congr rfl fun c _ => by rw [ha c, hb c]

end Cert.Bridge.MM

end
-- ==== Proof.Proj0.lean ====
/-
  The first projection region, as one array. Its grid has ten points; point t stages rows 1000 t … 1000 t + 999 of the
  left operand and the whole right operand, and writes back the block product as rows 1000 t … 1000 t + 999 of the
  result. Row r of the result is therefore written by point r / 1000, from row r of the left operand, and the whole
  result is the rows-by-columns product of the two arrays: at (r, q) the sum over the shared axis of the products of
  row r of the left operand and column q of the right one, which is what the host's product reads there.
-/
import proofs.«166496_j23596550324766_1_alg».proof.Proof.Gen.KernelIdeal.Frame
import proofs.«166496_j23596550324766_1_alg».proof.Proof.Gen.ReferenceIdeal
import proofs.«166496_j23596550324766_1_alg».proof.Proof.MatmulRead
import Idealize.ShloMosaic.Lib.Pipeline.Value

noncomputable section

namespace Cert.Bridge.MM

open Cert.KernelIdeal Cert.KernelIdeal.Gen
open Idealize.ShloMosaic Idealize.ShloMosaic.TcCoe Idealize.SL.Sem
open Idealize.ShloMosaic.ValueIdx Cert.LibPlainMatmul
open Idealize.ShloMosaic.Pipeline (Dat)
open scoped BigOperators

variable (V : (c : Dev nD) → (b : Ref sig .tc) → Buf (Elt Ideal) ((c : Thread nD τ).loc b))

/-- The index maps over the grid: at point t the left operand's and the result's blocks are block t along the rows,
    and every other block index is zero. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the host product of the two operand arrays. -/
theorem flushed0_eq (c : Dev nD) (t : Fin cfg0.N) :
    (dat0 V c).flushed 2 t = ((cfg0.win 2).blk t).view.read (Elt Ideal)
      (Host.dotGeneral (F := Ideal) (φ₁ := .f32) (φ₂ := .f32) Cert.ReferenceIdeal.dot_S10000x128_S128x1024_S10000x1024_1_0_0_1_n_n none
        (V c main_arg0) (V c main_arg3)) := by
  show (cfg0.win 2).cut (grid0.coords t) ((dat0 V c).after 2 t) = _
  rw [after0_2]
  unfold out0_2
  rw [View.canon_unit_zero offsets_zero]
  simp only [View.ld_unit_zero (S := S1000x128) offsets_zero, View.ld_unit_zero (S := S128x1024) offsets_zero]
  obtain ⟨e00, e01, e10, e11, e20, e21⟩ := index_facts0 t
  have hN : grid0.N = 10 := N_0
  have ht : t.val < grid0.N := t.isLt
  funext j
  obtain ⟨p, q, rfl⟩ : ∃ (p : Fin 1000) (q : Fin 1024), j = ix2 p q := ⟨j 0, j 1, eq_ix2 j⟩
  show k0_pay1 (iblk0 V c 0 t) (iblk0 V c 1 t) (ix2 p q)
    = Host.dotGeneral (F := Ideal) (φ₁ := .f32) (φ₂ := .f32) Cert.ReferenceIdeal.dot_S10000x128_S128x1024_S10000x1024_1_0_0_1_n_n none
        (V c main_arg0) (V c main_arg3) (((cfg0.win 2).blk t).view.emb (ix2 p q))
  refine (pay0_apply _ _ p q).trans ?_
  have hp : p.val < 1000 := p.isLt
  have h2 : ((cfg0.win 2).blk t).view.emb (ix2 p q) = ix2 (⟨t.val * 1000 + p.val, by omega⟩ : Fin 10000) q := by
    funext a; apply Fin.ext
    match a with
    | ⟨0, _⟩ => show win0_2.index t (0 : Fin 2) * 1000 + 1 * p.val = t.val * 1000 + p.val; omega
    | ⟨1, _⟩ => show win0_2.index t (1 : Fin 2) * 1024 + 1 * q.val = q.val; omega
  rw [h2]
  refine hostProduct_eq_of_factors _ _ _ (⟨t.val * 1000 + p.val, by omega⟩ : Fin 10000) q
    (fun s => iblk0 V c 0 t (ix2 p s)) (fun s => iblk0 V c 1 t (ix2 s q)) (fun s => ?_) (fun s => ?_)
  · show V c main_arg0 (((cfg0.win 0).blk t).view.emb (ix2 p s)) = V c main_arg0 (ix2 (⟨t.val * 1000 + p.val, by omega⟩ : Fin 10000) s)
    refine congrArg _ ?_
    funext a; apply Fin.ext
    match a with
    | ⟨0, _⟩ => show win0_0.index t (0 : Fin 2) * 1000 + 1 * p.val = t.val * 1000 + p.val; omega
    | ⟨1, _⟩ => show win0_0.index t (1 : Fin 2) * 128 + 1 * s.val = s.val; omega
  · show V c main_arg3 (((cfg0.win 1).blk t).view.emb (ix2 s q)) = V c main_arg3 (ix2 s q)
    refine congrArg _ ?_
    funext a; apply Fin.ext
    match a with
    | ⟨0, _⟩ => show win0_1.index t (0 : Fin 2) * 128 + 1 * s.val = s.val; omega
    | ⟨1, _⟩ => show win0_1.index t (1 : Fin 2) * 1024 + 1 * q.val = q.val; omega

/-- An index of the result array is in point t's block iff each coordinate is in the block's range on its axis. -/
theorem mem_block0 (t : Fin cfg0.N) (i : S10000x1024.Idx) :
    i ∈ ((cfg0.win 2).blk t).view.set ↔ ∀ a : Fin 2, win0_2.index t a * S1000x1024.size a ≤ (i a).val
      ∧ (i a).val < win0_2.index t a * S1000x1024.size a + S1000x1024.size a := by
  show i ∈ ((View.whole main_v30).slice (win0_2.rect t)).set ↔ _
  rw [View.set_slice_whole, Rect.mem_set_unit]
  exact Iff.rfl

/-- Every index of the result array is in the block of the point its row falls to, r / 1000. -/
theorem cover0 (i : S10000x1024.Idx) :
    ∃ t : Fin cfg0.N, (cfg0.win 2).flush t = true ∧ i ∈ ((cfg0.win 2).blk t).view.set := by
  have hi0 : (i 0).val < 10000 := (i 0).isLt
  have hi1 : (i 1).val < 1024 := (i 1).isLt
  have hN : grid0.N = 10 := N_0
  have hlt : (i 0).val / 1000 < grid0.N := by omega
  obtain ⟨-, -, -, -, e20, e21⟩ := index_facts0 ⟨(i 0).val / 1000, hlt⟩
  refine ⟨⟨(i 0).val / 1000, hlt⟩, flush0_2 _, ?_⟩
  rw [mem_block0]
  intro a
  match a with
  | ⟨0, _⟩ =>
    show win0_2.index ⟨(i 0).val / 1000, hlt⟩ (0 : Fin 2) * 1000 ≤ (i 0).val
      ∧ (i 0).val < win0_2.index ⟨(i 0).val / 1000, hlt⟩ (0 : Fin 2) * 1000 + 1000
    have e : win0_2.index ⟨(i 0).val / 1000, hlt⟩ (0 : Fin 2) = (i 0).val / 1000 := e20
    omega
  | ⟨1, _⟩ =>
    show win0_2.index ⟨(i 0).val / 1000, hlt⟩ (1 : Fin 2) * 1024 ≤ (i 1).val
      ∧ (i 1).val < win0_2.index ⟨(i 0).val / 1000, hlt⟩ (1 : Fin 2) * 1024 + 1024
    omega

/-- The first projection region leaves, in its result array, the host product of its two operand arrays. -/
theorem proj0 (c : Dev nD) :
    (dat0 V c).arrAt 2 cfg0.N
      = Host.dotGeneral (F := Ideal) (φ₁ := .f32) (φ₂ := .f32) Cert.ReferenceIdeal.dot_S10000x128_S128x1024_S10000x1024_1_0_0_1_n_n none
          (V c main_arg0) (V c main_arg3) :=
  (dat0 V c).arrAt_eq_of_cover 2 _ (fun t _ => flushed0_eq V c t) cover0

end Cert.Bridge.MM

end
-- ==== Proof.Proj2.lean ====
/-
  The second projection region, as one array. Its grid has ten points; point t stages rows 1000 t … 1000 t + 999 of the
  left operand and the whole right operand, and writes back the block product as rows 1000 t … 1000 t + 999 of the
  result. Row r of the result is therefore written by point r / 1000, from row r of the left operand, and the whole
  result is the rows-by-columns product of the two arrays: at (r, q) the sum over the shared axis of the products of
  row r of the left operand and column q of the right one, which is what the host's product reads there.
-/
import proofs.«166496_j23596550324766_1_alg».proof.Proof.Gen.KernelIdeal.Frame
import proofs.«166496_j23596550324766_1_alg».proof.Proof.Gen.ReferenceIdeal
import proofs.«166496_j23596550324766_1_alg».proof.Proof.MatmulRead
import Idealize.ShloMosaic.Lib.Pipeline.Value

noncomputable section

namespace Cert.Bridge.MM

open Cert.KernelIdeal Cert.KernelIdeal.Gen
open Idealize.ShloMosaic Idealize.ShloMosaic.TcCoe Idealize.SL.Sem
open Idealize.ShloMosaic.ValueIdx Cert.LibPlainMatmul
open Idealize.ShloMosaic.Pipeline (Dat)
open scoped BigOperators

variable (V : (c : Dev nD) → (b : Ref sig .tc) → Buf (Elt Ideal) ((c : Thread nD τ).loc b))

/-- The index maps over the grid: at point t the left operand's and the result's blocks are block t along the rows,
    and every other block index is zero. -/
theorem index_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the host product of the two operand arrays. -/
theorem flushed2_eq (c : Dev nD) (t : Fin cfg2.N) :
    (dat2 V c).flushed 2 t = ((cfg2.win 2).blk t).view.read (Elt Ideal)
      (Host.dotGeneral (F := Ideal) (φ₁ := .f32) (φ₂ := .f32) Cert.ReferenceIdeal.dot_S10000x1024_S1024x1024_S10000x1024_1_0_0_1_n_n none
        (V c main_v50) (V c main_v52)) := by
  show (cfg2.win 2).cut (grid2.coords t) ((dat2 V c).after 2 t) = _
  rw [after2_2]
  unfold out2_2
  rw [View.canon_unit_zero offsets_zero]
  simp only [View.ld_unit_zero (S := S1000x1024) offsets_zero, View.ld_unit_zero (S := S1024x1024) offsets_zero]
  obtain ⟨e00, e01, e10, e11, e20, e21⟩ := index_facts2 t
  have hN : grid2.N = 10 := N_2
  have ht : t.val < grid2.N := t.isLt
  funext j
  obtain ⟨p, q, rfl⟩ : ∃ (p : Fin 1000) (q : Fin 1024), j = ix2 p q := ⟨j 0, j 1, eq_ix2 j⟩
  show k2_pay1 (iblk2 V c 0 t) (iblk2 V c 1 t) (ix2 p q)
    = Host.dotGeneral (F := Ideal) (φ₁ := .f32) (φ₂ := .f32) Cert.ReferenceIdeal.dot_S10000x1024_S1024x1024_S10000x1024_1_0_0_1_n_n none
        (V c main_v50) (V c main_v52) (((cfg2.win 2).blk t).view.emb (ix2 p q))
  refine (pay2_apply _ _ p q).trans ?_
  have hp : p.val < 1000 := p.isLt
  have h2 : ((cfg2.win 2).blk t).view.emb (ix2 p q) = ix2 (⟨t.val * 1000 + p.val, by omega⟩ : Fin 10000) q := by
    funext a; apply Fin.ext
    match a with
    | ⟨0, _⟩ => show win2_2.index t (0 : Fin 2) * 1000 + 1 * p.val = t.val * 1000 + p.val; omega
    | ⟨1, _⟩ => show win2_2.index t (1 : Fin 2) * 1024 + 1 * q.val = q.val; omega
  rw [h2]
  refine hostProduct_eq_of_factors _ _ _ (⟨t.val * 1000 + p.val, by omega⟩ : Fin 10000) q
    (fun s => iblk2 V c 0 t (ix2 p s)) (fun s => iblk2 V c 1 t (ix2 s q)) (fun s => ?_) (fun s => ?_)
  · show V c main_v50 (((cfg2.win 0).blk t).view.emb (ix2 p s)) = V c main_v50 (ix2 (⟨t.val * 1000 + p.val, by omega⟩ : Fin 10000) s)
    refine congrArg _ ?_
    funext a; apply Fin.ext
    match a with
    | ⟨0, _⟩ => show win2_0.index t (0 : Fin 2) * 1000 + 1 * p.val = t.val * 1000 + p.val; omega
    | ⟨1, _⟩ => show win2_0.index t (1 : Fin 2) * 1024 + 1 * s.val = s.val; omega
  · show V c main_v52 (((cfg2.win 1).blk t).view.emb (ix2 s q)) = V c main_v52 (ix2 s q)
    refine congrArg _ ?_
    funext a; apply Fin.ext
    match a with
    | ⟨0, _⟩ => show win2_1.index t (0 : Fin 2) * 1024 + 1 * s.val = s.val; omega
    | ⟨1, _⟩ => show win2_1.index t (1 : Fin 2) * 1024 + 1 * q.val = q.val; omega

/-- An index of the result array is in point t's block iff each coordinate is in the block's range on its axis. -/
theorem mem_block2 (t : Fin cfg2.N) (i : S10000x1024.Idx) :
    i ∈ ((cfg2.win 2).blk t).view.set ↔ ∀ a : Fin 2, win2_2.index t a * S1000x1024.size a ≤ (i a).val
      ∧ (i a).val < win2_2.index t a * S1000x1024.size a + S1000x1024.size a := by
  show i ∈ ((View.whole main_v55).slice (win2_2.rect t)).set ↔ _
  rw [View.set_slice_whole, Rect.mem_set_unit]
  exact Iff.rfl

/-- Every index of the result array is in the block of the point its row falls to, r / 1000. -/
theorem cover2 (i : S10000x1024.Idx) :
    ∃ t : Fin cfg2.N, (cfg2.win 2).flush t = true ∧ i ∈ ((cfg2.win 2).blk t).view.set := by
  have hi0 : (i 0).val < 10000 := (i 0).isLt
  have hi1 : (i 1).val < 1024 := (i 1).isLt
  have hN : grid2.N = 10 := N_2
  have hlt : (i 0).val / 1000 < grid2.N := by omega
  obtain ⟨-, -, -, -, e20, e21⟩ := index_facts2 ⟨(i 0).val / 1000, hlt⟩
  refine ⟨⟨(i 0).val / 1000, hlt⟩, flush2_2 _, ?_⟩
  rw [mem_block2]
  intro a
  match a with
  | ⟨0, _⟩ =>
    show win2_2.index ⟨(i 0).val / 1000, hlt⟩ (0 : Fin 2) * 1000 ≤ (i 0).val
      ∧ (i 0).val < win2_2.index ⟨(i 0).val / 1000, hlt⟩ (0 : Fin 2) * 1000 + 1000
    have e : win2_2.index ⟨(i 0).val / 1000, hlt⟩ (0 : Fin 2) = (i 0).val / 1000 := e20
    omega
  | ⟨1, _⟩ =>
    show win2_2.index ⟨(i 0).val / 1000, hlt⟩ (1 : Fin 2) * 1024 ≤ (i 1).val
      ∧ (i 1).val < win2_2.index ⟨(i 0).val / 1000, hlt⟩ (1 : Fin 2) * 1024 + 1024
    omega

/-- The second projection region leaves, in its result array, the host product of its two operand arrays. -/
theorem proj2 (c : Dev nD) :
    (dat2 V c).arrAt 2 cfg2.N
      = Host.dotGeneral (F := Ideal) (φ₁ := .f32) (φ₂ := .f32) Cert.ReferenceIdeal.dot_S10000x1024_S1024x1024_S10000x1024_1_0_0_1_n_n none
          (V c main_v50) (V c main_v52) :=
  (dat2 V c).arrAt_eq_of_cover 2 _ (fun t _ => flushed2_eq V c t) cover2

end Cert.Bridge.MM

end
-- ==== Proof.Proj4.lean ====
/-
  The third projection region, as one array. Its grid has ten points; point t stages rows 1000 t … 1000 t + 999 of the
  left operand and the whole right operand, and writes back the block product as rows 1000 t … 1000 t + 999 of the
  result. Row r of the result is therefore written by point r / 1000, from row r of the left operand, and the whole
  result is the rows-by-columns product of the two arrays: at (r, q) the sum over the shared axis of the products of
  row r of the left operand and column q of the right one, which is what the host's product reads there.
-/
import proofs.«166496_j23596550324766_1_alg».proof.Proof.Gen.KernelIdeal.Frame
import proofs.«166496_j23596550324766_1_alg».proof.Proof.Gen.ReferenceIdeal
import proofs.«166496_j23596550324766_1_alg».proof.Proof.MatmulRead
import Idealize.ShloMosaic.Lib.Pipeline.Value

noncomputable section

namespace Cert.Bridge.MM

open Cert.KernelIdeal Cert.KernelIdeal.Gen
open Idealize.ShloMosaic Idealize.ShloMosaic.TcCoe Idealize.SL.Sem
open Idealize.ShloMosaic.ValueIdx Cert.LibPlainMatmul
open Idealize.ShloMosaic.Pipeline (Dat)
open scoped BigOperators

variable (V : (c : Dev nD) → (b : Ref sig .tc) → Buf (Elt Ideal) ((c : Thread nD τ).loc b))

/-- The index maps over the grid: at point t the left operand's and the result's blocks are block t along the rows,
    and every other block index is zero. -/
theorem index_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the host product of the two operand arrays. -/
theorem flushed4_eq (c : Dev nD) (t : Fin cfg4.N) :
    (dat4 V c).flushed 2 t = ((cfg4.win 2).blk t).view.read (Elt Ideal)
      (Host.dotGeneral (F := Ideal) (φ₁ := .f32) (φ₂ := .f32) Cert.ReferenceIdeal.dot_S10000x1024_S1024x1024_S10000x1024_1_0_0_1_n_n none
        (V c main_v75) (V c main_v77)) := by
  show (cfg4.win 2).cut (grid4.coords t) ((dat4 V c).after 2 t) = _
  rw [after4_2]
  unfold out4_2
  rw [View.canon_unit_zero offsets_zero]
  simp only [View.ld_unit_zero (S := S1000x1024) offsets_zero, View.ld_unit_zero (S := S1024x1024) offsets_zero]
  obtain ⟨e00, e01, e10, e11, e20, e21⟩ := index_facts4 t
  have hN : grid4.N = 10 := N_4
  have ht : t.val < grid4.N := t.isLt
  funext j
  obtain ⟨p, q, rfl⟩ : ∃ (p : Fin 1000) (q : Fin 1024), j = ix2 p q := ⟨j 0, j 1, eq_ix2 j⟩
  show k4_pay1 (iblk4 V c 0 t) (iblk4 V c 1 t) (ix2 p q)
    = Host.dotGeneral (F := Ideal) (φ₁ := .f32) (φ₂ := .f32) Cert.ReferenceIdeal.dot_S10000x1024_S1024x1024_S10000x1024_1_0_0_1_n_n none
        (V c main_v75) (V c main_v77) (((cfg4.win 2).blk t).view.emb (ix2 p q))
  refine (pay4_apply _ _ p q).trans ?_
  have hp : p.val < 1000 := p.isLt
  have h2 : ((cfg4.win 2).blk t).view.emb (ix2 p q) = ix2 (⟨t.val * 1000 + p.val, by omega⟩ : Fin 10000) q := by
    funext a; apply Fin.ext
    match a with
    | ⟨0, _⟩ => show win4_2.index t (0 : Fin 2) * 1000 + 1 * p.val = t.val * 1000 + p.val; omega
    | ⟨1, _⟩ => show win4_2.index t (1 : Fin 2) * 1024 + 1 * q.val = q.val; omega
  rw [h2]
  refine hostProduct_eq_of_factors _ _ _ (⟨t.val * 1000 + p.val, by omega⟩ : Fin 10000) q
    (fun s => iblk4 V c 0 t (ix2 p s)) (fun s => iblk4 V c 1 t (ix2 s q)) (fun s => ?_) (fun s => ?_)
  · show V c main_v75 (((cfg4.win 0).blk t).view.emb (ix2 p s)) = V c main_v75 (ix2 (⟨t.val * 1000 + p.val, by omega⟩ : Fin 10000) s)
    refine congrArg _ ?_
    funext a; apply Fin.ext
    match a with
    | ⟨0, _⟩ => show win4_0.index t (0 : Fin 2) * 1000 + 1 * p.val = t.val * 1000 + p.val; omega
    | ⟨1, _⟩ => show win4_0.index t (1 : Fin 2) * 1024 + 1 * s.val = s.val; omega
  · show V c main_v77 (((cfg4.win 1).blk t).view.emb (ix2 s q)) = V c main_v77 (ix2 s q)
    refine congrArg _ ?_
    funext a; apply Fin.ext
    match a with
    | ⟨0, _⟩ => show win4_1.index t (0 : Fin 2) * 1024 + 1 * s.val = s.val; omega
    | ⟨1, _⟩ => show win4_1.index t (1 : Fin 2) * 1024 + 1 * q.val = q.val; omega

/-- An index of the result array is in point t's block iff each coordinate is in the block's range on its axis. -/
theorem mem_block4 (t : Fin cfg4.N) (i : S10000x1024.Idx) :
    i ∈ ((cfg4.win 2).blk t).view.set ↔ ∀ a : Fin 2, win4_2.index t a * S1000x1024.size a ≤ (i a).val
      ∧ (i a).val < win4_2.index t a * S1000x1024.size a + S1000x1024.size a := by
  show i ∈ ((View.whole main_v80).slice (win4_2.rect t)).set ↔ _
  rw [View.set_slice_whole, Rect.mem_set_unit]
  exact Iff.rfl

/-- Every index of the result array is in the block of the point its row falls to, r / 1000. -/
theorem cover4 (i : S10000x1024.Idx) :
    ∃ t : Fin cfg4.N, (cfg4.win 2).flush t = true ∧ i ∈ ((cfg4.win 2).blk t).view.set := by
  have hi0 : (i 0).val < 10000 := (i 0).isLt
  have hi1 : (i 1).val < 1024 := (i 1).isLt
  have hN : grid4.N = 10 := N_4
  have hlt : (i 0).val / 1000 < grid4.N := by omega
  obtain ⟨-, -, -, -, e20, e21⟩ := index_facts4 ⟨(i 0).val / 1000, hlt⟩
  refine ⟨⟨(i 0).val / 1000, hlt⟩, flush4_2 _, ?_⟩
  rw [mem_block4]
  intro a
  match a with
  | ⟨0, _⟩ =>
    show win4_2.index ⟨(i 0).val / 1000, hlt⟩ (0 : Fin 2) * 1000 ≤ (i 0).val
      ∧ (i 0).val < win4_2.index ⟨(i 0).val / 1000, hlt⟩ (0 : Fin 2) * 1000 + 1000
    have e : win4_2.index ⟨(i 0).val / 1000, hlt⟩ (0 : Fin 2) = (i 0).val / 1000 := e20
    omega
  | ⟨1, _⟩ =>
    show win4_2.index ⟨(i 0).val / 1000, hlt⟩ (1 : Fin 2) * 1024 ≤ (i 1).val
      ∧ (i 1).val < win4_2.index ⟨(i 0).val / 1000, hlt⟩ (1 : Fin 2) * 1024 + 1024
    omega

/-- The third projection region leaves, in its result array, the host product of its two operand arrays. -/
theorem proj4 (c : Dev nD) :
    (dat4 V c).arrAt 2 cfg4.N
      = Host.dotGeneral (F := Ideal) (φ₁ := .f32) (φ₂ := .f32) Cert.ReferenceIdeal.dot_S10000x1024_S1024x1024_S10000x1024_1_0_0_1_n_n none
          (V c main_v75) (V c main_v77) :=
  (dat4 V c).arrAt_eq_of_cover 2 _ (fun t _ => flushed4_eq V c t) cover4

end Cert.Bridge.MM

end
-- ==== Proof.Proj6.lean ====
/-
  The fourth projection region, as one array. Its grid has ten points; point t stages rows 1000 t … 1000 t + 999 of the
  left operand and the whole right operand, and writes back the block product as rows 1000 t … 1000 t + 999 of the
  result. Row r of the result is therefore written by point r / 1000, from row r of the left operand, and the whole
  result is the rows-by-columns product of the two arrays: at (r, q) the sum over the shared axis of the products of
  row r of the left operand and column q of the right one, which is what the host's product reads there.
-/
import proofs.«166496_j23596550324766_1_alg».proof.Proof.Gen.KernelIdeal.Frame
import proofs.«166496_j23596550324766_1_alg».proof.Proof.Gen.ReferenceIdeal
import proofs.«166496_j23596550324766_1_alg».proof.Proof.MatmulRead
import Idealize.ShloMosaic.Lib.Pipeline.Value

noncomputable section

namespace Cert.Bridge.MM

open Cert.KernelIdeal Cert.KernelIdeal.Gen
open Idealize.ShloMosaic Idealize.ShloMosaic.TcCoe Idealize.SL.Sem
open Idealize.ShloMosaic.ValueIdx Cert.LibPlainMatmul
open Idealize.ShloMosaic.Pipeline (Dat)
open scoped BigOperators

variable (V : (c : Dev nD) → (b : Ref sig .tc) → Buf (Elt Ideal) ((c : Thread nD τ).loc b))

/-- The index maps over the grid: at point t the left operand's and the result's blocks are block t along the rows,
    and every other block index is zero. -/
theorem index_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the host product of the two operand arrays. -/
theorem flushed6_eq (c : Dev nD) (t : Fin cfg6.N) :
    (dat6 V c).flushed 2 t = ((cfg6.win 2).blk t).view.read (Elt Ideal)
      (Host.dotGeneral (F := Ideal) (φ₁ := .f32) (φ₂ := .f32) Cert.ReferenceIdeal.dot_S10000x1024_S1024x1024_S10000x1024_1_0_0_1_n_n none
        (V c main_v100) (V c main_v102)) := by
  show (cfg6.win 2).cut (grid6.coords t) ((dat6 V c).after 2 t) = _
  rw [after6_2]
  unfold out6_2
  rw [View.canon_unit_zero offsets_zero]
  simp only [View.ld_unit_zero (S := S1000x1024) offsets_zero, View.ld_unit_zero (S := S1024x1024) offsets_zero]
  obtain ⟨e00, e01, e10, e11, e20, e21⟩ := index_facts6 t
  have hN : grid6.N = 10 := N_6
  have ht : t.val < grid6.N := t.isLt
  funext j
  obtain ⟨p, q, rfl⟩ : ∃ (p : Fin 1000) (q : Fin 1024), j = ix2 p q := ⟨j 0, j 1, eq_ix2 j⟩
  show k6_pay1 (iblk6 V c 0 t) (iblk6 V c 1 t) (ix2 p q)
    = Host.dotGeneral (F := Ideal) (φ₁ := .f32) (φ₂ := .f32) Cert.ReferenceIdeal.dot_S10000x1024_S1024x1024_S10000x1024_1_0_0_1_n_n none
        (V c main_v100) (V c main_v102) (((cfg6.win 2).blk t).view.emb (ix2 p q))
  refine (pay6_apply _ _ p q).trans ?_
  have hp : p.val < 1000 := p.isLt
  have h2 : ((cfg6.win 2).blk t).view.emb (ix2 p q) = ix2 (⟨t.val * 1000 + p.val, by omega⟩ : Fin 10000) q := by
    funext a; apply Fin.ext
    match a with
    | ⟨0, _⟩ => show win6_2.index t (0 : Fin 2) * 1000 + 1 * p.val = t.val * 1000 + p.val; omega
    | ⟨1, _⟩ => show win6_2.index t (1 : Fin 2) * 1024 + 1 * q.val = q.val; omega
  rw [h2]
  refine hostProduct_eq_of_factors _ _ _ (⟨t.val * 1000 + p.val, by omega⟩ : Fin 10000) q
    (fun s => iblk6 V c 0 t (ix2 p s)) (fun s => iblk6 V c 1 t (ix2 s q)) (fun s => ?_) (fun s => ?_)
  · show V c main_v100 (((cfg6.win 0).blk t).view.emb (ix2 p s)) = V c main_v100 (ix2 (⟨t.val * 1000 + p.val, by omega⟩ : Fin 10000) s)
    refine congrArg _ ?_
    funext a; apply Fin.ext
    match a with
    | ⟨0, _⟩ => show win6_0.index t (0 : Fin 2) * 1000 + 1 * p.val = t.val * 1000 + p.val; omega
    | ⟨1, _⟩ => show win6_0.index t (1 : Fin 2) * 1024 + 1 * s.val = s.val; omega
  · show V c main_v102 (((cfg6.win 1).blk t).view.emb (ix2 s q)) = V c main_v102 (ix2 s q)
    refine congrArg _ ?_
    funext a; apply Fin.ext
    match a with
    | ⟨0, _⟩ => show win6_1.index t (0 : Fin 2) * 1024 + 1 * s.val = s.val; omega
    | ⟨1, _⟩ => show win6_1.index t (1 : Fin 2) * 1024 + 1 * q.val = q.val; omega

/-- An index of the result array is in point t's block iff each coordinate is in the block's range on its axis. -/
theorem mem_block6 (t : Fin cfg6.N) (i : S10000x1024.Idx) :
    i ∈ ((cfg6.win 2).blk t).view.set ↔ ∀ a : Fin 2, win6_2.index t a * S1000x1024.size a ≤ (i a).val
      ∧ (i a).val < win6_2.index t a * S1000x1024.size a + S1000x1024.size a := by
  show i ∈ ((View.whole main_v105).slice (win6_2.rect t)).set ↔ _
  rw [View.set_slice_whole, Rect.mem_set_unit]
  exact Iff.rfl

/-- Every index of the result array is in the block of the point its row falls to, r / 1000. -/
theorem cover6 (i : S10000x1024.Idx) :
    ∃ t : Fin cfg6.N, (cfg6.win 2).flush t = true ∧ i ∈ ((cfg6.win 2).blk t).view.set := by
  have hi0 : (i 0).val < 10000 := (i 0).isLt
  have hi1 : (i 1).val < 1024 := (i 1).isLt
  have hN : grid6.N = 10 := N_6
  have hlt : (i 0).val / 1000 < grid6.N := by omega
  obtain ⟨-, -, -, -, e20, e21⟩ := index_facts6 ⟨(i 0).val / 1000, hlt⟩
  refine ⟨⟨(i 0).val / 1000, hlt⟩, flush6_2 _, ?_⟩
  rw [mem_block6]
  intro a
  match a with
  | ⟨0, _⟩ =>
    show win6_2.index ⟨(i 0).val / 1000, hlt⟩ (0 : Fin 2) * 1000 ≤ (i 0).val
      ∧ (i 0).val < win6_2.index ⟨(i 0).val / 1000, hlt⟩ (0 : Fin 2) * 1000 + 1000
    have e : win6_2.index ⟨(i 0).val / 1000, hlt⟩ (0 : Fin 2) = (i 0).val / 1000 := e20
    omega
  | ⟨1, _⟩ =>
    show win6_2.index ⟨(i 0).val / 1000, hlt⟩ (1 : Fin 2) * 1024 ≤ (i 1).val
      ∧ (i 1).val < win6_2.index ⟨(i 0).val / 1000, hlt⟩ (1 : Fin 2) * 1024 + 1024
    omega

/-- The fourth projection region leaves, in its result array, the host product of its two operand arrays. -/
theorem proj6 (c : Dev nD) :
    (dat6 V c).arrAt 2 cfg6.N
      = Host.dotGeneral (F := Ideal) (φ₁ := .f32) (φ₂ := .f32) Cert.ReferenceIdeal.dot_S10000x1024_S1024x1024_S10000x1024_1_0_0_1_n_n none
          (V c main_v100) (V c main_v102) :=
  (dat6 V c).arrAt_eq_of_cover 2 _ (fun t _ => flushed6_eq V c t) cover6

end Cert.Bridge.MM

end
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.LnRow.lean ====
/-
  Layer normalisation of the rows of a matrix followed by the rectifier, one entry at a time.

  For a row `x` of 1024 extended reals, a gain `γ` and a shift `β`, entry `q` of the normalised and rectified row is
      max ((x q − μ) · rsqrt (σ² + ε) · γ + β) 0,      μ = (∑ k, x k) / 1024,      σ² = (∑ k, (x k − μ)²) / 1024,
  the constants 1024, ε and 0 being the extended reals their single-precision words denote (`rowMean`, `rowVar`,
  `lnRow`). `ln` is the same computation on a whole [10000, 1024] matrix as a chain of array operations: the row sums
  kept as a column, the column divided by the splat of 1024, repeated along the rows and subtracted, the squares summed
  and divided again, ε added, the reciprocal square root taken, repeated along the rows, multiplied in, the gain and the
  shift (vectors of 1024 entries laid as one row and repeated down the columns) multiplied in and added, and the maximum
  with the splat of 0 taken. `ln_apply` reads that chain at an entry `(i, q)`: it is `lnRow` of row `i`.
-/
import proofs.«166496_j23596550324766_1_alg».proof.Proof.Gen.ReferenceIdeal
import Idealize.ShloMosaic.Lib.Pipeline.Value
import Idealize.ShloMosaic.Lib.ValueIdx
import Idealize.ShloMosaic.PureOps.Ideal.Laws

noncomputable section

namespace Cert.Bridge.LN

open Idealize.ShloMosaic Idealize.ShloMosaic.ValueIdx
open Cert.ReferenceIdeal (S10000x1024 S10000x1 S10000 S1024 S1x1024 S_)
open Cert.ReferenceIdeal.Gen (reducesTo_S10000x1024_S10000_d1 h_S_ bcast_S10000_S10000x1_0 bcast_S_S10000x1
  bcast_S10000x1_S10000x1024_0_1 bcast_S1024_S1x1024_1 bcast_S1x1024_S10000x1024_0_1 bcast_S_S10000x1024)

/-! ## One row -/

/-- The mean of a row of 1024 entries: their sum over the extended real the word of 1024.0 denotes. -/
def rowMean (row : Fin 1024 → EReal) : EReal :=
  Ideal.div (∑ k : Fin 1024, row k) (Ideal.ofBits .f32 0x44800000#32)

/-- The variance of the row: the mean of the squared distances to the mean. -/
def rowVar (row : Fin 1024 → EReal) : EReal :=
  Ideal.div (∑ k : Fin 1024, (row k - rowMean row) * (row k - rowMean row)) (Ideal.ofBits .f32 0x44800000#32)

/-- Entry `q` of the normalised, scaled, shifted and rectified row. -/
def lnRow (row : Fin 1024 → EReal) (gq bq : EReal) (q : Fin 1024) : EReal :=
  max ((row q - rowMean row) * Ideal.rsqrt (rowVar row + Ideal.ofBits .f32 0x3727C5AC#32) * gq + bq)
    (Ideal.ofBits .f32 0x00000000#32)

/-! ## The whole matrix, as a chain of array operations -/

/-- The column of row means. -/
def lnMean (y : FVec Ideal S10000x1024 .f32) : FVec Ideal S10000x1 .f32 :=
  Host.divf (F := Ideal)
    (broadcastInDim S10000x1 ![0] bcast_S10000_S10000x1_0
      (Host.reduceAdd (F := Ideal) y (constant (F := Ideal) S_ .f32 0x00000000#32) reducesTo_S10000x1024_S10000_d1 h_S_))
    (broadcastInDim S10000x1 ![] bcast_S_S10000x1 (constant (F := Ideal) S_ .f32 0x44800000#32))

/-- The matrix with each row's mean subtracted. -/
def lnCentred (y : FVec Ideal S10000x1024 .f32) : FVec Ideal S10000x1024 .f32 :=
  subf y (broadcastInDim S10000x1024 ![0, 1] bcast_S10000x1_S10000x1024_0_1 (lnMean y))

/-- The column of row variances. -/
def lnVar (y : FVec Ideal S10000x1024 .f32) : FVec Ideal S10000x1 .f32 :=
  Host.divf (F := Ideal)
    (broadcastInDim S10000x1 ![0] bcast_S10000_S10000x1_0
      (Host.reduceAdd (F := Ideal) (mulf (lnCentred y) (lnCentred y)) (constant (F := Ideal) S_ .f32 0x00000000#32)
        reducesTo_S10000x1024_S10000_d1 h_S_))
    (broadcastInDim S10000x1 ![] bcast_S_S10000x1 (constant (F := Ideal) S_ .f32 0x44800000#32))

/-- The column of reciprocal square roots of variance plus ε. -/
def lnScale (y : FVec Ideal S10000x1024 .f32) : FVec Ideal S10000x1 .f32 :=
  Host.rsqrt (F := Ideal)
    (addf (lnVar y) (broadcastInDim S10000x1 ![] bcast_S_S10000x1 (constant (F := Ideal) S_ .f32 0x3727C5AC#32)))

/-- Layer normalisation of every row of `y` with gain `g` and shift `b`, then the rectifier. -/
def ln (y : FVec Ideal S10000x1024 .f32) (g b : FVec Ideal S1024 .f32) : FVec Ideal S10000x1024 .f32 :=
  maximumf
    (addf
      (mulf
        (mulf (lnCentred y) (broadcastInDim S10000x1024 ![0, 1] bcast_S10000x1_S10000x1024_0_1 (lnScale y)))
        (broadcastInDim S10000x1024 ![0, 1] bcast_S1x1024_S10000x1024_0_1 (broadcastInDim S1x1024 ![1] bcast_S1024_S1x1024_1 g)))
      (broadcastInDim S10000x1024 ![0, 1] bcast_S1x1024_S10000x1024_0_1 (broadcastInDim S1x1024 ![1] bcast_S1024_S1x1024_1 b)))
    (broadcastInDim S10000x1024 ![] bcast_S_S10000x1024 (constant (F := Ideal) S_ .f32 0x00000000#32))

/-! ## The array operations read at an entry -/

/-- The quotient of two arrays at an entry is the quotient of the entries. -/
theorem hostDivf_apply {s : Shape} {φ : FTy} (a b : FVec Ideal s φ) (i : s.Idx) :
    Host.divf a b i = Ideal.div (a i) (b i) := rfl

/-- The reciprocal square root of an array at an entry is that of the entry. -/
theorem hostRsqrt_apply {s : Shape} {φ : FTy} (a : FVec Ideal s φ) (i : s.Idx) :
    Host.rsqrt a i = Ideal.rsqrt (a i) := rfl

/-- The sum along the rows, from the zero word, at row `i`: the sum of the row's 1024 entries. -/
theorem hostRowSum (x : FVec Ideal S10000x1024 .f32) (i : Fin 10000) :
    Host.reduceAdd (F := Ideal) x (constant (F := Ideal) S_ .f32 0x00000000#32) reducesTo_S10000x1024_S10000_d1 h_S_ (ix1 i)
      = ∑ k : Fin 1024, x (ix2 i k) := by
  simp only [Host.reduceAdd, Ideal.hostReduceAdd_def]
  rw [Ideal.hostReduceAdd_single reducesTo_S10000x1024_S10000_d1 (by decide)]
  rw [show constant (F := Ideal) S_ .f32 0x00000000#32 (Shape.Idx.first h_S_) = 0 from Ideal.ofBits_zero_f32, zero_add]
  refine Finset.sum_congr rfl fun k _ => ?_
  exact congrArg x (funext fun a => Fin.ext (by match a with | ⟨0, _⟩ => rfl | ⟨1, _⟩ => rfl))

/-- A vector of 10000 entries laid as a column reads, at `(i, u)`, its entry `i`. -/
theorem column_apply (v : FVec Ideal S10000 .f32) (i : Fin 10000) (u : Fin 1) :
    broadcastInDim S10000x1 ![0] bcast_S10000_S10000x1_0 v (ix2 i u) = v (ix1 i) :=
  broadcastInDim_apply _ bcast_S10000_S10000x1_0 v (ix2 i u) (ix1 i) (fun a => match a with
    | ⟨0, _⟩ => by show i.val = if (10000 : Nat) = 1 then 0 else i.val; rw [if_neg (by decide)])

/-- A column repeated along the rows reads, at `(i, q)`, the column's entry `i`. -/
theorem columnRepeated_apply (v : FVec Ideal S10000x1 .f32) (i : Fin 10000) (q : Fin 1024) :
    broadcastInDim S10000x1024 ![0, 1] bcast_S10000x1_S10000x1024_0_1 v (ix2 i q) = v (ix2 i (0 : Fin 1)) :=
  broadcastInDim_apply _ bcast_S10000x1_S10000x1024_0_1 v (ix2 i q) (ix2 i (0 : Fin 1)) (fun a => match a with
    | ⟨0, _⟩ => by show i.val = if (10000 : Nat) = 1 then 0 else i.val; rw [if_neg (by decide)]
    | ⟨1, _⟩ => by show 0 = if (1 : Nat) = 1 then 0 else q.val; rw [if_pos rfl])

/-- A vector of 1024 entries laid as one row and repeated down the columns reads, at `(i, q)`, its entry `q`. -/
theorem rowRepeated_apply (g : FVec Ideal S1024 .f32) (i : Fin 10000) (q : Fin 1024) :
    broadcastInDim S10000x1024 ![0, 1] bcast_S1x1024_S10000x1024_0_1 (broadcastInDim S1x1024 ![1] bcast_S1024_S1x1024_1 g) (ix2 i q)
      = g (ix1 q) :=
  (broadcastInDim_apply _ bcast_S1x1024_S10000x1024_0_1 _ (ix2 i q) (ix2 (0 : Fin 1) q) (fun a => match a with
    | ⟨0, _⟩ => by show 0 = if (1 : Nat) = 1 then 0 else i.val; rw [if_pos rfl]
    | ⟨1, _⟩ => by show q.val = if (1024 : Nat) = 1 then 0 else q.val; rw [if_neg (by decide)])).trans
  (broadcastInDim_apply _ bcast_S1024_S1x1024_1 g (ix2 (0 : Fin 1) q) (ix1 q) (fun a => match a with
    | ⟨0, _⟩ => by show q.val = if (1024 : Nat) = 1 then 0 else q.val; rw [if_neg (by decide)]))

/-! ## The chain read at an entry -/

theorem lnMean_apply (y : FVec Ideal S10000x1024 .f32) (i : Fin 10000) (u : Fin 1) :
    lnMean y (ix2 i u) = rowMean (fun k => y (ix2 i k)) := by
  unfold lnMean rowMean
  rw [hostDivf_apply, column_apply, hostRowSum]
  rfl

theorem lnCentred_apply (y : FVec Ideal S10000x1024 .f32) (i : Fin 10000) (q : Fin 1024) :
    lnCentred y (ix2 i q) = y (ix2 i q) - rowMean (fun k => y (ix2 i k)) := by
  unfold lnCentred
  rw [subf_apply, columnRepeated_apply, lnMean_apply]

theorem lnVar_apply (y : FVec Ideal S10000x1024 .f32) (i : Fin 10000) (u : Fin 1) :
    lnVar y (ix2 i u) = rowVar (fun k => y (ix2 i k)) := by
  unfold lnVar rowVar
  rw [hostDivf_apply, column_apply, hostRowSum]
  simp only [mulf_apply, lnCentred_apply]
  rfl

theorem lnScale_apply (y : FVec Ideal S10000x1024 .f32) (i : Fin 10000) (u : Fin 1) :
    lnScale y (ix2 i u) = Ideal.rsqrt (rowVar (fun k => y (ix2 i k)) + Ideal.ofBits .f32 0x3727C5AC#32) := by
  unfold lnScale
  rw [hostRsqrt_apply, addf_apply, lnVar_apply]
  rfl

/-- Entry `(i, q)` of the normalised matrix is `lnRow` of row `i` with the gain and shift at `q`. -/
theorem ln_apply (y : FVec Ideal S10000x1024 .f32) (g b : FVec Ideal S1024 .f32) (i : Fin 10000) (q : Fin 1024) :
    ln y g b (ix2 i q) = lnRow (fun k => y (ix2 i k)) (g (ix1 q)) (b (ix1 q)) q := by
  unfold ln lnRow
  rw [maximumf_apply, addf_apply, mulf_apply, mulf_apply, lnCentred_apply, columnRepeated_apply, lnScale_apply,
    rowRepeated_apply, rowRepeated_apply]
  rfl

end Cert.Bridge.LN

end
-- ==== Proof.LnBody.lean ====
/-
  The kernels' normalisation bodies, one entry at a time.

  The first normalisation kernel computes, on a [1000, 1024] block `y` with the gain and shift vectors, the same
  quantities as the row function `lnRow`: the row sums kept as a column and divided by the splat of 1024, repeated along
  the rows and subtracted, the squares summed and divided again, ε added, the reciprocal square root taken, multiplied in,
  the gain and shift (laid as one row and repeated down the columns) multiplied in and added, the maximum with the splat
  of zero taken. The other three first add two blocks and then do the same. `kLn` names that computation on a block;
  the printed payloads are `kLn` of their loaded blocks (`k1_pay1_eq` … `k7_pay1_eq`); and `kLn_apply` reads it at an
  entry `(p, q)`: it is `lnRow` of row `p` of the block.
-/
import proofs.«166496_j23596550324766_1_alg».proof.Proof.Gen.KernelIdeal.Skeleton
import proofs.«166496_j23596550324766_1_alg».proof.Proof.LibKeepdims
import proofs.«166496_j23596550324766_1_alg».proof.Proof.LnRow
import Idealize.ShloMosaic.Lib.Pipeline.Value
import Idealize.ShloMosaic.Lib.ValueIdx
import Idealize.ShloMosaic.Lib.ValueLayout
import Idealize.ShloMosaic.PureOps.Ideal.Laws

noncomputable section

namespace Cert.Bridge.LN

open Idealize.ShloMosaic Idealize.ShloMosaic.ValueIdx
open Cert.KernelIdeal (S1000x1024 S1000x1 S1000 S1024 S1x1024)
open Cert.KernelIdeal.Gen (k1_pay1 k3_pay1 k5_pay1 k7_pay1 shapeCasts_S1000x1024_S1000x1024 reduces_S1000x1024_S1000
  shapeCasts_S1000_S1000x1 broadcasts_S1000x1_S1000x1024 shapeCasts_S1024_S1024 shapeCasts_S1024_S1x1024
  broadcasts_S1x1024_S1000x1024)

/-! ## The computation on a block -/

/-- The column of row means of a block. -/
def kMean (y : FVec Ideal S1000x1024 .f32) : FVec Ideal S1000x1 .f32 :=
  divf (shapeCast S1000x1 (multiReduction .add [1] S1000 y 0x00000000#32 reduces_S1000x1024_S1000 (.inl rfl) rfl) shapeCasts_S1000_S1000x1)
    (broadcast S1000x1 (Scalar.ofBits (F := Ideal) .f32 0x44800000#32))

/-- The block with each row's mean subtracted. -/
def kCentred (y : FVec Ideal S1000x1024 .f32) : FVec Ideal S1000x1024 .f32 :=
  subf y (broadcastTo S1000x1024 (kMean y) broadcasts_S1000x1_S1000x1024)

/-- The column of row variances. -/
def kVar (y : FVec Ideal S1000x1024 .f32) : FVec Ideal S1000x1 .f32 :=
  divf (shapeCast S1000x1 (multiReduction .add [1] S1000 (mulf (kCentred y) (kCentred y)) 0x00000000#32 reduces_S1000x1024_S1000 (.inl rfl) rfl)
      shapeCasts_S1000_S1000x1)
    (broadcast S1000x1 (Scalar.ofBits (F := Ideal) .f32 0x44800000#32))

/-- The column of reciprocal square roots of variance plus ε. -/
def kScale (y : FVec Ideal S1000x1024 .f32) : FVec Ideal S1000x1 .f32 :=
  rsqrt (addf (kVar y) (broadcast S1000x1 (Scalar.ofBits (F := Ideal) .f32 0x3727C5AC#32)))

/-- A vector of 1024 entries laid as one row and repeated down the 1000 rows of a block. -/
def kRow (g : Vec Ideal S1024 .f32) : FVec Ideal S1000x1024 .f32 :=
  broadcastTo S1000x1024 (shapeCast S1x1024 (shapeCast S1024 g shapeCasts_S1024_S1024) shapeCasts_S1024_S1x1024)
    broadcasts_S1x1024_S1000x1024

/-- The normalisation of every row of the block with gain `g` and shift `b`, then the rectifier. -/
def kLn (y : FVec Ideal S1000x1024 .f32) (g b : Vec Ideal S1024 .f32) : FVec Ideal S1000x1024 .f32 :=
  maximumf
    (addf (mulf (mulf (kCentred y) (broadcastTo S1000x1024 (kScale y) broadcasts_S1000x1_S1000x1024)) (kRow g)) (kRow b))
    (broadcast S1000x1024 (Scalar.ofBits (F := Ideal) .f32 0x00000000#32))

/-! ## The printed payloads are that computation -/

/-- The first kernel's stored value is `kLn` of its loaded block. -/
theorem k1_pay1_eq (x0 : Vec Ideal S1000x1024 .f32) (g b : Vec Ideal S1024 .f32) :
    k1_pay1 x0 g b = kLn (shapeCast S1000x1024 x0 shapeCasts_S1000x1024_S1000x1024) g b := by
  unfold k1_pay1 kLn kRow kScale kVar kCentred kMean
  rfl

/-- The second kernel's stored value is `kLn` of the sum of its two loaded blocks. -/
theorem k3_pay1_eq (x0 x2 : Vec Ideal S1000x1024 .f32) (g b : Vec Ideal S1024 .f32) :
    k3_pay1 x0 x2 g b = kLn (addf (shapeCast S1000x1024 x0 shapeCasts_S1000x1024_S1000x1024)
      (shapeCast S1000x1024 x2 shapeCasts_S1000x1024_S1000x1024)) g b := by
  unfold k3_pay1 kLn kRow kScale kVar kCentred kMean
  rfl

/-- The third kernel's likewise. -/
theorem k5_pay1_eq (x0 x2 : Vec Ideal S1000x1024 .f32) (g b : Vec Ideal S1024 .f32) :
    k5_pay1 x0 x2 g b = kLn (addf (shapeCast S1000x1024 x0 shapeCasts_S1000x1024_S1000x1024)
      (shapeCast S1000x1024 x2 shapeCasts_S1000x1024_S1000x1024)) g b := by
  unfold k5_pay1 kLn kRow kScale kVar kCentred kMean
  rfl

/-- The fourth kernel's likewise. -/
theorem k7_pay1_eq (x0 x2 : Vec Ideal S1000x1024 .f32) (g b : Vec Ideal S1024 .f32) :
    k7_pay1 x0 x2 g b = kLn (addf (shapeCast S1000x1024 x0 shapeCasts_S1000x1024_S1000x1024)
      (shapeCast S1000x1024 x2 shapeCasts_S1000x1024_S1000x1024)) g b := by
  unfold k7_pay1 kLn kRow kScale kVar kCentred kMean
  rfl

/-! ## The block operations read at an entry -/

/-- The reciprocal square root of a block at an entry is that of the entry. -/
theorem rsqrt_apply {s : Shape} {φ : FTy} (a : FVec Ideal s φ) (i : s.Idx) : rsqrt a i = Ideal.rsqrt (a i) := rfl

/-- The sum along the rows of a block, from the zero word, at row `p`: the sum of the row's 1024 entries. -/
theorem rowSum_apply (src : FVec Ideal S1000x1024 .f32) (h : Shape.Reduces S1000x1024 [1] S1000) (hφ : FKind.Formats .f32)
    (hacc : (0x00000000#32 : BitVec 32) = 0x00000000#32) (p : Fin 1000) :
    multiReduction .add [1] S1000 src 0x00000000#32 h hφ hacc (ix1 p) = ∑ k : Fin 1024, src (ix2 p k) :=
  Cert.LibKeepdims.multiReduction_add_row src 0x00000000#32 h hφ hacc p

theorem kMean_apply (y : FVec Ideal S1000x1024 .f32) (p : Fin 1000) (u : Fin 1) :
    kMean y (ix2 p u) = rowMean (fun k => y (ix2 p k)) := by
  unfold kMean rowMean
  rw [divf_apply, Cert.LibKeepdims.shapeCast_a_a1_apply, rowSum_apply]
  rfl

theorem kCentred_apply (y : FVec Ideal S1000x1024 .f32) (p : Fin 1000) (q : Fin 1024) :
    kCentred y (ix2 p q) = y (ix2 p q) - rowMean (fun k => y (ix2 p k)) := by
  unfold kCentred
  rw [subf_apply, Cert.LibKeepdims.broadcastTo_a1_ab_apply, kMean_apply]

theorem kVar_apply (y : FVec Ideal S1000x1024 .f32) (p : Fin 1000) (u : Fin 1) :
    kVar y (ix2 p u) = rowVar (fun k => y (ix2 p k)) := by
  unfold kVar rowVar
  rw [divf_apply, Cert.LibKeepdims.shapeCast_a_a1_apply, rowSum_apply]
  simp only [mulf_apply, kCentred_apply]
  rfl

theorem kScale_apply (y : FVec Ideal S1000x1024 .f32) (p : Fin 1000) (u : Fin 1) :
    kScale y (ix2 p u) = Ideal.rsqrt (rowVar (fun k => y (ix2 p k)) + Ideal.ofBits .f32 0x3727C5AC#32) := by
  unfold kScale
  rw [rsqrt_apply, addf_apply, kVar_apply]
  rfl

theorem kRow_apply (g : Vec Ideal S1024 .f32) (p : Fin 1000) (q : Fin 1024) : kRow g (ix2 p q) = g (ix1 q) := by
  unfold kRow
  rw [broadcastTo_1b_ab_apply, shapeCast_a_1a_apply, shapeCast_self]

/-- Entry `(p, q)` of the normalised block is `lnRow` of row `p` with the gain and shift at `q`. -/
theorem kLn_apply (y : FVec Ideal S1000x1024 .f32) (g b : Vec Ideal S1024 .f32) (p : Fin 1000) (q : Fin 1024) :
    kLn y g b (ix2 p q) = lnRow (fun k => y (ix2 p k)) (g (ix1 q)) (b (ix1 q)) q := by
  unfold kLn lnRow
  rw [maximumf_apply, addf_apply, mulf_apply, mulf_apply, kCentred_apply, Cert.LibKeepdims.broadcastTo_a1_ab_apply,
    kScale_apply, kRow_apply, kRow_apply]
  rfl

/-! ## The payloads read at an entry -/

/-- Entry `(p, q)` of the first kernel's stored value: `lnRow` of row `p` of the loaded block. -/
theorem k1_pay1_apply (x0 : Vec Ideal S1000x1024 .f32) (g b : Vec Ideal S1024 .f32) (p : Fin 1000) (q : Fin 1024) :
    k1_pay1 x0 g b (ix2 p q) = lnRow (fun k => x0 (ix2 p k)) (g (ix1 q)) (b (ix1 q)) q := by
  rw [k1_pay1_eq, shapeCast_self, kLn_apply]

/-- Entry `(p, q)` of the second kernel's stored value: `lnRow` of the sum of the two loaded blocks' rows `p`. -/
theorem k3_pay1_apply (x0 x2 : Vec Ideal S1000x1024 .f32) (g b : Vec Ideal S1024 .f32) (p : Fin 1000) (q : Fin 1024) :
    k3_pay1 x0 x2 g b (ix2 p q) = lnRow (fun k => x0 (ix2 p k) + x2 (ix2 p k)) (g (ix1 q)) (b (ix1 q)) q := by
  rw [k3_pay1_eq, shapeCast_self, shapeCast_self, kLn_apply]
  rfl

/-- The third kernel's likewise. -/
theorem k5_pay1_apply (x0 x2 : Vec Ideal S1000x1024 .f32) (g b : Vec Ideal S1024 .f32) (p : Fin 1000) (q : Fin 1024) :
    k5_pay1 x0 x2 g b (ix2 p q) = lnRow (fun k => x0 (ix2 p k) + x2 (ix2 p k)) (g (ix1 q)) (b (ix1 q)) q := by
  rw [k5_pay1_eq, shapeCast_self, shapeCast_self, kLn_apply]
  rfl

/-- The fourth kernel's likewise. -/
theorem k7_pay1_apply (x0 x2 : Vec Ideal S1000x1024 .f32) (g b : Vec Ideal S1024 .f32) (p : Fin 1000) (q : Fin 1024) :
    k7_pay1 x0 x2 g b (ix2 p q) = lnRow (fun k => x0 (ix2 p k) + x2 (ix2 p k)) (g (ix1 q)) (b (ix1 q)) q := by
  rw [k7_pay1_eq, shapeCast_self, shapeCast_self, kLn_apply]
  rfl

end Cert.Bridge.LN

end
-- ==== Proof.Ln1.lean ====
/-
  Region 1 of the kernel program: the normalisation kernel's output array is `ln` of its input arrays.

  The region runs the normalisation body on ten row blocks of 1000 rows; grid point `t` reads rows
  `1000 t … 1000 t + 999` of its input matrix and the whole gain and shift vectors, and writes back the same rows of the output.
  The body's stored value at `(p, q)` is `lnRow` of row `p` of the block, which is row `1000 t + p` of the matrix;
  `ln` of the whole matrix at `(1000 t + p, q)` is the same `lnRow`. So what every grid point writes back is its block of
  one whole-array function, the ten blocks cover the array, and the array ends holding that function.
-/
import proofs.«166496_j23596550324766_1_alg».proof.Proof.Gen.KernelIdeal.Frame
import proofs.«166496_j23596550324766_1_alg».proof.Proof.LnBody
import proofs.«166496_j23596550324766_1_alg».proof.Proof.LnRow
import Idealize.ShloMosaic.Lib.Pipeline.Value

set_option maxRecDepth 16384

noncomputable section

namespace Cert.Bridge.LN.R1

open Cert.KernelIdeal Cert.KernelIdeal.Gen Cert.Bridge.LN
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the ten grid points: the matrix windows are at row block `t`, column block 0; the
    vector windows at block 0. -/
theorem index1 : ∀ t : Fin cfg1.N, win1_0.index t (0 : Fin 2) = t.val
    ∧ win1_0.index t (1 : Fin 2) = 0
    ∧ win1_1.index t (0 : Fin 1) = 0
    ∧ win1_2.index t (0 : Fin 1) = 0
    ∧ win1_3.index t (0 : Fin 2) = t.val
    ∧ win1_3.index t (1 : Fin 2) = 0 :=
  (by decide +kernel : ∀ t : Fin grid1.N, _)

/-- The grid has ten points. -/
theorem lt_ten (t : Fin cfg1.N) : t.val < 10 := by
  have h := t.isLt
  have hN : cfg1.N = 10 := N_1
  omega

/-- Entry `(p, k)` of input window 0's block at grid point `t` is the array's entry `(1000 t + p, k)`. -/
theorem block1_0 (c : Dev nD) (t : Fin cfg1.N) (p : Fin 1000) (k : Fin 1024) (r : Fin 10000) (hr : r.val = t.val * 1000 + p.val) :
    iblk1 V c 0 t (ix2 p k) = V c main_v45 (ix2 r k) := by
  obtain ⟨e00, e01, e1, e2, eo0, eo1⟩ := index1 t
  show V c main_v45 (((cfg1.win 0).blk t).view.emb (ix2 p k)) = V c main_v45 (ix2 r k)
  refine congrArg (V c main_v45) (funext fun a => Fin.ext ?_)
  match a with
  | ⟨0, _⟩ => show win1_0.index t (0 : Fin 2) * 1000 + 1 * p.val = r.val; omega
  | ⟨1, _⟩ => show win1_0.index t (1 : Fin 2) * 1024 + 1 * k.val = k.val; omega

/-- Entry `q` of input window 1's block, the whole vector at every grid point, is the vector's entry `q`. -/
theorem block1_1 (c : Dev nD) (t : Fin cfg1.N) (q : Fin 1024) :
    iblk1 V c 1 t (ix1 q) = V c main_v47 (ix1 q) := by
  obtain ⟨e00, e01, e1, e2, eo0, eo1⟩ := index1 t
  show V c main_v47 (((cfg1.win 1).blk t).view.emb (ix1 q)) = V c main_v47 (ix1 q)
  refine congrArg (V c main_v47) (funext fun a => Fin.ext ?_)
  match a with
  | ⟨0, _⟩ => show win1_1.index t (0 : Fin 1) * 1024 + 1 * q.val = q.val; omega

/-- Entry `q` of input window 2's block, the whole vector at every grid point, is the vector's entry `q`. -/
theorem block1_2 (c : Dev nD) (t : Fin cfg1.N) (q : Fin 1024) :
    iblk1 V c 2 t (ix1 q) = V c main_v49 (ix1 q) := by
  obtain ⟨e00, e01, e1, e2, eo0, eo1⟩ := index1 t
  show V c main_v49 (((cfg1.win 2).blk t).view.emb (ix1 q)) = V c main_v49 (ix1 q)
  refine congrArg (V c main_v49) (funext fun a => Fin.ext ?_)
  match a with
  | ⟨0, _⟩ => show win1_2.index t (0 : Fin 1) * 1024 + 1 * q.val = q.val; omega

/-- WHAT POINT `t` WRITES BACK is block `t` of `ln` of the input arrays as the region finds them. -/
theorem flushed1 (c : Dev nD) (t : Fin cfg1.N) :
    (dat1 V c).flushed 3 t
      = ((cfg1.win 3).blk t).view.read (Elt Ideal) (ln (V c main_v45) (V c main_v47) (V c main_v49)) := by
  show (cfg1.win 3).cut (grid1.coords t) ((dat1 V c).after 3 t) = _
  rw [after1_3]
  unfold out1_3
  rw [View.canon_unit_zero zeros2]
  simp only [View.ld_unit_zero (S := S1000x1024) zeros2, View.ld_unit_zero (S := S1024) zeros1]
  obtain ⟨e00, e01, e1, e2, eo0, eo1⟩ := index1 t
  have ht := lt_ten t
  funext j
  obtain ⟨p, q, rfl⟩ : ∃ (p : Fin 1000) (q : Fin 1024), j = ix2 p q := ⟨j 0, j 1, eq_ix2 j⟩
  let r : Fin 10000 := ⟨t.val * 1000 + p.val, by have := p.isLt; omega⟩
  have hemb : ((cfg1.win 3).blk t).view.emb (ix2 p q) = ix2 r q := by
    funext a; apply Fin.ext
    match a with
    | ⟨0, _⟩ => show win1_3.index t (0 : Fin 2) * 1000 + 1 * p.val = t.val * 1000 + p.val; omega
    | ⟨1, _⟩ => show win1_3.index t (1 : Fin 2) * 1024 + 1 * q.val = q.val; omega
  show k1_pay1 (iblk1 V c 0 t) (iblk1 V c 1 t) (iblk1 V c 2 t) (ix2 p q)
    = ln (V c main_v45) (V c main_v47) (V c main_v49) (((cfg1.win 3).blk t).view.emb (ix2 p q))
  rw [hemb, ln_apply]
  refine (k1_pay1_apply _ _ _ p q).trans ?_
  simp only [block1_0 V c t p _ r rfl, block1_1 V c t q, block1_2 V c t q]

/-- An index of the output array is in point `t`'s block iff each coordinate is in the block's range on its axis. -/
theorem mem_block1 (t : Fin cfg1.N) (i : S10000x1024.Idx) :
    i ∈ ((cfg1.win 3).blk t).view.set ↔ ∀ a : Fin 2, win1_3.index t a * S1000x1024.size a ≤ (i a).val
      ∧ (i a).val < win1_3.index t a * S1000x1024.size a + S1000x1024.size a := by
  show i ∈ ((View.whole main_v50).slice (win1_3.rect t)).set ↔ _
  rw [View.set_slice_whole, Rect.mem_set_unit]
  exact Iff.rfl

/-- Every index of the output array is in the block of the point its row falls in. -/
theorem cover1 (i : S10000x1024.Idx) :
    ∃ t : Fin cfg1.N, (cfg1.win 3).flush t = true ∧ i ∈ ((cfg1.win 3).blk t).view.set := by
  have hi0 : (i 0).val < 10000 := (i 0).isLt
  have hi1 : (i 1).val < 1024 := (i 1).isLt
  have hN : cfg1.N = 10 := N_1
  let t : Fin cfg1.N := ⟨(i 0).val / 1000, by omega⟩
  have htv : t.val = (i 0).val / 1000 := rfl
  obtain ⟨e00, e01, e1, e2, eo0, eo1⟩ := index1 t
  refine ⟨t, flush1_3 t, ?_⟩
  rw [mem_block1]
  intro a
  match a with
  | ⟨0, _⟩ => show win1_3.index t (0 : Fin 2) * 1000 ≤ (i 0).val ∧ (i 0).val < win1_3.index t (0 : Fin 2) * 1000 + 1000; omega
  | ⟨1, _⟩ => show win1_3.index t (1 : Fin 2) * 1024 ≤ (i 1).val ∧ (i 1).val < win1_3.index t (1 : Fin 2) * 1024 + 1024; omega

end Cert.Bridge.LN.R1

namespace Cert.Bridge.LN

open Cert.KernelIdeal Cert.KernelIdeal.Gen
open Idealize.ShloMosaic Idealize.ShloMosaic.TcCoe
open Idealize.SL.Sem

variable (V : (c : Dev nD) → (b : Ref sig .tc) → Buf (Elt Ideal) ((c : Thread nD τ).loc b))

/-- THE OUTPUT ARRAY of region 1: `ln` of the region's input arrays. -/
theorem ln1 (c : Dev nD) :
    (dat1 V c).arrAt 3 cfg1.N = ln (V c main_v45) (V c main_v47) (V c main_v49) :=
  (dat1 V c).arrAt_eq_of_cover 3 _ (fun t _ => R1.flushed1 V c t) R1.cover1

end Cert.Bridge.LN

end
-- ==== Proof.Ln3.lean ====
/-
  Region 3 of the kernel program: the normalisation kernel's output array is `ln` of its input arrays.

  The region runs the normalisation body on ten row blocks of 1000 rows; grid point `t` reads rows
  `1000 t … 1000 t + 999` of its two input matrices and the whole gain and shift vectors, and writes back the same rows of the output.
  The body's stored value at `(p, q)` is `lnRow` of row `p` of the blocks' sum, which is row `1000 t + p` of the matrices' sum;
  `ln` of the whole sum at `(1000 t + p, q)` is the same `lnRow`. So what every grid point writes back is its block of
  one whole-array function, the ten blocks cover the array, and the array ends holding that function.
-/
import proofs.«166496_j23596550324766_1_alg».proof.Proof.Gen.KernelIdeal.Frame
import proofs.«166496_j23596550324766_1_alg».proof.Proof.LnBody
import proofs.«166496_j23596550324766_1_alg».proof.Proof.LnRow
import Idealize.ShloMosaic.Lib.Pipeline.Value

set_option maxRecDepth 16384

noncomputable section

namespace Cert.Bridge.LN.R3

open Cert.KernelIdeal Cert.KernelIdeal.Gen Cert.Bridge.LN
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the ten grid points: the matrix windows are at row block `t`, column block 0; the
    vector windows at block 0. -/
theorem index3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 1) = 0
    ∧ win3_3.index t (0 : Fin 1) = 0
    ∧ win3_4.index t (0 : Fin 2) = t.val
    ∧ win3_4.index t (1 : Fin 2) = 0 :=
  (by decide +kernel : ∀ t : Fin grid3.N, _)

/-- The grid has ten points. -/
theorem lt_ten (t : Fin cfg3.N) : t.val < 10 := by
  have h := t.isLt
  have hN : cfg3.N = 10 := N_3
  omega

/-- Entry `(p, k)` of input window 0's block at grid point `t` is the array's entry `(1000 t + p, k)`. -/
theorem block3_0 (c : Dev nD) (t : Fin cfg3.N) (p : Fin 1000) (k : Fin 1024) (r : Fin 10000) (hr : r.val = t.val * 1000 + p.val) :
    iblk3 V c 0 t (ix2 p k) = V c main_v70 (ix2 r k) := by
  obtain ⟨e00, e01, e10, e11, e2, e3, eo0, eo1⟩ := index3 t
  show V c main_v70 (((cfg3.win 0).blk t).view.emb (ix2 p k)) = V c main_v70 (ix2 r k)
  refine congrArg (V c main_v70) (funext fun a => Fin.ext ?_)
  match a with
  | ⟨0, _⟩ => show win3_0.index t (0 : Fin 2) * 1000 + 1 * p.val = r.val; omega
  | ⟨1, _⟩ => show win3_0.index t (1 : Fin 2) * 1024 + 1 * k.val = k.val; omega

/-- Entry `(p, k)` of input window 1's block at grid point `t` is the array's entry `(1000 t + p, k)`. -/
theorem block3_1 (c : Dev nD) (t : Fin cfg3.N) (p : Fin 1000) (k : Fin 1024) (r : Fin 10000) (hr : r.val = t.val * 1000 + p.val) :
    iblk3 V c 1 t (ix2 p k) = V c main_v45 (ix2 r k) := by
  obtain ⟨e00, e01, e10, e11, e2, e3, eo0, eo1⟩ := index3 t
  show V c main_v45 (((cfg3.win 1).blk t).view.emb (ix2 p k)) = V c main_v45 (ix2 r k)
  refine congrArg (V c main_v45) (funext fun a => Fin.ext ?_)
  match a with
  | ⟨0, _⟩ => show win3_1.index t (0 : Fin 2) * 1000 + 1 * p.val = r.val; omega
  | ⟨1, _⟩ => show win3_1.index t (1 : Fin 2) * 1024 + 1 * k.val = k.val; omega

/-- Entry `q` of input window 2's block, the whole vector at every grid point, is the vector's entry `q`. -/
theorem block3_2 (c : Dev nD) (t : Fin cfg3.N) (q : Fin 1024) :
    iblk3 V c 2 t (ix1 q) = V c main_v72 (ix1 q) := by
  obtain ⟨e00, e01, e10, e11, e2, e3, eo0, eo1⟩ := index3 t
  show V c main_v72 (((cfg3.win 2).blk t).view.emb (ix1 q)) = V c main_v72 (ix1 q)
  refine congrArg (V c main_v72) (funext fun a => Fin.ext ?_)
  match a with
  | ⟨0, _⟩ => show win3_2.index t (0 : Fin 1) * 1024 + 1 * q.val = q.val; omega

/-- Entry `q` of input window 3's block, the whole vector at every grid point, is the vector's entry `q`. -/
theorem block3_3 (c : Dev nD) (t : Fin cfg3.N) (q : Fin 1024) :
    iblk3 V c 3 t (ix1 q) = V c main_v74 (ix1 q) := by
  obtain ⟨e00, e01, e10, e11, e2, e3, eo0, eo1⟩ := index3 t
  show V c main_v74 (((cfg3.win 3).blk t).view.emb (ix1 q)) = V c main_v74 (ix1 q)
  refine congrArg (V c main_v74) (funext fun a => Fin.ext ?_)
  match a with
  | ⟨0, _⟩ => show win3_3.index t (0 : Fin 1) * 1024 + 1 * q.val = q.val; omega

/-- WHAT POINT `t` WRITES BACK is block `t` of `ln` of the input arrays as the region finds them. -/
theorem flushed3 (c : Dev nD) (t : Fin cfg3.N) :
    (dat3 V c).flushed 4 t
      = ((cfg3.win 4).blk t).view.read (Elt Ideal) (ln (addf (F := Ideal) (s := Cert.ReferenceIdeal.S10000x1024) (φ := .f32) (V c main_v70) (V c main_v45)) (V c main_v72) (V c main_v74)) := by
  show (cfg3.win 4).cut (grid3.coords t) ((dat3 V c).after 4 t) = _
  rw [after3_4]
  unfold out3_4
  rw [View.canon_unit_zero zeros2]
  simp only [View.ld_unit_zero (S := S1000x1024) zeros2, View.ld_unit_zero (S := S1024) zeros1]
  obtain ⟨e00, e01, e10, e11, e2, e3, eo0, eo1⟩ := index3 t
  have ht := lt_ten t
  funext j
  obtain ⟨p, q, rfl⟩ : ∃ (p : Fin 1000) (q : Fin 1024), j = ix2 p q := ⟨j 0, j 1, eq_ix2 j⟩
  let r : Fin 10000 := ⟨t.val * 1000 + p.val, by have := p.isLt; omega⟩
  have hemb : ((cfg3.win 4).blk t).view.emb (ix2 p q) = ix2 r q := by
    funext a; apply Fin.ext
    match a with
    | ⟨0, _⟩ => show win3_4.index t (0 : Fin 2) * 1000 + 1 * p.val = t.val * 1000 + p.val; omega
    | ⟨1, _⟩ => show win3_4.index t (1 : Fin 2) * 1024 + 1 * q.val = q.val; omega
  show k3_pay1 (iblk3 V c 0 t) (iblk3 V c 1 t) (iblk3 V c 2 t) (iblk3 V c 3 t) (ix2 p q)
    = ln (addf (F := Ideal) (s := Cert.ReferenceIdeal.S10000x1024) (φ := .f32) (V c main_v70) (V c main_v45)) (V c main_v72) (V c main_v74) (((cfg3.win 4).blk t).view.emb (ix2 p q))
  rw [hemb, ln_apply]
  refine (k3_pay1_apply _ _ _ _ p q).trans ?_
  simp only [block3_0 V c t p _ r rfl, block3_1 V c t p _ r rfl, block3_2 V c t q, block3_3 V c t q]
  rfl

/-- An index of the output array is in point `t`'s block iff each coordinate is in the block's range on its axis. -/
theorem mem_block3 (t : Fin cfg3.N) (i : S10000x1024.Idx) :
    i ∈ ((cfg3.win 4).blk t).view.set ↔ ∀ a : Fin 2, win3_4.index t a * S1000x1024.size a ≤ (i a).val
      ∧ (i a).val < win3_4.index t a * S1000x1024.size a + S1000x1024.size a := by
  show i ∈ ((View.whole main_v75).slice (win3_4.rect t)).set ↔ _
  rw [View.set_slice_whole, Rect.mem_set_unit]
  exact Iff.rfl

/-- Every index of the output array is in the block of the point its row falls in. -/
theorem cover3 (i : S10000x1024.Idx) :
    ∃ t : Fin cfg3.N, (cfg3.win 4).flush t = true ∧ i ∈ ((cfg3.win 4).blk t).view.set := by
  have hi0 : (i 0).val < 10000 := (i 0).isLt
  have hi1 : (i 1).val < 1024 := (i 1).isLt
  have hN : cfg3.N = 10 := N_3
  let t : Fin cfg3.N := ⟨(i 0).val / 1000, by omega⟩
  have htv : t.val = (i 0).val / 1000 := rfl
  obtain ⟨e00, e01, e10, e11, e2, e3, eo0, eo1⟩ := index3 t
  refine ⟨t, flush3_4 t, ?_⟩
  rw [mem_block3]
  intro a
  match a with
  | ⟨0, _⟩ => show win3_4.index t (0 : Fin 2) * 1000 ≤ (i 0).val ∧ (i 0).val < win3_4.index t (0 : Fin 2) * 1000 + 1000; omega
  | ⟨1, _⟩ => show win3_4.index t (1 : Fin 2) * 1024 ≤ (i 1).val ∧ (i 1).val < win3_4.index t (1 : Fin 2) * 1024 + 1024; omega

end Cert.Bridge.LN.R3

namespace Cert.Bridge.LN

open Cert.KernelIdeal Cert.KernelIdeal.Gen
open Idealize.ShloMosaic Idealize.ShloMosaic.TcCoe
open Idealize.SL.Sem

variable (V : (c : Dev nD) → (b : Ref sig .tc) → Buf (Elt Ideal) ((c : Thread nD τ).loc b))

/-- THE OUTPUT ARRAY of region 3: `ln` of the region's input arrays. -/
theorem ln3 (c : Dev nD) :
    (dat3 V c).arrAt 4 cfg3.N = ln (addf (F := Ideal) (s := Cert.ReferenceIdeal.S10000x1024) (φ := .f32) (V c main_v70) (V c main_v45)) (V c main_v72) (V c main_v74) :=
  (dat3 V c).arrAt_eq_of_cover 4 _ (fun t _ => R3.flushed3 V c t) R3.cover3

end Cert.Bridge.LN

end
-- ==== Proof.Ln5.lean ====
/-
  Region 5 of the kernel program: the normalisation kernel's output array is `ln` of its input arrays.

  The region runs the normalisation body on ten row blocks of 1000 rows; grid point `t` reads rows
  `1000 t … 1000 t + 999` of its two input matrices and the whole gain and shift vectors, and writes back the same rows of the output.
  The body's stored value at `(p, q)` is `lnRow` of row `p` of the blocks' sum, which is row `1000 t + p` of the matrices' sum;
  `ln` of the whole sum at `(1000 t + p, q)` is the same `lnRow`. So what every grid point writes back is its block of
  one whole-array function, the ten blocks cover the array, and the array ends holding that function.
-/
import proofs.«166496_j23596550324766_1_alg».proof.Proof.Gen.KernelIdeal.Frame
import proofs.«166496_j23596550324766_1_alg».proof.Proof.LnBody
import proofs.«166496_j23596550324766_1_alg».proof.Proof.LnRow
import Idealize.ShloMosaic.Lib.Pipeline.Value

set_option maxRecDepth 16384

noncomputable section

namespace Cert.Bridge.LN.R5

open Cert.KernelIdeal Cert.KernelIdeal.Gen Cert.Bridge.LN
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the ten grid points: the matrix windows are at row block `t`, column block 0; the
    vector windows at block 0. -/
theorem index5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 1) = 0
    ∧ win5_3.index t (0 : Fin 1) = 0
    ∧ win5_4.index t (0 : Fin 2) = t.val
    ∧ win5_4.index t (1 : Fin 2) = 0 :=
  (by decide +kernel : ∀ t : Fin grid5.N, _)

/-- The grid has ten points. -/
theorem lt_ten (t : Fin cfg5.N) : t.val < 10 := by
  have h := t.isLt
  have hN : cfg5.N = 10 := N_5
  omega

/-- Entry `(p, k)` of input window 0's block at grid point `t` is the array's entry `(1000 t + p, k)`. -/
theorem block5_0 (c : Dev nD) (t : Fin cfg5.N) (p : Fin 1000) (k : Fin 1024) (r : Fin 10000) (hr : r.val = t.val * 1000 + p.val) :
    iblk5 V c 0 t (ix2 p k) = V c main_v95 (ix2 r k) := by
  obtain ⟨e00, e01, e10, e11, e2, e3, eo0, eo1⟩ := index5 t
  show V c main_v95 (((cfg5.win 0).blk t).view.emb (ix2 p k)) = V c main_v95 (ix2 r k)
  refine congrArg (V c main_v95) (funext fun a => Fin.ext ?_)
  match a with
  | ⟨0, _⟩ => show win5_0.index t (0 : Fin 2) * 1000 + 1 * p.val = r.val; omega
  | ⟨1, _⟩ => show win5_0.index t (1 : Fin 2) * 1024 + 1 * k.val = k.val; omega

/-- Entry `(p, k)` of input window 1's block at grid point `t` is the array's entry `(1000 t + p, k)`. -/
theorem block5_1 (c : Dev nD) (t : Fin cfg5.N) (p : Fin 1000) (k : Fin 1024) (r : Fin 10000) (hr : r.val = t.val * 1000 + p.val) :
    iblk5 V c 1 t (ix2 p k) = V c main_v45 (ix2 r k) := by
  obtain ⟨e00, e01, e10, e11, e2, e3, eo0, eo1⟩ := index5 t
  show V c main_v45 (((cfg5.win 1).blk t).view.emb (ix2 p k)) = V c main_v45 (ix2 r k)
  refine congrArg (V c main_v45) (funext fun a => Fin.ext ?_)
  match a with
  | ⟨0, _⟩ => show win5_1.index t (0 : Fin 2) * 1000 + 1 * p.val = r.val; omega
  | ⟨1, _⟩ => show win5_1.index t (1 : Fin 2) * 1024 + 1 * k.val = k.val; omega

/-- Entry `q` of input window 2's block, the whole vector at every grid point, is the vector's entry `q`. -/
theorem block5_2 (c : Dev nD) (t : Fin cfg5.N) (q : Fin 1024) :
    iblk5 V c 2 t (ix1 q) = V c main_v97 (ix1 q) := by
  obtain ⟨e00, e01, e10, e11, e2, e3, eo0, eo1⟩ := index5 t
  show V c main_v97 (((cfg5.win 2).blk t).view.emb (ix1 q)) = V c main_v97 (ix1 q)
  refine congrArg (V c main_v97) (funext fun a => Fin.ext ?_)
  match a with
  | ⟨0, _⟩ => show win5_2.index t (0 : Fin 1) * 1024 + 1 * q.val = q.val; omega

/-- Entry `q` of input window 3's block, the whole vector at every grid point, is the vector's entry `q`. -/
theorem block5_3 (c : Dev nD) (t : Fin cfg5.N) (q : Fin 1024) :
    iblk5 V c 3 t (ix1 q) = V c main_v99 (ix1 q) := by
  obtain ⟨e00, e01, e10, e11, e2, e3, eo0, eo1⟩ := index5 t
  show V c main_v99 (((cfg5.win 3).blk t).view.emb (ix1 q)) = V c main_v99 (ix1 q)
  refine congrArg (V c main_v99) (funext fun a => Fin.ext ?_)
  match a with
  | ⟨0, _⟩ => show win5_3.index t (0 : Fin 1) * 1024 + 1 * q.val = q.val; omega

/-- WHAT POINT `t` WRITES BACK is block `t` of `ln` of the input arrays as the region finds them. -/
theorem flushed5 (c : Dev nD) (t : Fin cfg5.N) :
    (dat5 V c).flushed 4 t
      = ((cfg5.win 4).blk t).view.read (Elt Ideal) (ln (addf (F := Ideal) (s := Cert.ReferenceIdeal.S10000x1024) (φ := .f32) (V c main_v95) (V c main_v45)) (V c main_v97) (V c main_v99)) := by
  show (cfg5.win 4).cut (grid5.coords t) ((dat5 V c).after 4 t) = _
  rw [after5_4]
  unfold out5_4
  rw [View.canon_unit_zero zeros2]
  simp only [View.ld_unit_zero (S := S1000x1024) zeros2, View.ld_unit_zero (S := S1024) zeros1]
  obtain ⟨e00, e01, e10, e11, e2, e3, eo0, eo1⟩ := index5 t
  have ht := lt_ten t
  funext j
  obtain ⟨p, q, rfl⟩ : ∃ (p : Fin 1000) (q : Fin 1024), j = ix2 p q := ⟨j 0, j 1, eq_ix2 j⟩
  let r : Fin 10000 := ⟨t.val * 1000 + p.val, by have := p.isLt; omega⟩
  have hemb : ((cfg5.win 4).blk t).view.emb (ix2 p q) = ix2 r q := by
    funext a; apply Fin.ext
    match a with
    | ⟨0, _⟩ => show win5_4.index t (0 : Fin 2) * 1000 + 1 * p.val = t.val * 1000 + p.val; omega
    | ⟨1, _⟩ => show win5_4.index t (1 : Fin 2) * 1024 + 1 * q.val = q.val; omega
  show k5_pay1 (iblk5 V c 0 t) (iblk5 V c 1 t) (iblk5 V c 2 t) (iblk5 V c 3 t) (ix2 p q)
    = ln (addf (F := Ideal) (s := Cert.ReferenceIdeal.S10000x1024) (φ := .f32) (V c main_v95) (V c main_v45)) (V c main_v97) (V c main_v99) (((cfg5.win 4).blk t).view.emb (ix2 p q))
  rw [hemb, ln_apply]
  refine (k5_pay1_apply _ _ _ _ p q).trans ?_
  simp only [block5_0 V c t p _ r rfl, block5_1 V c t p _ r rfl, block5_2 V c t q, block5_3 V c t q]
  rfl

/-- An index of the output array is in point `t`'s block iff each coordinate is in the block's range on its axis. -/
theorem mem_block5 (t : Fin cfg5.N) (i : S10000x1024.Idx) :
    i ∈ ((cfg5.win 4).blk t).view.set ↔ ∀ a : Fin 2, win5_4.index t a * S1000x1024.size a ≤ (i a).val
      ∧ (i a).val < win5_4.index t a * S1000x1024.size a + S1000x1024.size a := by
  show i ∈ ((View.whole main_v100).slice (win5_4.rect t)).set ↔ _
  rw [View.set_slice_whole, Rect.mem_set_unit]
  exact Iff.rfl

/-- Every index of the output array is in the block of the point its row falls in. -/
theorem cover5 (i : S10000x1024.Idx) :
    ∃ t : Fin cfg5.N, (cfg5.win 4).flush t = true ∧ i ∈ ((cfg5.win 4).blk t).view.set := by
  have hi0 : (i 0).val < 10000 := (i 0).isLt
  have hi1 : (i 1).val < 1024 := (i 1).isLt
  have hN : cfg5.N = 10 := N_5
  let t : Fin cfg5.N := ⟨(i 0).val / 1000, by omega⟩
  have htv : t.val = (i 0).val / 1000 := rfl
  obtain ⟨e00, e01, e10, e11, e2, e3, eo0, eo1⟩ := index5 t
  refine ⟨t, flush5_4 t, ?_⟩
  rw [mem_block5]
  intro a
  match a with
  | ⟨0, _⟩ => show win5_4.index t (0 : Fin 2) * 1000 ≤ (i 0).val ∧ (i 0).val < win5_4.index t (0 : Fin 2) * 1000 + 1000; omega
  | ⟨1, _⟩ => show win5_4.index t (1 : Fin 2) * 1024 ≤ (i 1).val ∧ (i 1).val < win5_4.index t (1 : Fin 2) * 1024 + 1024; omega

end Cert.Bridge.LN.R5

namespace Cert.Bridge.LN

open Cert.KernelIdeal Cert.KernelIdeal.Gen
open Idealize.ShloMosaic Idealize.ShloMosaic.TcCoe
open Idealize.SL.Sem

variable (V : (c : Dev nD) → (b : Ref sig .tc) → Buf (Elt Ideal) ((c : Thread nD τ).loc b))

/-- THE OUTPUT ARRAY of region 5: `ln` of the region's input arrays. -/
theorem ln5 (c : Dev nD) :
    (dat5 V c).arrAt 4 cfg5.N = ln (addf (F := Ideal) (s := Cert.ReferenceIdeal.S10000x1024) (φ := .f32) (V c main_v95) (V c main_v45)) (V c main_v97) (V c main_v99) :=
  (dat5 V c).arrAt_eq_of_cover 4 _ (fun t _ => R5.flushed5 V c t) R5.cover5

end Cert.Bridge.LN

end
-- ==== Proof.Ln7.lean ====
/-
  Region 7 of the kernel program: the normalisation kernel's output array is `ln` of its input arrays.

  The region runs the normalisation body on ten row blocks of 1000 rows; grid point `t` reads rows
  `1000 t … 1000 t + 999` of its two input matrices and the whole gain and shift vectors, and writes back the same rows of the output.
  The body's stored value at `(p, q)` is `lnRow` of row `p` of the blocks' sum, which is row `1000 t + p` of the matrices' sum;
  `ln` of the whole sum at `(1000 t + p, q)` is the same `lnRow`. So what every grid point writes back is its block of
  one whole-array function, the ten blocks cover the array, and the array ends holding that function.
-/
import proofs.«166496_j23596550324766_1_alg».proof.Proof.Gen.KernelIdeal.Frame
import proofs.«166496_j23596550324766_1_alg».proof.Proof.LnBody
import proofs.«166496_j23596550324766_1_alg».proof.Proof.LnRow
import Idealize.ShloMosaic.Lib.Pipeline.Value

set_option maxRecDepth 16384

noncomputable section

namespace Cert.Bridge.LN.R7

open Cert.KernelIdeal Cert.KernelIdeal.Gen Cert.Bridge.LN
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the ten grid points: the matrix windows are at row block `t`, column block 0; the
    vector windows at block 0. -/
theorem index7 : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 1) = 0
    ∧ win7_3.index t (0 : Fin 1) = 0
    ∧ win7_4.index t (0 : Fin 2) = t.val
    ∧ win7_4.index t (1 : Fin 2) = 0 :=
  (by decide +kernel : ∀ t : Fin grid7.N, _)

/-- The grid has ten points. -/
theorem lt_ten (t : Fin cfg7.N) : t.val < 10 := by
  have h := t.isLt
  have hN : cfg7.N = 10 := N_7
  omega

/-- Entry `(p, k)` of input window 0's block at grid point `t` is the array's entry `(1000 t + p, k)`. -/
theorem block7_0 (c : Dev nD) (t : Fin cfg7.N) (p : Fin 1000) (k : Fin 1024) (r : Fin 10000) (hr : r.val = t.val * 1000 + p.val) :
    iblk7 V c 0 t (ix2 p k) = V c main_v120 (ix2 r k) := by
  obtain ⟨e00, e01, e10, e11, e2, e3, eo0, eo1⟩ := index7 t
  show V c main_v120 (((cfg7.win 0).blk t).view.emb (ix2 p k)) = V c main_v120 (ix2 r k)
  refine congrArg (V c main_v120) (funext fun a => Fin.ext ?_)
  match a with
  | ⟨0, _⟩ => show win7_0.index t (0 : Fin 2) * 1000 + 1 * p.val = r.val; omega
  | ⟨1, _⟩ => show win7_0.index t (1 : Fin 2) * 1024 + 1 * k.val = k.val; omega

/-- Entry `(p, k)` of input window 1's block at grid point `t` is the array's entry `(1000 t + p, k)`. -/
theorem block7_1 (c : Dev nD) (t : Fin cfg7.N) (p : Fin 1000) (k : Fin 1024) (r : Fin 10000) (hr : r.val = t.val * 1000 + p.val) :
    iblk7 V c 1 t (ix2 p k) = V c main_v100 (ix2 r k) := by
  obtain ⟨e00, e01, e10, e11, e2, e3, eo0, eo1⟩ := index7 t
  show V c main_v100 (((cfg7.win 1).blk t).view.emb (ix2 p k)) = V c main_v100 (ix2 r k)
  refine congrArg (V c main_v100) (funext fun a => Fin.ext ?_)
  match a with
  | ⟨0, _⟩ => show win7_1.index t (0 : Fin 2) * 1000 + 1 * p.val = r.val; omega
  | ⟨1, _⟩ => show win7_1.index t (1 : Fin 2) * 1024 + 1 * k.val = k.val; omega

/-- Entry `q` of input window 2's block, the whole vector at every grid point, is the vector's entry `q`. -/
theorem block7_2 (c : Dev nD) (t : Fin cfg7.N) (q : Fin 1024) :
    iblk7 V c 2 t (ix1 q) = V c main_v122 (ix1 q) := by
  obtain ⟨e00, e01, e10, e11, e2, e3, eo0, eo1⟩ := index7 t
  show V c main_v122 (((cfg7.win 2).blk t).view.emb (ix1 q)) = V c main_v122 (ix1 q)
  refine congrArg (V c main_v122) (funext fun a => Fin.ext ?_)
  match a with
  | ⟨0, _⟩ => show win7_2.index t (0 : Fin 1) * 1024 + 1 * q.val = q.val; omega

/-- Entry `q` of input window 3's block, the whole vector at every grid point, is the vector's entry `q`. -/
theorem block7_3 (c : Dev nD) (t : Fin cfg7.N) (q : Fin 1024) :
    iblk7 V c 3 t (ix1 q) = V c main_v124 (ix1 q) := by
  obtain ⟨e00, e01, e10, e11, e2, e3, eo0, eo1⟩ := index7 t
  show V c main_v124 (((cfg7.win 3).blk t).view.emb (ix1 q)) = V c main_v124 (ix1 q)
  refine congrArg (V c main_v124) (funext fun a => Fin.ext ?_)
  match a with
  | ⟨0, _⟩ => show win7_3.index t (0 : Fin 1) * 1024 + 1 * q.val = q.val; omega

/-- WHAT POINT `t` WRITES BACK is block `t` of `ln` of the input arrays as the region finds them. -/
theorem flushed7 (c : Dev nD) (t : Fin cfg7.N) :
    (dat7 V c).flushed 4 t
      = ((cfg7.win 4).blk t).view.read (Elt Ideal) (ln (addf (F := Ideal) (s := Cert.ReferenceIdeal.S10000x1024) (φ := .f32) (V c main_v120) (V c main_v100)) (V c main_v122) (V c main_v124)) := by
  show (cfg7.win 4).cut (grid7.coords t) ((dat7 V c).after 4 t) = _
  rw [after7_4]
  unfold out7_4
  rw [View.canon_unit_zero zeros2]
  simp only [View.ld_unit_zero (S := S1000x1024) zeros2, View.ld_unit_zero (S := S1024) zeros1]
  obtain ⟨e00, e01, e10, e11, e2, e3, eo0, eo1⟩ := index7 t
  have ht := lt_ten t
  funext j
  obtain ⟨p, q, rfl⟩ : ∃ (p : Fin 1000) (q : Fin 1024), j = ix2 p q := ⟨j 0, j 1, eq_ix2 j⟩
  let r : Fin 10000 := ⟨t.val * 1000 + p.val, by have := p.isLt; omega⟩
  have hemb : ((cfg7.win 4).blk t).view.emb (ix2 p q) = ix2 r q := by
    funext a; apply Fin.ext
    match a with
    | ⟨0, _⟩ => show win7_4.index t (0 : Fin 2) * 1000 + 1 * p.val = t.val * 1000 + p.val; omega
    | ⟨1, _⟩ => show win7_4.index t (1 : Fin 2) * 1024 + 1 * q.val = q.val; omega
  show k7_pay1 (iblk7 V c 0 t) (iblk7 V c 1 t) (iblk7 V c 2 t) (iblk7 V c 3 t) (ix2 p q)
    = ln (addf (F := Ideal) (s := Cert.ReferenceIdeal.S10000x1024) (φ := .f32) (V c main_v120) (V c main_v100)) (V c main_v122) (V c main_v124) (((cfg7.win 4).blk t).view.emb (ix2 p q))
  rw [hemb, ln_apply]
  refine (k7_pay1_apply _ _ _ _ p q).trans ?_
  simp only [block7_0 V c t p _ r rfl, block7_1 V c t p _ r rfl, block7_2 V c t q, block7_3 V c t q]
  rfl

/-- An index of the output array is in point `t`'s block iff each coordinate is in the block's range on its axis. -/
theorem mem_block7 (t : Fin cfg7.N) (i : S10000x1024.Idx) :
    i ∈ ((cfg7.win 4).blk t).view.set ↔ ∀ a : Fin 2, win7_4.index t a * S1000x1024.size a ≤ (i a).val
      ∧ (i a).val < win7_4.index t a * S1000x1024.size a + S1000x1024.size a := by
  show i ∈ ((View.whole main_v125).slice (win7_4.rect t)).set ↔ _
  rw [View.set_slice_whole, Rect.mem_set_unit]
  exact Iff.rfl

/-- Every index of the output array is in the block of the point its row falls in. -/
theorem cover7 (i : S10000x1024.Idx) :
    ∃ t : Fin cfg7.N, (cfg7.win 4).flush t = true ∧ i ∈ ((cfg7.win 4).blk t).view.set := by
  have hi0 : (i 0).val < 10000 := (i 0).isLt
  have hi1 : (i 1).val < 1024 := (i 1).isLt
  have hN : cfg7.N = 10 := N_7
  let t : Fin cfg7.N := ⟨(i 0).val / 1000, by omega⟩
  have htv : t.val = (i 0).val / 1000 := rfl
  obtain ⟨e00, e01, e10, e11, e2, e3, eo0, eo1⟩ := index7 t
  refine ⟨t, flush7_4 t, ?_⟩
  rw [mem_block7]
  intro a
  match a with
  | ⟨0, _⟩ => show win7_4.index t (0 : Fin 2) * 1000 ≤ (i 0).val ∧ (i 0).val < win7_4.index t (0 : Fin 2) * 1000 + 1000; omega
  | ⟨1, _⟩ => show win7_4.index t (1 : Fin 2) * 1024 ≤ (i 1).val ∧ (i 1).val < win7_4.index t (1 : Fin 2) * 1024 + 1024; omega

end Cert.Bridge.LN.R7

namespace Cert.Bridge.LN

open Cert.KernelIdeal Cert.KernelIdeal.Gen
open Idealize.ShloMosaic Idealize.ShloMosaic.TcCoe
open Idealize.SL.Sem

variable (V : (c : Dev nD) → (b : Ref sig .tc) → Buf (Elt Ideal) ((c : Thread nD τ).loc b))

/-- THE OUTPUT ARRAY of region 7: `ln` of the region's input arrays. -/
theorem ln7 (c : Dev nD) :
    (dat7 V c).arrAt 4 cfg7.N = ln (addf (F := Ideal) (s := Cert.ReferenceIdeal.S10000x1024) (φ := .f32) (V c main_v120) (V c main_v100)) (V c main_v122) (V c main_v124) :=
  (dat7 V c).arrAt_eq_of_cover 4 _ (fun t _ => R7.flushed7 V c t) R7.cover7

end Cert.Bridge.LN

end
-- ==== Proof.LnRef.lean ====
/-
  The reference's four layer normalisations are `ln`.

  Each of them is printed as twenty-five array operations, from the sum along the rows of a [10000, 1024] matrix to the
  maximum with the splat of zero. Operation by operation they are the chain `ln` is defined as, applied to the matrix the
  first sum reads and to the gain and shift vectors the two row broadcasts read; so each equation holds by opening the
  definitions on both sides.
-/
import proofs.«166496_j23596550324766_1_alg».proof.Proof.RefRead
import proofs.«166496_j23596550324766_1_alg».proof.Proof.LnRow

noncomputable section

namespace Cert.Bridge.LN

open Cert.ReferenceIdeal Cert.ReferenceIdeal.Gen Cert.ReferenceIdeal.ReadP Idealize.ShloMosaic

/-- The reference's normalisation 1: the operations from the row sums to the rectifier are `ln` of the matrix, gain and shift
    they start from. -/
theorem ref1 (x0 : (⟨S10000x128, .f32⟩ : BufTy).Contents (Elt Ideal)) (x1 : (⟨S2x160000, .i32⟩ : BufTy).Contents (Elt Ideal)) (x3 : (⟨S128x1024, .f32⟩ : BufTy).Contents (Elt Ideal)) (x4 : (⟨S1024, .f32⟩ : BufTy).Contents (Elt Ideal)) (x7 x8 : (⟨S4x1024, .f32⟩ : BufTy).Contents (Elt Ideal)) :
    val_main_v74 (F := Ideal) x0 x1 x3 x4 x7 x8
      = ln (val_main_v45 (F := Ideal) x0 x1 x3 x4) (val_main_v47 (F := Ideal) x7) (val_main_v49 (F := Ideal) x8) := by
  unfold val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50
    val_main_call0_v0 val_main_call0_cst val_main_cst_8 val_main_cst_9 val_main_cst_10 val_main_cst_11 val_main_cst_12
  unfold ln lnScale lnVar lnCentred lnMean
  rfl

/-- The reference's normalisation 2: the operations from the row sums to the rectifier are `ln` of the matrix, gain and shift
    they start from. -/
theorem ref3 (x0 : (⟨S10000x128, .f32⟩ : BufTy).Contents (Elt Ideal)) (x1 : (⟨S2x160000, .i32⟩ : BufTy).Contents (Elt Ideal)) (x3 : (⟨S128x1024, .f32⟩ : BufTy).Contents (Elt Ideal)) (x4 : (⟨S1024, .f32⟩ : BufTy).Contents (Elt Ideal)) (x5 : (⟨S3x1024x1024, .f32⟩ : BufTy).Contents (Elt Ideal)) (x6 : (⟨S3x1024, .f32⟩ : BufTy).Contents (Elt Ideal)) (x7 x8 : (⟨S4x1024, .f32⟩ : BufTy).Contents (Elt Ideal)) :
    val_main_v124 (F := Ideal) x0 x1 x3 x4 x5 x6 x7 x8
      = ln (val_main_v95 (F := Ideal) x0 x1 x3 x4 x5 x6 x7 x8) (val_main_v97 (F := Ideal) x7) (val_main_v99 (F := Ideal) x8) := by
  unfold val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100
    val_main_call1_v0 val_main_call1_cst val_main_cst_16 val_main_cst_17 val_main_cst_18 val_main_cst_19 val_main_cst_20
  unfold ln lnScale lnVar lnCentred lnMean
  rfl

/-- The reference's normalisation 3: the operations from the row sums to the rectifier are `ln` of the matrix, gain and shift
    they start from. -/
theorem ref5 (x0 : (⟨S10000x128, .f32⟩ : BufTy).Contents (Elt Ideal)) (x1 : (⟨S2x160000, .i32⟩ : BufTy).Contents (Elt Ideal)) (x3 : (⟨S128x1024, .f32⟩ : BufTy).Contents (Elt Ideal)) (x4 : (⟨S1024, .f32⟩ : BufTy).Contents (Elt Ideal)) (x5 : (⟨S3x1024x1024, .f32⟩ : BufTy).Contents (Elt Ideal)) (x6 : (⟨S3x1024, .f32⟩ : BufTy).Contents (Elt Ideal)) (x7 x8 : (⟨S4x1024, .f32⟩ : BufTy).Contents (Elt Ideal)) :
    val_main_v174 (F := Ideal) x0 x1 x3 x4 x5 x6 x7 x8
      = ln (val_main_v145 (F := Ideal) x0 x1 x3 x4 x5 x6 x7 x8) (val_main_v147 (F := Ideal) x7) (val_main_v149 (F := Ideal) x8) := by
  unfold val_main_v174 val_main_v173 val_main_v172 val_main_v171 val_main_v170 val_main_v169 val_main_v168 val_main_v167 val_main_v166 val_main_v165 val_main_v164 val_main_v163 val_main_v162 val_main_v161 val_main_v160 val_main_v159 val_main_v158 val_main_v157 val_main_v156 val_main_v155 val_main_v154 val_main_v153 val_main_v152 val_main_v151 val_main_v150
    val_main_call2_v0 val_main_call2_cst val_main_cst_24 val_main_cst_25 val_main_cst_26 val_main_cst_27 val_main_cst_28
  unfold ln lnScale lnVar lnCentred lnMean
  rfl

/-- The reference's normalisation 4: the operations from the row sums to the rectifier are `ln` of the matrix, gain and shift
    they start from. -/
theorem ref7 (x0 : (⟨S10000x128, .f32⟩ : BufTy).Contents (Elt Ideal)) (x1 : (⟨S2x160000, .i32⟩ : BufTy).Contents (Elt Ideal)) (x3 : (⟨S128x1024, .f32⟩ : BufTy).Contents (Elt Ideal)) (x4 : (⟨S1024, .f32⟩ : BufTy).Contents (Elt Ideal)) (x5 : (⟨S3x1024x1024, .f32⟩ : BufTy).Contents (Elt Ideal)) (x6 : (⟨S3x1024, .f32⟩ : BufTy).Contents (Elt Ideal)) (x7 x8 : (⟨S4x1024, .f32⟩ : BufTy).Contents (Elt Ideal)) :
    val_main_v224 (F := Ideal) x0 x1 x3 x4 x5 x6 x7 x8
      = ln (val_main_v195 (F := Ideal) x0 x1 x3 x4 x5 x6 x7 x8) (val_main_v197 (F := Ideal) x7) (val_main_v199 (F := Ideal) x8) := by
  unfold val_main_v224 val_main_v223 val_main_v222 val_main_v221 val_main_v220 val_main_v219 val_main_v218 val_main_v217 val_main_v216 val_main_v215 val_main_v214 val_main_v213 val_main_v212 val_main_v211 val_main_v210 val_main_v209 val_main_v208 val_main_v207 val_main_v206 val_main_v205 val_main_v204 val_main_v203 val_main_v202 val_main_v201 val_main_v200
    val_main_call3_v0 val_main_call3_cst val_main_cst_32 val_main_cst_33 val_main_cst_34 val_main_cst_35 val_main_cst_36
  unfold ln lnScale lnVar lnCentred lnMean
  rfl

end Cert.Bridge.LN

end
-- ==== Proof.MlpLayer.lean ====
/-
  One hidden layer of a small dense network, written two ways, over the extended reals.

  A layer takes an 8 × 1024 activation v, a stack of six 1024 × 1024 weight matrices w and a stack of six bias rows b,
  and answers max (v · w[i] + b[i], 0) for one layer number i. The first way reads the stacks as a host program does:
  slice out block i, drop the unit axis, multiply by the host's product, spread the bias row over the eight rows by
  two broadcasts, compare with a splat of zero. The second way is a kernel's: the block i arrives as a load through
  the rectangle that starts at row i of the stack, the product accumulates into a zero splat, the bias row is cast
  to a vector and back before one broadcast, and the result is narrowed to a shorter float format.

  Over the extended reals a format change is the identity and the two products are the same sum, so the two ways
  are the same function of (v, w, b); everything below is that statement and its ingredients.
-/
import Idealize.ShloMosaic.Lib.ValueIdx
import Idealize.ShloMosaic.Lib.Pipeline.Value
import Idealize.ShloMosaic.Lib.ValueLayout
import Idealize.ShloMosaic.PureOps.Ideal.Laws

noncomputable section

namespace Cert.Bridge.MLP

open Idealize.ShloMosaic Idealize.ShloMosaic.ValueIdx

/-! ## Format changes, products, loads -/

/-- Over the extended reals narrowing a float format changes nothing. -/
theorem truncf_ideal {s : Shape} {φ : FTy} (ψ : FTy) (x : FVec Ideal s φ) (h : ψ.bits < φ.bits) :
    truncf (F := Ideal) ψ x h = x := rfl

/-- A kernel's product into the zero splat is the host's product of the same operands, whatever formats the
    operands are typed at: both are the sum over the contracted axis. -/
theorem matmul_zero_eq_dotGeneral {sl sr so : Shape} {φ₁ φ₂ ψ₁ ψ₂ : FTy} (d : DotDims sl sr so)
    (prec prec' : Option ContractPrecision) (l : sl.Idx → EReal) (r : sr.Idx → EReal) :
    matmul (F := Ideal) (φ₁ := φ₁) (φ₂ := φ₂) d prec l r (constant (F := Ideal) so .f32 0x00000000#32)
      = Host.dotGeneral (F := Ideal) (φ₁ := ψ₁) (φ₂ := ψ₂) d prec' l r := by
  funext j
  show FloatOps.matmul (F := Ideal) (φ₁ := φ₁) (φ₂ := φ₂) d prec l r (constant (F := Ideal) so .f32 0x00000000#32) j
    = FloatOps.dotGeneral (F := Ideal) (φ₁ := ψ₁) (φ₂ := ψ₂) d prec' .single l r j
  rw [Ideal.matmul_constant_zero_apply, Ideal.dotGeneral_apply]

/-- A load through the unit-stride rectangle at offsets off is the slice at those offsets. -/
theorem ld_unit_eq_slice {s : Shape} {Val : EltTy → Type} {e : EltTy} (off size : Fin s.rank → Nat)
    (inb : ∀ a, off a + size a ≤ s.size a) (X : s.Idx → Val e) (h : s.Slices off ⟨s.rank, size⟩) :
    View.ld X (Rect.unit off size inb) = extractStridedSlice ⟨s.rank, size⟩ off X h := by
  funext j
  unfold extractStridedSlice
  show X _ = X _
  congr 1
  funext a
  apply Fin.ext
  show off a + 1 * (j a).val = off a + (j a).val
  rw [Nat.one_mul]

/-! ## A bias row spread over the rows, two ways -/

section Bias
variable {α : Type} {a c : Nat}

/-- The host's way: the [1, c] block flattened to [c], given its unit axis back by one broadcast and spread over
    the a rows by another, reads at (p, q) the block's row at q. -/
theorem bcastInDim_row_apply (B : (⟨2, ![1, c]⟩ : Shape).Idx → α)
    (g1 : (⟨2, ![1, c]⟩ : Shape).ShapeCasts ⟨1, ![c]⟩)
    (g2 : (⟨1, ![c]⟩ : Shape).BroadcastsInDim ⟨2, ![1, c]⟩ (![1] : Fin 1 → Fin 2))
    (g3 : (⟨2, ![1, c]⟩ : Shape).BroadcastsInDim ⟨2, ![a, c]⟩ (![0, 1] : Fin 2 → Fin 2)) (p : Fin a) (q : Fin c) :
    broadcastInDim ⟨2, ![a, c]⟩ ![0, 1] g3 (broadcastInDim ⟨2, ![1, c]⟩ ![1] g2 (shapeCast ⟨1, ![c]⟩ B g1)) (ix2 p q)
      = B (ix2 (0 : Fin 1) q) := by
  refine (broadcastInDim_apply _ g3 _ (ix2 p q) (ix2 (0 : Fin 1) q) fun ax => ?_).trans ?_
  · match ax with
    | ⟨0, _⟩ => show 0 = if (1 : Nat) = 1 then 0 else p.val; rw [if_pos rfl]
    | ⟨1, _⟩ =>
      show q.val = if c = 1 then 0 else q.val
      split
      · have := q.isLt; omega
      · rfl
  refine (broadcastInDim_apply _ g2 _ (ix2 (0 : Fin 1) q) (ix1 q) fun ax => ?_).trans ?_
  · match ax with
    | ⟨0, _⟩ =>
      show q.val = if c = 1 then 0 else q.val
      split
      · have := q.isLt; omega
      · rfl
  exact shapeCast_1a_a_apply B g1 q

/-- The kernel's way: the [1, c] block cast to [c] and back, then spread over the a rows by one broadcast, reads the
    same. -/
theorem bcastTo_row_apply (B : (⟨2, ![1, c]⟩ : Shape).Idx → α)
    (h1 : (⟨2, ![1, c]⟩ : Shape).ShapeCasts ⟨1, ![c]⟩) (h2 : (⟨1, ![c]⟩ : Shape).ShapeCasts ⟨2, ![1, c]⟩)
    (h3 : (⟨2, ![1, c]⟩ : Shape).Broadcasts ⟨2, ![a, c]⟩) (p : Fin a) (q : Fin c) :
    broadcastTo ⟨2, ![a, c]⟩ (shapeCast ⟨2, ![1, c]⟩ (shapeCast ⟨1, ![c]⟩ B h1) h2) h3 (ix2 p q)
      = B (ix2 (0 : Fin 1) q) := by
  rw [shapeCast_shapeCast]
  exact broadcastTo_1b_ab_apply B h3 p q

/-- So the two spreads are the same array. -/
theorem bcastTo_row_eq_bcastInDim_row (B : (⟨2, ![1, c]⟩ : Shape).Idx → α)
    (h1 : (⟨2, ![1, c]⟩ : Shape).ShapeCasts ⟨1, ![c]⟩) (h2 : (⟨1, ![c]⟩ : Shape).ShapeCasts ⟨2, ![1, c]⟩)
    (h3 : (⟨2, ![1, c]⟩ : Shape).Broadcasts ⟨2, ![a, c]⟩)
    (g1 : (⟨2, ![1, c]⟩ : Shape).ShapeCasts ⟨1, ![c]⟩)
    (g2 : (⟨1, ![c]⟩ : Shape).BroadcastsInDim ⟨2, ![1, c]⟩ (![1] : Fin 1 → Fin 2))
    (g3 : (⟨2, ![1, c]⟩ : Shape).BroadcastsInDim ⟨2, ![a, c]⟩ (![0, 1] : Fin 2 → Fin 2)) :
    broadcastTo ⟨2, ![a, c]⟩ (shapeCast ⟨2, ![1, c]⟩ (shapeCast ⟨1, ![c]⟩ B h1) h2) h3
      = broadcastInDim ⟨2, ![a, c]⟩ ![0, 1] g3 (broadcastInDim ⟨2, ![1, c]⟩ ![1] g2 (shapeCast ⟨1, ![c]⟩ B g1)) := by
  have key : ∀ (p : Fin a) (q : Fin c),
      broadcastTo ⟨2, ![a, c]⟩ (shapeCast ⟨2, ![1, c]⟩ (shapeCast ⟨1, ![c]⟩ B h1) h2) h3 (ix2 p q)
        = broadcastInDim ⟨2, ![a, c]⟩ ![0, 1] g3 (broadcastInDim ⟨2, ![1, c]⟩ ![1] g2 (shapeCast ⟨1, ![c]⟩ B g1)) (ix2 p q) :=
    fun p q => by rw [bcastTo_row_apply, bcastInDim_row_apply]
  funext i
  exact (congrArg _ (eq_ix2 i)).trans ((key (i 0) (i 1)).trans (congrArg _ (eq_ix2 i).symm))

end Bias

/-- The zero every rectifier compares with: a scalar zero splat by a kernel's broadcast is the rank-0 zero constant
    spread by the host's. -/
theorem zero_splat_eq (s : Shape) (g : (⟨0, ![]⟩ : Shape).BroadcastsInDim s (![] : Fin 0 → Fin s.rank)) :
    broadcast s (Scalar.ofBits (F := Ideal) .f32 0x00000000#32)
      = broadcastInDim s ![] g (constant (F := Ideal) ⟨0, ![]⟩ .f32 0x00000000#32) := rfl

/-! ## The layer, two ways -/

section Layer

/-- The shapes of one layer: the activation, the stack of weights and one block of it, a weight matrix, the stack
    of bias rows, one block of it, a bias vector. -/
abbrev SAct : Shape := ⟨2, ![8, 1024]⟩
abbrev SWs : Shape := ⟨3, ![6, 1024, 1024]⟩
abbrev SW1 : Shape := ⟨3, ![1, 1024, 1024]⟩
abbrev SW : Shape := ⟨2, ![1024, 1024]⟩
abbrev SBs : Shape := ⟨2, ![6, 1024]⟩
abbrev SB1 : Shape := ⟨2, ![1, 1024]⟩
abbrev SB : Shape := ⟨1, ![1024]⟩

variable (d : DotDims SAct SW SAct)

/-- Layer i as a host program writes it: max (v · w[i] + b[i], 0). -/
def layer (i : Nat) (hw : SWs.Slices ![i, 0, 0] SW1) (cw : SW1.ShapeCasts SW) (hb : SBs.Slices ![i, 0] SB1)
    (cb : SB1.ShapeCasts SB) (g2 : SB.BroadcastsInDim SB1 (![1] : Fin 1 → Fin 2))
    (g3 : SB1.BroadcastsInDim SAct (![0, 1] : Fin 2 → Fin 2))
    (g0 : (⟨0, ![]⟩ : Shape).BroadcastsInDim SAct (![] : Fin 0 → Fin 2))
    (v : FVec Ideal SAct .f32) (w : FVec Ideal SWs .f32) (b : FVec Ideal SBs .f32) : FVec Ideal SAct .f32 :=
  maximumf
    (addf (Host.dotGeneral d none v (shapeCast SW (extractStridedSlice SW1 ![i, 0, 0] w hw) cw))
      (broadcastInDim SAct ![0, 1] g3 (broadcastInDim SB1 ![1] g2 (shapeCast SB (extractStridedSlice SB1 ![i, 0] b hb) cb))))
    (broadcastInDim SAct ![] g0 (constant (F := Ideal) ⟨0, ![]⟩ .f32 0x00000000#32))

/-- A layer as a kernel writes it, from the activation in the short format, one loaded block of weights in the short
    format and one loaded bias row: the result narrowed to the short format again. -/
def klayer (cw : SW1.ShapeCasts SW) (h1 : SB1.ShapeCasts SB) (h2 : SB.ShapeCasts SB1) (h3 : SB1.Broadcasts SAct)
    (hbits : FTy.bf16.bits < FTy.f32.bits)
    (v : FVec Ideal SAct .bf16) (W : FVec Ideal SW1 .bf16) (B : FVec Ideal SB1 .f32) : FVec Ideal SAct .bf16 :=
  truncf .bf16
    (maximumf
      (addf (matmul d none v (shapeCast SW W cw : FVec Ideal SW .bf16) (constant (F := Ideal) SAct .f32 0x00000000#32))
        (broadcastTo SAct (shapeCast SB1 (shapeCast SB B h1) h2) h3))
      (broadcast SAct (Scalar.ofBits (F := Ideal) .f32 0x00000000#32))) hbits

/-- The kernel's layer over the blocks loaded at row i of the two stacks is the host's layer i. -/
theorem klayer_ld_eq_layer (i : Nat) (hw : SWs.Slices ![i, 0, 0] SW1) (cw : SW1.ShapeCasts SW)
    (hb : SBs.Slices ![i, 0] SB1) (cb : SB1.ShapeCasts SB) (g2 : SB.BroadcastsInDim SB1 (![1] : Fin 1 → Fin 2))
    (g3 : SB1.BroadcastsInDim SAct (![0, 1] : Fin 2 → Fin 2))
    (g0 : (⟨0, ![]⟩ : Shape).BroadcastsInDim SAct (![] : Fin 0 → Fin 2))
    (cw' : SW1.ShapeCasts SW) (h1 : SB1.ShapeCasts SB) (h2 : SB.ShapeCasts SB1) (h3 : SB1.Broadcasts SAct)
    (hbits : FTy.bf16.bits < FTy.f32.bits)
    (inbw : ∀ a, (![i, 0, 0] : Fin 3 → Nat) a + SW1.size a ≤ SWs.size a)
    (inbb : ∀ a, (![i, 0] : Fin 2 → Nat) a + SB1.size a ≤ SBs.size a)
    (v : SAct.Idx → EReal) (w : SWs.Idx → EReal) (b : SBs.Idx → EReal) :
    klayer d cw' h1 h2 h3 hbits v (View.ld (Val := Elt Ideal) (e' := .bf16) w (Rect.unit ![i, 0, 0] SW1.size inbw))
        (View.ld (Val := Elt Ideal) (e' := .f32) b (Rect.unit ![i, 0] SB1.size inbb))
      = layer d i hw cw hb cb g2 g3 g0 v w b := by
  have eW : View.ld (Val := Elt Ideal) (e' := .bf16) w (Rect.unit ![i, 0, 0] SW1.size inbw)
      = extractStridedSlice SW1 ![i, 0, 0] w hw :=
    ld_unit_eq_slice (s := SWs) (Val := Elt Ideal) (e := .bf16) ![i, 0, 0] SW1.size inbw w hw
  have eB : View.ld (Val := Elt Ideal) (e' := .f32) b (Rect.unit ![i, 0] SB1.size inbb)
      = extractStridedSlice SB1 ![i, 0] b hb :=
    ld_unit_eq_slice (s := SBs) (Val := Elt Ideal) (e := .f32) ![i, 0] SB1.size inbb b hb
  unfold klayer layer
  rw [truncf_ideal, eW, eB, matmul_zero_eq_dotGeneral (ψ₁ := .f32) (ψ₂ := .f32) d none none,
    bcastTo_row_eq_bcastInDim_row _ h1 h2 h3 cb g2 g3, zero_splat_eq SAct g0]

end Layer

end Cert.Bridge.MLP

end
-- ==== Proof.MlpHead.lean ====
/-
  The head of the network as the reference program computes it: six rectified dense layers over the pooled
  embedding, then a product with one output column, a bias, and the unit axis dropped.

  Each layer is max (v · w[i] + b[i], 0) with w[i] the i-th 1024 × 1024 block of the stacked weights and b[i] the i-th
  row of the stacked biases; the definition spells the layers with exactly the operations and shape records of the
  reference's own stages, so that the reference's last stage is this function of its pooled embedding and of its
  last four arguments by unfolding.
-/
import proofs.«166496_j23596550324766_1_alg».proof.Proof.RefRead
import proofs.«166496_j23596550324766_1_alg».proof.Proof.MlpLayer

noncomputable section

namespace Cert.Bridge.MLP

open Cert.ReferenceIdeal Cert.ReferenceIdeal.Gen Idealize.ShloMosaic

/-- Layer i over the reference's shape records. -/
def refLayer (i : Nat) (hw : S6x1024x1024.Slices ![i, 0, 0] S1x1024x1024) (hb : S6x1024.Slices ![i, 0] S1x1024)
    (v : FVec Ideal S8x1024 .f32) (w : FVec Ideal S6x1024x1024 .f32) (b : FVec Ideal S6x1024 .f32) :
    FVec Ideal S8x1024 .f32 :=
  layer dot_S8x1024_S1024x1024_S8x1024_1_0_0_1_n_n i hw shapeCasts_S1x1024x1024_S1024x1024 hb shapeCasts_S1x1024_S1024
    bcast_S1024_S1x1024_1 bcast_S1x1024_S8x1024_0_1 bcast_S_S8x1024 v w b

/-- The six layers in turn. -/
def hidden (v : FVec Ideal S8x1024 .f32) (w : FVec Ideal S6x1024x1024 .f32) (b : FVec Ideal S6x1024 .f32) :
    FVec Ideal S8x1024 .f32 :=
  refLayer 5 slices_S6x1024x1024_S1x1024x1024_5_0_0 slices_S6x1024_S1x1024_5_0
    (refLayer 4 slices_S6x1024x1024_S1x1024x1024_4_0_0 slices_S6x1024_S1x1024_4_0
      (refLayer 3 slices_S6x1024x1024_S1x1024x1024_3_0_0 slices_S6x1024_S1x1024_3_0
        (refLayer 2 slices_S6x1024x1024_S1x1024x1024_2_0_0 slices_S6x1024_S1x1024_2_0
          (refLayer 1 slices_S6x1024x1024_S1x1024x1024_1_0_0 slices_S6x1024_S1x1024_1_0
            (refLayer 0 slices_S6x1024x1024_S1x1024x1024_0_0_0 slices_S6x1024_S1x1024_0_0 v w b) w b) w b) w b) w b) w b

/-- The head: the six layers, the product with the output column, the output bias, the unit axis dropped. -/
def head (v : FVec Ideal S8x1024 .f32) (w : FVec Ideal S6x1024x1024 .f32) (b : FVec Ideal S6x1024 .f32)
    (wo : FVec Ideal S1024x1 .f32) (bo : FVec Ideal S1 .f32) : FVec Ideal S8 .f32 :=
  shapeCast S8
    (addf (Host.dotGeneral dot_S8x1024_S1024x1_S8x1_1_0_0_1_n_n none (hidden v w b) wo)
      (broadcastInDim S8x1 ![0, 1] bcast_S1x1_S8x1_0_1 (broadcastInDim S1x1 ![1] bcast_S1_S1x1_1 bo)))
    shapeCasts_S8x1_S8

open Cert.ReferenceIdeal.ReadP in
/-- The reference's last stage is the head of its pooled embedding and its last four arguments. -/
theorem refhead (x0 : (⟨S10000x128, .f32⟩ : BufTy).Contents (Elt Ideal)) (x1 : (⟨S2x160000, .i32⟩ : BufTy).Contents (Elt Ideal)) (x2 : (⟨S10000, .i32⟩ : BufTy).Contents (Elt Ideal)) (x3 : (⟨S128x1024, .f32⟩ : BufTy).Contents (Elt Ideal)) (x4 : (⟨S1024, .f32⟩ : BufTy).Contents (Elt Ideal)) (x5 : (⟨S3x1024x1024, .f32⟩ : BufTy).Contents (Elt Ideal)) (x6 : (⟨S3x1024, .f32⟩ : BufTy).Contents (Elt Ideal)) (x7 x8 : (⟨S4x1024, .f32⟩ : BufTy).Contents (Elt Ideal)) (x9 : (⟨S6x1024x1024, .f32⟩ : BufTy).Contents (Elt Ideal)) (x10 : (⟨S6x1024, .f32⟩ : BufTy).Contents (Elt Ideal)) (x11 : (⟨S1024x1, .f32⟩ : BufTy).Contents (Elt Ideal)) (x12 : (⟨S1, .f32⟩ : BufTy).Contents (Elt Ideal)) :
    val_main_v295 (F := Ideal) x0 x1 x2 x3 x4 x5 x6 x7 x8 x9 x10 x11 x12
      = head (val_main_v236 (F := Ideal) x0 x1 x2 x3 x4 x5 x6 x7 x8) x9 x10 x11 x12 := by
  unfold val_main_v295 val_main_v294 val_main_v293 val_main_v292 val_main_v291
    val_main_v290 val_main_call9_v0 val_main_call9_cst val_main_v289 val_main_v288 val_main_v287 val_main_v286 val_main_v285 val_main_v284 val_main_v283 val_main_v282
    val_main_v281 val_main_call8_v0 val_main_call8_cst val_main_v280 val_main_v279 val_main_v278 val_main_v277 val_main_v276 val_main_v275 val_main_v274 val_main_v273
    val_main_v272 val_main_call7_v0 val_main_call7_cst val_main_v271 val_main_v270 val_main_v269 val_main_v268 val_main_v267 val_main_v266 val_main_v265 val_main_v264
    val_main_v263 val_main_call6_v0 val_main_call6_cst val_main_v262 val_main_v261 val_main_v260 val_main_v259 val_main_v258 val_main_v257 val_main_v256 val_main_v255
    val_main_v254 val_main_call5_v0 val_main_call5_cst val_main_v253 val_main_v252 val_main_v251 val_main_v250 val_main_v249 val_main_v248 val_main_v247 val_main_v246
    val_main_v245 val_main_call4_v0 val_main_call4_cst val_main_v244 val_main_v243 val_main_v242 val_main_v241 val_main_v240 val_main_v239 val_main_v238 val_main_v237
    head hidden refLayer layer
  rfl

end Cert.Bridge.MLP

end
-- ==== Proof.MlpBody.lean ====
/-
  The kernel's head of the network, read as six layers and an output product.

  The body's three payloads are the same layer text six times over: the activation (narrowed to the short float
  format) times one loaded block of the stacked weights, plus one loaded bias row, rectified and narrowed again; then
  a product with the output column into a zero splat, the output bias spread over the eight rows, and the unit axis
  dropped. The statements below name that structure; they hold by unfolding.
-/
import proofs.«166496_j23596550324766_1_alg».proof.Proof.Gen.KernelIdeal.Skeleton
import proofs.«166496_j23596550324766_1_alg».proof.Proof.MlpLayer

noncomputable section

namespace Cert.Bridge.MLP

open Cert.KernelIdeal Cert.KernelIdeal.Gen Idealize.ShloMosaic Idealize.ShloMosaic.ValueIdx

/-- The kernel's layer over its own shape records. -/
abbrev kl (v : FVec Ideal S8x1024 .bf16) (W : Vec Ideal S1x1024x1024 .bf16) (B : Vec Ideal S1x1024 .f32) :
    FVec Ideal S8x1024 .bf16 :=
  klayer dot_S8x1024_S1024x1024_S8x1024_1_0_0_1_n_n shapeCasts_S1x1024x1024_S1024x1024 shapeCasts_S1x1024_S1024
    shapeCasts_S1024_S1x1024 broadcasts_S1x1024_S8x1024 bitsLt_bf16_f32 v W B

/-- The first payload: the embedding narrowed, then layers 0, 1, 2. -/
theorem pay2_eq (v0 : Vec Ideal S8x1024 .f32) (v3 : Vec Ideal S1x1024x1024 .bf16) (v5 : Vec Ideal S1x1024 .f32)
    (v14 : Vec Ideal S1x1024x1024 .bf16) (v16 : Vec Ideal S1x1024 .f32) (v25 : Vec Ideal S1x1024x1024 .bf16)
    (v27 : Vec Ideal S1x1024 .f32) :
    k8_pay2 (F := Ideal) v0 v3 v5 v14 v16 v25 v27
      = kl (kl (kl (truncf .bf16 (shapeCast S8x1024 v0 shapeCasts_S8x1024_S8x1024 : FVec Ideal S8x1024 .f32) bitsLt_bf16_f32) v3 v5) v14 v16) v25 v27 :=
  rfl

/-- The second payload: layers 3, 4, 5, then the product with the output column into the zero splat. -/
theorem pay3_eq (v35 : FVec Ideal S8x1024 .bf16) (v36 : Vec Ideal S1x1024x1024 .bf16) (v38 : Vec Ideal S1x1024 .f32)
    (v47 : Vec Ideal S1x1024x1024 .bf16) (v49 : Vec Ideal S1x1024 .f32) (v58 : Vec Ideal S1x1024x1024 .bf16)
    (v60 : Vec Ideal S1x1024 .f32) (v69 : Vec Ideal S1024x1 .bf16) :
    k8_pay3 (F := Ideal) v35 v36 v38 v47 v49 v58 v60 v69
      = matmul dot_S8x1024_S1024x1_S8x1_1_0_0_1_n_n none (kl (kl (kl v35 v36 v38) v47 v49) v58 v60)
          (shapeCast S1024x1 v69 shapeCasts_S1024x1_S1024x1 : FVec Ideal S1024x1 .bf16)
          (constant (F := Ideal) S8x1 .f32 0x00000000#32) :=
  rfl

/-- The last payload: the output bias spread over the eight rows and added, the unit axis dropped. -/
theorem pay1_eq (v71 : FVec Ideal S8x1 .f32) (v72 : Vec Ideal S1 .f32) :
    k8_pay1 (F := Ideal) v71 v72
      = shapeCast S8 (addf v71 (broadcastTo S8x1 (shapeCast S1x1 v72 shapeCasts_S1_S1x1 : FVec Ideal S1x1 .f32) broadcasts_S1x1_S8x1))
          shapeCasts_S8x1_S8 :=
  rfl

/-! ## The output bias spread over the rows, two ways -/

section OutBias
variable {α : Type} {a : Nat}

/-- A one-element vector cast to 1 × 1 and spread over a rows by one broadcast is the same array as the vector given
    its unit axis and spread by two host broadcasts: every entry is the one element. -/
theorem bcast_one_eq (x : (⟨1, ![1]⟩ : Shape).Idx → α)
    (h1 : (⟨1, ![1]⟩ : Shape).ShapeCasts ⟨2, ![1, 1]⟩) (h2 : (⟨2, ![1, 1]⟩ : Shape).Broadcasts ⟨2, ![a, 1]⟩)
    (g1 : (⟨1, ![1]⟩ : Shape).BroadcastsInDim ⟨2, ![1, 1]⟩ (![1] : Fin 1 → Fin 2))
    (g2 : (⟨2, ![1, 1]⟩ : Shape).BroadcastsInDim ⟨2, ![a, 1]⟩ (![0, 1] : Fin 2 → Fin 2)) :
    broadcastTo ⟨2, ![a, 1]⟩ (shapeCast ⟨2, ![1, 1]⟩ x h1) h2
      = broadcastInDim ⟨2, ![a, 1]⟩ ![0, 1] g2 (broadcastInDim ⟨2, ![1, 1]⟩ ![1] g1 x) := by
  have key : ∀ (p : Fin a) (q : Fin 1),
      broadcastTo ⟨2, ![a, 1]⟩ (shapeCast ⟨2, ![1, 1]⟩ x h1) h2 (ix2 p q)
        = broadcastInDim ⟨2, ![a, 1]⟩ ![0, 1] g2 (broadcastInDim ⟨2, ![1, 1]⟩ ![1] g1 x) (ix2 p q) := fun p q => by
    refine ((broadcastTo_1b_ab_apply _ h2 p q).trans (shapeCast_a_1a_apply x h1 0 q)).trans ?_
    refine Eq.symm ((broadcastInDim_apply _ g2 _ (ix2 p q) (ix2 (0 : Fin 1) q) fun ax => ?_).trans ?_)
    · match ax with
      | ⟨0, _⟩ => show 0 = if (1 : Nat) = 1 then 0 else p.val; rw [if_pos rfl]
      | ⟨1, _⟩ => show q.val = if (1 : Nat) = 1 then 0 else q.val; rw [if_pos rfl]; omega
    refine broadcastInDim_apply _ g1 _ (ix2 (0 : Fin 1) q) (ix1 q) fun ax => ?_
    match ax with
    | ⟨0, _⟩ => show q.val = if (1 : Nat) = 1 then 0 else q.val; rw [if_pos rfl]; omega
  funext i
  exact (congrArg _ (eq_ix2 i)).trans ((key (i 0) (i 1)).trans (congrArg _ (eq_ix2 i).symm))

end OutBias

end Cert.Bridge.MLP

end
-- ==== Proof.Mlp8Blocks.lean ====
/-
  The last region runs its body once, on a grid of one point, and every window of it is its whole array: the block
  index of each window is zero on every axis, so an entry of a block sits in the array at its own coordinates. Hence
  each input block is the input array itself, what the one point writes back is the whole buffer the body leaves,
  and the one block of the result covers the result array.
-/
import proofs.«166496_j23596550324766_1_alg».proof.Proof.Gen.KernelIdeal.Frame
import Idealize.ShloMosaic.Lib.Pipeline.Value
import Idealize.ShloMosaic.PureOps.Ideal

noncomputable section

namespace Cert.Bridge.MLP

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The index maps over the grid: every window's block index is zero on every axis. -/
theorem index_facts8 : ∀ t : Fin cfg8.N,
    win8_0.index t (0 : Fin 2) = 0 ∧ win8_0.index t (1 : Fin 2) = 0
    ∧ win8_1.index t (0 : Fin 3) = 0 ∧ win8_1.index t (1 : Fin 3) = 0 ∧ win8_1.index t (2 : Fin 3) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 1) = 0
    ∧ win8_5.index t (0 : Fin 1) = 0 :=
  (by decide +kernel : ∀ t : Fin grid8.N, _)

/-- Window 0's block at the one grid point is its whole array. -/
theorem iblk8_0 (c : Dev nD) (t : Fin cfg8.N) : iblk8 V c 0 t = V c main_v137 := by
  obtain ⟨e00, e01, e10, e11, e12, e20, e21, e30, e31, e40, e50⟩ := index_facts8 t
  funext j
  show V c main_v137 (((cfg8.win 0).blk t).view.emb j) = V c main_v137 j
  refine congrArg _ ?_
  funext a; apply Fin.ext
  match a with
    | ⟨0, _⟩ => show win8_0.index t (0 : Fin 2) * 8 + 1 * (j 0).val = (j 0).val; omega
    | ⟨1, _⟩ => show win8_0.index t (1 : Fin 2) * 1024 + 1 * (j 1).val = (j 1).val; omega

/-- Window 1's block at the one grid point is its whole array. -/
theorem iblk8_1 (c : Dev nD) (t : Fin cfg8.N) : iblk8 V c 1 t = V c main_v138 := by
  obtain ⟨e00, e01, e10, e11, e12, e20, e21, e30, e31, e40, e50⟩ := index_facts8 t
  funext j
  show V c main_v138 (((cfg8.win 1).blk t).view.emb j) = V c main_v138 j
  refine congrArg _ ?_
  funext a; apply Fin.ext
  match a with
    | ⟨0, _⟩ => show win8_1.index t (0 : Fin 3) * 6 + 1 * (j 0).val = (j 0).val; omega
    | ⟨1, _⟩ => show win8_1.index t (1 : Fin 3) * 1024 + 1 * (j 1).val = (j 1).val; omega
    | ⟨2, _⟩ => show win8_1.index t (2 : Fin 3) * 1024 + 1 * (j 2).val = (j 2).val; omega

/-- Window 2's block at the one grid point is its whole array. -/
theorem iblk8_2 (c : Dev nD) (t : Fin cfg8.N) : iblk8 V c 2 t = V c main_arg10 := by
  obtain ⟨e00, e01, e10, e11, e12, e20, e21, e30, e31, e40, e50⟩ := index_facts8 t
  funext j
  show V c main_arg10 (((cfg8.win 2).blk t).view.emb j) = V c main_arg10 j
  refine congrArg _ ?_
  funext a; apply Fin.ext
  match a with
    | ⟨0, _⟩ => show win8_2.index t (0 : Fin 2) * 6 + 1 * (j 0).val = (j 0).val; omega
    | ⟨1, _⟩ => show win8_2.index t (1 : Fin 2) * 1024 + 1 * (j 1).val = (j 1).val; omega

/-- Window 3's block at the one grid point is its whole array. -/
theorem iblk8_3 (c : Dev nD) (t : Fin cfg8.N) : iblk8 V c 3 t = V c main_v139 := by
  obtain ⟨e00, e01, e10, e11, e12, e20, e21, e30, e31, e40, e50⟩ := index_facts8 t
  funext j
  show V c main_v139 (((cfg8.win 3).blk t).view.emb j) = V c main_v139 j
  refine congrArg _ ?_
  funext a; apply Fin.ext
  match a with
    | ⟨0, _⟩ => show win8_3.index t (0 : Fin 2) * 1024 + 1 * (j 0).val = (j 0).val; omega
    | ⟨1, _⟩ => show win8_3.index t (1 : Fin 2) * 1 + 1 * (j 1).val = (j 1).val; omega

/-- Window 4's block at the one grid point is its whole array. -/
theorem iblk8_4 (c : Dev nD) (t : Fin cfg8.N) : iblk8 V c 4 t = V c main_arg12 := by
  obtain ⟨e00, e01, e10, e11, e12, e20, e21, e30, e31, e40, e50⟩ := index_facts8 t
  funext j
  show V c main_arg12 (((cfg8.win 4).blk t).view.emb j) = V c main_arg12 j
  refine congrArg _ ?_
  funext a; apply Fin.ext
  match a with
    | ⟨0, _⟩ => show win8_4.index t (0 : Fin 1) * 1 + 1 * (j 0).val = (j 0).val; omega

/-- What the one point writes back of a buffer of the result window is that buffer read through the window's block:
    both read the buffer at the entry's own coordinate. -/
theorem cut_eq_read8_5 (t : Fin cfg8.N) (X : Vec Ideal S8 .f32) :
    (cfg8.win 5).cut (grid8.coords t) X = ((cfg8.win 5).blk t).view.read (Elt Ideal) X := by
  obtain ⟨e00, e01, e10, e11, e12, e20, e21, e30, e31, e40, e50⟩ := index_facts8 t
  funext j
  show X ((cfg8.win 5).xinj (grid8.coords t) j) = X (((cfg8.win 5).blk t).view.emb j)
  refine congrArg _ ?_
  funext a; apply Fin.ext
  match a with
    | ⟨0, _⟩ => show (j 0).val = win8_5.index t (0 : Fin 1) * 8 + 1 * (j 0).val; omega

/-- Every index of the result array is in the one point's block. -/
theorem cover8_5' (i : S8.Idx) :
    ∃ t : Fin cfg8.N, (cfg8.win 5).flush t = true ∧ i ∈ ((cfg8.win 5).blk t).view.set := by
  have hi : (i 0).val < 8 := (i 0).isLt
  obtain ⟨e00, e01, e10, e11, e12, e20, e21, e30, e31, e40, e50⟩ := index_facts8 t8_0
  refine ⟨t8_0, flush8_5 t8_0, ?_⟩
  show i ∈ ((View.whole main_v140).slice (win8_5.rect t8_0)).set
  rw [View.set_slice_whole, Rect.mem_set_unit]
  intro a
  match a with
    | ⟨0, _⟩ =>
      show win8_5.index t8_0 (0 : Fin 1) * 8 ≤ (i 0).val ∧ (i 0).val < win8_5.index t8_0 (0 : Fin 1) * 8 + 8
      omega

end Cert.Bridge.MLP

end
-- ==== Proof.Mlp8.lean ====
/-
  Region 8, the head of the network: what the region leaves in its output array is the reference's head of the five
  arrays the region reads.

  The body loads its five staging buffers whole, except the stacked weights and biases, which it loads one block
  per layer; what it stores is, by the layer lemma, the reference's head of the buffers' contents as functions.
-/
import proofs.«166496_j23596550324766_1_alg».proof.Proof.Gen.KernelIdeal.Frame
import proofs.«166496_j23596550324766_1_alg».proof.Proof.MlpHead
import proofs.«166496_j23596550324766_1_alg».proof.Proof.MlpBody
import proofs.«166496_j23596550324766_1_alg».proof.Proof.Mlp8Blocks
import Idealize.ShloMosaic.Lib.Pipeline.Value

set_option maxRecDepth 16384

noncomputable section

namespace Cert.Bridge.MLP

open Cert.KernelIdeal Cert.KernelIdeal.Gen
open Idealize.ShloMosaic Idealize.ShloMosaic.TcCoe
open Idealize.SL.Sem
open Idealize.ShloMosaic.Pipeline (Dat Cfg Window)

theorem offsets_zero1 : (![0] : Fin 1 → Nat) = fun _ => 0 := funext fun a => by fin_cases a <;> rfl
theorem offsets_zero2 : (![0, 0] : Fin 2 → Nat) = fun _ => 0 := funext fun a => by fin_cases a <;> rfl

/-- What the body stores is the reference's head of the five buffers' contents. -/
theorem out8_eq_head (x0 : Vec Ideal S8x1024 .f32) (x1 : Vec Ideal S6x1024x1024 .bf16) (x2 : Vec Ideal S6x1024 .f32)
    (x3 : Vec Ideal S1024x1 .bf16) (x4 : Vec Ideal S1 .f32) :
    out8_5 (F := Ideal) x0 x1 x2 x3 x4 = head x0 x1 x2 x3 x4 := by
  unfold out8_5
  rw [View.canon_unit_zero offsets_zero1]
  rw [pay1_eq, pay3_eq, pay2_eq]
  simp only [View.ld_unit_zero (S := S8x1024) offsets_zero2, View.ld_unit_zero (S := S1024x1) offsets_zero2,
    View.ld_unit_zero (S := S1) offsets_zero1]
  rw [shapeCast_self, shapeCast_self, truncf_ideal]
  unfold kl
  rw [klayer_ld_eq_layer _ 0 Cert.ReferenceIdeal.Gen.slices_S6x1024x1024_S1x1024x1024_0_0_0 Cert.ReferenceIdeal.Gen.shapeCasts_S1x1024x1024_S1024x1024 Cert.ReferenceIdeal.Gen.slices_S6x1024_S1x1024_0_0 Cert.ReferenceIdeal.Gen.shapeCasts_S1x1024_S1024 Cert.ReferenceIdeal.Gen.bcast_S1024_S1x1024_1 Cert.ReferenceIdeal.Gen.bcast_S1x1024_S8x1024_0_1 Cert.ReferenceIdeal.Gen.bcast_S_S8x1024]
  rw [klayer_ld_eq_layer _ 1 Cert.ReferenceIdeal.Gen.slices_S6x1024x1024_S1x1024x1024_1_0_0 Cert.ReferenceIdeal.Gen.shapeCasts_S1x1024x1024_S1024x1024 Cert.ReferenceIdeal.Gen.slices_S6x1024_S1x1024_1_0 Cert.ReferenceIdeal.Gen.shapeCasts_S1x1024_S1024 Cert.ReferenceIdeal.Gen.bcast_S1024_S1x1024_1 Cert.ReferenceIdeal.Gen.bcast_S1x1024_S8x1024_0_1 Cert.ReferenceIdeal.Gen.bcast_S_S8x1024]
  rw [klayer_ld_eq_layer _ 2 Cert.ReferenceIdeal.Gen.slices_S6x1024x1024_S1x1024x1024_2_0_0 Cert.ReferenceIdeal.Gen.shapeCasts_S1x1024x1024_S1024x1024 Cert.ReferenceIdeal.Gen.slices_S6x1024_S1x1024_2_0 Cert.ReferenceIdeal.Gen.shapeCasts_S1x1024_S1024 Cert.ReferenceIdeal.Gen.bcast_S1024_S1x1024_1 Cert.ReferenceIdeal.Gen.bcast_S1x1024_S8x1024_0_1 Cert.ReferenceIdeal.Gen.bcast_S_S8x1024]
  rw [klayer_ld_eq_layer _ 3 Cert.ReferenceIdeal.Gen.slices_S6x1024x1024_S1x1024x1024_3_0_0 Cert.ReferenceIdeal.Gen.shapeCasts_S1x1024x1024_S1024x1024 Cert.ReferenceIdeal.Gen.slices_S6x1024_S1x1024_3_0 Cert.ReferenceIdeal.Gen.shapeCasts_S1x1024_S1024 Cert.ReferenceIdeal.Gen.bcast_S1024_S1x1024_1 Cert.ReferenceIdeal.Gen.bcast_S1x1024_S8x1024_0_1 Cert.ReferenceIdeal.Gen.bcast_S_S8x1024]
  rw [klayer_ld_eq_layer _ 4 Cert.ReferenceIdeal.Gen.slices_S6x1024x1024_S1x1024x1024_4_0_0 Cert.ReferenceIdeal.Gen.shapeCasts_S1x1024x1024_S1024x1024 Cert.ReferenceIdeal.Gen.slices_S6x1024_S1x1024_4_0 Cert.ReferenceIdeal.Gen.shapeCasts_S1x1024_S1024 Cert.ReferenceIdeal.Gen.bcast_S1024_S1x1024_1 Cert.ReferenceIdeal.Gen.bcast_S1x1024_S8x1024_0_1 Cert.ReferenceIdeal.Gen.bcast_S_S8x1024]
  rw [klayer_ld_eq_layer _ 5 Cert.ReferenceIdeal.Gen.slices_S6x1024x1024_S1x1024x1024_5_0_0 Cert.ReferenceIdeal.Gen.shapeCasts_S1x1024x1024_S1024x1024 Cert.ReferenceIdeal.Gen.slices_S6x1024_S1x1024_5_0 Cert.ReferenceIdeal.Gen.shapeCasts_S1x1024_S1024 Cert.ReferenceIdeal.Gen.bcast_S1024_S1x1024_1 Cert.ReferenceIdeal.Gen.bcast_S1x1024_S8x1024_0_1 Cert.ReferenceIdeal.Gen.bcast_S_S8x1024]
  rw [matmul_zero_eq_dotGeneral (ψ₁ := .f32) (ψ₂ := .f32) _ none none,
    bcast_one_eq x4 shapeCasts_S1_S1x1 broadcasts_S1x1_S8x1 Cert.ReferenceIdeal.Gen.bcast_S1_S1x1_1 Cert.ReferenceIdeal.Gen.bcast_S1x1_S8x1_0_1]
  rfl

variable (V : (c : Dev nD) → (b : Ref sig .tc) → Buf (Elt Ideal) ((c : Thread nD τ).loc b))

/-- What the region's one point writes back is the head of the five arrays as the region finds them, read through
    the output window's block. -/
theorem flushed8_5 (c : Dev nD) (t : Fin cfg8.N) :
    (dat8 V c).flushed 5 t
      = ((cfg8.win 5).blk t).view.read (Elt Ideal)
          (head (V c main_v137) (V c main_v138) (V c main_arg10) (V c main_v139) (V c main_arg12)) := by
  show (cfg8.win 5).cut (grid8.coords t) ((dat8 V c).after 5 t) = _
  rw [after8_5, iblk8_0 V c t, iblk8_1 V c t, iblk8_2 V c t, iblk8_3 V c t, iblk8_4 V c t, out8_eq_head]
  exact cut_eq_read8_5 t _

/-- The region's output array after the region is the head of the five arrays it reads. -/
theorem mlp8 (c : Dev nD) :
    (dat8 V c).arrAt 5 cfg8.N = head (V c main_v137) (V c main_v138) (V c main_arg10) (V c main_v139) (V c main_arg12) :=
  (dat8 V c).arrAt_eq_of_cover 5 _ (fun t _ => flushed8_5 V c t) cover8_5'

end Cert.Bridge.MLP

end
-- ==== Proof.lean ====
/-
  A four-layer graph convolution with layer normalisation, mean pooling per graph and a six-layer value head: the kernel
  against its plain reference, over the extended reals.

  The kernel's @main runs nine pipelined regions among stretches of host operations. Four regions project the node
  features, ten row blocks of a thousand nodes at a time, each block of the output being the product of the block's rows
  with the whole weight matrix; summed over the shared axis that is, row by row, the reference's one matrix product.
  Four regions normalise each node's feature row — subtract the row's mean, scale by the inverse square root of its
  variance plus ε, scale and shift per feature, clamp at zero — of the aggregated features, or of their sum with an
  earlier layer's: a function of one row at a time, so the ten row blocks together are the reference's chain of
  whole-array host operations. The last region is the six-layer head on the eight pooled rows, one block; its
  weights are narrowed to the product's input format first, which over the extended reals changes nothing. Everything
  between the regions — the edge lists with self loops, the degree norm, the gather along the source nodes, the scaling,
  the scatter-add at the destination nodes, the bias, the pooling — is, operation for operation, the reference's
  own host operations, so it is carried along unopened: equal operands give equal results.

  So the proof walks @main's eighteen segment boundaries once (Proof/Chain1–4.lean), showing at each that the buffers
  later segments read hold the reference's stage values of the same argument arrays; the regions' values are
  Proof/Proj0–6.lean, Proof/Ln1–7.lean and Proof/Mlp8.lean; the two runs are Proof/KernelRun.lean and
  Proof/RefRun.lean. No algebraic law beyond reading both matrix products as the same sums is needed, and none that
  asks the inputs to be finite: the precondition is never opened.
-/
import proofs.«166496_j23596550324766_1_alg».proof.Defs
import proofs.«166496_j23596550324766_1_alg».proof.Proof.Gen.Kernel
import proofs.«166496_j23596550324766_1_alg».proof.Proof.Gen.Kernel.Skeleton
import proofs.«166496_j23596550324766_1_alg».proof.Proof.Gen.Kernel.Launch
import proofs.«166496_j23596550324766_1_alg».proof.Proof.Gen.Kernel.Points
import proofs.«166496_j23596550324766_1_alg».proof.Proof.Gen.Kernel.Frame
import proofs.«166496_j23596550324766_1_alg».proof.Proof.Gen.KernelIdeal
import proofs.«166496_j23596550324766_1_alg».proof.Proof.Gen.KernelIdeal.Skeleton
import proofs.«166496_j23596550324766_1_alg».proof.Proof.Gen.KernelIdeal.Launch
import proofs.«166496_j23596550324766_1_alg».proof.Proof.Gen.KernelIdeal.Points
import proofs.«166496_j23596550324766_1_alg».proof.Proof.Gen.KernelIdeal.Frame
import proofs.«166496_j23596550324766_1_alg».proof.Proof.Gen.ReferenceIdeal
import proofs.«166496_j23596550324766_1_alg».proof.Proof.Gen.Pre_finite_inputs
import proofs.«166496_j23596550324766_1_alg».proof.Proof.KernelRun
import proofs.«166496_j23596550324766_1_alg».proof.Proof.RefRun
import proofs.«166496_j23596550324766_1_alg».proof.Proof.Chain4
import proofs.«166496_j23596550324766_1_alg».proof.Proof.Proj0
import proofs.«166496_j23596550324766_1_alg».proof.Proof.Proj2
import proofs.«166496_j23596550324766_1_alg».proof.Proof.Proj4
import proofs.«166496_j23596550324766_1_alg».proof.Proof.Proj6
import proofs.«166496_j23596550324766_1_alg».proof.Proof.Ln1
import proofs.«166496_j23596550324766_1_alg».proof.Proof.Ln3
import proofs.«166496_j23596550324766_1_alg».proof.Proof.Ln5
import proofs.«166496_j23596550324766_1_alg».proof.Proof.Ln7
import proofs.«166496_j23596550324766_1_alg».proof.Proof.LnRef
import proofs.«166496_j23596550324766_1_alg».proof.Proof.MlpHead
import proofs.«166496_j23596550324766_1_alg».proof.Proof.Mlp8
import Idealize.ShloMosaic.Adequacy
import Idealize.ShloMosaic.Init

noncomputable section

namespace Cert.Proof

open Idealize.ShloMosaic Idealize.SL.Sem

/-- What the eight row-tiled regions compute, and that the reference's four normalisations are the same function. -/
def regions : Cert.Bridge.Regions where
  ln := Cert.Bridge.LN.ln
  proj0 := Cert.Bridge.MM.proj0
  proj2 := Cert.Bridge.MM.proj2
  proj4 := Cert.Bridge.MM.proj4
  proj6 := Cert.Bridge.MM.proj6
  ln1 := Cert.Bridge.LN.ln1
  ln3 := Cert.Bridge.LN.ln3
  ln5 := Cert.Bridge.LN.ln5
  ln7 := Cert.Bridge.LN.ln7
  ref1 := Cert.Bridge.LN.ref1
  ref3 := Cert.Bridge.LN.ref3
  ref5 := Cert.Bridge.LN.ref5
  ref7 := Cert.Bridge.LN.ref7

/-- What the value head's region computes, and that the reference's last stage is the same function. -/
def headFacts : Cert.Bridge.Head where
  head := Cert.Bridge.MLP.head
  mlp8 := Cert.Bridge.MLP.mlp8
  refhead := Cert.Bridge.MLP.refhead

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.Bridge.Ref.run m ρ)

/-- Both programs run; the kernel's three result buffers end at the last segment boundary's contents, which are the
    reference's three result stages of the kernel's argument arrays; the reference's end at those stages of ITS
    argument arrays, which are the kernel's by hypothesis. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W18 m ρ c (Proc.devRef .tc Cert.KernelIdeal.main_v125),
    fun c => Cert.KernelIdeal.Gen.W18 m ρ c (Proc.devRef .tc Cert.KernelIdeal.main_v137),
    fun c => Cert.KernelIdeal.Gen.W18 m ρ c (Proc.devRef .tc Cert.KernelIdeal.main_v140),
    Cert.Bridge.run_results m ρ, ?_⟩
  refine (θ_run Cert.ReferenceIdeal.defs _ _).mono (fun r h c => ?_) (Cert.Bridge.Ref.run m' ρ')
  obtain ⟨h0, h1, h2, hargs⟩ := h c
  obtain ⟨g0, g1, g2, g3, g4, g5, g6, g7, g8, g9, g10, g11, g12⟩ := hagree c
  refine ⟨h0.trans ?_, h1.trans ?_, h2.trans ?_, hargs⟩
  · rw [g0, g1, g3, g4, g5, g6, g7, g8]
    exact (Cert.Bridge.result0 m ρ c regions).symm
  · rw [g0, g1, g2, g3, g4, g5, g6, g7, g8]
    exact (Cert.Bridge.result1 m ρ c regions).symm
  · rw [g0, g1, g2, g3, g4, g5, g6, g7, g8, g9, g10, g11, g12]
    exact (Cert.Bridge.result2 m ρ c regions headFacts).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
